-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)) →
    ∃ (v0 : (c : Dev Cert.KernelIdeal.nD) → Buf (Elt Ideal) ((c.tc : Thread Cert.KernelIdeal.nD Cert.KernelIdeal.τ).loc Cert.KernelIdeal.main_v203)) (v1 : (c : Dev Cert.KernelIdeal.nD) → Buf (Elt Ideal) ((c.tc : Thread Cert.KernelIdeal.nD Cert.KernelIdeal.τ).loc Cert.KernelIdeal.main_v204)) (v2 : (c : Dev Cert.KernelIdeal.nD) → Buf (Elt Ideal) ((c.tc : Thread Cert.KernelIdeal.nD Cert.KernelIdeal.τ).loc Cert.KernelIdeal.main_v101)) (v3 : (c : Dev Cert.KernelIdeal.nD) → Buf (Elt Ideal) ((c.tc : Thread Cert.KernelIdeal.nD Cert.KernelIdeal.τ).loc Cert.KernelIdeal.main_v134)) (v4 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_v204) = v1 c
          ∧ r.2.mem ((c.tc : Thread Cert.KernelIdeal.nD Cert.KernelIdeal.τ).loc Cert.KernelIdeal.main_v101) = v2 c
          ∧ r.2.mem ((c.tc : Thread Cert.KernelIdeal.nD Cert.KernelIdeal.τ).loc Cert.KernelIdeal.main_v134) = v3 c
          ∧ r.2.mem ((c.tc : Thread Cert.KernelIdeal.nD Cert.KernelIdeal.τ).loc Cert.KernelIdeal.main_v1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_v270) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v164) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x5000 : Shape := ⟨2, ![1000, 5000]⟩
abbrev S8000x1024 : Shape := ⟨2, ![8000, 1024]⟩
abbrev S20000x128 : Shape := ⟨2, ![20000, 128]⟩
abbrev S2000x128 : Shape := ⟨2, ![2000, 128]⟩
abbrev S10000x128 : Shape := ⟨2, ![10000, 128]⟩
abbrev S128x5000 : Shape := ⟨2, ![128, 5000]⟩
abbrev S128 : Shape := ⟨1, ![128]⟩
abbrev S128x1024 : Shape := ⟨2, ![128, 1024]⟩
abbrev S128x128 : Shape := ⟨2, ![128, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S500000 : Shape := ⟨1, ![500000]⟩
abbrev S300000 : Shape := ⟨1, ![300000]⟩
abbrev S400000 : Shape := ⟨1, ![400000]⟩
abbrev S250000 : Shape := ⟨1, ![250000]⟩
abbrev S50000 : Shape := ⟨1, ![50000]⟩
abbrev S_ : Shape := ⟨0, ![]⟩

class Facts : Prop where
  bcast_S_S1000x5000 : S_.BroadcastsInDim S1000x5000 (![] : Fin 0 → Fin S1000x5000.rank)
  reducesTo_S1000x5000_S_d0_1 : S1000x5000.ReducesTo [0, 1] S_
  h_S_ : 0 < S_.numel
  bcast_S_S8000x1024 : S_.BroadcastsInDim S8000x1024 (![] : Fin 0 → Fin S8000x1024.rank)
  reducesTo_S8000x1024_S_d0_1 : S8000x1024.ReducesTo [0, 1] S_
  bcast_S_S20000x128 : S_.BroadcastsInDim S20000x128 (![] : Fin 0 → Fin S20000x128.rank)
  reducesTo_S20000x128_S_d0_1 : S20000x128.ReducesTo [0, 1] S_
  bcast_S_S2000x128 : S_.BroadcastsInDim S2000x128 (![] : Fin 0 → Fin S2000x128.rank)
  reducesTo_S2000x128_S_d0_1 : S2000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S128x5000 : S_.BroadcastsInDim S128x5000 (![] : Fin 0 → Fin S128x5000.rank)
  reducesTo_S128x5000_S_d0_1 : S128x5000.ReducesTo [0, 1] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg28 : FVec F S256 .f32) (main_arg29 : FVec F S1x256 .f32) (main_arg30 : FVec F S1 .f32) (main_v133 : IVec S_ 1) (main_v136 : IVec S256x256 1) : IVec S_ 1 :=
  let main_c_53 : IVec S_ 1 := constantI S_ 1 1#1
  let main_v137 : IVec S_ 1 := (fun x v => Host.reduce IntOp.andi x v reducesTo_S256x256_S_d0_1 h_S_) main_v136 main_c_53
  let main_v138 : IVec S_ 1 := andi main_v133 main_v137
  let main_v139 : FVec F S256 .f32 := Host.absf main_arg28
  let main_cst_54 : FVec F S_ .f32 := constant S_ .f32 0x7F800000#32
  let main_v140 : FVec F S256 .f32 := broadcastInDim S256 ![] bcast_S_S256 main_cst_54
  let main_v141 : IVec S256 1 := cmpf .olt main_v139 main_v140
  let main_c_55 : IVec S_ 1 := constantI S_ 1 1#1
  let main_v142 : IVec S_ 1 := (fun x v => Host.reduce IntOp.andi x v reducesTo_S256_S_d0 h_S_) main_v141 main_c_55
  let main_v143 : IVec S_ 1 := andi main_v138 main_v142
  let main_v144 : FVec F S1x256 .f32 := Host.absf main_arg29
  let main_cst_56 : FVec F S_ .f32 := constant S_ .f32 0x7F800000#32
  let main_v145 : FVec F S1x256 .f32 := broadcastInDim S1x256 ![] bcast_S_S1x256 main_cst_56
  let main_v146 : IVec S1x256 1 := cmpf .olt main_v144 main_v145
  let main_c_57 : IVec S_ 1 := constantI S_ 1 1#1
  let main_v147 : IVec S_ 1 := (fun x v => Host.reduce IntOp.andi x v reducesTo_S1x256_S_d0_1 h_S_) main_v146 main_c_57
  let main_v148 : IVec S_ 1 := andi main_v143 main_v147
  let main_v149 : FVec F S1 .f32 := Host.absf main_arg30
  let main_cst_58 : FVec F S_ .f32 := constant S_ .f32 0x7F800000#32
  let main_v150 : FVec F S1 .f32 := broadcastInDim S1 ![] bcast_S_S1 main_cst_58
  let main_v151 : IVec S1 1 := cmpf .olt main_v149 main_v150
  let main_c_59 : IVec S_ 1 := constantI S_ 1 1#1
  let main_v152 : IVec S_ 1 := (fun x v => Host.reduce IntOp.andi x v reducesTo_S1_S_d0 h_S_) main_v151 main_c_59
  let main_v153 : IVec S_ 1 := andi main_v148 main_v152
  main_v153

def fn_part7 {F : FTy → Type} [FloatOps F] (main_arg25 : FVec F S128x128 .f32) (main_arg26 : FVec F S128 .f32) (main_arg27 : FVec F S256x256 .f32) (main_arg28 : FVec F S256 .f32) (main_arg29 : FVec F S1x256 .f32) (main_arg30 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg25
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg26
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S256x256 .f32 := Host.absf main_arg27
  let main_cst_52 : FVec F S_ .f32 := constant S_ .f32 0x7F800000#32
  let main_v135 : FVec F S256x256 .f32 := broadcastInDim S256x256 ![] bcast_S_S256x256 main_cst_52
  let main_v136 : IVec S256x256 1 := cmpf .olt main_v134 main_v135
  fn_part8 (F := F) main_arg28 main_arg29 main_arg30 main_v133 main_v136

def fn_part6 {F : FTy → Type} [FloatOps F] (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S256x256 .f32) (main_arg28 : FVec F S256 .f32) (main_arg29 : FVec F S1x256 .f32) (main_arg30 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg21
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg23
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg24
  fn_part7 (F := F) main_arg25 main_arg26 main_arg27 main_arg28 main_arg29 main_arg30 main_v118 main_v119

def fn_part5 {F : FTy → Type} [FloatOps F] (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S256x256 .f32) (main_arg28 : FVec F S256 .f32) (main_arg29 : FVec F S1x256 .f32) (main_arg30 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_v98 main_v101 main_c_39

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S256x256 .f32) (main_arg28 : FVec F S256 .f32) (main_arg29 : FVec F S1x256 .f32) (main_arg30 : FVec F S1 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S256x256 .f32) (main_arg28 : FVec F S256 .f32) (main_arg29 : FVec F S1x256 .f32) (main_arg30 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg7 : FVec F S128x1024 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S256x256 .f32) (main_arg28 : FVec F S256 .f32) (main_arg29 : FVec F S1x256 .f32) (main_arg30 : FVec F S1 .f32) (main_v33 : IVec S_ 1) : IVec S_ 1 :=
  let main_v34 : FVec F S128x1024 .f32 := Host.absf main_arg7
  let main_cst_12 : FVec F S_ .f32 := constant S_ .f32 0x7F800000#32
  let main_v35 : FVec F S128x1024 .f32 := broadcastInDim S128x1024 ![] bcast_S_S128x1024 main_cst_12
  let main_v36 : IVec S128x1024 1 := cmpf .olt main_v34 main_v35
  let main_c_13 : IVec S_ 1 := constantI S_ 1 1#1
  let main_v37 : IVec S_ 1 := (fun x v => Host.reduce IntOp.andi x v reducesTo_S128x1024_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S10000x128 .f32) (main_arg5 : FVec F S128x5000 .f32) (main_arg6 : FVec F S128 .f32) (main_arg7 : FVec F S128x1024 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S256x256 .f32) (main_arg28 : FVec F S256 .f32) (main_arg29 : FVec F S1x256 .f32) (main_arg30 : FVec F S1 .f32) (main_v13 : IVec S_ 1) (main_v16 : IVec S2000x128 1) : IVec S_ 1 :=
  let main_c_5 : IVec S_ 1 := constantI S_ 1 1#1
  let main_v17 : IVec S_ 1 := (fun x v => Host.reduce IntOp.andi x v reducesTo_S2000x128_S_d0_1 h_S_) main_v16 main_c_5
  let main_v18 : IVec S_ 1 := andi main_v13 main_v17
  let main_v19 : FVec F S10000x128 .f32 := Host.absf main_arg4
  let main_cst_6 : FVec F S_ .f32 := constant S_ .f32 0x7F800000#32
  let main_v20 : FVec F S10000x128 .f32 := broadcastInDim S10000x128 ![] bcast_S_S10000x128 main_cst_6
  let main_v21 : IVec S10000x128 1 := cmpf .olt main_v19 main_v20
  let main_c_7 : IVec S_ 1 := constantI S_ 1 1#1
  let main_v22 : IVec S_ 1 := (fun x v => Host.reduce IntOp.andi x v reducesTo_S10000x128_S_d0_1 h_S_) main_v21 main_c_7
  let main_v23 : IVec S_ 1 := andi main_v18 main_v22
  let main_v24 : FVec F S128x5000 .f32 := Host.absf main_arg5
  let main_cst_8 : FVec F S_ .f32 := constant S_ .f32 0x7F800000#32
  let main_v25 : FVec F S128x5000 .f32 := broadcastInDim S128x5000 ![] bcast_S_S128x5000 main_cst_8
  let main_v26 : IVec S128x5000 1 := cmpf .olt main_v24 main_v25
  let main_c_9 : IVec S_ 1 := constantI S_ 1 1#1
  let main_v27 : IVec S_ 1 := (fun x v => Host.reduce IntOp.andi x v reducesTo_S128x5000_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S1000x5000 .f32) (main_arg1 : FVec F S8000x1024 .f32) (main_arg2 : FVec F S20000x128 .f32) (main_arg3 : FVec F S2000x128 .f32) (main_arg4 : FVec F S10000x128 .f32) (main_arg5 : FVec F S128x5000 .f32) (main_arg6 : FVec F S128 .f32) (main_arg7 : FVec F S128x1024 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x128 .f32) (main_arg26 : FVec F S128 .f32) (main_arg27 : FVec F S256x256 .f32) (main_arg28 : FVec F S256 .f32) (main_arg29 : FVec F S1x256 .f32) (main_arg30 : FVec F S1 .f32) (main_arg31 : IVec S500000 32) (main_arg32 : IVec S500000 32) (main_arg33 : IVec S300000 32) (main_arg34 : IVec S300000 32) (main_arg35 : IVec S400000 32) (main_arg36 : IVec S400000 32) (main_arg37 : IVec S250000 32) (main_arg38 : IVec S250000 32) (main_arg39 : IVec S300000 32) (main_arg40 : IVec S300000 32) (main_arg41 : IVec S50000 32) (main_arg42 : IVec S50000 32) (main_arg43 : IVec S50000 32) (main_arg44 : IVec S50000 32) (main_arg45 : IVec S50000 32) (main_arg46 : IVec S50000 32) : IVec S_ 1 :=
  let main_v0 : FVec F S1000x5000 .f32 := Host.absf main_arg0
  let main_cst : FVec F S_ .f32 := constant S_ .f32 0x7F800000#32
  let main_v1 : FVec F S1000x5000 .f32 := broadcastInDim S1000x5000 ![] bcast_S_S1000x5000 main_cst
  let main_v2 : IVec S1000x5000 1 := cmpf .olt main_v0 main_v1
  let main_c : IVec S_ 1 := constantI S_ 1 1#1
  let main_v3 : IVec S_ 1 := (fun x v => Host.reduce IntOp.andi x v reducesTo_S1000x5000_S_d0_1 h_S_) main_v2 main_c
  let main_v4 : FVec F S8000x1024 .f32 := Host.absf main_arg1
  let main_cst_0 : FVec F S_ .f32 := constant S_ .f32 0x7F800000#32
  let main_v5 : FVec F S8000x1024 .f32 := broadcastInDim S8000x1024 ![] bcast_S_S8000x1024 main_cst_0
  let main_v6 : IVec S8000x1024 1 := cmpf .olt main_v4 main_v5
  let main_c_1 : IVec S_ 1 := constantI S_ 1 1#1
  let main_v7 : IVec S_ 1 := (fun x v => Host.reduce IntOp.andi x v reducesTo_S8000x1024_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S2000x128 .f32 := Host.absf main_arg3
  let main_cst_4 : FVec F S_ .f32 := constant S_ .f32 0x7F800000#32
  let main_v15 : FVec F S2000x128 .f32 := broadcastInDim S2000x128 ![] bcast_S_S2000x128 main_cst_4
  let main_v16 : IVec S2000x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S1000x5000 : Shape := ⟨2, ![1000, 5000]⟩
abbrev S8000x1024 : Shape := ⟨2, ![8000, 1024]⟩
abbrev S20000x128 : Shape := ⟨2, ![20000, 128]⟩
abbrev S2000x128 : Shape := ⟨2, ![2000, 128]⟩
abbrev S10000x128 : Shape := ⟨2, ![10000, 128]⟩
abbrev S128x5000 : Shape := ⟨2, ![128, 5000]⟩
abbrev S128 : Shape := ⟨1, ![128]⟩
abbrev S128x1024 : Shape := ⟨2, ![128, 1024]⟩
abbrev S128x128 : Shape := ⟨2, ![128, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S500000 : Shape := ⟨1, ![500000]⟩
abbrev S300000 : Shape := ⟨1, ![300000]⟩
abbrev S400000 : Shape := ⟨1, ![400000]⟩
abbrev S250000 : Shape := ⟨1, ![250000]⟩
abbrev S50000 : Shape := ⟨1, ![50000]⟩
abbrev S1x128 : Shape := ⟨2, ![1, 128]⟩
abbrev S8000x128 : Shape := ⟨2, ![8000, 128]⟩
abbrev S1000x1024 : Shape := ⟨2, ![1000, 1024]⟩
abbrev S1000x128 : Shape := ⟨2, ![1000, 128]⟩
abbrev S1024x128 : Shape := ⟨2, ![1024, 128]⟩
abbrev S_ : Shape := ⟨0, ![]⟩
abbrev S500000x1 : Shape := ⟨2, ![500000, 1]⟩
abbrev S500000x128 : Shape := ⟨2, ![500000, 128]⟩
abbrev S20000x1 : Shape := ⟨2, ![20000, 1]⟩
abbrev S300000x1 : Shape := ⟨2, ![300000, 1]⟩
abbrev S300000x128 : Shape := ⟨2, ![300000, 128]⟩
abbrev S400000x1 : Shape := ⟨2, ![400000, 1]⟩
abbrev S400000x128 : Shape := ⟨2, ![400000, 128]⟩
abbrev S250000x1 : Shape := ⟨2, ![250000, 1]⟩
abbrev S250000x128 : Shape := ⟨2, ![250000, 128]⟩
abbrev S1x20000x128 : Shape := ⟨3, ![1, 20000, 128]⟩
abbrev S4x20000x128 : Shape := ⟨3, ![4, 20000, 128]⟩
abbrev S1x128x128 : Shape := ⟨3, ![1, 128, 128]⟩
abbrev S4x128x128 : Shape := ⟨3, ![4, 128, 128]⟩
abbrev S4x128 : Shape := ⟨2, ![4, 128]⟩
abbrev S4x1x128 : Shape := ⟨3, ![4, 1, 128]⟩
abbrev S1x2000x128 : Shape := ⟨3, ![1, 2000, 128]⟩
abbrev S1x1x128 : Shape := ⟨3, ![1, 1, 128]⟩
abbrev S20000 : Shape := ⟨1, ![20000]⟩
abbrev S1000 : Shape := ⟨1, ![1000]⟩
abbrev S1000x1 : Shape := ⟨2, ![1000, 1]⟩
abbrev S50000x1 : Shape := ⟨2, ![50000, 1]⟩
abbrev S50000x128 : Shape := ⟨2, ![50000, 128]⟩
abbrev S50000x256 : Shape := ⟨2, ![50000, 256]⟩
abbrev S200000x256 : Shape := ⟨2, ![200000, 256]⟩
abbrev S1x1 : Shape := ⟨2, ![1, 1]⟩
abbrev S200000x1 : Shape := ⟨2, ![200000, 1]⟩
abbrev S2000x256 : Shape := ⟨2, ![2000, 256]⟩
abbrev S2000x1 : Shape := ⟨2, ![2000, 1]⟩
abbrev S256x1 : Shape := ⟨2, ![256, 1]⟩

abbrev nBuf : Space → Nat
  | .hbm => 302
  | .vmem => 33
  | .smem => 0
  | _ => 0

abbrev hbmTy0_0 (i : Nat) : BufTy := match i % 128 with
  | 0 => ⟨S1000x5000, .f32⟩
  | 1 => ⟨S8000x1024, .f32⟩
  | 2 => ⟨S20000x128, .f32⟩
  | 3 => ⟨S2000x128, .f32⟩
  | 4 => ⟨S10000x128, .f32⟩
  | 5 => ⟨S128x5000, .f32⟩
  | 6 => ⟨S128, .f32⟩
  | 7 => ⟨S128x1024, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S256x256, .f32⟩
  | 28 => ⟨S256, .f32⟩
  | 29 => ⟨S1x256, .f32⟩
  | 30 => ⟨S1, .f32⟩
  | 31 => ⟨S500000, .i32⟩
  | 32 => ⟨S500000, .i32⟩
  | 33 => ⟨S300000, .i32⟩
  | 34 => ⟨S300000, .i32⟩
  | 35 => ⟨S400000, .i32⟩
  | 36 => ⟨S400000, .i32⟩
  | 37 => ⟨S250000, .i32⟩
  | 38 => ⟨S250000, .i32⟩
  | 39 => ⟨S300000, .i32⟩
  | 40 => ⟨S300000, .i32⟩
  | 41 => ⟨S50000, .i32⟩
  | 42 => ⟨S50000, .i32⟩
  | 43 => ⟨S50000, .i32⟩
  | 44 => ⟨S50000, .i32⟩
  | 45 => ⟨S50000, .i32⟩
  | 46 => ⟨S50000, .i32⟩
  | 47 => ⟨S1x128, .f32⟩
  | 48 => ⟨S8000x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S20000x128, .f32⟩
  | 60 => ⟨S500000x1, .i32⟩
  | 61 => ⟨S20000x128, .f32⟩
  | 62 => ⟨S_, .f32⟩
  | 63 => ⟨S500000x1, .f32⟩
  | 64 => ⟨S_, .f32⟩
  | 65 => ⟨S20000x1, .f32⟩
  | 66 => ⟨S500000x1, .i32⟩
  | 67 => ⟨S20000x1, .f32⟩
  | 68 => ⟨S_, .f32⟩
  | 69 => ⟨S20000x1, .f32⟩
  | 70 => ⟨S20000x1, .f32⟩
  | 71 => ⟨S20000x128, .f32⟩
  | 72 => ⟨S20000x128, .f32⟩
  | 73 => ⟨S_, .i32⟩
  | 74 => ⟨S300000, .i32⟩
  | 75 => ⟨S300000, .i1⟩
  | 76 => ⟨S_, .i32⟩
  | 77 => ⟨S300000, .i32⟩
  | 78 => ⟨S300000, .i32⟩
  | 79 => ⟨S300000, .i32⟩
  | 80 => ⟨S300000x1, .i32⟩
  | 81 => ⟨S300000x128, .f32⟩
  | 82 => ⟨S_, .f32⟩
  | 83 => ⟨S20000x128, .f32⟩
  | 84 => ⟨S300000x1, .i32⟩
  | 85 => ⟨S20000x128, .f32⟩
  | 86 => ⟨S_, .f32⟩
  | 87 => ⟨S300000x1, .f32⟩
  | 88 => ⟨S_, .f32⟩
  | 89 => ⟨S20000x1, .f32⟩
  | 90 => ⟨S300000x1, .i32⟩
  | 91 => ⟨S20000x1, .f32⟩
  | 92 => ⟨S_, .f32⟩
  | 93 => ⟨S20000x1, .f32⟩
  | 94 => ⟨S20000x1, .f32⟩
  | 95 => ⟨S20000x128, .f32⟩
  | 96 => ⟨S20000x128, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x128, .f32⟩
  | 106 => ⟨S_, .f32⟩
  | 107 => ⟨S20000x128, .f32⟩
  | 108 => ⟨S400000x1, .i32⟩
  | 109 => ⟨S20000x128, .f32⟩
  | 110 => ⟨S_, .f32⟩
  | 111 => ⟨S400000x1, .f32⟩
  | 112 => ⟨S_, .f32⟩
  | 113 => ⟨S20000x1, .f32⟩
  | 114 => ⟨S400000x1, .i32⟩
  | 115 => ⟨S20000x1, .f32⟩
  | 116 => ⟨S_, .f32⟩
  | 117 => ⟨S20000x1, .f32⟩
  | 118 => ⟨S20000x1, .f32⟩
  | 119 => ⟨S20000x128, .f32⟩
  | 120 => ⟨S20000x128, .f32⟩
  | 121 => ⟨S_, .i32⟩
  | 122 => ⟨S250000, .i32⟩
  | 123 => ⟨S250000, .i1⟩
  | 124 => ⟨S_, .i32⟩
  | 125 => ⟨S250000, .i32⟩
  | 126 => ⟨S250000, .i32⟩
  | 127 => ⟨S250000, .i32⟩
  | _ => ⟨S1000x5000, .f32⟩

abbrev hbmTy0_1 (i : Nat) : BufTy := match i % 128 with
  | 0 => ⟨S250000x1, .i32⟩
  | 1 => ⟨S250000x128, .f32⟩
  | 2 => ⟨S_, .f32⟩
  | 3 => ⟨S20000x128, .f32⟩
  | 4 => ⟨S250000x1, .i32⟩
  | 5 => ⟨S20000x128, .f32⟩
  | 6 => ⟨S_, .f32⟩
  | 7 => ⟨S250000x1, .f32⟩
  | 8 => ⟨S_, .f32⟩
  | 9 => ⟨S20000x1, .f32⟩
  | 10 => ⟨S250000x1, .i32⟩
  | 11 => ⟨S20000x1, .f32⟩
  | 12 => ⟨S_, .f32⟩
  | 13 => ⟨S20000x1, .f32⟩
  | 14 => ⟨S20000x1, .f32⟩
  | 15 => ⟨S20000x128, .f32⟩
  | 16 => ⟨S20000x128, .f32⟩
  | 17 => ⟨S1x20000x128, .f32⟩
  | 18 => ⟨S1x20000x128, .f32⟩
  | 19 => ⟨S1x20000x128, .f32⟩
  | 20 => ⟨S1x20000x128, .f32⟩
  | 21 => ⟨S4x20000x128, .f32⟩
  | 22 => ⟨S1x128x128, .f32⟩
  | 23 => ⟨S1x128x128, .f32⟩
  | 24 => ⟨S1x128x128, .f32⟩
  | 25 => ⟨S1x128x128, .f32⟩
  | 26 => ⟨S4x128x128, .f32⟩
  | 27 => ⟨S1x128, .f32⟩
  | 28 => ⟨S1x128, .f32⟩
  | 29 => ⟨S1x128, .f32⟩
  | 30 => ⟨S1x128, .f32⟩
  | 31 => ⟨S4x128, .f32⟩
  | 32 => ⟨S4x1x128, .f32⟩
  | 33 => ⟨S1x128x128, .f32⟩
  | 34 => ⟨S1x128x128, .f32⟩
  | 35 => ⟨S1x128x128, .f32⟩
  | 36 => ⟨S1x128x128, .f32⟩
  | 37 => ⟨S4x128x128, .f32⟩
  | 38 => ⟨S1x128, .f32⟩
  | 39 => ⟨S1x128, .f32⟩
  | 40 => ⟨S1x128, .f32⟩
  | 41 => ⟨S1x128, .f32⟩
  | 42 => ⟨S4x128, .f32⟩
  | 43 => ⟨S4x1x128, .f32⟩
  | 44 => ⟨S20000x128, .f32⟩
  | 45 => ⟨S_, .f32⟩
  | 46 => ⟨S300000, .f32⟩
  | 47 => ⟨S_, .f32⟩
  | 48 => ⟨S20000, .f32⟩
  | 49 => ⟨S300000x1, .i32⟩
  | 50 => ⟨S20000, .f32⟩
  | 51 => ⟨S_, .f32⟩
  | 52 => ⟨S20000, .f32⟩
  | 53 => ⟨S20000, .f32⟩
  | 54 => ⟨S_, .f32⟩
  | 55 => ⟨S20000, .f32⟩
  | 56 => ⟨S20000, .f32⟩
  | 57 => ⟨S_, .f32⟩
  | 58 => ⟨S1000, .f32⟩
  | 59 => ⟨S300000x1, .i32⟩
  | 60 => ⟨S1000, .f32⟩
  | 61 => ⟨S_, .f32⟩
  | 62 => ⟨S1000, .f32⟩
  | 63 => ⟨S1000, .f32⟩
  | 64 => ⟨S_, .f32⟩
  | 65 => ⟨S1000, .f32⟩
  | 66 => ⟨S1000, .f32⟩
  | 67 => ⟨S20000x1, .f32⟩
  | 68 => ⟨S20000x128, .f32⟩
  | 69 => ⟨S20000x128, .f32⟩
  | 70 => ⟨S_, .i32⟩
  | 71 => ⟨S300000, .i32⟩
  | 72 => ⟨S300000, .i1⟩
  | 73 => ⟨S_, .i32⟩
  | 74 => ⟨S300000, .i32⟩
  | 75 => ⟨S300000, .i32⟩
  | 76 => ⟨S300000, .i32⟩
  | 77 => ⟨S300000x1, .i32⟩
  | 78 => ⟨S300000x128, .f32⟩
  | 79 => ⟨S_, .f32⟩
  | 80 => ⟨S1000x128, .f32⟩
  | 81 => ⟨S300000x1, .i32⟩
  | 82 => ⟨S1000x128, .f32⟩
  | 83 => ⟨S1000x1, .f32⟩
  | 84 => ⟨S1000x128, .f32⟩
  | 85 => ⟨S1000x128, .f32⟩
  | 86 => ⟨S1x128, .f32⟩
  | 87 => ⟨S1000x128, .f32⟩
  | 88 => ⟨S_, .i32⟩
  | 89 => ⟨S50000, .i32⟩
  | 90 => ⟨S50000, .i1⟩
  | 91 => ⟨S_, .i32⟩
  | 92 => ⟨S50000, .i32⟩
  | 93 => ⟨S50000, .i32⟩
  | 94 => ⟨S50000, .i32⟩
  | 95 => ⟨S50000x1, .i32⟩
  | 96 => ⟨S50000x128, .f32⟩
  | 97 => ⟨S_, .i32⟩
  | 98 => ⟨S50000, .i32⟩
  | 99 => ⟨S50000, .i1⟩
  | 100 => ⟨S_, .i32⟩
  | 101 => ⟨S50000, .i32⟩
  | 102 => ⟨S50000, .i32⟩
  | 103 => ⟨S50000, .i32⟩
  | 104 => ⟨S50000x1, .i32⟩
  | 105 => ⟨S50000x128, .f32⟩
  | 106 => ⟨S50000x256, .f32⟩
  | 107 => ⟨S_, .i32⟩
  | 108 => ⟨S50000, .i32⟩
  | 109 => ⟨S50000, .i1⟩
  | 110 => ⟨S_, .i32⟩
  | 111 => ⟨S50000, .i32⟩
  | 112 => ⟨S50000, .i32⟩
  | 113 => ⟨S50000, .i32⟩
  | 114 => ⟨S50000x1, .i32⟩
  | 115 => ⟨S50000x128, .f32⟩
  | 116 => ⟨S_, .i32⟩
  | 117 => ⟨S50000, .i32⟩
  | 118 => ⟨S50000, .i1⟩
  | 119 => ⟨S_, .i32⟩
  | 120 => ⟨S50000, .i32⟩
  | 121 => ⟨S50000, .i32⟩
  | 122 => ⟨S50000, .i32⟩
  | 123 => ⟨S50000x1, .i32⟩
  | 124 => ⟨S50000x128, .f32⟩
  | 125 => ⟨S50000x256, .f32⟩
  | 126 => ⟨S_, .i32⟩
  | 127 => ⟨S50000, .i32⟩
  | _ => ⟨S1000x5000, .f32⟩

abbrev hbmTy0_2 (i : Nat) : BufTy := match i % 128 with
  | 0 => ⟨S50000, .i1⟩
  | 1 => ⟨S_, .i32⟩
  | 2 => ⟨S50000, .i32⟩
  | 3 => ⟨S50000, .i32⟩
  | 4 => ⟨S50000, .i32⟩
  | 5 => ⟨S50000x1, .i32⟩
  | 6 => ⟨S50000x128, .f32⟩
  | 7 => ⟨S_, .i32⟩
  | 8 => ⟨S50000, .i32⟩
  | 9 => ⟨S50000, .i1⟩
  | 10 => ⟨S_, .i32⟩
  | 11 => ⟨S50000, .i32⟩
  | 12 => ⟨S50000, .i32⟩
  | 13 => ⟨S50000, .i32⟩
  | 14 => ⟨S50000x1, .i32⟩
  | 15 => ⟨S50000x128, .f32⟩
  | 16 => ⟨S50000x256, .f32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x128, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S50000x256, .f32⟩
  | 36 => ⟨S200000x256, .f32⟩
  | 37 => ⟨S1x256, .f32⟩
  | 38 => ⟨S1x1, .f32⟩
  | 39 => ⟨S200000x1, .f32⟩
  | 40 => ⟨S50000x1, .f32⟩
  | 41 => ⟨S50000x1, .f32⟩
  | 42 => ⟨S50000x1, .f32⟩
  | 43 => ⟨S50000x1, .f32⟩
  | 44 => ⟨S50000x1, .f32⟩
  | 45 => ⟨S50000x1, .f32⟩
  | _ => ⟨S1000x5000, .f32⟩

abbrev hbmTy (i : Nat) : BufTy := match i / 128 with
  | 0 => hbmTy0_0 i
  | 1 => hbmTy0_1 i
  | 2 => hbmTy0_2 i
  | _ => ⟨S1000x5000, .f32⟩

abbrev bufTy : (tb : Table) → Fin (tcTables nBuf tb) → BufTy
  | .hbm, ⟨i, _⟩ => hbmTy i
  | .local _ .vmem, ⟨0, _⟩ => ⟨S1000x1024, .f32⟩
  | .local _ .vmem, ⟨1, _⟩ => ⟨S1000x1024, .f32⟩
  | .local _ .vmem, ⟨2, _⟩ => ⟨S128x1024, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S2000x128, .f32⟩
  | .local _ .vmem, ⟨7, _⟩ => ⟨S2000x128, .f32⟩
  | .local _ .vmem, ⟨8, _⟩ => ⟨S1x2000x128, .f32⟩
  | .local _ .vmem, ⟨9, _⟩ => ⟨S1x2000x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S1x128x128, .f32⟩
  | .local _ .vmem, ⟨15, _⟩ => ⟨S1x128x128, .f32⟩
  | .local _ .vmem, ⟨16, _⟩ => ⟨S1x1x128, .f32⟩
  | .local _ .vmem, ⟨17, _⟩ => ⟨S1x1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1000x128, .f32⟩
  | .local _ .vmem, ⟨22, _⟩ => ⟨S128x128, .f32⟩
  | .local _ .vmem, ⟨23, _⟩ => ⟨S1x128, .f32⟩
  | .local _ .vmem, ⟨24, _⟩ => ⟨S1000x128, .f32⟩
  | .local _ .vmem, ⟨25, _⟩ => ⟨S2000x256, .f32⟩
  | .local _ .vmem, ⟨26, _⟩ => ⟨S2000x256, .f32⟩
  | .local _ .vmem, ⟨27, _⟩ => ⟨S256x256, .f32⟩
  | .local _ .vmem, ⟨28, _⟩ => ⟨S1x256, .f32⟩
  | .local _ .vmem, ⟨29, _⟩ => ⟨S1x256, .f32⟩
  | .local _ .vmem, ⟨30, _⟩ => ⟨S1x1, .f32⟩
  | .local _ .vmem, ⟨31, _⟩ => ⟨S2000x1, .f32⟩
  | .local _ .vmem, ⟨32, _⟩ => ⟨S2000x1, .f32⟩
  | _, _ => ⟨S1000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_v0 : Ref sig .tc := ⟨.hbm, 47, rfl⟩
abbrev main_v1 : Ref sig .tc := ⟨.hbm, 48, rfl⟩
abbrev main_c : Ref sig .tc := ⟨.hbm, 49, rfl⟩
abbrev main_v2 : Ref sig .tc := ⟨.hbm, 50, rfl⟩
abbrev main_v3 : Ref sig .tc := ⟨.hbm, 51, rfl⟩
abbrev main_c_0 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst_1 : Ref sig .tc := ⟨.hbm, 62, rfl⟩
abbrev main_v12 : Ref sig .tc := ⟨.hbm, 63, rfl⟩
abbrev main_cst_2 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_cst_3 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_c_4 : Ref sig .tc := ⟨.hbm, 73, rfl⟩
abbrev main_v20 : Ref sig .tc := ⟨.hbm, 74, rfl⟩
abbrev main_v21 : Ref sig .tc := ⟨.hbm, 75, rfl⟩
abbrev main_c_5 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_6 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_7 : Ref sig .tc := ⟨.hbm, 86, rfl⟩
abbrev main_v30 : Ref sig .tc := ⟨.hbm, 87, rfl⟩
abbrev main_cst_8 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_cst_9 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_c_10 : Ref sig .tc := ⟨.hbm, 97, rfl⟩
abbrev main_v38 : Ref sig .tc := ⟨.hbm, 98, rfl⟩
abbrev main_v39 : Ref sig .tc := ⟨.hbm, 99, rfl⟩
abbrev main_c_11 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_12 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_13 : Ref sig .tc := ⟨.hbm, 110, rfl⟩
abbrev main_v48 : Ref sig .tc := ⟨.hbm, 111, rfl⟩
abbrev main_cst_14 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_cst_15 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_c_16 : Ref sig .tc := ⟨.hbm, 121, rfl⟩
abbrev main_v56 : Ref sig .tc := ⟨.hbm, 122, rfl⟩
abbrev main_v57 : Ref sig .tc := ⟨.hbm, 123, rfl⟩
abbrev main_c_17 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_cst_18 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_cst_19 : Ref sig .tc := ⟨.hbm, 134, rfl⟩
abbrev main_v66 : Ref sig .tc := ⟨.hbm, 135, rfl⟩
abbrev main_cst_20 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_21 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_cst_22 : Ref sig .tc := ⟨.hbm, 173, rfl⟩
abbrev main_v102 : Ref sig .tc := ⟨.hbm, 174, rfl⟩
abbrev main_cst_23 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_cst_24 : Ref sig .tc := ⟨.hbm, 179, rfl⟩
abbrev main_v106 : Ref sig .tc := ⟨.hbm, 180, rfl⟩
abbrev main_v107 : Ref sig .tc := ⟨.hbm, 181, rfl⟩
abbrev main_cst_25 : Ref sig .tc := ⟨.hbm, 182, rfl⟩
abbrev main_v108 : Ref sig .tc := ⟨.hbm, 183, rfl⟩
abbrev main_v109 : Ref sig .tc := ⟨.hbm, 184, rfl⟩
abbrev main_cst_26 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_27 : Ref sig .tc := ⟨.hbm, 189, rfl⟩
abbrev main_v113 : Ref sig .tc := ⟨.hbm, 190, rfl⟩
abbrev main_v114 : Ref sig .tc := ⟨.hbm, 191, rfl⟩
abbrev main_cst_28 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_c_29 : Ref sig .tc := ⟨.hbm, 198, rfl⟩
abbrev main_v120 : Ref sig .tc := ⟨.hbm, 199, rfl⟩
abbrev main_v121 : Ref sig .tc := ⟨.hbm, 200, rfl⟩
abbrev main_c_30 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_cst_31 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_c_32 : Ref sig .tc := ⟨.hbm, 216, rfl⟩
abbrev main_v135 : Ref sig .tc := ⟨.hbm, 217, rfl⟩
abbrev main_v136 : Ref sig .tc := ⟨.hbm, 218, rfl⟩
abbrev main_c_33 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_c_34 : Ref sig .tc := ⟨.hbm, 225, rfl⟩
abbrev main_v142 : Ref sig .tc := ⟨.hbm, 226, rfl⟩
abbrev main_v143 : Ref sig .tc := ⟨.hbm, 227, rfl⟩
abbrev main_c_35 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_c_36 : Ref sig .tc := ⟨.hbm, 235, rfl⟩
abbrev main_v150 : Ref sig .tc := ⟨.hbm, 236, rfl⟩
abbrev main_v151 : Ref sig .tc := ⟨.hbm, 237, rfl⟩
abbrev main_c_37 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_c_38 : Ref sig .tc := ⟨.hbm, 244, rfl⟩
abbrev main_v157 : Ref sig .tc := ⟨.hbm, 245, rfl⟩
abbrev main_v158 : Ref sig .tc := ⟨.hbm, 246, rfl⟩
abbrev main_c_39 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_c_40 : Ref sig .tc := ⟨.hbm, 254, rfl⟩
abbrev main_v165 : Ref sig .tc := ⟨.hbm, 255, rfl⟩
abbrev main_v166 : Ref sig .tc := ⟨.hbm, 256, rfl⟩
abbrev main_c_41 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_c_42 : Ref sig .tc := ⟨.hbm, 263, rfl⟩
abbrev main_v172 : Ref sig .tc := ⟨.hbm, 264, rfl⟩
abbrev main_v173 : Ref sig .tc := ⟨.hbm, 265, rfl⟩
abbrev main_c_43 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_c_44 : Ref sig .tc := ⟨.hbm, 273, rfl⟩
abbrev main_v180 : Ref sig .tc := ⟨.hbm, 274, rfl⟩
abbrev main_v181 : Ref sig .tc := ⟨.hbm, 275, rfl⟩
abbrev main_c_45 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_c_46 : Ref sig .tc := ⟨.hbm, 282, rfl⟩
abbrev main_v187 : Ref sig .tc := ⟨.hbm, 283, rfl⟩
abbrev main_v188 : Ref sig .tc := ⟨.hbm, 284, rfl⟩
abbrev main_c_47 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![10, 4], ![false, false]⟩

def k1_cond2 (i : grid1.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_22 : BitVec 32 := 0#32
  let v34 : BitVec 1 := Scalar.cmpi .ne v33 c0_i32_22
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  inb_S1000x1024_S1000x1024_0_0 : ∀ a, (![0, 0] : Fin 2 → Nat) a + S1000x1024.size a ≤ S1000x1024.size a
  h_S1000x1024 : 0 < S1000x1024.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  transposes_S128x1024_p1_0_S1024x128 : S128x1024.Transposes [1, 0] S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S_S500000x1 : S_.BroadcastsInDim S500000x1 (![] : Fin 0 → Fin S500000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S_S250000 : S_.BroadcastsInDim S250000 (![] : Fin 0 → Fin S250000.rank)
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S20000x128_S1x20000x128_1_2 : S20000x128.BroadcastsInDim S1x20000x128 (![1, 2] : Fin 2 → Fin S1x20000x128.rank)
  concatenates_S1x20000x128_S1x20000x128_S1x20000x128_S1x20000x128_S4x20000x128_d0 : Shape.Concatenates [S1x20000x128, S1x20000x128, S1x20000x128, S1x20000x128] S4x20000x128 0
  bcast_S128x128_S1x128x128_1_2 : S128x128.BroadcastsInDim S1x128x128 (![1, 2] : Fin 2 → Fin S1x128x128.rank)
  concatenates_S1x128x128_S1x128x128_S1x128x128_S1x128x128_S4x128x128_d0 : Shape.Concatenates [S1x128x128, S1x128x128, S1x128x128, S1x128x128] S4x128x128 0
  bcast_S128_S1x128_1 : S128.BroadcastsInDim S1x128 (![1] : Fin 1 → Fin S1x128.rank)
  concatenates_S1x128_S1x128_S1x128_S1x128_S4x128_d0 : Shape.Concatenates [S1x128, S1x128, S1x128, S1x128] S4x128 0
  shapeCasts_S4x128_S4x1x128 : S4x128.ShapeCasts S4x1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  transposes_S128x128_p1_0_S128x128 : S128x128.Transposes [1, 0] S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S2000x128 : S1x128.Broadcasts S2000x128
  bcast_S_S20000 : S_.BroadcastsInDim S20000 (![] : Fin 0 → Fin S20000.rank)
  bcast_S_S1000 : S_.BroadcastsInDim S1000 (![] : Fin 0 → Fin S1000.rank)
  bcast_S20000_S20000x1_0 : S20000.BroadcastsInDim S20000x1 (![0] : Fin 1 → Fin S20000x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x128_S50000x256_d1 : Shape.Concatenates [S50000x128, S50000x128] S50000x256 1
  concatenates_S50000x256_S50000x256_S50000x256_S50000x256_S200000x256_d0 : Shape.Concatenates [S50000x256, S50000x256, S50000x256, S50000x256] S200000x256 0
  shapeCasts_S256_S1x256 : S256.ShapeCasts S1x256
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  transposes_S1x256_p1_0_S256x1 : S1x256.Transposes [1, 0] S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  slices_S200000x1_S50000x1_0_0 : S200000x1.Slices ![0, 0] S50000x1
  slices_S200000x1_S50000x1_50000_0 : S200000x1.Slices ![50000, 0] S50000x1
  slices_S200000x1_S50000x1_100000_0 : S200000x1.Slices ![100000, 0] S50000x1
  slices_S200000x1_S50000x1_150000_0 : S200000x1.Slices ![150000, 0] S50000x1
  dot_S1000x1024_S1024x128_S1000x128_1_0_0_1_n_n_wf : DotDims.WF S1000x1024 S1024x128 S1000x128 [1] [0] [0] [1] [] []
  gather_S20000x128_S500000x1_S500000x128_1_0_n_n_0_1_1128_wf : GatherDims.WF S20000x128 S500000x1 S500000x128 [1] [0] [] [0] [] 1 ![1, 128]
  scatter_S20000x128_S500000x1_S500000x128_1_0_0_1_wf : ScatterDims.WF S20000x128 S500000x1 S500000x128 [1] [0] [0] 1
  scatter_S20000x1_S500000x1_S500000x1_1_0_0_1_wf : ScatterDims.WF S20000x1 S500000x1 S500000x1 [1] [0] [0] 1
  gather_S2000x128_S300000x1_S300000x128_1_0_n_n_0_1_1128_wf : GatherDims.WF S2000x128 S300000x1 S300000x128 [1] [0] [] [0] [] 1 ![1, 128]
  scatter_S20000x128_S300000x1_S300000x128_1_0_0_1_wf : ScatterDims.WF S20000x128 S300000x1 S300000x128 [1] [0] [0] 1
  scatter_S20000x1_S300000x1_S300000x1_1_0_0_1_wf : ScatterDims.WF S20000x1 S300000x1 S300000x1 [1] [0] [0] 1
  gather_S10000x128_S400000x1_S400000x128_1_0_n_n_0_1_1128_wf : GatherDims.WF S10000x128 S400000x1 S400000x128 [1] [0] [] [0] [] 1 ![1, 128]
  scatter_S20000x128_S400000x1_S400000x128_1_0_0_1_wf : ScatterDims.WF S20000x128 S400000x1 S400000x128 [1] [0] [0] 1
  scatter_S20000x1_S400000x1_S400000x1_1_0_0_1_wf : ScatterDims.WF S20000x1 S400000x1 S400000x1 [1] [0] [0] 1
  gather_S8000x128_S250000x1_S250000x128_1_0_n_n_0_1_1128_wf : GatherDims.WF S8000x128 S250000x1 S250000x128 [1] [0] [] [0] [] 1 ![1, 128]
  scatter_S20000x128_S250000x1_S250000x128_1_0_0_1_wf : ScatterDims.WF S20000x128 S250000x1 S250000x128 [1] [0] [0] 1
  scatter_S20000x1_S250000x1_S250000x1_1_0_0_1_wf : ScatterDims.WF S20000x1 S250000x1 S250000x1 [1] [0] [0] 1
  dot_S2000x128_S128x128_S2000x128_1_0_0_1_n_n_wf : DotDims.WF S2000x128 S128x128 S2000x128 [1] [0] [0] [1] [] []
  scatter_S20000_S300000x1_S300000_n_0_0_1_wf : ScatterDims.WF S20000 S300000x1 S300000 [] [0] [0] 1
  scatter_S1000_S300000x1_S300000_n_0_0_1_wf : ScatterDims.WF S1000 S300000x1 S300000 [] [0] [0] 1
  gather_S20000x128_S300000x1_S300000x128_1_0_n_n_0_1_1128_wf : GatherDims.WF S20000x128 S300000x1 S300000x128 [1] [0] [] [0] [] 1 ![1, 128]
  scatter_S1000x128_S300000x1_S300000x128_1_0_0_1_wf : ScatterDims.WF S1000x128 S300000x1 S300000x128 [1] [0] [0] 1
  dot_S1000x128_S128x128_S1000x128_1_0_0_1_n_n_wf : DotDims.WF S1000x128 S128x128 S1000x128 [1] [0] [0] [1] [] []
  gather_S20000x128_S50000x1_S50000x128_1_0_n_n_0_1_1128_wf : GatherDims.WF S20000x128 S50000x1 S50000x128 [1] [0] [] [0] [] 1 ![1, 128]
  gather_S1000x128_S50000x1_S50000x128_1_0_n_n_0_1_1128_wf : GatherDims.WF S1000x128 S50000x1 S50000x128 [1] [0] [] [0] [] 1 ![1, 128]
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S8000x1024.size a
  hwx0_0 : ∀ i : grid0.Coords, EltTy.bits .f32 = 32 ∨ (Rect.block (s := S8000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S8000x128.size a
  hwx0_3 : ∀ i : grid0.Coords, EltTy.bits .f32 = 32 ∨ (Rect.block (s := S8000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2000x128.size a ≤ S4x20000x128.size a
  hwx1_1 : ∀ i : grid1.Coords, EltTy.bits .f32 = 32 ∨ (Rect.block (s := S4x20000x128) S1x2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S4x128x128.size a
  hwx1_2 : ∀ i : grid1.Coords, EltTy.bits .f32 = 32 ∨ (Rect.block (s := S4x128x128) S1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S4x1x128.size a
  hwx1_3 : ∀ i : grid1.Coords, EltTy.bits .f32 = 32 ∨ (Rect.block (s := S4x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x128.size a ≤ S4x128x128.size a
  hwx1_4 : ∀ i : grid1.Coords, EltTy.bits .f32 = 32 ∨ (Rect.block (s := S4x128x128) S1x128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S4x1x128.size a
  hwx1_5 : ∀ i : grid1.Coords, EltTy.bits .f32 = 32 ∨ (Rect.block (s := S4x1x128) S1x1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S1000x128.size a
  hwx2_0 : ∀ i : grid2.Coords, EltTy.bits .f32 = 32 ∨ (Rect.block (s := S1000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S1000x128.size a
  hwx2_3 : ∀ i : grid2.Coords, EltTy.bits .f32 = 32 ∨ (Rect.block (s := S1000x128) S1000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S200000x1.size a
  hwx3_5 : ∀ i : grid3.Coords, EltTy.bits .f32 = 32 ∨ (Rect.block (s := S200000x1) S2000x1.size (cc3_transform_5 i) (hinb3_5 i)).WholeWords (EltTy.packing .f32)

variable [Facts₀]

def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf
def gather_S2000x128_S300000x1_S300000x128_1_0_n_n_0_1_1128 : GatherDims S2000x128 S300000x1 S300000x128 where
  offsetDims := [1]
  collapsedSliceDims := [0]
  operandBatchingDims := []
  startIndicesBatchingDims := []
  startIndexMap := [0]
  indexVectorDim := 1
  sliceSizes := ![1, 128]
  wf := gather_S2000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def scatter_S20000x1_S300000x1_S300000x1_1_0_0_1 : ScatterDims S20000x1 S300000x1 S300000x1 where
  updateWindowDims := [1]
  insertedWindowDims := [0]
  scatterDimsToOperandDims := [0]
  indexVectorDim := 1
  wf := scatter_S20000x1_S300000x1_S300000x1_1_0_0_1_wf
def gather_S10000x128_S400000x1_S400000x128_1_0_n_n_0_1_1128 : GatherDims S10000x128 S400000x1 S400000x128 where
  offsetDims := [1]
  collapsedSliceDims := [0]
  operandBatchingDims := []
  startIndicesBatchingDims := []
  startIndexMap := [0]
  indexVectorDim := 1
  sliceSizes := ![1, 128]
  wf := gather_S10000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000x1_S400000x1_S400000x1_1_0_0_1 : ScatterDims S20000x1 S400000x1 S400000x1 where
  updateWindowDims := [1]
  insertedWindowDims := [0]
  scatterDimsToOperandDims := [0]
  indexVectorDim := 1
  wf := scatter_S20000x1_S400000x1_S400000x1_1_0_0_1_wf
def gather_S8000x128_S250000x1_S250000x128_1_0_n_n_0_1_1128 : GatherDims S8000x128 S250000x1 S250000x128 where
  offsetDims := [1]
  collapsedSliceDims := [0]
  operandBatchingDims := []
  startIndicesBatchingDims := []
  startIndexMap := [0]
  indexVectorDim := 1
  sliceSizes := ![1, 128]
  wf := gather_S8000x128_S250000x1_S250000x128_1_0_n_n_0_1_1128_wf
def scatter_S20000x128_S250000x1_S250000x128_1_0_0_1 : ScatterDims S20000x128 S250000x1 S250000x128 where
  updateWindowDims := [1]
  insertedWindowDims := [0]
  scatterDimsToOperandDims := [0]
  indexVectorDim := 1
  wf := scatter_S20000x128_S250000x1_S250000x128_1_0_0_1_wf
def scatter_S20000x1_S250000x1_S250000x1_1_0_0_1 : ScatterDims S20000x1 S250000x1 S250000x1 where
  updateWindowDims := [1]
  insertedWindowDims := [0]
  scatterDimsToOperandDims := [0]
  indexVectorDim := 1
  wf := scatter_S20000x1_S250000x1_S250000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def scatter_S1000_S300000x1_S300000_n_0_0_1 : ScatterDims S1000 S300000x1 S300000 where
  updateWindowDims := []
  insertedWindowDims := [0]
  scatterDimsToOperandDims := [0]
  indexVectorDim := 1
  wf := scatter_S1000_S300000x1_S300000_n_0_0_1_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S1000x128_S300000x1_S300000x128_1_0_0_1 : ScatterDims S1000x128 S300000x1 S300000x128 where
  updateWindowDims := [1]
  insertedWindowDims := [0]
  scatterDimsToOperandDims := [0]
  indexVectorDim := 1
  wf := scatter_S1000x128_S300000x1_S300000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S20000x128_S50000x1_S50000x128_1_0_n_n_0_1_1128 : GatherDims S20000x128 S50000x1 S50000x128 where
  offsetDims := [1]
  collapsedSliceDims := [0]
  operandBatchingDims := []
  startIndicesBatchingDims := []
  startIndexMap := [0]
  indexVectorDim := 1
  sliceSizes := ![1, 128]
  wf := gather_S20000x128_S50000x1_S50000x128_1_0_n_n_0_1_1128_wf
def gather_S1000x128_S50000x1_S50000x128_1_0_n_n_0_1_1128 : GatherDims S1000x128 S50000x1 S50000x128 where
  offsetDims := [1]
  collapsedSliceDims := [0]
  operandBatchingDims := []
  startIndicesBatchingDims := []
  startIndexMap := [0]
  indexVectorDim := 1
  sliceSizes := ![1, 128]
  wf := gather_S1000x128_S50000x1_S50000x128_1_0_n_n_0_1_1128_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg1) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v78) S1x2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v83) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v89) S1x1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v94) S1x128x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v100) S1x1x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v101) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v132) S1000x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg25) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v133) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v134) S1000x128.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v195) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg27) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v196) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg29) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v197) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v198) S2000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1000x5000 : Shape := ⟨2, ![1000, 5000]⟩
abbrev S8000x1024 : Shape := ⟨2, ![8000, 1024]⟩
abbrev S20000x128 : Shape := ⟨2, ![20000, 128]⟩
abbrev S2000x128 : Shape := ⟨2, ![2000, 128]⟩
abbrev S10000x128 : Shape := ⟨2, ![10000, 128]⟩
abbrev S128x5000 : Shape := ⟨2, ![128, 5000]⟩
abbrev S128 : Shape := ⟨1, ![128]⟩
abbrev S128x1024 : Shape := ⟨2, ![128, 1024]⟩
abbrev S128x128 : Shape := ⟨2, ![128, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S500000 : Shape := ⟨1, ![500000]⟩
abbrev S300000 : Shape := ⟨1, ![300000]⟩
abbrev S400000 : Shape := ⟨1, ![400000]⟩
abbrev S250000 : Shape := ⟨1, ![250000]⟩
abbrev S50000 : Shape := ⟨1, ![50000]⟩
abbrev S5000x128 : Shape := ⟨2, ![5000, 128]⟩
abbrev S1000x128 : Shape := ⟨2, ![1000, 128]⟩
abbrev S1x128 : Shape := ⟨2, ![1, 128]⟩
abbrev S1024x128 : Shape := ⟨2, ![1024, 128]⟩
abbrev S8000x128 : Shape := ⟨2, ![8000, 128]⟩
abbrev S_ : Shape := ⟨0, ![]⟩
abbrev S500000x1 : Shape := ⟨2, ![500000, 1]⟩
abbrev S500000x128 : Shape := ⟨2, ![500000, 128]⟩
abbrev S20000x1 : Shape := ⟨2, ![20000, 1]⟩
abbrev S300000x1 : Shape := ⟨2, ![300000, 1]⟩
abbrev S300000x128 : Shape := ⟨2, ![300000, 128]⟩
abbrev S400000x1 : Shape := ⟨2, ![400000, 1]⟩
abbrev S400000x128 : Shape := ⟨2, ![400000, 128]⟩
abbrev S250000x1 : Shape := ⟨2, ![250000, 1]⟩
abbrev S250000x128 : Shape := ⟨2, ![250000, 128]⟩
abbrev S20000 : Shape := ⟨1, ![20000]⟩
abbrev S1000 : Shape := ⟨1, ![1000]⟩
abbrev S1000x1 : Shape := ⟨2, ![1000, 1]⟩
abbrev S50000x1 : Shape := ⟨2, ![50000, 1]⟩
abbrev S50000x128 : Shape := ⟨2, ![50000, 128]⟩
abbrev S50000x256 : Shape := ⟨2, ![50000, 256]⟩
abbrev S256x1 : Shape := ⟨2, ![256, 1]⟩
abbrev S1x1 : Shape := ⟨2, ![1, 1]⟩

abbrev nBuf : Space → Nat
  | .hbm => 376
  | .vmem => 0
  | .smem => 0
  | _ => 0

abbrev hbmTy0_0 (i : Nat) : BufTy := match i % 128 with
  | 0 => ⟨S1000x5000, .f32⟩
  | 1 => ⟨S8000x1024, .f32⟩
  | 2 => ⟨S20000x128, .f32⟩
  | 3 => ⟨S2000x128, .f32⟩
  | 4 => ⟨S10000x128, .f32⟩
  | 5 => ⟨S128x5000, .f32⟩
  | 6 => ⟨S128, .f32⟩
  | 7 => ⟨S128x1024, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S256x256, .f32⟩
  | 28 => ⟨S256, .f32⟩
  | 29 => ⟨S1x256, .f32⟩
  | 30 => ⟨S1, .f32⟩
  | 31 => ⟨S500000, .i32⟩
  | 32 => ⟨S500000, .i32⟩
  | 33 => ⟨S300000, .i32⟩
  | 34 => ⟨S300000, .i32⟩
  | 35 => ⟨S400000, .i32⟩
  | 36 => ⟨S400000, .i32⟩
  | 37 => ⟨S250000, .i32⟩
  | 38 => ⟨S250000, .i32⟩
  | 39 => ⟨S300000, .i32⟩
  | 40 => ⟨S300000, .i32⟩
  | 41 => ⟨S50000, .i32⟩
  | 42 => ⟨S50000, .i32⟩
  | 43 => ⟨S50000, .i32⟩
  | 44 => ⟨S50000, .i32⟩
  | 45 => ⟨S50000, .i32⟩
  | 46 => ⟨S50000, .i32⟩
  | 47 => ⟨S5000x128, .f32⟩
  | 48 => ⟨S1000x128, .f32⟩
  | 49 => ⟨S1x128, .f32⟩
  | 50 => ⟨S1000x128, .f32⟩
  | 51 => ⟨S1000x128, .f32⟩
  | 52 => ⟨S1024x128, .f32⟩
  | 53 => ⟨S8000x128, .f32⟩
  | 54 => ⟨S1x128, .f32⟩
  | 55 => ⟨S8000x128, .f32⟩
  | 56 => ⟨S8000x128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S_, .f32⟩
  | 67 => ⟨S20000x128, .f32⟩
  | 68 => ⟨S500000x1, .i32⟩
  | 69 => ⟨S20000x128, .f32⟩
  | 70 => ⟨S_, .f32⟩
  | 71 => ⟨S500000x1, .f32⟩
  | 72 => ⟨S_, .f32⟩
  | 73 => ⟨S20000x1, .f32⟩
  | 74 => ⟨S500000x1, .i32⟩
  | 75 => ⟨S20000x1, .f32⟩
  | 76 => ⟨S_, .f32⟩
  | 77 => ⟨S20000x1, .f32⟩
  | 78 => ⟨S20000x1, .f32⟩
  | 79 => ⟨S20000x128, .f32⟩
  | 80 => ⟨S20000x128, .f32⟩
  | 81 => ⟨S128x128, .f32⟩
  | 82 => ⟨S20000x128, .f32⟩
  | 83 => ⟨S1x128, .f32⟩
  | 84 => ⟨S20000x128, .f32⟩
  | 85 => ⟨S20000x128, .f32⟩
  | 86 => ⟨S128x128, .f32⟩
  | 87 => ⟨S20000x128, .f32⟩
  | 88 => ⟨S20000x128, .f32⟩
  | 89 => ⟨S1x128, .f32⟩
  | 90 => ⟨S20000x128, .f32⟩
  | 91 => ⟨S20000x128, .f32⟩
  | 92 => ⟨S_, .i32⟩
  | 93 => ⟨S300000, .i32⟩
  | 94 => ⟨S300000, .i1⟩
  | 95 => ⟨S_, .i32⟩
  | 96 => ⟨S300000, .i32⟩
  | 97 => ⟨S300000, .i32⟩
  | 98 => ⟨S300000, .i32⟩
  | 99 => ⟨S300000x1, .i32⟩
  | 100 => ⟨S300000x128, .f32⟩
  | 101 => ⟨S_, .f32⟩
  | 102 => ⟨S20000x128, .f32⟩
  | 103 => ⟨S300000x1, .i32⟩
  | 104 => ⟨S20000x128, .f32⟩
  | 105 => ⟨S_, .f32⟩
  | 106 => ⟨S300000x1, .f32⟩
  | 107 => ⟨S_, .f32⟩
  | 108 => ⟨S20000x1, .f32⟩
  | 109 => ⟨S300000x1, .i32⟩
  | 110 => ⟨S20000x1, .f32⟩
  | 111 => ⟨S_, .f32⟩
  | 112 => ⟨S20000x1, .f32⟩
  | 113 => ⟨S20000x1, .f32⟩
  | 114 => ⟨S20000x128, .f32⟩
  | 115 => ⟨S20000x128, .f32⟩
  | 116 => ⟨S128x128, .f32⟩
  | 117 => ⟨S20000x128, .f32⟩
  | 118 => ⟨S1x128, .f32⟩
  | 119 => ⟨S20000x128, .f32⟩
  | 120 => ⟨S20000x128, .f32⟩
  | 121 => ⟨S128x128, .f32⟩
  | 122 => ⟨S20000x128, .f32⟩
  | 123 => ⟨S20000x128, .f32⟩
  | 124 => ⟨S1x128, .f32⟩
  | 125 => ⟨S20000x128, .f32⟩
  | 126 => ⟨S20000x128, .f32⟩
  | 127 => ⟨S20000x128, .f32⟩
  | _ => ⟨S1000x5000, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000x128, .f32⟩
  | 9 => ⟨S_, .f32⟩
  | 10 => ⟨S20000x128, .f32⟩
  | 11 => ⟨S400000x1, .i32⟩
  | 12 => ⟨S20000x128, .f32⟩
  | 13 => ⟨S_, .f32⟩
  | 14 => ⟨S400000x1, .f32⟩
  | 15 => ⟨S_, .f32⟩
  | 16 => ⟨S20000x1, .f32⟩
  | 17 => ⟨S400000x1, .i32⟩
  | 18 => ⟨S20000x1, .f32⟩
  | 19 => ⟨S_, .f32⟩
  | 20 => ⟨S20000x1, .f32⟩
  | 21 => ⟨S20000x1, .f32⟩
  | 22 => ⟨S20000x128, .f32⟩
  | 23 => ⟨S20000x128, .f32⟩
  | 24 => ⟨S128x128, .f32⟩
  | 25 => ⟨S20000x128, .f32⟩
  | 26 => ⟨S1x128, .f32⟩
  | 27 => ⟨S20000x128, .f32⟩
  | 28 => ⟨S20000x128, .f32⟩
  | 29 => ⟨S128x128, .f32⟩
  | 30 => ⟨S20000x128, .f32⟩
  | 31 => ⟨S20000x128, .f32⟩
  | 32 => ⟨S1x128, .f32⟩
  | 33 => ⟨S20000x128, .f32⟩
  | 34 => ⟨S20000x128, .f32⟩
  | 35 => ⟨S20000x128, .f32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000x128, .f32⟩
  | 45 => ⟨S_, .f32⟩
  | 46 => ⟨S20000x128, .f32⟩
  | 47 => ⟨S250000x1, .i32⟩
  | 48 => ⟨S20000x128, .f32⟩
  | 49 => ⟨S_, .f32⟩
  | 50 => ⟨S250000x1, .f32⟩
  | 51 => ⟨S_, .f32⟩
  | 52 => ⟨S20000x1, .f32⟩
  | 53 => ⟨S250000x1, .i32⟩
  | 54 => ⟨S20000x1, .f32⟩
  | 55 => ⟨S_, .f32⟩
  | 56 => ⟨S20000x1, .f32⟩
  | 57 => ⟨S20000x1, .f32⟩
  | 58 => ⟨S20000x128, .f32⟩
  | 59 => ⟨S20000x128, .f32⟩
  | 60 => ⟨S128x128, .f32⟩
  | 61 => ⟨S20000x128, .f32⟩
  | 62 => ⟨S1x128, .f32⟩
  | 63 => ⟨S20000x128, .f32⟩
  | 64 => ⟨S20000x128, .f32⟩
  | 65 => ⟨S128x128, .f32⟩
  | 66 => ⟨S20000x128, .f32⟩
  | 67 => ⟨S20000x128, .f32⟩
  | 68 => ⟨S1x128, .f32⟩
  | 69 => ⟨S20000x128, .f32⟩
  | 70 => ⟨S20000x128, .f32⟩
  | 71 => ⟨S20000x128, .f32⟩
  | 72 => ⟨S_, .f32⟩
  | 73 => ⟨S300000, .f32⟩
  | 74 => ⟨S_, .f32⟩
  | 75 => ⟨S20000, .f32⟩
  | 76 => ⟨S300000x1, .i32⟩
  | 77 => ⟨S20000, .f32⟩
  | 78 => ⟨S_, .f32⟩
  | 79 => ⟨S20000, .f32⟩
  | 80 => ⟨S20000, .f32⟩
  | 81 => ⟨S_, .f32⟩
  | 82 => ⟨S20000, .f32⟩
  | 83 => ⟨S20000, .f32⟩
  | 84 => ⟨S_, .f32⟩
  | 85 => ⟨S1000, .f32⟩
  | 86 => ⟨S300000x1, .i32⟩
  | 87 => ⟨S1000, .f32⟩
  | 88 => ⟨S_, .f32⟩
  | 89 => ⟨S1000, .f32⟩
  | 90 => ⟨S1000, .f32⟩
  | 91 => ⟨S_, .f32⟩
  | 92 => ⟨S1000, .f32⟩
  | 93 => ⟨S1000, .f32⟩
  | 94 => ⟨S20000x1, .f32⟩
  | 95 => ⟨S20000x128, .f32⟩
  | 96 => ⟨S20000x128, .f32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000x128, .f32⟩
  | 106 => ⟨S_, .f32⟩
  | 107 => ⟨S1000x128, .f32⟩
  | 108 => ⟨S300000x1, .i32⟩
  | 109 => ⟨S1000x128, .f32⟩
  | 110 => ⟨S1000x1, .f32⟩
  | 111 => ⟨S1000x128, .f32⟩
  | 112 => ⟨S1000x128, .f32⟩
  | 113 => ⟨S128x128, .f32⟩
  | 114 => ⟨S1000x128, .f32⟩
  | 115 => ⟨S1x128, .f32⟩
  | 116 => ⟨S1000x128, .f32⟩
  | 117 => ⟨S1000x128, .f32⟩
  | 118 => ⟨S_, .i32⟩
  | 119 => ⟨S50000, .i32⟩
  | 120 => ⟨S50000, .i1⟩
  | 121 => ⟨S_, .i32⟩
  | 122 => ⟨S50000, .i32⟩
  | 123 => ⟨S50000, .i32⟩
  | 124 => ⟨S50000, .i32⟩
  | 125 => ⟨S50000x1, .i32⟩
  | 126 => ⟨S50000x128, .f32⟩
  | 127 => ⟨S_, .i32⟩
  | _ => ⟨S1000x5000, .f32⟩

abbrev hbmTy0_2 (i : Nat) : BufTy := match i % 128 with
  | 0 => ⟨S50000, .i32⟩
  | 1 => ⟨S50000, .i1⟩
  | 2 => ⟨S_, .i32⟩
  | 3 => ⟨S50000, .i32⟩
  | 4 => ⟨S50000, .i32⟩
  | 5 => ⟨S50000, .i32⟩
  | 6 => ⟨S50000x1, .i32⟩
  | 7 => ⟨S50000x128, .f32⟩
  | 8 => ⟨S50000x256, .f32⟩
  | 9 => ⟨S256x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S256x1, .f32⟩
  | 18 => ⟨S50000x1, .f32⟩
  | 19 => ⟨S1x1, .f32⟩
  | 20 => ⟨S50000x1, .f32⟩
  | 21 => ⟨S50000x1, .f32⟩
  | 22 => ⟨S_, .i32⟩
  | 23 => ⟨S50000, .i32⟩
  | 24 => ⟨S50000, .i1⟩
  | 25 => ⟨S_, .i32⟩
  | 26 => ⟨S50000, .i32⟩
  | 27 => ⟨S50000, .i32⟩
  | 28 => ⟨S50000, .i32⟩
  | 29 => ⟨S50000x1, .i32⟩
  | 30 => ⟨S50000x128, .f32⟩
  | 31 => ⟨S_, .i32⟩
  | 32 => ⟨S50000, .i32⟩
  | 33 => ⟨S50000, .i1⟩
  | 34 => ⟨S_, .i32⟩
  | 35 => ⟨S50000, .i32⟩
  | 36 => ⟨S50000, .i32⟩
  | 37 => ⟨S50000, .i32⟩
  | 38 => ⟨S50000x1, .i32⟩
  | 39 => ⟨S50000x128, .f32⟩
  | 40 => ⟨S50000x256, .f32⟩
  | 41 => ⟨S256x256, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S256x1, .f32⟩
  | 50 => ⟨S50000x1, .f32⟩
  | 51 => ⟨S1x1, .f32⟩
  | 52 => ⟨S50000x1, .f32⟩
  | 53 => ⟨S50000x1, .f32⟩
  | 54 => ⟨S_, .i32⟩
  | 55 => ⟨S50000, .i32⟩
  | 56 => ⟨S50000, .i1⟩
  | 57 => ⟨S_, .i32⟩
  | 58 => ⟨S50000, .i32⟩
  | 59 => ⟨S50000, .i32⟩
  | 60 => ⟨S50000, .i32⟩
  | 61 => ⟨S50000x1, .i32⟩
  | 62 => ⟨S50000x128, .f32⟩
  | 63 => ⟨S_, .i32⟩
  | 64 => ⟨S50000, .i32⟩
  | 65 => ⟨S50000, .i1⟩
  | 66 => ⟨S_, .i32⟩
  | 67 => ⟨S50000, .i32⟩
  | 68 => ⟨S50000, .i32⟩
  | 69 => ⟨S50000, .i32⟩
  | 70 => ⟨S50000x1, .i32⟩
  | 71 => ⟨S50000x128, .f32⟩
  | 72 => ⟨S50000x256, .f32⟩
  | 73 => ⟨S256x256, .f32⟩
  | 74 => ⟨S50000x256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S256x1, .f32⟩
  | 82 => ⟨S50000x1, .f32⟩
  | 83 => ⟨S1x1, .f32⟩
  | 84 => ⟨S50000x1, .f32⟩
  | 85 => ⟨S50000x1, .f32⟩
  | 86 => ⟨S_, .i32⟩
  | 87 => ⟨S50000, .i32⟩
  | 88 => ⟨S50000, .i1⟩
  | 89 => ⟨S_, .i32⟩
  | 90 => ⟨S50000, .i32⟩
  | 91 => ⟨S50000, .i32⟩
  | 92 => ⟨S50000, .i32⟩
  | 93 => ⟨S50000x1, .i32⟩
  | 94 => ⟨S50000x128, .f32⟩
  | 95 => ⟨S_, .i32⟩
  | 96 => ⟨S50000, .i32⟩
  | 97 => ⟨S50000, .i1⟩
  | 98 => ⟨S_, .i32⟩
  | 99 => ⟨S50000, .i32⟩
  | 100 => ⟨S50000, .i32⟩
  | 101 => ⟨S50000, .i32⟩
  | 102 => ⟨S50000x1, .i32⟩
  | 103 => ⟨S50000x128, .f32⟩
  | 104 => ⟨S50000x256, .f32⟩
  | 105 => ⟨S256x256, .f32⟩
  | 106 => ⟨S50000x256, .f32⟩
  | 107 => ⟨S1x256, .f32⟩
  | 108 => ⟨S50000x256, .f32⟩
  | 109 => ⟨S50000x256, .f32⟩
  | 110 => ⟨S_, .f32⟩
  | 111 => ⟨S50000x256, .f32⟩
  | 112 => ⟨S50000x256, .f32⟩
  | 113 => ⟨S256x1, .f32⟩
  | 114 => ⟨S50000x1, .f32⟩
  | 115 => ⟨S1x1, .f32⟩
  | 116 => ⟨S50000x1, .f32⟩
  | 117 => ⟨S50000x1, .f32⟩
  | 118 => ⟨S50000x1, .f32⟩
  | 119 => ⟨S50000x1, .f32⟩
  | _ => ⟨S1000x5000, .f32⟩

abbrev hbmTy (i : Nat) : BufTy := match i / 128 with
  | 0 => hbmTy0_0 i
  | 1 => hbmTy0_1 i
  | 2 => hbmTy0_2 i
  | _ => ⟨S1000x5000, .f32⟩

abbrev bufTy : (tb : Table) → Fin (tcTables nBuf tb) → BufTy
  | .hbm, ⟨i, _⟩ => hbmTy i
  | _, _ => ⟨S1000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_v0 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_c : Ref sig .tc := ⟨.hbm, 57, rfl⟩
abbrev main_v10 : Ref sig .tc := ⟨.hbm, 58, rfl⟩
abbrev main_v11 : Ref sig .tc := ⟨.hbm, 59, rfl⟩
abbrev main_c_0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_cst : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_cst_1 : Ref sig .tc := ⟨.hbm, 70, rfl⟩
abbrev main_v20 : Ref sig .tc := ⟨.hbm, 71, rfl⟩
abbrev main_cst_2 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_cst_3 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_c_4 : Ref sig .tc := ⟨.hbm, 92, rfl⟩
abbrev main_v39 : Ref sig .tc := ⟨.hbm, 93, rfl⟩
abbrev main_v40 : Ref sig .tc := ⟨.hbm, 94, rfl⟩
abbrev main_c_5 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_cst_6 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_cst_7 : Ref sig .tc := ⟨.hbm, 105, rfl⟩
abbrev main_v49 : Ref sig .tc := ⟨.hbm, 106, rfl⟩
abbrev main_cst_8 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_cst_9 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_c_10 : Ref sig .tc := ⟨.hbm, 128, rfl⟩
abbrev main_v69 : Ref sig .tc := ⟨.hbm, 129, rfl⟩
abbrev main_v70 : Ref sig .tc := ⟨.hbm, 130, rfl⟩
abbrev main_c_11 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_12 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_13 : Ref sig .tc := ⟨.hbm, 141, rfl⟩
abbrev main_v79 : Ref sig .tc := ⟨.hbm, 142, rfl⟩
abbrev main_cst_14 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_cst_15 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_c_16 : Ref sig .tc := ⟨.hbm, 164, rfl⟩
abbrev main_v99 : Ref sig .tc := ⟨.hbm, 165, rfl⟩
abbrev main_v100 : Ref sig .tc := ⟨.hbm, 166, rfl⟩
abbrev main_c_17 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_18 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_19 : Ref sig .tc := ⟨.hbm, 177, rfl⟩
abbrev main_v109 : Ref sig .tc := ⟨.hbm, 178, rfl⟩
abbrev main_cst_20 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_21 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_cst_22 : Ref sig .tc := ⟨.hbm, 200, rfl⟩
abbrev main_v129 : Ref sig .tc := ⟨.hbm, 201, rfl⟩
abbrev main_cst_23 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_24 : Ref sig .tc := ⟨.hbm, 206, rfl⟩
abbrev main_v133 : Ref sig .tc := ⟨.hbm, 207, rfl⟩
abbrev main_v134 : Ref sig .tc := ⟨.hbm, 208, rfl⟩
abbrev main_cst_25 : Ref sig .tc := ⟨.hbm, 209, rfl⟩
abbrev main_v135 : Ref sig .tc := ⟨.hbm, 210, rfl⟩
abbrev main_v136 : Ref sig .tc := ⟨.hbm, 211, rfl⟩
abbrev main_cst_26 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_cst_27 : Ref sig .tc := ⟨.hbm, 216, rfl⟩
abbrev main_v140 : Ref sig .tc := ⟨.hbm, 217, rfl⟩
abbrev main_v141 : Ref sig .tc := ⟨.hbm, 218, rfl⟩
abbrev main_cst_28 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_c_29 : Ref sig .tc := ⟨.hbm, 225, rfl⟩
abbrev main_v147 : Ref sig .tc := ⟨.hbm, 226, rfl⟩
abbrev main_v148 : Ref sig .tc := ⟨.hbm, 227, rfl⟩
abbrev main_c_30 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_cst_31 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_c_32 : Ref sig .tc := ⟨.hbm, 246, rfl⟩
abbrev main_v165 : Ref sig .tc := ⟨.hbm, 247, rfl⟩
abbrev main_v166 : Ref sig .tc := ⟨.hbm, 248, rfl⟩
abbrev main_c_33 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_c_34 : Ref sig .tc := ⟨.hbm, 255, rfl⟩
abbrev main_v172 : Ref sig .tc := ⟨.hbm, 256, rfl⟩
abbrev main_v173 : Ref sig .tc := ⟨.hbm, 257, rfl⟩
abbrev main_c_35 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_call0_cst : Ref sig .tc := ⟨.hbm, 270, rfl⟩
abbrev main_call0_v0 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_c_36 : Ref sig .tc := ⟨.hbm, 278, rfl⟩
abbrev main_v191 : Ref sig .tc := ⟨.hbm, 279, rfl⟩
abbrev main_v192 : Ref sig .tc := ⟨.hbm, 280, rfl⟩
abbrev main_c_37 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_c_38 : Ref sig .tc := ⟨.hbm, 287, rfl⟩
abbrev main_v198 : Ref sig .tc := ⟨.hbm, 288, rfl⟩
abbrev main_v199 : Ref sig .tc := ⟨.hbm, 289, rfl⟩
abbrev main_c_39 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_call1_cst : Ref sig .tc := ⟨.hbm, 302, rfl⟩
abbrev main_call1_v0 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_c_40 : Ref sig .tc := ⟨.hbm, 310, rfl⟩
abbrev main_v217 : Ref sig .tc := ⟨.hbm, 311, rfl⟩
abbrev main_v218 : Ref sig .tc := ⟨.hbm, 312, rfl⟩
abbrev main_c_41 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_c_42 : Ref sig .tc := ⟨.hbm, 319, rfl⟩
abbrev main_v224 : Ref sig .tc := ⟨.hbm, 320, rfl⟩
abbrev main_v225 : Ref sig .tc := ⟨.hbm, 321, rfl⟩
abbrev main_c_43 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_call2_cst : Ref sig .tc := ⟨.hbm, 334, rfl⟩
abbrev main_call2_v0 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_c_44 : Ref sig .tc := ⟨.hbm, 342, rfl⟩
abbrev main_v243 : Ref sig .tc := ⟨.hbm, 343, rfl⟩
abbrev main_v244 : Ref sig .tc := ⟨.hbm, 344, rfl⟩
abbrev main_c_45 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_v249 : Ref sig .tc := ⟨.hbm, 350, rfl⟩
abbrev main_c_46 : Ref sig .tc := ⟨.hbm, 351, rfl⟩
abbrev main_v250 : Ref sig .tc := ⟨.hbm, 352, rfl⟩
abbrev main_v251 : Ref sig .tc := ⟨.hbm, 353, rfl⟩
abbrev main_c_47 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_call3_cst : Ref sig .tc := ⟨.hbm, 366, rfl⟩
abbrev main_call3_v0 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩

abbrev nD : Nat := 1
abbrev τ : Topo := Topo.v7x

variable {F : FTy → Type} [FloatOps F]

class Facts₀ : Prop where
  transposes_S128x5000_S5000x128_1_0 : S128x5000.Transposes [1, 0] S5000x128
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  transposes_S128x1024_S1024x128_1_0 : S128x1024.Transposes [1, 0] S1024x128
  bcast_S1x128_S8000x128_0_1 : S1x128.BroadcastsInDim S8000x128 (![0, 1] : Fin 2 → Fin S8000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S_S500000x1 : S_.BroadcastsInDim S500000x1 (![] : Fin 0 → Fin S500000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S1x128_S20000x128_0_1 : S1x128.BroadcastsInDim S20000x128 (![0, 1] : Fin 2 → Fin S20000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S_S250000 : S_.BroadcastsInDim S250000 (![] : Fin 0 → Fin S250000.rank)
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S_S20000 : S_.BroadcastsInDim S20000 (![] : Fin 0 → Fin S20000.rank)
  bcast_S_S1000 : S_.BroadcastsInDim S1000 (![] : Fin 0 → Fin S1000.rank)
  bcast_S20000_S20000x1_0 : S20000.BroadcastsInDim S20000x1 (![0] : Fin 1 → Fin S20000x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x128_S50000x256_d1 : Shape.Concatenates [S50000x128, S50000x128] S50000x256 1
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S1x256_S256x1_1_0 : S1x256.Transposes [1, 0] S256x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S1000x5000_S5000x128_S1000x128_1_0_0_1_n_n_wf : DotDims.WF S1000x5000 S5000x128 S1000x128 [1] [0] [0] [1] [] []
  dot_S8000x1024_S1024x128_S8000x128_1_0_0_1_n_n_wf : DotDims.WF S8000x1024 S1024x128 S8000x128 [1] [0] [0] [1] [] []
  gather_S20000x128_S500000x1_S500000x128_1_0_n_n_0_1_1128_wf : GatherDims.WF S20000x128 S500000x1 S500000x128 [1] [0] [] [0] [] 1 ![1, 128]
  scatter_S20000x128_S500000x1_S500000x128_1_0_0_1_wf : ScatterDims.WF S20000x128 S500000x1 S500000x128 [1] [0] [0] 1
  scatter_S20000x1_S500000x1_S500000x1_1_0_0_1_wf : ScatterDims.WF S20000x1 S500000x1 S500000x1 [1] [0] [0] 1
  dot_S20000x128_S128x128_S20000x128_1_0_0_1_n_n_wf : DotDims.WF S20000x128 S128x128 S20000x128 [1] [0] [0] [1] [] []
  gather_S2000x128_S300000x1_S300000x128_1_0_n_n_0_1_1128_wf : GatherDims.WF S2000x128 S300000x1 S300000x128 [1] [0] [] [0] [] 1 ![1, 128]
  scatter_S20000x128_S300000x1_S300000x128_1_0_0_1_wf : ScatterDims.WF S20000x128 S300000x1 S300000x128 [1] [0] [0] 1
  scatter_S20000x1_S300000x1_S300000x1_1_0_0_1_wf : ScatterDims.WF S20000x1 S300000x1 S300000x1 [1] [0] [0] 1
  gather_S10000x128_S400000x1_S400000x128_1_0_n_n_0_1_1128_wf : GatherDims.WF S10000x128 S400000x1 S400000x128 [1] [0] [] [0] [] 1 ![1, 128]
  scatter_S20000x128_S400000x1_S400000x128_1_0_0_1_wf : ScatterDims.WF S20000x128 S400000x1 S400000x128 [1] [0] [0] 1
  scatter_S20000x1_S400000x1_S400000x1_1_0_0_1_wf : ScatterDims.WF S20000x1 S400000x1 S400000x1 [1] [0] [0] 1
  gather_S8000x128_S250000x1_S250000x128_1_0_n_n_0_1_1128_wf : GatherDims.WF S8000x128 S250000x1 S250000x128 [1] [0] [] [0] [] 1 ![1, 128]
  scatter_S20000x128_S250000x1_S250000x128_1_0_0_1_wf : ScatterDims.WF S20000x128 S250000x1 S250000x128 [1] [0] [0] 1
  scatter_S20000x1_S250000x1_S250000x1_1_0_0_1_wf : ScatterDims.WF S20000x1 S250000x1 S250000x1 [1] [0] [0] 1
  scatter_S20000_S300000x1_S300000_n_0_0_1_wf : ScatterDims.WF S20000 S300000x1 S300000 [] [0] [0] 1
  scatter_S1000_S300000x1_S300000_n_0_0_1_wf : ScatterDims.WF S1000 S300000x1 S300000 [] [0] [0] 1
  gather_S20000x128_S300000x1_S300000x128_1_0_n_n_0_1_1128_wf : GatherDims.WF S20000x128 S300000x1 S300000x128 [1] [0] [] [0] [] 1 ![1, 128]
  scatter_S1000x128_S300000x1_S300000x128_1_0_0_1_wf : ScatterDims.WF S1000x128 S300000x1 S300000x128 [1] [0] [0] 1
  dot_S1000x128_S128x128_S1000x128_1_0_0_1_n_n_wf : DotDims.WF S1000x128 S128x128 S1000x128 [1] [0] [0] [1] [] []
  gather_S20000x128_S50000x1_S50000x128_1_0_n_n_0_1_1128_wf : GatherDims.WF S20000x128 S50000x1 S50000x128 [1] [0] [] [0] [] 1 ![1, 128]
  gather_S1000x128_S50000x1_S50000x128_1_0_n_n_0_1_1128_wf : GatherDims.WF S1000x128 S50000x1 S50000x128 [1] [0] [] [0] [] 1 ![1, 128]
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def dot_S1000x5000_S5000x128_S1000x128_1_0_0_1_n_n : DotDims S1000x5000 S5000x128 S1000x128 where
  lhsContracting := [1]
  rhsContracting := [0]
  lhsNonContracting := [0]
  rhsNonContracting := [1]
  lhsBatch := []
  rhsBatch := []
  wf := dot_S1000x5000_S5000x128_S1000x128_1_0_0_1_n_n_wf
def dot_S8000x1024_S1024x128_S8000x128_1_0_0_1_n_n : DotDims S8000x1024 S1024x128 S8000x128 where
  lhsContracting := [1]
  rhsContracting := [0]
  lhsNonContracting := [0]
  rhsNonContracting := [1]
  lhsBatch := []
  rhsBatch := []
  wf := dot_S8000x1024_S1024x128_S8000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S2000x128_S300000x1_S300000x128_1_0_n_n_0_1_1128 : GatherDims S2000x128 S300000x1 S300000x128 where
  offsetDims := [1]
  collapsedSliceDims := [0]
  operandBatchingDims := []
  startIndicesBatchingDims := []
  startIndexMap := [0]
  indexVectorDim := 1
  sliceSizes := ![1, 128]
  wf := gather_S2000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def scatter_S20000x1_S300000x1_S300000x1_1_0_0_1 : ScatterDims S20000x1 S300000x1 S300000x1 where
  updateWindowDims := [1]
  insertedWindowDims := [0]
  scatterDimsToOperandDims := [0]
  indexVectorDim := 1
  wf := scatter_S20000x1_S300000x1_S300000x1_1_0_0_1_wf
def gather_S10000x128_S400000x1_S400000x128_1_0_n_n_0_1_1128 : GatherDims S10000x128 S400000x1 S400000x128 where
  offsetDims := [1]
  collapsedSliceDims := [0]
  operandBatchingDims := []
  startIndicesBatchingDims := []
  startIndexMap := [0]
  indexVectorDim := 1
  sliceSizes := ![1, 128]
  wf := gather_S10000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000x1_S400000x1_S400000x1_1_0_0_1 : ScatterDims S20000x1 S400000x1 S400000x1 where
  updateWindowDims := [1]
  insertedWindowDims := [0]
  scatterDimsToOperandDims := [0]
  indexVectorDim := 1
  wf := scatter_S20000x1_S400000x1_S400000x1_1_0_0_1_wf
def gather_S8000x128_S250000x1_S250000x128_1_0_n_n_0_1_1128 : GatherDims S8000x128 S250000x1 S250000x128 where
  offsetDims := [1]
  collapsedSliceDims := [0]
  operandBatchingDims := []
  startIndicesBatchingDims := []
  startIndexMap := [0]
  indexVectorDim := 1
  sliceSizes := ![1, 128]
  wf := gather_S8000x128_S250000x1_S250000x128_1_0_n_n_0_1_1128_wf
def scatter_S20000x128_S250000x1_S250000x128_1_0_0_1 : ScatterDims S20000x128 S250000x1 S250000x128 where
  updateWindowDims := [1]
  insertedWindowDims := [0]
  scatterDimsToOperandDims := [0]
  indexVectorDim := 1
  wf := scatter_S20000x128_S250000x1_S250000x128_1_0_0_1_wf
def scatter_S20000x1_S250000x1_S250000x1_1_0_0_1 : ScatterDims S20000x1 S250000x1 S250000x1 where
  updateWindowDims := [1]
  insertedWindowDims := [0]
  scatterDimsToOperandDims := [0]
  indexVectorDim := 1
  wf := scatter_S20000x1_S250000x1_S250000x1_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def scatter_S1000_S300000x1_S300000_n_0_0_1 : ScatterDims S1000 S300000x1 S300000 where
  updateWindowDims := []
  insertedWindowDims := [0]
  scatterDimsToOperandDims := [0]
  indexVectorDim := 1
  wf := scatter_S1000_S300000x1_S300000_n_0_0_1_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S1000x128_S300000x1_S300000x128_1_0_0_1 : ScatterDims S1000x128 S300000x1 S300000x128 where
  updateWindowDims := [1]
  insertedWindowDims := [0]
  scatterDimsToOperandDims := [0]
  indexVectorDim := 1
  wf := scatter_S1000x128_S300000x1_S300000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S20000x128_S50000x1_S50000x128_1_0_n_n_0_1_1128 : GatherDims S20000x128 S50000x1 S50000x128 where
  offsetDims := [1]
  collapsedSliceDims := [0]
  operandBatchingDims := []
  startIndicesBatchingDims := []
  startIndexMap := [0]
  indexVectorDim := 1
  sliceSizes := ![1, 128]
  wf := gather_S20000x128_S50000x1_S50000x128_1_0_n_n_0_1_1128_wf
def gather_S1000x128_S50000x1_S50000x128_1_0_n_n_0_1_1128 : GatherDims S1000x128 S50000x1 S50000x128 where
  offsetDims := [1]
  collapsedSliceDims := [0]
  operandBatchingDims := []
  startIndicesBatchingDims := []
  startIndexMap := [0]
  indexVectorDim := 1
  sliceSizes := ![1, 128]
  wf := gather_S1000x128_S50000x1_S50000x128_1_0_n_n_0_1_1128_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelRegion0.lean ====
/-
  Region 0: the first dense layer. Its grid has 8 points; point t takes rows 1000·t … 1000·t+999 of the [8000,1024]
  feature array, the whole [128,1024] weight and the [1,128] bias row, and writes the [1000,128] block
  x·Wᵀ + b of the result. Stated at any contents V of the core's buffers when the region is entered: what each window's
  buffer holds after the body at each point, the body's triple, and the pipeline's per-point obligation.
-/
import proofs.«144146_j85358180041108_1_alg».proof.Proof.Gen.Kernel.Launch
import proofs.«144146_j85358180041108_1_alg».proof.Proof.Gen.Kernel.Skeleton
import proofs.«144146_j85358180041108_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer: its one store, of the payload of the loaded input blocks. -/
def out0_3 (x0 : Vec F S1000x1024 .f32) (x1 : Vec F S128x1024 .f32) (x2 : Vec F S1x128 .f32) : Vec F S1000x128 .f32 :=
  View.canon [⟨(Rect.unit (s := S1000x128) ![0, 0] S1000x128.size inb_S1000x128_S1000x128_0_0), k0_pay1 (View.ld x0 (Rect.unit (s := S1000x1024) ![0, 0] S1000x1024.size inb_S1000x1024_S1000x1024_0_0)) (View.ld x1 (Rect.unit (s := S128x1024) ![0, 0] S128x1024.size inb_S128x1024_S128x1024_0_0)) (View.ld x2 (Rect.unit (s := S1x128) ![0, 0] S1x128.size inb_S1x128_S1x128_0_0))⟩]

/-- The store covers the whole buffer. -/
theorem cover0_3 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The kernel body on whole staging memrefs, the inputs' at known contents and the output's at anything, runs to the
    continuation holding the inputs as they were and the output at `out0_3` of the inputs. -/
theorem sound_kernel0 (c : Dev nD) (E : Set ℕ) (i : grid0.Coords) (arg0 : Memref sig .tc .vmem S1000x1024 .f32) (harg0 : arg0.IsWhole) (arg1 : Memref sig .tc .vmem S128x1024 .f32) (harg1 : arg1.IsWhole) (arg2 : Memref sig .tc .vmem S1x128 .f32) (harg2 : arg2.IsWhole) (argo : Memref sig .tc .vmem S1000x128 .f32) (hargo : argo.IsWhole)
    (x0 : Vec F S1000x1024 .f32) (x1 : Vec F S128x1024 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) argo fullShare d)
        ∗ (iprop(owns (c : Thread nD τ) arg0 fullShare x0 ∗ owns (c : Thread nD τ) arg1 fullShare x1 ∗ owns (c : Thread nD τ) arg2 fullShare x2 ∗ owns (c : Thread nD τ) argo fullShare (out0_3 x0 x1 x2)) -∗ K ⟨⟩))
      ⊢ wp frame (wpE (defs₀ (F := F)) Variants.none c none) E (cc0_kernel i arg0 harg0 arg1 harg1 arg2 harg2 argo hargo) K := by
  simp only [cc0_kernel_eq_skeleton]; unfold cc0_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover0_3 _)

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%dO, HO⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [HO]; · iexists _; iexact HO
  iintro ⟨H0, H1, H2, HO⟩
  isplitl [HΦ]; · iexact HΦ
  isplitl [Ho]; · iexact Ho
  isplitl [H0]; · iexact H0
  isplitl [H1]; · iexact H1
  isplitl [H2]; · iexact H2
  iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant is the same at every point: what the launch hands the region is the invariant before the first point, -/
theorem hin0 (c : Dev nD) : Pipeline.ΦA spec0 c ⊢ (dat0 V c).Φ 0 := .rfl
/-- and the invariant after the last point is handed back. -/
theorem hout0 (c : Dev nD) : (dat0 V c).Φ (Fin.last cfg0.N) ⊢ Pipeline.ΦA spec0 c := .rfl

end Cert.Kernel.Region0

end
-- ==== Proof.KernelRegion1Base.lean ====
/-
  Region 1, shared part: the four-relation combine. Its grid is 10 × 4: point (i, r) takes rows 2000·i … 2000·i+1999 of the
  node features, the same rows of relation r's neighbourhood means, and relation r's two weights and two bias rows; a
  [2000,128] scratch is zeroed at r = 0, the relation's term (h·Wsᵀ + bs + hn·Wnᵀ) + bn is added to it at every r, and at
  r = 3 the scratch is copied to the output block. Here: the windows' blocks, the two branch conditions in closed form over
  the grid, where the output window is idle, and the names the three control cases' runs are stated over.
-/
import proofs.«144146_j85358180041108_1_alg».proof.Proof.Gen.Kernel.Launch
import proofs.«144146_j85358180041108_1_alg».proof.Proof.Gen.Kernel.Skeleton
import proofs.«144146_j85358180041108_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch (zero the scratch): the relation index is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (copy the scratch out): the relation index is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the relation index is 0 the output window is idle and not written back, -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- likewise where it is 1 or 2, -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- and where it is 3 the output window is live. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated. -/
abbrev VO1_6 : View sig .tc .vmem S2000x128 .f32 := (Memref.whole cc1_stg6_0 : Memref sig .tc .vmem S2000x128 .f32).view
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x128 .f32 := win1_6.stage (cfg1.slots t 6)
abbrev hs1_6 (t : Fin cfg1.N) : (ms1_6 t).IsWhole := hstage1_6 ((cfg1.slots t 6).cast nbuf1_6)
/-- The scratch operand: a whole scoped buffer of the kernel's own. -/
abbrev scM1_0 : Memref sig .tc .vmem S2000x128 .f32 := Memref.whole cc1_scratch0
/-- The carried scratch as a view: what it holds is stated through it. -/
abbrev VS1_0 : View sig .tc .vmem S2000x128 .f32 := scM1_0.view

/-- The core's other scoped buffers (the other regions' staging buffers), each at anything: carried unopened. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the scratch operand split out as a memref owned at some contents. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, bigSepL_singleton]; try rfl

end Cert.Kernel.Region1

end
-- ==== Proof.KernelRegion1RunA.lean ====
/-
  Region 1, the case "relation index 0": the body zeroes the scratch, adds the relation's term to it, and leaves the output
  buffer untouched. The pieces the scratch ends with are found by running the body.
-/
import proofs.«144146_j85358180041108_1_alg».proof.Proof.KernelRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Where the relation index is 0: on whole memrefs — the inputs at their contents, the output buffer at contents handed
    back untouched, the scratch at anything — the body runs to the continuation holding the inputs as they were and the
    scratch with its pieces written. -/
noncomputable def kernelRun1_A (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) :
    Σ' (L6 : List (View.Piece (Elt F) S2000x128 .f32)), { LS0 : List (View.Piece (Elt F) S2000x128 .f32) //
      ∀ (xi6 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, fun xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Region1

end
-- ==== Proof.KernelRegion1RunB.lean ====
/-
  Region 1, the case "relation index 1 or 2": the body adds the relation's term to the scratch, which holds what the point
  before left, and leaves the output buffer untouched.
-/
import proofs.«144146_j85358180041108_1_alg».proof.Proof.KernelRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Where the relation index is 1 or 2: on whole memrefs — the inputs at their contents, the output buffer at contents
    handed back untouched, the scratch at what the point before left — the body runs to the continuation holding the inputs
    as they were and the scratch with its pieces written. -/
noncomputable def kernelRun1_B (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) :
    Σ' (L6 : List (View.Piece (Elt F) S2000x128 .f32)), { LS0 : List (View.Piece (Elt F) S2000x128 .f32) //
      ∀ (xi6 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, fun xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Region1

end
-- ==== Proof.KernelRegion1RunC.lean ====
/-
  Region 1, the case "relation index 3": the body adds the relation's term to the scratch, which holds what the point before
  left, and copies the scratch to the output buffer.
-/
import proofs.«144146_j85358180041108_1_alg».proof.Proof.KernelRegion1Base

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Where the relation index is 3: on whole memrefs — the inputs at their contents, the output buffer at anything, the
    scratch at what the point before left — the body runs to the continuation holding the inputs as they were and the
    output buffer and the scratch each with its pieces written. -/
noncomputable def kernelRun1_C (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) :
    Σ' (L6 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Region1

end
-- ==== Proof.KernelRegion1.lean ====
/-
  Region 1, assembled. After the body at point n the scratch holds the sum of the relation terms of the point's row block over
  the relations met so far (zero, then one term per point, restarted where the relation index is 0), and where the relation
  index is 3 the output buffer holds a copy of it. This is stated by recursion on the point over the three cases' runs; the
  region's invariant carries the scratch at that value from each point to the next; and the pipeline's per-point obligation
  follows case by case.
-/
import proofs.«144146_j85358180041108_1_alg».proof.Proof.KernelRegion1RunA
import proofs.«144146_j85358180041108_1_alg».proof.Proof.KernelRegion1RunB
import proofs.«144146_j85358180041108_1_alg».proof.Proof.KernelRegion1RunC

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Relation index 0: the scratch's pieces cover it. -/
theorem scover1_A_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (y : S2000x128.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S2000x128.size (by sl_kernel_rfl) y
/-- What it leaves in the scratch. -/
def sout1_A_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) : Vec F S2000x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)
/-- It stores nothing into the output buffer: a placeholder nothing consults. -/
def out1_A_6 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) : Vec F S2000x128 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Relation index 1 or 2: the scratch's pieces cover it. -/
theorem scover1_B_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) (y : S2000x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S2000x128.size (by sl_kernel_rfl) y
def sout1_B_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) : Vec F S2000x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)
def out1_B_6 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) : Vec F S2000x128 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Relation index 3: the output buffer's pieces and the scratch's pieces cover them. -/
theorem cover1_C_6 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) (y : S2000x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S2000x128.size (by sl_kernel_rfl) y
def out1_C_6 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) : Vec F S2000x128 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)
theorem scover1_C_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) (y : S2000x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S2000x128.size (by sl_kernel_rfl) y
def sout1_C_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) : Vec F S2000x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## What the output buffer and the scratch hold after each point -/

/-- After the body at position `n`: the output window's buffer, then the scratch — the case the closed forms select at
    `n`, run at the point's memrefs and input blocks, over what the point before left in the scratch. -/
def outsAt1 (c : Dev nD) : (n : ℕ) → n < cfg1.N → Vec F S2000x128 .f32 × Vec F S2000x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At a point where the relation index is 0. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a point where the relation index is 1 or 2, over what the point before left. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point where the relation index is 3, over what the point before left. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the class invariant (the scratch at anything); afterwards the scratch at what the
    point before left, the other scoped buffers at anything, and the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ Rest1 c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM1_0 fullShare ((outsAt1 V c n hn).2)) ∗ Rest1 c ∗ (∃ r, prngReg c r)) := rfl
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ Rest1 c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 16000000 in
/-- The body at any point: the closed forms say which case the point is in; the invariant hands the body the scratch at
    what the point before left (at anything at the first point) and takes it back at this point's contents; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 40 := lt_of_lt_of_eq t.isLt (show cfg1.N = 40 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      · rw [PhiS_castSucc V c t, PhiS_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, HR, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 40 := N_1; omega)

end Cert.Kernel.Region1

end
-- ==== Proof.KernelRegion2.lean ====
/-
  Region 2: the second dense layer. Its grid has one point, which takes the whole [1000,128] aggregated array, the
  [128,128] weight and the [1,128] bias row, and writes the [1000,128] result x·Wᵀ + b. Stated at any contents V of the
  core's buffers when the region is entered: what each window's buffer holds after the body, the body's triple, and the
  pipeline's obligation at the point.
-/
import proofs.«144146_j85358180041108_1_alg».proof.Proof.Gen.Kernel.Launch
import proofs.«144146_j85358180041108_1_alg».proof.Proof.Gen.Kernel.Skeleton
import proofs.«144146_j85358180041108_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output window's buffer: its one store, of the payload of the loaded input blocks. -/
def out2_3 (x0 : Vec F S1000x128 .f32) (x1 : Vec F S128x128 .f32) (x2 : Vec F S1x128 .f32) : Vec F S1000x128 .f32 :=
  View.canon [⟨(Rect.unit (s := S1000x128) ![0, 0] S1000x128.size inb_S1000x128_S1000x128_0_0), k2_pay1 (View.ld x0 (Rect.unit (s := S1000x128) ![0, 0] S1000x128.size inb_S1000x128_S1000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The store covers the whole buffer. -/
theorem cover2_3 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The kernel body on whole staging memrefs, the inputs' at known contents and the output's at anything, runs to the
    continuation holding the inputs as they were and the output at `out2_3` of the inputs. -/
theorem sound_kernel2 (c : Dev nD) (E : Set ℕ) (i : grid2.Coords) (arg0 : Memref sig .tc .vmem S1000x128 .f32) (harg0 : arg0.IsWhole) (arg1 : Memref sig .tc .vmem S128x128 .f32) (harg1 : arg1.IsWhole) (arg2 : Memref sig .tc .vmem S1x128 .f32) (harg2 : arg2.IsWhole) (argo : Memref sig .tc .vmem S1000x128 .f32) (hargo : argo.IsWhole)
    (x0 : Vec F S1000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) argo fullShare d)
        ∗ (iprop(owns (c : Thread nD τ) arg0 fullShare x0 ∗ owns (c : Thread nD τ) arg1 fullShare x1 ∗ owns (c : Thread nD τ) arg2 fullShare x2 ∗ owns (c : Thread nD τ) argo fullShare (out2_3 x0 x1 x2)) -∗ K ⟨⟩))
      ⊢ wp frame (wpE (defs₀ (F := F)) Variants.none c none) E (cc2_kernel i arg0 harg0 arg1 harg1 arg2 harg2 argo hargo) K := by
  simp only [cc2_kernel_eq_skeleton]; unfold cc2_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover2_3 _)

/-- The proof data of pipeline 2 on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%dO, HO⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [HO]; · iexists _; iexact HO
  iintro ⟨H0, H1, H2, HO⟩
  isplitl [HΦ]; · iexact HΦ
  isplitl [Ho]; · iexact Ho
  isplitl [H0]; · iexact H0
  isplitl [H1]; · iexact H1
  isplitl [H2]; · iexact H2
  iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant is the same at every point: what the launch hands the region is the invariant before the first point, -/
theorem hin2 (c : Dev nD) : Pipeline.ΦA spec2 c ⊢ (dat2 V c).Φ 0 := .rfl
/-- and the invariant after the last point is handed back. -/
theorem hout2 (c : Dev nD) : (dat2 V c).Φ (Fin.last cfg2.N) ⊢ Pipeline.ΦA spec2 c := .rfl

end Cert.Kernel.Region2

end
-- ==== Proof.KernelRegion3.lean ====
/-
  Region 3: the score network. Its grid has 100 points; point t takes rows 2000·t … 2000·t+1999 of the [200000,256]
  stacked inputs, the [256,256] first weight, its [1,256] bias row, the [1,256] second weight and the [1,1] second bias, and
  writes the [2000,1] block max(x·W1ᵀ + b1, 0)·W2ᵀ + b2 of the scores. Stated at any contents V of the core's buffers
  when the region is entered: what each window's buffer holds after the body at each point, the body's triple, and the
  pipeline's per-point obligation.
-/
import proofs.«144146_j85358180041108_1_alg».proof.Proof.Gen.Kernel.Launch
import proofs.«144146_j85358180041108_1_alg».proof.Proof.Gen.Kernel.Skeleton
import proofs.«144146_j85358180041108_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the output window's buffer: its one store, of the payload of the loaded input blocks. -/
def out3_5 (x0 : Vec F S2000x256 .f32) (x1 : Vec F S256x256 .f32) (x2 : Vec F S1x256 .f32) (x3 : Vec F S1x256 .f32) (x4 : Vec F S1x1 .f32) : Vec F S2000x1 .f32 :=
  View.canon [⟨(Rect.unit (s := S2000x1) ![0, 0] S2000x1.size inb_S2000x1_S2000x1_0_0),
    k3_pay1 (View.ld x0 (Rect.unit (s := S2000x256) ![0, 0] S2000x256.size inb_S2000x256_S2000x256_0_0))
      (View.ld x1 (Rect.unit (s := S256x256) ![0, 0] S256x256.size inb_S256x256_S256x256_0_0))
      (View.ld x2 (Rect.unit (s := S1x256) ![0, 0] S1x256.size inb_S1x256_S1x256_0_0))
      (View.ld x3 (Rect.unit (s := S1x256) ![0, 0] S1x256.size inb_S1x256_S1x256_0_0))
      (View.ld x4 (Rect.unit (s := S1x1) ![0, 0] S1x1.size inb_S1x1_S1x1_0_0))⟩]

/-- The store covers the whole buffer. -/
theorem cover3_5 (p0 : Vec F S2000x1 .f32) (y : S2000x1.Idx) :
    ∃ pc ∈ ([⟨(Rect.unit (s := S2000x1) ![0, 0] S2000x1.size inb_S2000x1_S2000x1_0_0), p0⟩] : List (View.Piece (Elt F) S2000x1 .f32)), y ∈ pc.1.set :=
  View.cover_of_tiled [⟨(Rect.unit (s := S2000x1) ![0, 0] S2000x1.size inb_S2000x1_S2000x1_0_0), p0⟩] S2000x1.size (by rfl) y

set_option maxHeartbeats 4000000 in
/-- The kernel body on whole staging memrefs, the inputs' at known contents and the output's at anything, runs to the
    continuation holding the inputs as they were and the output at `out3_5` of the inputs. -/
theorem sound_kernel3 (c : Dev nD) (E : Set ℕ) (i : grid3.Coords) (arg0 : Memref sig .tc .vmem S2000x256 .f32) (harg0 : arg0.IsWhole) (arg1 : Memref sig .tc .vmem S256x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x1 .f32) (harg4 : arg4.IsWhole) (argo : Memref sig .tc .vmem S2000x1 .f32) (hargo : argo.IsWhole)
    (x0 : Vec F S2000x256 .f32) (x1 : Vec F S256x256 .f32) (x2 : Vec F S1x256 .f32) (x3 : Vec F S1x256 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) argo fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) argo fullShare (out3_5 x0 x1 x2 x3 x4)) -∗ K ⟨⟩))
      ⊢ wp frame (wpE (defs₀ (F := F)) Variants.none c none) E (cc3_kernel i arg0 harg0 arg1 harg1 arg2 harg2 arg3 harg3 arg4 harg4 argo hargo) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover3_5 _)

/-- The proof data of pipeline 3 on core `c`: the arrays as the region finds them; after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%dO, HO⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [HO]; · iexists _; iexact HO
  iintro ⟨H0, H1, H2, H3, H4, HO⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact HO

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant is the same at every point: what the launch hands the region is the invariant before the first point, -/
theorem hin3 (c : Dev nD) : Pipeline.ΦA spec3 c ⊢ (dat3 V c).Φ 0 := .rfl
/-- and the invariant after the last point is handed back. -/
theorem hout3 (c : Dev nD) : (dat3 V c).Φ (Fin.last cfg3.N) ⊢ Pipeline.ΦA spec3 c := .rfl

end Cert.Kernel.Region3

end
-- ==== Proof.KernelRun.lean ====
/-
  The run of the kernel's host program: nine segments in order — a stretch of host operations, the first dense layer's
  region, the neighbourhood means (gathers and scatter-sums), the four-relation combine region, the degree-normalised
  aggregation, the second dense layer's region, the four gathered-and-concatenated score inputs, the score network's
  region, and the final slices and differences. The contents of the core's buffers at every boundary are a fold from the
  launch memory: a host stretch applies its operations; a region leaves its input arrays as entered and its output array
  at what the write-backs of its blocks leave. From that fold the run reads every unscoped buffer at the end.
-/
import proofs.«144146_j85358180041108_1_alg».proof.Proof.KernelRegion0
import proofs.«144146_j85358180041108_1_alg».proof.Proof.KernelRegion1
import proofs.«144146_j85358180041108_1_alg».proof.Proof.KernelRegion2
import proofs.«144146_j85358180041108_1_alg».proof.Proof.KernelRegion3

set_option maxRecDepth 16384

noncomputable section

namespace Cert.Kernel.Run

open Cert.Kernel Cert.Kernel.Gen
open Cert.Kernel.Region0 Cert.Kernel.Region1 Cert.Kernel.Region2 Cert.Kernel.Region3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch: what the program returns with. -/
abbrev W9 : Dev nD → Valuation τ sig (Elt F) := fun c => StableHlo.after hostOps4 (W8 m ρ c)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and every final state has every unscoped buffer of each core at the fold's last contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Run

end
-- ==== Proof.KernelFrame.lean ====
/-
  The frame of the kernel's host program: it runs to the end without a fault, and its argument arrays end as launched.
  No host operation writes an argument (each writes only its own result buffer), and a region changes only its output
  array, which is no argument; so the fold of the buffers' contents, read at an argument, walks back to the launch memory.
-/
import proofs.«144146_j85358180041108_1_alg».proof.Proof.KernelRun

set_option maxRecDepth 16384

noncomputable section

namespace Cert.Kernel.Run

open Cert.Kernel Cert.Kernel.Gen
open Cert.Kernel.Region0 Cert.Kernel.Region1 Cert.Kernel.Region2 Cert.Kernel.Region3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the host stretches write -/

/-- The references each host stretch's operations write, in order. -/
abbrev hostOps0_W : List (Ref sig .tc) := [main_v0]
abbrev hostOps1_W : List (Ref sig .tc) := [main_c, main_v2, main_v3, main_c_0, main_v4, main_v5, main_v6, main_v7, main_v8, main_cst, main_v9, main_v10, main_v11, main_cst_1, main_v12, main_cst_2, main_v13, main_v14, main_v15, main_cst_3, main_v16, main_v17, main_v18, main_v19, main_c_4, main_v20, main_v21, main_c_5, main_v22, main_v23, main_v24, main_v25, main_v26, main_cst_6, main_v27, main_v28, main_v29, main_cst_7, main_v30, main_cst_8, main_v31, main_v32, main_v33, main_cst_9, main_v34, main_v35, main_v36, main_v37, main_c_10, main_v38, main_v39, main_c_11, main_v40, main_v41, main_v42, main_v43, main_v44, main_cst_12, main_v45, main_v46, main_v47, main_cst_13, main_v48, main_cst_14, main_v49, main_v50, main_v51, main_cst_15, main_v52, main_v53, main_v54, main_v55, main_c_16, main_v56, main_v57, main_c_17, main_v58, main_v59, main_v60, main_v61, main_v62, main_cst_18, main_v63, main_v64, main_v65, main_cst_19, main_v66, main_cst_20, main_v67, main_v68, main_v69, main_cst_21, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100]
abbrev hostOps2_W : List (Ref sig .tc) := [main_cst_22, main_v102, main_cst_23, main_v103, main_v104, main_v105, main_cst_24, main_v106, main_v107, main_cst_25, main_v108, main_v109, main_cst_26, main_v110, main_v111, main_v112, main_cst_27, main_v113, main_v114, main_cst_28, main_v115, main_v116, main_v117, main_v118, main_v119, main_c_29, main_v120, main_v121, main_c_30, main_v122, main_v123, main_v124, main_v125, main_v126, main_cst_31, main_v127, main_v128, main_v129, main_v130, main_v131, main_v132, main_v133]
abbrev hostOps3_W : List (Ref sig .tc) := [main_c_32, main_v135, main_v136, main_c_33, main_v137, main_v138, main_v139, main_v140, main_v141, main_c_34, main_v142, main_v143, main_c_35, main_v144, main_v145, main_v146, main_v147, main_v148, main_v149, main_c_36, main_v150, main_v151, main_c_37, main_v152, main_v153, main_v154, main_v155, main_v156, main_c_38, main_v157, main_v158, main_c_39, main_v159, main_v160, main_v161, main_v162, main_v163, main_v164, main_c_40, main_v165, main_v166, main_c_41, main_v167, main_v168, main_v169, main_v170, main_v171, main_c_42, main_v172, main_v173, main_c_43, main_v174, main_v175, main_v176, main_v177, main_v178, main_v179, main_c_44, main_v180, main_v181, main_c_45, main_v182, main_v183, main_v184, main_v185, main_v186, main_c_46, main_v187, main_v188, main_c_47, main_v189, main_v190, main_v191, main_v192, main_v193, main_v194, main_v195, main_v196, main_v197]
abbrev hostOps4_W : List (Ref sig .tc) := [main_v199, main_v200, main_v201, main_v202, main_v203, main_v204]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A host stretch leaves a buffer none of its operations writes as it found it. -/
theorem after_keep (ops : List (HloOp τ sig (Elt F))) (Wl : List (Ref sig .tc))
    (hw : ops.Forall fun op => op.writes ⊆ (Wl.map (Proc.devRef (τ := τ) .tc)).toFinset)
    (X : Valuation τ sig (Elt F)) (b : Ref sig .tc) (hb : b ∉ Wl) :
    StableHlo.after ops X (Proc.devRef .tc b) = X (Proc.devRef .tc b) :=
  StableHlo.after_of_forall_not_mem ops X fun op hop hmem => by
    have h1 := (List.forall_iff_forall_mem.mp hw) op hop hmem
    rw [List.mem_toFinset, List.mem_map] at h1
    obtain ⟨a, ha, e⟩ := h1
    by_cases hab : a = b
    · exact hb (hab ▸ ha)
    · exact StableHlo.devRef_ne_of_ne hab e

/-! ## What the regions change -/

/-- Region 0 leaves every buffer but its output array as it found it: an input window's array by the pipeline's own
    account of an input, a buffer no window stages because the region never touches it. -/
theorem W2_keep (c : Dev nD) (b : Ref sig .tc) (hb : b ≠ Pipeline.arrRef spec0 3) :
    W2 m ρ c (Proc.devRef .tc b) = W1 m ρ c (Proc.devRef .tc b) := by
  by_cases h : ∃ w, Pipeline.arrRef spec0 w = b
  · obtain ⟨w, rfl⟩ := h
    rw [W2_arr]
    match w, hb with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, hb => exact absurd rfl hb
  · exact W2_of_ne m ρ c b fun w e => h ⟨w, e⟩

/-- Region 1 leaves every buffer but its output array as it found it: an input window's array by the pipeline's own
    account of an input, a buffer no window stages because the region never touches it. -/
theorem W4_keep (c : Dev nD) (b : Ref sig .tc) (hb : b ≠ Pipeline.arrRef spec1 6) :
    W4 m ρ c (Proc.devRef .tc b) = W3 m ρ c (Proc.devRef .tc b) := by
  by_cases h : ∃ w, Pipeline.arrRef spec1 w = b
  · obtain ⟨w, rfl⟩ := h
    rw [W4_arr]
    match w, hb with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, _ => exact ((dat1 (V3 m ρ) c).arrAt_in 4 rfl _).trans (A_eq1 (V3 m ρ) c 4)
    | ⟨5, _⟩, _ => exact ((dat1 (V3 m ρ) c).arrAt_in 5 rfl _).trans (A_eq1 (V3 m ρ) c 5)
    | ⟨6, _⟩, hb => exact absurd rfl hb
  · exact W4_of_ne m ρ c b fun w e => h ⟨w, e⟩

/-- Region 2 leaves every buffer but its output array as it found it: an input window's array by the pipeline's own
    account of an input, a buffer no window stages because the region never touches it. -/
theorem W6_keep (c : Dev nD) (b : Ref sig .tc) (hb : b ≠ Pipeline.arrRef spec2 3) :
    W6 m ρ c (Proc.devRef .tc b) = W5 m ρ c (Proc.devRef .tc b) := by
  by_cases h : ∃ w, Pipeline.arrRef spec2 w = b
  · obtain ⟨w, rfl⟩ := h
    rw [W6_arr]
    match w, hb with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, _ => exact ((dat2 (V5 m ρ) c).arrAt_in 2 rfl _).trans (A_eq2 (V5 m ρ) c 2)
    | ⟨3, _⟩, hb => exact absurd rfl hb
  · exact W6_of_ne m ρ c b fun w e => h ⟨w, e⟩

/-- Region 3 leaves every buffer but its output array as it found it: an input window's array by the pipeline's own
    account of an input, a buffer no window stages because the region never touches it. -/
theorem W8_keep (c : Dev nD) (b : Ref sig .tc) (hb : b ≠ Pipeline.arrRef spec3 5) :
    W8 m ρ c (Proc.devRef .tc b) = W7 m ρ c (Proc.devRef .tc b) := by
  by_cases h : ∃ w, Pipeline.arrRef spec3 w = b
  · obtain ⟨w, rfl⟩ := h
    rw [W8_arr]
    match w, hb with
    | ⟨0, _⟩, _ => exact ((dat3 (V7 m ρ) c).arrAt_in 0 rfl _).trans (A_eq3 (V7 m ρ) c 0)
    | ⟨1, _⟩, _ => exact ((dat3 (V7 m ρ) c).arrAt_in 1 rfl _).trans (A_eq3 (V7 m ρ) c 1)
    | ⟨2, _⟩, _ => exact ((dat3 (V7 m ρ) c).arrAt_in 2 rfl _).trans (A_eq3 (V7 m ρ) c 2)
    | ⟨3, _⟩, _ => exact ((dat3 (V7 m ρ) c).arrAt_in 3 rfl _).trans (A_eq3 (V7 m ρ) c 3)
    | ⟨4, _⟩, _ => exact ((dat3 (V7 m ρ) c).arrAt_in 4 rfl _).trans (A_eq3 (V7 m ρ) c 4)
    | ⟨5, _⟩, hb => exact absurd rfl hb
  · exact W8_of_ne m ρ c b fun w e => h ⟨w, e⟩

/-! ## An untouched buffer ends as launched -/

/-- A buffer no host operation writes and no region has for its output array. -/
def Untouched (b : Ref sig .tc) : Prop :=
  b ∉ hostOps0_W ∧ b ∉ hostOps1_W ∧ b ∉ hostOps2_W ∧ b ∉ hostOps3_W ∧ b ∉ hostOps4_W
    ∧ b ≠ Pipeline.arrRef spec0 3 ∧ b ≠ Pipeline.arrRef spec1 6 ∧ b ≠ Pipeline.arrRef spec2 3 ∧ b ≠ Pipeline.arrRef spec3 5

instance (b : Ref sig .tc) : Decidable (Untouched b) := by unfold Untouched; infer_instance

/-- Such a buffer holds its launch contents at the end: the fold walks back through the nine segments. -/
theorem W9_untouched (c : Dev nD) (b : Ref sig .tc) (h : Untouched b) :
    W9 m ρ c (Proc.devRef .tc b) = m ((c : Thread nD τ).loc b) := by
  obtain ⟨h0, h1, h2, h3, h4, r0, r1, r2, r3⟩ := h
  calc W9 m ρ c (Proc.devRef .tc b)
    _ = W8 m ρ c (Proc.devRef .tc b) := after_keep hostOps4 hostOps4_W hostOps4_writes _ b h4
    _ = W7 m ρ c (Proc.devRef .tc b) := W8_keep m ρ c b r3
    _ = W6 m ρ c (Proc.devRef .tc b) := after_keep hostOps3 hostOps3_W hostOps3_writes _ b h3
    _ = W5 m ρ c (Proc.devRef .tc b) := W6_keep m ρ c b r2
    _ = W4 m ρ c (Proc.devRef .tc b) := after_keep hostOps2 hostOps2_W hostOps2_writes _ b h2
    _ = W3 m ρ c (Proc.devRef .tc b) := W4_keep m ρ c b r1
    _ = W2 m ρ c (Proc.devRef .tc b) := after_keep hostOps1 hostOps1_W hostOps1_writes _ b h1
    _ = W1 m ρ c (Proc.devRef .tc b) := W2_keep m ρ c b r0
    _ = W0 m ρ c (Proc.devRef .tc b) := after_keep hostOps0 hostOps0_W hostOps0_writes _ b h0
    _ = m ((c : Thread nD τ).loc b) := rfl

/-- Read against a final state of the run. -/
theorem kept_of_run {r : PUnit × MemSt nD τ sig (Elt F)}
    (h : ∀ c : Dev nD, ∀ b ∈ Pipeline.ucRefs τ sig, r.2.mem (((c : Thread nD τ)).1, b) = W9 m ρ c b) (c : Dev nD)
    (b : Ref sig .tc) (hs : ¬ (Proc.devRef .tc b : DevRef τ sig).isScoped) (hu : Untouched b) :
    r.2.mem ((c.tc : Thread nD τ).loc b) = m ((c.tc : Thread nD τ).loc b) :=
  (h c _ (mem_uc b hs)).trans (W9_untouched m ρ c b hu)

/-- The frame: every weakly fair execution terminates, nothing faulting, with the 47 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)) :=
  (θ_run defs _ _).mono (fun r h c =>
    ⟨kept_of_run m ρ h c main_arg0 (by decide) (by decide),
     kept_of_run m ρ h c main_arg1 (by decide) (by decide),
     kept_of_run m ρ h c main_arg2 (by decide) (by decide),
     kept_of_run m ρ h c main_arg3 (by decide) (by decide),
     kept_of_run m ρ h c main_arg4 (by decide) (by decide),
     kept_of_run m ρ h c main_arg5 (by decide) (by decide),
     kept_of_run m ρ h c main_arg6 (by decide) (by decide),
     kept_of_run m ρ h c main_arg7 (by decide) (by decide),
     kept_of_run m ρ h c main_arg8 (by decide) (by decide),
     kept_of_run m ρ h c main_arg9 (by decide) (by decide),
     kept_of_run m ρ h c main_arg10 (by decide) (by decide),
     kept_of_run m ρ h c main_arg11 (by decide) (by decide),
     kept_of_run m ρ h c main_arg12 (by decide) (by decide),
     kept_of_run m ρ h c main_arg13 (by decide) (by decide),
     kept_of_run m ρ h c main_arg14 (by decide) (by decide),
     kept_of_run m ρ h c main_arg15 (by decide) (by decide),
     kept_of_run m ρ h c main_arg16 (by decide) (by decide),
     kept_of_run m ρ h c main_arg17 (by decide) (by decide),
     kept_of_run m ρ h c main_arg18 (by decide) (by decide),
     kept_of_run m ρ h c main_arg19 (by decide) (by decide),
     kept_of_run m ρ h c main_arg20 (by decide) (by decide),
     kept_of_run m ρ h c main_arg21 (by decide) (by decide),
     kept_of_run m ρ h c main_arg22 (by decide) (by decide),
     kept_of_run m ρ h c main_arg23 (by decide) (by decide),
     kept_of_run m ρ h c main_arg24 (by decide) (by decide),
     kept_of_run m ρ h c main_arg25 (by decide) (by decide),
     kept_of_run m ρ h c main_arg26 (by decide) (by decide),
     kept_of_run m ρ h c main_arg27 (by decide) (by decide),
     kept_of_run m ρ h c main_arg28 (by decide) (by decide),
     kept_of_run m ρ h c main_arg29 (by decide) (by decide),
     kept_of_run m ρ h c main_arg30 (by decide) (by decide),
     kept_of_run m ρ h c main_arg31 (by decide) (by decide),
     kept_of_run m ρ h c main_arg32 (by decide) (by decide),
     kept_of_run m ρ h c main_arg33 (by decide) (by decide),
     kept_of_run m ρ h c main_arg34 (by decide) (by decide),
     kept_of_run m ρ h c main_arg35 (by decide) (by decide),
     kept_of_run m ρ h c main_arg36 (by decide) (by decide),
     kept_of_run m ρ h c main_arg37 (by decide) (by decide),
     kept_of_run m ρ h c main_arg38 (by decide) (by decide),
     kept_of_run m ρ h c main_arg39 (by decide) (by decide),
     kept_of_run m ρ h c main_arg40 (by decide) (by decide),
     kept_of_run m ρ h c main_arg41 (by decide) (by decide),
     kept_of_run m ρ h c main_arg42 (by decide) (by decide),
     kept_of_run m ρ h c main_arg43 (by decide) (by decide),
     kept_of_run m ρ h c main_arg44 (by decide) (by decide),
     kept_of_run m ρ h c main_arg45 (by decide) (by decide),
     kept_of_run m ρ h c main_arg46 (by decide) (by decide)⟩) (run_main m ρ)

end Cert.Kernel.Run

end
-- ==== Proof.KernelIdealRegion0.lean ====
/-
  Region 0: the first dense layer. Its grid has 8 points; point t takes rows 1000·t … 1000·t+999 of the [8000,1024]
  feature array, the whole [128,1024] weight and the [1,128] bias row, and writes the [1000,128] block
  x·Wᵀ + b of the result. Stated at any contents V of the core's buffers when the region is entered: what each window's
  buffer holds after the body at each point, the body's triple, and the pipeline's per-point obligation.
-/
import proofs.«144146_j85358180041108_1_alg».proof.Proof.Gen.KernelIdeal.Launch
import proofs.«144146_j85358180041108_1_alg».proof.Proof.Gen.KernelIdeal.Skeleton
import proofs.«144146_j85358180041108_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer: its one store, of the payload of the loaded input blocks. -/
def out0_3 (x0 : Vec F S1000x1024 .f32) (x1 : Vec F S128x1024 .f32) (x2 : Vec F S1x128 .f32) : Vec F S1000x128 .f32 :=
  View.canon [⟨(Rect.unit (s := S1000x128) ![0, 0] S1000x128.size inb_S1000x128_S1000x128_0_0), k0_pay1 (View.ld x0 (Rect.unit (s := S1000x1024) ![0, 0] S1000x1024.size inb_S1000x1024_S1000x1024_0_0)) (View.ld x1 (Rect.unit (s := S128x1024) ![0, 0] S128x1024.size inb_S128x1024_S128x1024_0_0)) (View.ld x2 (Rect.unit (s := S1x128) ![0, 0] S1x128.size inb_S1x128_S1x128_0_0))⟩]

/-- The store covers the whole buffer. -/
theorem cover0_3 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The kernel body on whole staging memrefs, the inputs' at known contents and the output's at anything, runs to the
    continuation holding the inputs as they were and the output at `out0_3` of the inputs. -/
theorem sound_kernel0 (c : Dev nD) (E : Set ℕ) (i : grid0.Coords) (arg0 : Memref sig .tc .vmem S1000x1024 .f32) (harg0 : arg0.IsWhole) (arg1 : Memref sig .tc .vmem S128x1024 .f32) (harg1 : arg1.IsWhole) (arg2 : Memref sig .tc .vmem S1x128 .f32) (harg2 : arg2.IsWhole) (argo : Memref sig .tc .vmem S1000x128 .f32) (hargo : argo.IsWhole)
    (x0 : Vec F S1000x1024 .f32) (x1 : Vec F S128x1024 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) argo fullShare d)
        ∗ (iprop(owns (c : Thread nD τ) arg0 fullShare x0 ∗ owns (c : Thread nD τ) arg1 fullShare x1 ∗ owns (c : Thread nD τ) arg2 fullShare x2 ∗ owns (c : Thread nD τ) argo fullShare (out0_3 x0 x1 x2)) -∗ K ⟨⟩))
      ⊢ wp frame (wpE (defs₀ (F := F)) Variants.none c none) E (cc0_kernel i arg0 harg0 arg1 harg1 arg2 harg2 argo hargo) K := by
  simp only [cc0_kernel_eq_skeleton]; unfold cc0_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover0_3 _)

/-- The proof data of pipeline 0 on core `c`: the arrays as the region finds them; after the body at point `t` each
    input's buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%dO, HO⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [HO]; · iexists _; iexact HO
  iintro ⟨H0, H1, H2, HO⟩
  isplitl [HΦ]; · iexact HΦ
  isplitl [Ho]; · iexact Ho
  isplitl [H0]; · iexact H0
  isplitl [H1]; · iexact H1
  isplitl [H2]; · iexact H2
  iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant is the same at every point: what the launch hands the region is the invariant before the first point, -/
theorem hin0 (c : Dev nD) : Pipeline.ΦA spec0 c ⊢ (dat0 V c).Φ 0 := .rfl
/-- and the invariant after the last point is handed back. -/
theorem hout0 (c : Dev nD) : (dat0 V c).Φ (Fin.last cfg0.N) ⊢ Pipeline.ΦA spec0 c := .rfl

end Cert.KernelIdeal.Region0

end
-- ==== Proof.KernelIdealRegion1Base.lean ====
/-
  Region 1, shared part: the four-relation combine. Its grid is 10 × 4: point (i, r) takes rows 2000·i … 2000·i+1999 of the
  node features, the same rows of relation r's neighbourhood means, and relation r's two weights and two bias rows; a
  [2000,128] scratch is zeroed at r = 0, the relation's term (h·Wsᵀ + bs + hn·Wnᵀ) + bn is added to it at every r, and at
  r = 3 the scratch is copied to the output block. Here: the windows' blocks, the two branch conditions in closed form over
  the grid, where the output window is idle, and the names the three control cases' runs are stated over.
-/
import proofs.«144146_j85358180041108_1_alg».proof.Proof.Gen.KernelIdeal.Launch
import proofs.«144146_j85358180041108_1_alg».proof.Proof.Gen.KernelIdeal.Skeleton
import proofs.«144146_j85358180041108_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first branch (zero the scratch): the relation index is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (copy the scratch out): the relation index is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the relation index is 0 the output window is idle and not written back, -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- likewise where it is 1 or 2, -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- and where it is 3 the output window is live. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated. -/
abbrev VO1_6 : View sig .tc .vmem S2000x128 .f32 := (Memref.whole cc1_stg6_0 : Memref sig .tc .vmem S2000x128 .f32).view
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2000x128 .f32 := win1_6.stage (cfg1.slots t 6)
abbrev hs1_6 (t : Fin cfg1.N) : (ms1_6 t).IsWhole := hstage1_6 ((cfg1.slots t 6).cast nbuf1_6)
/-- The scratch operand: a whole scoped buffer of the kernel's own. -/
abbrev scM1_0 : Memref sig .tc .vmem S2000x128 .f32 := Memref.whole cc1_scratch0
/-- The carried scratch as a view: what it holds is stated through it. -/
abbrev VS1_0 : View sig .tc .vmem S2000x128 .f32 := scM1_0.view

/-- The core's other scoped buffers (the other regions' staging buffers), each at anything: carried unopened. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the scratch operand split out as a memref owned at some contents. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole, bigSepL_singleton]; try rfl

end Cert.KernelIdeal.Region1

end
-- ==== Proof.KernelIdealRegion1RunA.lean ====
/-
  Region 1, the case "relation index 0": the body zeroes the scratch, adds the relation's term to it, and leaves the output
  buffer untouched. The pieces the scratch ends with are found by running the body.
-/
import proofs.«144146_j85358180041108_1_alg».proof.Proof.KernelIdealRegion1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Where the relation index is 0: on whole memrefs — the inputs at their contents, the output buffer at contents handed
    back untouched, the scratch at anything — the body runs to the continuation holding the inputs as they were and the
    scratch with its pieces written. -/
noncomputable def kernelRun1_A (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) :
    Σ' (L6 : List (View.Piece (Elt F) S2000x128 .f32)), { LS0 : List (View.Piece (Elt F) S2000x128 .f32) //
      ∀ (xi6 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, fun xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Region1

end
-- ==== Proof.KernelIdealRegion1RunB.lean ====
/-
  Region 1, the case "relation index 1 or 2": the body adds the relation's term to the scratch, which holds what the point
  before left, and leaves the output buffer untouched.
-/
import proofs.«144146_j85358180041108_1_alg».proof.Proof.KernelIdealRegion1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Where the relation index is 1 or 2: on whole memrefs — the inputs at their contents, the output buffer at contents
    handed back untouched, the scratch at what the point before left — the body runs to the continuation holding the inputs
    as they were and the scratch with its pieces written. -/
noncomputable def kernelRun1_B (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) :
    Σ' (L6 : List (View.Piece (Elt F) S2000x128 .f32)), { LS0 : List (View.Piece (Elt F) S2000x128 .f32) //
      ∀ (xi6 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, fun xi6 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Region1

end
-- ==== Proof.KernelIdealRegion1RunC.lean ====
/-
  Region 1, the case "relation index 3": the body adds the relation's term to the scratch, which holds what the point before
  left, and copies the scratch to the output buffer.
-/
import proofs.«144146_j85358180041108_1_alg».proof.Proof.KernelIdealRegion1Base

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- Where the relation index is 3: on whole memrefs — the inputs at their contents, the output buffer at anything, the
    scratch at what the point before left — the body runs to the continuation holding the inputs as they were and the
    output buffer and the scratch each with its pieces written. -/
noncomputable def kernelRun1_C (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) :
    Σ' (L6 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Region1

end
-- ==== Proof.KernelIdealRegion1.lean ====
/-
  Region 1, assembled. After the body at point n the scratch holds the sum of the relation terms of the point's row block over
  the relations met so far (zero, then one term per point, restarted where the relation index is 0), and where the relation
  index is 3 the output buffer holds a copy of it. This is stated by recursion on the point over the three cases' runs; the
  region's invariant carries the scratch at that value from each point to the next; and the pipeline's per-point obligation
  follows case by case.
-/
import proofs.«144146_j85358180041108_1_alg».proof.Proof.KernelIdealRegion1RunA
import proofs.«144146_j85358180041108_1_alg».proof.Proof.KernelIdealRegion1RunB
import proofs.«144146_j85358180041108_1_alg».proof.Proof.KernelIdealRegion1RunC

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Relation index 0: the scratch's pieces cover it. -/
theorem scover1_A_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (y : S2000x128.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S2000x128.size (by sl_kernel_rfl) y
/-- What it leaves in the scratch. -/
def sout1_A_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) : Vec F S2000x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)
/-- It stores nothing into the output buffer: a placeholder nothing consults. -/
def out1_A_6 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) : Vec F S2000x128 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Relation index 1 or 2: the scratch's pieces cover it. -/
theorem scover1_B_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) (y : S2000x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S2000x128.size (by sl_kernel_rfl) y
def sout1_B_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) : Vec F S2000x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)
def out1_B_6 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) : Vec F S2000x128 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Relation index 3: the output buffer's pieces and the scratch's pieces cover them. -/
theorem cover1_C_6 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) (y : S2000x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S2000x128.size (by sl_kernel_rfl) y
def out1_C_6 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) : Vec F S2000x128 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)
theorem scover1_C_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) (y : S2000x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S2000x128.size (by sl_kernel_rfl) y
def sout1_C_0 (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) : Vec F S2000x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## What the output buffer and the scratch hold after each point -/

/-- After the body at position `n`: the output window's buffer, then the scratch — the case the closed forms select at
    `n`, run at the point's memrefs and input blocks, over what the point before left in the scratch. -/
def outsAt1 (c : Dev nD) : (n : ℕ) → n < cfg1.N → Vec F S2000x128 .f32 × Vec F S2000x128 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At a point where the relation index is 0. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a point where the relation index is 1 or 2, over what the point before left. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point where the relation index is 3, over what the point before left. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the class invariant (the scratch at anything); afterwards the scratch at what the
    point before left, the other scoped buffers at anything, and the generator register at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ Rest1 c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM1_0 fullShare ((outsAt1 V c n hn).2)) ∗ Rest1 c ∗ (∃ r, prngReg c r)) := rfl
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ Rest1 c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 16000000 in
/-- The body at any point: the closed forms say which case the point is in; the invariant hands the body the scratch at
    what the point before left (at anything at the first point) and takes it back at this point's contents; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 40 := lt_of_lt_of_eq t.isLt (show cfg1.N = 40 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      · rw [PhiS_castSucc V c t, PhiS_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 HR Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 HR Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, HR, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 40 := N_1; omega)

end Cert.KernelIdeal.Region1

end
-- ==== Proof.KernelIdealRegion2.lean ====
/-
  Region 2: the second dense layer. Its grid has one point, which takes the whole [1000,128] aggregated array, the
  [128,128] weight and the [1,128] bias row, and writes the [1000,128] result x·Wᵀ + b. Stated at any contents V of the
  core's buffers when the region is entered: what each window's buffer holds after the body, the body's triple, and the
  pipeline's obligation at the point.
-/
import proofs.«144146_j85358180041108_1_alg».proof.Proof.Gen.KernelIdeal.Launch
import proofs.«144146_j85358180041108_1_alg».proof.Proof.Gen.KernelIdeal.Skeleton
import proofs.«144146_j85358180041108_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in the output window's buffer: its one store, of the payload of the loaded input blocks. -/
def out2_3 (x0 : Vec F S1000x128 .f32) (x1 : Vec F S128x128 .f32) (x2 : Vec F S1x128 .f32) : Vec F S1000x128 .f32 :=
  View.canon [⟨(Rect.unit (s := S1000x128) ![0, 0] S1000x128.size inb_S1000x128_S1000x128_0_0), k2_pay1 (View.ld x0 (Rect.unit (s := S1000x128) ![0, 0] S1000x128.size inb_S1000x128_S1000x128_0_0)) (View.ld x1 (Rect.unit (s := S128x128) ![0, 0] S128x128.size inb_S128x128_S128x128_0_0)) (View.ld x2 (Rect.unit (s := S1x128) ![0, 0] S1x128.size inb_S1x128_S1x128_0_0))⟩]

/-- The store covers the whole buffer. -/
theorem cover2_3 (p0 : Vec F S1000x128 .f32) (y : S1000x128.Idx) :
    ∃ pc ∈ ([⟨(Rect.unit (s := S1000x128) ![0, 0] S1000x128.size inb_S1000x128_S1000x128_0_0), p0⟩] : List (View.Piece (Elt F) S1000x128 .f32)), y ∈ pc.1.set :=
  View.cover_of_tiled [⟨(Rect.unit (s := S1000x128) ![0, 0] S1000x128.size inb_S1000x128_S1000x128_0_0), p0⟩] S1000x128.size (by rfl) y

set_option maxHeartbeats 4000000 in
/-- The kernel body on whole staging memrefs, the inputs' at known contents and the output's at anything, runs to the
    continuation holding the inputs as they were and the output at `out2_3` of the inputs. -/
theorem sound_kernel2 (c : Dev nD) (E : Set ℕ) (i : grid2.Coords) (arg0 : Memref sig .tc .vmem S1000x128 .f32) (harg0 : arg0.IsWhole) (arg1 : Memref sig .tc .vmem S128x128 .f32) (harg1 : arg1.IsWhole) (arg2 : Memref sig .tc .vmem S1x128 .f32) (harg2 : arg2.IsWhole) (argo : Memref sig .tc .vmem S1000x128 .f32) (hargo : argo.IsWhole)
    (x0 : Vec F S1000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) argo fullShare d)
        ∗ (iprop(owns (c : Thread nD τ) arg0 fullShare x0 ∗ owns (c : Thread nD τ) arg1 fullShare x1 ∗ owns (c : Thread nD τ) arg2 fullShare x2 ∗ owns (c : Thread nD τ) argo fullShare (out2_3 x0 x1 x2)) -∗ K ⟨⟩))
      ⊢ wp frame (wpE (defs₀ (F := F)) Variants.none c none) E (cc2_kernel i arg0 harg0 arg1 harg1 arg2 harg2 argo hargo) K := by
  simp only [cc2_kernel_eq_skeleton]; unfold cc2_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (cover2_3 _)

/-- The proof data of pipeline 2 on core `c`: the arrays as the region finds them; after the body at point `t` each
    input's buffer at its block and the output's at `out2_3` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%dO, HO⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [HO]; · iexists _; iexact HO
  iintro ⟨H0, H1, H2, HO⟩
  isplitl [HΦ]; · iexact HΦ
  isplitl [Ho]; · iexact Ho
  isplitl [H0]; · iexact H0
  isplitl [H1]; · iexact H1
  isplitl [H2]; · iexact H2
  iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The invariant is the same at every point: what the launch hands the region is the invariant before the first point, -/
theorem hin2 (c : Dev nD) : Pipeline.ΦA spec2 c ⊢ (dat2 V c).Φ 0 := .rfl
/-- and the invariant after the last point is handed back. -/
theorem hout2 (c : Dev nD) : (dat2 V c).Φ (Fin.last cfg2.N) ⊢ Pipeline.ΦA spec2 c := .rfl

end Cert.KernelIdeal.Region2

end
-- ==== Proof.KernelIdealRegion3.lean ====
/-
  Region 3: the score network. Its grid has 100 points; point t takes rows 2000·t … 2000·t+1999 of the [200000,256]
  stacked inputs, the [256,256] first weight, its [1,256] bias row, the [1,256] second weight and the [1,1] second bias, and
  writes the [2000,1] block max(x·W1ᵀ + b1, 0)·W2ᵀ + b2 of the scores. Stated at any contents V of the core's buffers
  when the region is entered: what each window's buffer holds after the body at each point, the body's triple, and the
  pipeline's per-point obligation.
-/
import proofs.«144146_j85358180041108_1_alg».proof.Proof.Gen.KernelIdeal.Launch
import proofs.«144146_j85358180041108_1_alg».proof.Proof.Gen.KernelIdeal.Skeleton
import proofs.«144146_j85358180041108_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the output window's buffer: its one store, of the payload of the loaded input blocks. -/
def out3_5 (x0 : Vec F S2000x256 .f32) (x1 : Vec F S256x256 .f32) (x2 : Vec F S1x256 .f32) (x3 : Vec F S1x256 .f32) (x4 : Vec F S1x1 .f32) : Vec F S2000x1 .f32 :=
  View.canon [⟨(Rect.unit (s := S2000x1) ![0, 0] S2000x1.size inb_S2000x1_S2000x1_0_0),
    k3_pay1 (View.ld x0 (Rect.unit (s := S2000x256) ![0, 0] S2000x256.size inb_S2000x256_S2000x256_0_0))
      (View.ld x1 (Rect.unit (s := S256x256) ![0, 0] S256x256.size inb_S256x256_S256x256_0_0))
      (View.ld x2 (Rect.unit (s := S1x256) ![0, 0] S1x256.size inb_S1x256_S1x256_0_0))
      (View.ld x3 (Rect.unit (s := S1x256) ![0, 0] S1x256.size inb_S1x256_S1x256_0_0))
      (View.ld x4 (Rect.unit (s := S1x1) ![0, 0] S1x1.size inb_S1x1_S1x1_0_0))⟩]

/-- The store covers the whole buffer. -/
theorem cover3_5 (p0 : Vec F S2000x1 .f32) (y : S2000x1.Idx) :
    ∃ pc ∈ ([⟨(Rect.unit (s := S2000x1) ![0, 0] S2000x1.size inb_S2000x1_S2000x1_0_0), p0⟩] : List (View.Piece (Elt F) S2000x1 .f32)), y ∈ pc.1.set :=
  View.cover_of_tiled [⟨(Rect.unit (s := S2000x1) ![0, 0] S2000x1.size inb_S2000x1_S2000x1_0_0), p0⟩] S2000x1.size (by rfl) y

set_option maxHeartbeats 4000000 in
/-- The kernel body on whole staging memrefs, the inputs' at known contents and the output's at anything, runs to the
    continuation holding the inputs as they were and the output at `out3_5` of the inputs. -/
theorem sound_kernel3 (c : Dev nD) (E : Set ℕ) (i : grid3.Coords) (arg0 : Memref sig .tc .vmem S2000x256 .f32) (harg0 : arg0.IsWhole) (arg1 : Memref sig .tc .vmem S256x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x1 .f32) (harg4 : arg4.IsWhole) (argo : Memref sig .tc .vmem S2000x1 .f32) (hargo : argo.IsWhole)
    (x0 : Vec F S2000x256 .f32) (x1 : Vec F S256x256 .f32) (x2 : Vec F S1x256 .f32) (x3 : Vec F S1x256 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) argo fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) argo fullShare (out3_5 x0 x1 x2 x3 x4)) -∗ K ⟨⟩))
      ⊢ wp frame (wpE (defs₀ (F := F)) Variants.none c none) E (cc3_kernel i arg0 harg0 arg1 harg1 arg2 harg2 arg3 harg3 arg4 harg4 argo hargo) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover3_5 _)

/-- The proof data of pipeline 3 on core `c`: the arrays as the region finds them; after the body at point `t` each
    input's buffer at its block and the output's at `out3_5` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%dO, HO⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [HO]; · iexists _; iexact HO
  iintro ⟨H0, H1, H2, H3, H4, HO⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact HO

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant is the same at every point: what the launch hands the region is the invariant before the first point, -/
theorem hin3 (c : Dev nD) : Pipeline.ΦA spec3 c ⊢ (dat3 V c).Φ 0 := .rfl
/-- and the invariant after the last point is handed back. -/
theorem hout3 (c : Dev nD) : (dat3 V c).Φ (Fin.last cfg3.N) ⊢ Pipeline.ΦA spec3 c := .rfl

end Cert.KernelIdeal.Region3

end
-- ==== Proof.KernelIdealRun.lean ====
/-
  The run of the kernel's host program: nine segments in order — a stretch of host operations, the first dense layer's
  region, the neighbourhood means (gathers and scatter-sums), the four-relation combine region, the degree-normalised
  aggregation, the second dense layer's region, the four gathered-and-concatenated score inputs, the score network's
  region, and the final slices and differences. The contents of the core's buffers at every boundary are a fold from the
  launch memory: a host stretch applies its operations; a region leaves its input arrays as entered and its output array
  at what the write-backs of its blocks leave. From that fold the run reads every unscoped buffer at the end.
-/
import proofs.«144146_j85358180041108_1_alg».proof.Proof.KernelIdealRegion0
import proofs.«144146_j85358180041108_1_alg».proof.Proof.KernelIdealRegion1
import proofs.«144146_j85358180041108_1_alg».proof.Proof.KernelIdealRegion2
import proofs.«144146_j85358180041108_1_alg».proof.Proof.KernelIdealRegion3

set_option maxRecDepth 16384

noncomputable section

namespace Cert.KernelIdeal.Run

open Cert.KernelIdeal Cert.KernelIdeal.Gen
open Cert.KernelIdeal.Region0 Cert.KernelIdeal.Region1 Cert.KernelIdeal.Region2 Cert.KernelIdeal.Region3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch: what the program returns with. -/
abbrev W9 : Dev nD → Valuation τ sig (Elt F) := fun c => StableHlo.after hostOps4 (W8 m ρ c)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates, nothing
    faulting, and every final state has every unscoped buffer of each core at the fold's last contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Run

end
-- ==== Proof.KernelIdealFrame.lean ====
/-
  The frame of the kernel's host program: it runs to the end without a fault, and its argument arrays end as launched.
  No host operation writes an argument (each writes only its own result buffer), and a region changes only its output
  array, which is no argument; so the fold of the buffers' contents, read at an argument, walks back to the launch memory.
-/
import proofs.«144146_j85358180041108_1_alg».proof.Proof.KernelIdealRun

set_option maxRecDepth 16384

noncomputable section

namespace Cert.KernelIdeal.Run

open Cert.KernelIdeal Cert.KernelIdeal.Gen
open Cert.KernelIdeal.Region0 Cert.KernelIdeal.Region1 Cert.KernelIdeal.Region2 Cert.KernelIdeal.Region3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the host stretches write -/

/-- The references each host stretch's operations write, in order. -/
abbrev hostOps0_W : List (Ref sig .tc) := [main_v0]
abbrev hostOps1_W : List (Ref sig .tc) := [main_c, main_v2, main_v3, main_c_0, main_v4, main_v5, main_v6, main_v7, main_v8, main_cst, main_v9, main_v10, main_v11, main_cst_1, main_v12, main_cst_2, main_v13, main_v14, main_v15, main_cst_3, main_v16, main_v17, main_v18, main_v19, main_c_4, main_v20, main_v21, main_c_5, main_v22, main_v23, main_v24, main_v25, main_v26, main_cst_6, main_v27, main_v28, main_v29, main_cst_7, main_v30, main_cst_8, main_v31, main_v32, main_v33, main_cst_9, main_v34, main_v35, main_v36, main_v37, main_c_10, main_v38, main_v39, main_c_11, main_v40, main_v41, main_v42, main_v43, main_v44, main_cst_12, main_v45, main_v46, main_v47, main_cst_13, main_v48, main_cst_14, main_v49, main_v50, main_v51, main_cst_15, main_v52, main_v53, main_v54, main_v55, main_c_16, main_v56, main_v57, main_c_17, main_v58, main_v59, main_v60, main_v61, main_v62, main_cst_18, main_v63, main_v64, main_v65, main_cst_19, main_v66, main_cst_20, main_v67, main_v68, main_v69, main_cst_21, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100]
abbrev hostOps2_W : List (Ref sig .tc) := [main_cst_22, main_v102, main_cst_23, main_v103, main_v104, main_v105, main_cst_24, main_v106, main_v107, main_cst_25, main_v108, main_v109, main_cst_26, main_v110, main_v111, main_v112, main_cst_27, main_v113, main_v114, main_cst_28, main_v115, main_v116, main_v117, main_v118, main_v119, main_c_29, main_v120, main_v121, main_c_30, main_v122, main_v123, main_v124, main_v125, main_v126, main_cst_31, main_v127, main_v128, main_v129, main_v130, main_v131, main_v132, main_v133]
abbrev hostOps3_W : List (Ref sig .tc) := [main_c_32, main_v135, main_v136, main_c_33, main_v137, main_v138, main_v139, main_v140, main_v141, main_c_34, main_v142, main_v143, main_c_35, main_v144, main_v145, main_v146, main_v147, main_v148, main_v149, main_c_36, main_v150, main_v151, main_c_37, main_v152, main_v153, main_v154, main_v155, main_v156, main_c_38, main_v157, main_v158, main_c_39, main_v159, main_v160, main_v161, main_v162, main_v163, main_v164, main_c_40, main_v165, main_v166, main_c_41, main_v167, main_v168, main_v169, main_v170, main_v171, main_c_42, main_v172, main_v173, main_c_43, main_v174, main_v175, main_v176, main_v177, main_v178, main_v179, main_c_44, main_v180, main_v181, main_c_45, main_v182, main_v183, main_v184, main_v185, main_v186, main_c_46, main_v187, main_v188, main_c_47, main_v189, main_v190, main_v191, main_v192, main_v193, main_v194, main_v195, main_v196, main_v197]
abbrev hostOps4_W : List (Ref sig .tc) := [main_v199, main_v200, main_v201, main_v202, main_v203, main_v204]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- A host stretch leaves a buffer none of its operations writes as it found it. -/
theorem after_keep (ops : List (HloOp τ sig (Elt F))) (Wl : List (Ref sig .tc))
    (hw : ops.Forall fun op => op.writes ⊆ (Wl.map (Proc.devRef (τ := τ) .tc)).toFinset)
    (X : Valuation τ sig (Elt F)) (b : Ref sig .tc) (hb : b ∉ Wl) :
    StableHlo.after ops X (Proc.devRef .tc b) = X (Proc.devRef .tc b) :=
  StableHlo.after_of_forall_not_mem ops X fun op hop hmem => by
    have h1 := (List.forall_iff_forall_mem.mp hw) op hop hmem
    rw [List.mem_toFinset, List.mem_map] at h1
    obtain ⟨a, ha, e⟩ := h1
    by_cases hab : a = b
    · exact hb (hab ▸ ha)
    · exact StableHlo.devRef_ne_of_ne hab e

/-! ## What the regions change -/

/-- Region 0 leaves every buffer but its output array as it found it: an input window's array by the pipeline's own
    account of an input, a buffer no window stages because the region never touches it. -/
theorem W2_keep (c : Dev nD) (b : Ref sig .tc) (hb : b ≠ Pipeline.arrRef spec0 3) :
    W2 m ρ c (Proc.devRef .tc b) = W1 m ρ c (Proc.devRef .tc b) := by
  by_cases h : ∃ w, Pipeline.arrRef spec0 w = b
  · obtain ⟨w, rfl⟩ := h
    rw [W2_arr]
    match w, hb with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, hb => exact absurd rfl hb
  · exact W2_of_ne m ρ c b fun w e => h ⟨w, e⟩

/-- Region 1 leaves every buffer but its output array as it found it: an input window's array by the pipeline's own
    account of an input, a buffer no window stages because the region never touches it. -/
theorem W4_keep (c : Dev nD) (b : Ref sig .tc) (hb : b ≠ Pipeline.arrRef spec1 6) :
    W4 m ρ c (Proc.devRef .tc b) = W3 m ρ c (Proc.devRef .tc b) := by
  by_cases h : ∃ w, Pipeline.arrRef spec1 w = b
  · obtain ⟨w, rfl⟩ := h
    rw [W4_arr]
    match w, hb with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, _ => exact ((dat1 (V3 m ρ) c).arrAt_in 3 rfl _).trans (A_eq1 (V3 m ρ) c 3)
    | ⟨4, _⟩, _ => exact ((dat1 (V3 m ρ) c).arrAt_in 4 rfl _).trans (A_eq1 (V3 m ρ) c 4)
    | ⟨5, _⟩, _ => exact ((dat1 (V3 m ρ) c).arrAt_in 5 rfl _).trans (A_eq1 (V3 m ρ) c 5)
    | ⟨6, _⟩, hb => exact absurd rfl hb
  · exact W4_of_ne m ρ c b fun w e => h ⟨w, e⟩

/-- Region 2 leaves every buffer but its output array as it found it: an input window's array by the pipeline's own
    account of an input, a buffer no window stages because the region never touches it. -/
theorem W6_keep (c : Dev nD) (b : Ref sig .tc) (hb : b ≠ Pipeline.arrRef spec2 3) :
    W6 m ρ c (Proc.devRef .tc b) = W5 m ρ c (Proc.devRef .tc b) := by
  by_cases h : ∃ w, Pipeline.arrRef spec2 w = b
  · obtain ⟨w, rfl⟩ := h
    rw [W6_arr]
    match w, hb with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, _ => exact ((dat2 (V5 m ρ) c).arrAt_in 2 rfl _).trans (A_eq2 (V5 m ρ) c 2)
    | ⟨3, _⟩, hb => exact absurd rfl hb
  · exact W6_of_ne m ρ c b fun w e => h ⟨w, e⟩

/-- Region 3 leaves every buffer but its output array as it found it: an input window's array by the pipeline's own
    account of an input, a buffer no window stages because the region never touches it. -/
theorem W8_keep (c : Dev nD) (b : Ref sig .tc) (hb : b ≠ Pipeline.arrRef spec3 5) :
    W8 m ρ c (Proc.devRef .tc b) = W7 m ρ c (Proc.devRef .tc b) := by
  by_cases h : ∃ w, Pipeline.arrRef spec3 w = b
  · obtain ⟨w, rfl⟩ := h
    rw [W8_arr]
    match w, hb with
    | ⟨0, _⟩, _ => exact ((dat3 (V7 m ρ) c).arrAt_in 0 rfl _).trans (A_eq3 (V7 m ρ) c 0)
    | ⟨1, _⟩, _ => exact ((dat3 (V7 m ρ) c).arrAt_in 1 rfl _).trans (A_eq3 (V7 m ρ) c 1)
    | ⟨2, _⟩, _ => exact ((dat3 (V7 m ρ) c).arrAt_in 2 rfl _).trans (A_eq3 (V7 m ρ) c 2)
    | ⟨3, _⟩, _ => exact ((dat3 (V7 m ρ) c).arrAt_in 3 rfl _).trans (A_eq3 (V7 m ρ) c 3)
    | ⟨4, _⟩, _ => exact ((dat3 (V7 m ρ) c).arrAt_in 4 rfl _).trans (A_eq3 (V7 m ρ) c 4)
    | ⟨5, _⟩, hb => exact absurd rfl hb
  · exact W8_of_ne m ρ c b fun w e => h ⟨w, e⟩

/-! ## An untouched buffer ends as launched -/

/-- A buffer no host operation writes and no region has for its output array. -/
def Untouched (b : Ref sig .tc) : Prop :=
  b ∉ hostOps0_W ∧ b ∉ hostOps1_W ∧ b ∉ hostOps2_W ∧ b ∉ hostOps3_W ∧ b ∉ hostOps4_W
    ∧ b ≠ Pipeline.arrRef spec0 3 ∧ b ≠ Pipeline.arrRef spec1 6 ∧ b ≠ Pipeline.arrRef spec2 3 ∧ b ≠ Pipeline.arrRef spec3 5

instance (b : Ref sig .tc) : Decidable (Untouched b) := by unfold Untouched; infer_instance

/-- Such a buffer holds its launch contents at the end: the fold walks back through the nine segments. -/
theorem W9_untouched (c : Dev nD) (b : Ref sig .tc) (h : Untouched b) :
    W9 m ρ c (Proc.devRef .tc b) = m ((c : Thread nD τ).loc b) := by
  obtain ⟨h0, h1, h2, h3, h4, r0, r1, r2, r3⟩ := h
  calc W9 m ρ c (Proc.devRef .tc b)
    _ = W8 m ρ c (Proc.devRef .tc b) := after_keep hostOps4 hostOps4_W hostOps4_writes _ b h4
    _ = W7 m ρ c (Proc.devRef .tc b) := W8_keep m ρ c b r3
    _ = W6 m ρ c (Proc.devRef .tc b) := after_keep hostOps3 hostOps3_W hostOps3_writes _ b h3
    _ = W5 m ρ c (Proc.devRef .tc b) := W6_keep m ρ c b r2
    _ = W4 m ρ c (Proc.devRef .tc b) := after_keep hostOps2 hostOps2_W hostOps2_writes _ b h2
    _ = W3 m ρ c (Proc.devRef .tc b) := W4_keep m ρ c b r1
    _ = W2 m ρ c (Proc.devRef .tc b) := after_keep hostOps1 hostOps1_W hostOps1_writes _ b h1
    _ = W1 m ρ c (Proc.devRef .tc b) := W2_keep m ρ c b r0
    _ = W0 m ρ c (Proc.devRef .tc b) := after_keep hostOps0 hostOps0_W hostOps0_writes _ b h0
    _ = m ((c : Thread nD τ).loc b) := rfl

/-- Read against a final state of the run. -/
theorem kept_of_run {r : PUnit × MemSt nD τ sig (Elt F)}
    (h : ∀ c : Dev nD, ∀ b ∈ Pipeline.ucRefs τ sig, r.2.mem (((c : Thread nD τ)).1, b) = W9 m ρ c b) (c : Dev nD)
    (b : Ref sig .tc) (hs : ¬ (Proc.devRef .tc b : DevRef τ sig).isScoped) (hu : Untouched b) :
    r.2.mem ((c.tc : Thread nD τ).loc b) = m ((c.tc : Thread nD τ).loc b) :=
  (h c _ (mem_uc b hs)).trans (W9_untouched m ρ c b hu)

/-- The frame: every weakly fair execution terminates, nothing faulting, with the 47 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)) :=
  (θ_run defs _ _).mono (fun r h c =>
    ⟨kept_of_run m ρ h c main_arg0 (by decide) (by decide),
     kept_of_run m ρ h c main_arg1 (by decide) (by decide),
     kept_of_run m ρ h c main_arg2 (by decide) (by decide),
     kept_of_run m ρ h c main_arg3 (by decide) (by decide),
     kept_of_run m ρ h c main_arg4 (by decide) (by decide),
     kept_of_run m ρ h c main_arg5 (by decide) (by decide),
     kept_of_run m ρ h c main_arg6 (by decide) (by decide),
     kept_of_run m ρ h c main_arg7 (by decide) (by decide),
     kept_of_run m ρ h c main_arg8 (by decide) (by decide),
     kept_of_run m ρ h c main_arg9 (by decide) (by decide),
     kept_of_run m ρ h c main_arg10 (by decide) (by decide),
     kept_of_run m ρ h c main_arg11 (by decide) (by decide),
     kept_of_run m ρ h c main_arg12 (by decide) (by decide),
     kept_of_run m ρ h c main_arg13 (by decide) (by decide),
     kept_of_run m ρ h c main_arg14 (by decide) (by decide),
     kept_of_run m ρ h c main_arg15 (by decide) (by decide),
     kept_of_run m ρ h c main_arg16 (by decide) (by decide),
     kept_of_run m ρ h c main_arg17 (by decide) (by decide),
     kept_of_run m ρ h c main_arg18 (by decide) (by decide),
     kept_of_run m ρ h c main_arg19 (by decide) (by decide),
     kept_of_run m ρ h c main_arg20 (by decide) (by decide),
     kept_of_run m ρ h c main_arg21 (by decide) (by decide),
     kept_of_run m ρ h c main_arg22 (by decide) (by decide),
     kept_of_run m ρ h c main_arg23 (by decide) (by decide),
     kept_of_run m ρ h c main_arg24 (by decide) (by decide),
     kept_of_run m ρ h c main_arg25 (by decide) (by decide),
     kept_of_run m ρ h c main_arg26 (by decide) (by decide),
     kept_of_run m ρ h c main_arg27 (by decide) (by decide),
     kept_of_run m ρ h c main_arg28 (by decide) (by decide),
     kept_of_run m ρ h c main_arg29 (by decide) (by decide),
     kept_of_run m ρ h c main_arg30 (by decide) (by decide),
     kept_of_run m ρ h c main_arg31 (by decide) (by decide),
     kept_of_run m ρ h c main_arg32 (by decide) (by decide),
     kept_of_run m ρ h c main_arg33 (by decide) (by decide),
     kept_of_run m ρ h c main_arg34 (by decide) (by decide),
     kept_of_run m ρ h c main_arg35 (by decide) (by decide),
     kept_of_run m ρ h c main_arg36 (by decide) (by decide),
     kept_of_run m ρ h c main_arg37 (by decide) (by decide),
     kept_of_run m ρ h c main_arg38 (by decide) (by decide),
     kept_of_run m ρ h c main_arg39 (by decide) (by decide),
     kept_of_run m ρ h c main_arg40 (by decide) (by decide),
     kept_of_run m ρ h c main_arg41 (by decide) (by decide),
     kept_of_run m ρ h c main_arg42 (by decide) (by decide),
     kept_of_run m ρ h c main_arg43 (by decide) (by decide),
     kept_of_run m ρ h c main_arg44 (by decide) (by decide),
     kept_of_run m ρ h c main_arg45 (by decide) (by decide),
     kept_of_run m ρ h c main_arg46 (by decide) (by decide)⟩) (run_main m ρ)

end Cert.KernelIdeal.Run

end
-- ==== Proof.ReferenceRunHandOps.lean ====
/- The reference program's @main as a LIST of its 329 host operations, in program order, together with the facts the
   run of a list of operations asks for: `main_eq` (the printed @main is the sequence of the listed operations),
   `scopedRefs_eq` and `scopedSems_eq` (the program has no scoped buffer and no scoped semaphore) and `ops_sub` (every
   operation reads and writes buffers of the host thread only). The run itself — every weakly fair execution terminates
   with each result buffer at the operations' composed pure term of the arguments' launch contents, the arguments
   unchanged — is read back in stages in the modules that import this one. -/
import proofs.«144146_j85358180041108_1_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- @main's 329 operations, in order (a called function's operations stand in its call's place, spelt `TRef.…`). -/
abbrev ops : List (HloOp τ sig (Elt F)) :=
  [ unary main_arg5 main_v0 ((transpose S5000x128 [1, 0] · transposes_S128x5000_S5000x128_1_0) : (⟨S128x5000, .f32⟩ : BufTy).Contents (Elt F) → (⟨S5000x128, .f32⟩ : BufTy).Contents (Elt F)),
    binary main_arg0 main_v0 main_v1 ((fun l r => Host.dotGeneral dot_S1000x5000_S5000x128_S1000x128_1_0_0_1_n_n none l r) : (⟨S1000x5000, .f32⟩ : BufTy).Contents (Elt F) → (⟨S5000x128, .f32⟩ : BufTy).Contents (Elt F) → (⟨S1000x128, .f32⟩ : BufTy).Contents (Elt F)),
    unary main_arg6 main_v2 (broadcastInDim S1x128 ![1] bcast_S128_S1x128_1 : (⟨S128, .f32⟩ : BufTy).Contents (Elt F) → (⟨S1x128, .f32⟩ : BufTy).Contents (Elt F)),
    unary main_v2 main_v3 (broadcastInDim S1000x128 ![0, 1] bcast_S1x128_S1000x128_0_1 : (⟨S1x128, .f32⟩ : BufTy).Contents (Elt F) → (⟨S1000x128, .f32⟩ : BufTy).Contents (Elt F)),
    binary main_v1 main_v3 main_v4 (addf : (⟨S1000x128, .f32⟩ : BufTy).Contents (Elt F) → (⟨S1000x128, .f32⟩ : BufTy).Contents (Elt F) → (⟨S1000x128, .f32⟩ : BufTy).Contents (Elt F)),
    unary main_arg7 main_v5 ((transpose S1024x128 [1, 0] · transposes_S128x1024_S1024x128_1_0) : (⟨S128x1024, .f32⟩ : BufTy).Contents (Elt F) → (⟨S1024x128, .f32⟩ : BufTy).Contents (Elt F)),
    binary main_arg1 main_v5 main_v6 ((fun l r => Host.dotGeneral dot_S8000x1024_S1024x128_S8000x128_1_0_0_1_n_n none l r) : (⟨S8000x1024, .f32⟩ : BufTy).Contents (Elt F) → (⟨S1024x128, .f32⟩ : BufTy).Contents (Elt F) → (⟨S8000x128, .f32⟩ : BufTy).Contents (Elt F)),
    unary main_arg8 main_v7 (broadcastInDim S1x128 ![1] bcast_S128_S1x128_1 : (⟨S128, .f32⟩ : BufTy).Contents (Elt F) → (⟨S1x128, .f32⟩ : BufTy).Contents (Elt F)),
    unary main_v7 main_v8 (broadcastInDim S8000x128 ![0, 1] bcast_S1x128_S8000x128_0_1 : (⟨S1x128, .f32⟩ : BufTy).Contents (Elt F) → (⟨S8000x128, .f32⟩ : BufTy).Contents (Elt F)),
    binary main_v6 main_v8 main_v9 (addf : (⟨S8000x128, .f32⟩ : BufTy).Contents (Elt F) → (⟨S8000x128, .f32⟩ : BufTy).Contents (Elt F) → (⟨S8000x128, .f32⟩ : BufTy).Contents (Elt F)),
    nullary main_c (constantI S_ 32 0#32),
    unary main_c main_v10 (broadcastInDim S500000 ![] bcast_S_S500000 : (⟨S_, .i32⟩ : BufTy).Contents (Elt F) → (⟨S500000, .i32⟩ : BufTy).Contents (Elt F)),
    binary main_arg31 main_v10 main_v11 (cmpi .slt : (⟨S500000, .i32⟩ : BufTy).Contents (Elt F) → (⟨S500000, .i32⟩ : BufTy).Contents (Elt F) → (⟨S500000, .i1⟩ : BufTy).Contents (Elt F)),
    nullary main_c_0 (constantI S_ 32 20000#32),
    unary main_c_0 main_v12 (broadcastInDim S500000 ![] bcast_S_S500000 : (⟨S_, .i32⟩ : BufTy).Contents (Elt F) → (⟨S500000, .i32⟩ : BufTy).Contents (Elt F)),
    binary main_arg31 main_v12 main_v13 (addi : (⟨S500000, .i32⟩ : BufTy).Contents (Elt F) → (⟨S500000, .i32⟩ : BufTy).Contents (Elt F) → (⟨S500000, .i32⟩ : BufTy).Contents (Elt F)),
    ternary main_v11 main_v13 main_arg31 main_v14 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v14 main_v15 (broadcastInDim S500000x1 ![0] bcast_S500000_S500000x1_0 : (⟨S500000, .i32⟩ : BufTy).Contents (Elt F) → (⟨S500000x1, .i32⟩ : BufTy).Contents (Elt F)),
    binary main_arg2 main_v15 main_v16 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v17 (broadcastInDim S20000x128 ![] bcast_S_S20000x128 : (⟨S_, .f32⟩ : BufTy).Contents (Elt F) → (⟨S20000x128, .f32⟩ : BufTy).Contents (Elt F)),
    unary main_arg32 main_v18 (broadcastInDim S500000x1 ![0] bcast_S500000_S500000x1_0 : (⟨S500000, .i32⟩ : BufTy).Contents (Elt F) → (⟨S500000x1, .i32⟩ : BufTy).Contents (Elt F)),
    ternary main_v17 main_v18 main_v16 main_v19 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    nullary main_cst_1 (constant S_ .f32 0x3F800000#32),
    unary main_cst_1 main_v20 (broadcastInDim S500000x1 ![] bcast_S_S500000x1 : (⟨S_, .f32⟩ : BufTy).Contents (Elt F) → (⟨S500000x1, .f32⟩ : BufTy).Contents (Elt F)),
    nullary main_cst_2 (constant S_ .f32 0x00000000#32),
    unary main_cst_2 main_v21 (broadcastInDim S20000x1 ![] bcast_S_S20000x1 : (⟨S_, .f32⟩ : BufTy).Contents (Elt F) → (⟨S20000x1, .f32⟩ : BufTy).Contents (Elt F)),
    unary main_arg32 main_v22 (broadcastInDim S500000x1 ![0] bcast_S500000_S500000x1_0 : (⟨S500000, .i32⟩ : BufTy).Contents (Elt F) → (⟨S500000x1, .i32⟩ : BufTy).Contents (Elt F)),
    ternary main_v21 main_v22 main_v20 main_v23 ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)),
    nullary main_cst_3 (constant S_ .f32 0x3F800000#32),
    unary main_cst_3 main_v24 (broadcastInDim S20000x1 ![] bcast_S_S20000x1 : (⟨S_, .f32⟩ : BufTy).Contents (Elt F) → (⟨S20000x1, .f32⟩ : BufTy).Contents (Elt F)),
    binary main_v23 main_v24 main_v25 (maximumf : (⟨S20000x1, .f32⟩ : BufTy).Contents (Elt F) → (⟨S20000x1, .f32⟩ : BufTy).Contents (Elt F) → (⟨S20000x1, .f32⟩ : BufTy).Contents (Elt F)),
    unary main_v25 main_v26 (broadcastInDim S20000x128 ![0, 1] bcast_S20000x1_S20000x128_0_1 : (⟨S20000x1, .f32⟩ : BufTy).Contents (Elt F) → (⟨S20000x128, .f32⟩ : BufTy).Contents (Elt F)),
    binary main_v19 main_v26 main_v27 (Host.divf : (⟨S20000x128, .f32⟩ : BufTy).Contents (Elt F) → (⟨S20000x128, .f32⟩ : BufTy).Contents (Elt F) → (⟨S20000x128, .f32⟩ : BufTy).Contents (Elt F)),
    unary main_arg11 main_v28 ((transpose S128x128 [1, 0] · transposes_S128x128_S128x128_1_0) : (⟨S128x128, .f32⟩ : BufTy).Contents (Elt F) → (⟨S128x128, .f32⟩ : BufTy).Contents (Elt F)),
    binary main_arg2 main_v28 main_v29 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg12 main_v30 (broadcastInDim S1x128 ![1] bcast_S128_S1x128_1 : (⟨S128, .f32⟩ : BufTy).Contents (Elt F) → (⟨S1x128, .f32⟩ : BufTy).Contents (Elt F)),
    unary main_v30 main_v31 (broadcastInDim S20000x128 ![0, 1] bcast_S1x128_S20000x128_0_1 : (⟨S1x128, .f32⟩ : BufTy).Contents (Elt F) → (⟨S20000x128, .f32⟩ : BufTy).Contents (Elt F)),
    binary main_v29 main_v31 main_v32 (addf : (⟨S20000x128, .f32⟩ : BufTy).Contents (Elt F) → (⟨S20000x128, .f32⟩ : BufTy).Contents (Elt F) → (⟨S20000x128, .f32⟩ : BufTy).Contents (Elt F)),
    unary main_arg9 main_v33 ((transpose S128x128 [1, 0] · transposes_S128x128_S128x128_1_0) : (⟨S128x128, .f32⟩ : BufTy).Contents (Elt F) → (⟨S128x128, .f32⟩ : BufTy).Contents (Elt F)),
    binary main_v27 main_v33 main_v34 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v32 main_v34 main_v35 (addf : (⟨S20000x128, .f32⟩ : BufTy).Contents (Elt F) → (⟨S20000x128, .f32⟩ : BufTy).Contents (Elt F) → (⟨S20000x128, .f32⟩ : BufTy).Contents (Elt F)),
    unary main_arg10 main_v36 (broadcastInDim S1x128 ![1] bcast_S128_S1x128_1 : (⟨S128, .f32⟩ : BufTy).Contents (Elt F) → (⟨S1x128, .f32⟩ : BufTy).Contents (Elt F)),
    unary main_v36 main_v37 (broadcastInDim S20000x128 ![0, 1] bcast_S1x128_S20000x128_0_1 : (⟨S1x128, .f32⟩ : BufTy).Contents (Elt F) → (⟨S20000x128, .f32⟩ : BufTy).Contents (Elt F)),
    binary main_v35 main_v37 main_v38 (addf : (⟨S20000x128, .f32⟩ : BufTy).Contents (Elt F) → (⟨S20000x128, .f32⟩ : BufTy).Contents (Elt F) → (⟨S20000x128, .f32⟩ : BufTy).Contents (Elt F)),
    nullary main_c_4 (constantI S_ 32 0#32),
    unary main_c_4 main_v39 (broadcastInDim S300000 ![] bcast_S_S300000 : (⟨S_, .i32⟩ : BufTy).Contents (Elt F) → (⟨S300000, .i32⟩ : BufTy).Contents (Elt F)),
    binary main_arg33 main_v39 main_v40 (cmpi .slt : (⟨S300000, .i32⟩ : BufTy).Contents (Elt F) → (⟨S300000, .i32⟩ : BufTy).Contents (Elt F) → (⟨S300000, .i1⟩ : BufTy).Contents (Elt F)),
    nullary main_c_5 (constantI S_ 32 2000#32),
    unary main_c_5 main_v41 (broadcastInDim S300000 ![] bcast_S_S300000 : (⟨S_, .i32⟩ : BufTy).Contents (Elt F) → (⟨S300000, .i32⟩ : BufTy).Contents (Elt F)),
    binary main_arg33 main_v41 main_v42 (addi : (⟨S300000, .i32⟩ : BufTy).Contents (Elt F) → (⟨S300000, .i32⟩ : BufTy).Contents (Elt F) → (⟨S300000, .i32⟩ : BufTy).Contents (Elt F)),
    ternary main_v40 main_v42 main_arg33 main_v43 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v43 main_v44 (broadcastInDim S300000x1 ![0] bcast_S300000_S300000x1_0 : (⟨S300000, .i32⟩ : BufTy).Contents (Elt F) → (⟨S300000x1, .i32⟩ : BufTy).Contents (Elt F)),
    binary main_arg3 main_v44 main_v45 ((fun x i => Host.gather gather_S2000x128_S300000x1_S300000x128_1_0_n_n_0_1_1128 x i) : (⟨S2000x128, .f32⟩ : BufTy).Contents (Elt F) → (⟨S300000x1, .i32⟩ : BufTy).Contents (Elt F) → (⟨S300000x128, .f32⟩ : BufTy).Contents (Elt F)),
    nullary main_cst_6 (constant S_ .f32 0x00000000#32),
    unary main_cst_6 main_v46 (broadcastInDim S20000x128 ![] bcast_S_S20000x128 : (⟨S_, .f32⟩ : BufTy).Contents (Elt F) → (⟨S20000x128, .f32⟩ : BufTy).Contents (Elt F)),
    unary main_arg34 main_v47 (broadcastInDim S300000x1 ![0] bcast_S300000_S300000x1_0 : (⟨S300000, .i32⟩ : BufTy).Contents (Elt F) → (⟨S300000x1, .i32⟩ : BufTy).Contents (Elt F)),
    ternary main_v46 main_v47 main_v45 main_v48 ((fun x i u => Host.scatterAdd scatter_S20000x128_S300000x1_S300000x128_1_0_0_1 x i u) : (⟨S20000x128, .f32⟩ : BufTy).Contents (Elt F) → (⟨S300000x1, .i32⟩ : BufTy).Contents (Elt F) → (⟨S300000x128, .f32⟩ : BufTy).Contents (Elt F) → (⟨S20000x128, .f32⟩ : BufTy).Contents (Elt F)),
    nullary main_cst_7 (constant S_ .f32 0x3F800000#32),
    unary main_cst_7 main_v49 (broadcastInDim S300000x1 ![] bcast_S_S300000x1 : (⟨S_, .f32⟩ : BufTy).Contents (Elt F) → (⟨S300000x1, .f32⟩ : BufTy).Contents (Elt F)),
    nullary main_cst_8 (constant S_ .f32 0x00000000#32),
    unary main_cst_8 main_v50 (broadcastInDim S20000x1 ![] bcast_S_S20000x1 : (⟨S_, .f32⟩ : BufTy).Contents (Elt F) → (⟨S20000x1, .f32⟩ : BufTy).Contents (Elt F)),
    unary main_arg34 main_v51 (broadcastInDim S300000x1 ![0] bcast_S300000_S300000x1_0 : (⟨S300000, .i32⟩ : BufTy).Contents (Elt F) → (⟨S300000x1, .i32⟩ : BufTy).Contents (Elt F)),
    ternary main_v50 main_v51 main_v49 main_v52 ((fun x i u => Host.scatterAdd scatter_S20000x1_S300000x1_S300000x1_1_0_0_1 x i u) : (⟨S20000x1, .f32⟩ : BufTy).Contents (Elt F) → (⟨S300000x1, .i32⟩ : BufTy).Contents (Elt F) → (⟨S300000x1, .f32⟩ : BufTy).Contents (Elt F) → (⟨S20000x1, .f32⟩ : BufTy).Contents (Elt F)),
    nullary main_cst_9 (constant S_ .f32 0x3F800000#32),
    unary main_cst_9 main_v53 (broadcastInDim S20000x1 ![] bcast_S_S20000x1 : (⟨S_, .f32⟩ : BufTy).Contents (Elt F) → (⟨S20000x1, .f32⟩ : BufTy).Contents (Elt F)),
    binary main_v52 main_v53 main_v54 (maximumf : (⟨S20000x1, .f32⟩ : BufTy).Contents (Elt F) → (⟨S20000x1, .f32⟩ : BufTy).Contents (Elt F) → (⟨S20000x1, .f32⟩ : BufTy).Contents (Elt F)),
    unary main_v54 main_v55 (broadcastInDim S20000x128 ![0, 1] bcast_S20000x1_S20000x128_0_1 : (⟨S20000x1, .f32⟩ : BufTy).Contents (Elt F) → (⟨S20000x128, .f32⟩ : BufTy).Contents (Elt F)),
    binary main_v48 main_v55 main_v56 (Host.divf : (⟨S20000x128, .f32⟩ : BufTy).Contents (Elt F) → (⟨S20000x128, .f32⟩ : BufTy).Contents (Elt F) → (⟨S20000x128, .f32⟩ : BufTy).Contents (Elt F)),
    unary main_arg15 main_v57 ((transpose S128x128 [1, 0] · transposes_S128x128_S128x128_1_0) : (⟨S128x128, .f32⟩ : BufTy).Contents (Elt F) → (⟨S128x128, .f32⟩ : BufTy).Contents (Elt F)),
    binary main_arg2 main_v57 main_v58 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg16 main_v59 (broadcastInDim S1x128 ![1] bcast_S128_S1x128_1 : (⟨S128, .f32⟩ : BufTy).Contents (Elt F) → (⟨S1x128, .f32⟩ : BufTy).Contents (Elt F)),
    unary main_v59 main_v60 (broadcastInDim S20000x128 ![0, 1] bcast_S1x128_S20000x128_0_1 : (⟨S1x128, .f32⟩ : BufTy).Contents (Elt F) → (⟨S20000x128, .f32⟩ : BufTy).Contents (Elt F)),
    binary main_v58 main_v60 main_v61 (addf : (⟨S20000x128, .f32⟩ : BufTy).Contents (Elt F) → (⟨S20000x128, .f32⟩ : BufTy).Contents (Elt F) → (⟨S20000x128, .f32⟩ : BufTy).Contents (Elt F)),
    unary main_arg13 main_v62 ((transpose S128x128 [1, 0] · transposes_S128x128_S128x128_1_0) : (⟨S128x128, .f32⟩ : BufTy).Contents (Elt F) → (⟨S128x128, .f32⟩ : BufTy).Contents (Elt F)),
    binary main_v56 main_v62 main_v63 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v61 main_v63 main_v64 (addf : (⟨S20000x128, .f32⟩ : BufTy).Contents (Elt F) → (⟨S20000x128, .f32⟩ : BufTy).Contents (Elt F) → (⟨S20000x128, .f32⟩ : BufTy).Contents (Elt F)),
    unary main_arg14 main_v65 (broadcastInDim S1x128 ![1] bcast_S128_S1x128_1 : (⟨S128, .f32⟩ : BufTy).Contents (Elt F) → (⟨S1x128, .f32⟩ : BufTy).Contents (Elt F)),
    unary main_v65 main_v66 (broadcastInDim S20000x128 ![0, 1] bcast_S1x128_S20000x128_0_1 : (⟨S1x128, .f32⟩ : BufTy).Contents (Elt F) → (⟨S20000x128, .f32⟩ : BufTy).Contents (Elt F)),
    binary main_v64 main_v66 main_v67 (addf : (⟨S20000x128, .f32⟩ : BufTy).Contents (Elt F) → (⟨S20000x128, .f32⟩ : BufTy).Contents (Elt F) → (⟨S20000x128, .f32⟩ : BufTy).Contents (Elt F)),
    binary main_v38 main_v67 main_v68 (addf : (⟨S20000x128, .f32⟩ : BufTy).Contents (Elt F) → (⟨S20000x128, .f32⟩ : BufTy).Contents (Elt F) → (⟨S20000x128, .f32⟩ : BufTy).Contents (Elt F)),
    nullary main_c_10 (constantI S_ 32 0#32),
    unary main_c_10 main_v69 (broadcastInDim S400000 ![] bcast_S_S400000 : (⟨S_, .i32⟩ : BufTy).Contents (Elt F) → (⟨S400000, .i32⟩ : BufTy).Contents (Elt F)),
    binary main_arg35 main_v69 main_v70 (cmpi .slt : (⟨S400000, .i32⟩ : BufTy).Contents (Elt F) → (⟨S400000, .i32⟩ : BufTy).Contents (Elt F) → (⟨S400000, .i1⟩ : BufTy).Contents (Elt F)),
    nullary main_c_11 (constantI S_ 32 10000#32),
    unary main_c_11 main_v71 (broadcastInDim S400000 ![] bcast_S_S400000 : (⟨S_, .i32⟩ : BufTy).Contents (Elt F) → (⟨S400000, .i32⟩ : BufTy).Contents (Elt F)),
    binary main_arg35 main_v71 main_v72 (addi : (⟨S400000, .i32⟩ : BufTy).Contents (Elt F) → (⟨S400000, .i32⟩ : BufTy).Contents (Elt F) → (⟨S400000, .i32⟩ : BufTy).Contents (Elt F)),
    ternary main_v70 main_v72 main_arg35 main_v73 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v73 main_v74 (broadcastInDim S400000x1 ![0] bcast_S400000_S400000x1_0 : (⟨S400000, .i32⟩ : BufTy).Contents (Elt F) → (⟨S400000x1, .i32⟩ : BufTy).Contents (Elt F)),
    binary main_arg4 main_v74 main_v75 ((fun x i => Host.gather gather_S10000x128_S400000x1_S400000x128_1_0_n_n_0_1_1128 x i) : (⟨S10000x128, .f32⟩ : BufTy).Contents (Elt F) → (⟨S400000x1, .i32⟩ : BufTy).Contents (Elt F) → (⟨S400000x128, .f32⟩ : BufTy).Contents (Elt F)),
    nullary main_cst_12 (constant S_ .f32 0x00000000#32),
    unary main_cst_12 main_v76 (broadcastInDim S20000x128 ![] bcast_S_S20000x128 : (⟨S_, .f32⟩ : BufTy).Contents (Elt F) → (⟨S20000x128, .f32⟩ : BufTy).Contents (Elt F)),
    unary main_arg36 main_v77 (broadcastInDim S400000x1 ![0] bcast_S400000_S400000x1_0 : (⟨S400000, .i32⟩ : BufTy).Contents (Elt F) → (⟨S400000x1, .i32⟩ : BufTy).Contents (Elt F)),
    ternary main_v76 main_v77 main_v75 main_v78 ((fun x i u => Host.scatterAdd scatter_S20000x128_S400000x1_S400000x128_1_0_0_1 x i u) : (⟨S20000x128, .f32⟩ : BufTy).Contents (Elt F) → (⟨S400000x1, .i32⟩ : BufTy).Contents (Elt F) → (⟨S400000x128, .f32⟩ : BufTy).Contents (Elt F) → (⟨S20000x128, .f32⟩ : BufTy).Contents (Elt F)),
    nullary main_cst_13 (constant S_ .f32 0x3F800000#32),
    unary main_cst_13 main_v79 (broadcastInDim S400000x1 ![] bcast_S_S400000x1 : (⟨S_, .f32⟩ : BufTy).Contents (Elt F) → (⟨S400000x1, .f32⟩ : BufTy).Contents (Elt F)),
    nullary main_cst_14 (constant S_ .f32 0x00000000#32),
    unary main_cst_14 main_v80 (broadcastInDim S20000x1 ![] bcast_S_S20000x1 : (⟨S_, .f32⟩ : BufTy).Contents (Elt F) → (⟨S20000x1, .f32⟩ : BufTy).Contents (Elt F)),
    unary main_arg36 main_v81 (broadcastInDim S400000x1 ![0] bcast_S400000_S400000x1_0 : (⟨S400000, .i32⟩ : BufTy).Contents (Elt F) → (⟨S400000x1, .i32⟩ : BufTy).Contents (Elt F)),
    ternary main_v80 main_v81 main_v79 main_v82 ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F)),
    nullary main_cst_15 (constant S_ .f32 0x3F800000#32),
    unary main_cst_15 main_v83 (broadcastInDim S20000x1 ![] bcast_S_S20000x1 : (⟨S_, .f32⟩ : BufTy).Contents (Elt F) → (⟨S20000x1, .f32⟩ : BufTy).Contents (Elt F)),
    binary main_v82 main_v83 main_v84 (maximumf : (⟨S20000x1, .f32⟩ : BufTy).Contents (Elt F) → (⟨S20000x1, .f32⟩ : BufTy).Contents (Elt F) → (⟨S20000x1, .f32⟩ : BufTy).Contents (Elt F)),
    unary main_v84 main_v85 (broadcastInDim S20000x128 ![0, 1] bcast_S20000x1_S20000x128_0_1 : (⟨S20000x1, .f32⟩ : BufTy).Contents (Elt F) → (⟨S20000x128, .f32⟩ : BufTy).Contents (Elt F)),
    binary main_v78 main_v85 main_v86 (Host.divf : (⟨S20000x128, .f32⟩ : BufTy).Contents (Elt F) → (⟨S20000x128, .f32⟩ : BufTy).Contents (Elt F) → (⟨S20000x128, .f32⟩ : BufTy).Contents (Elt F)),
    unary main_arg19 main_v87 ((transpose S128x128 [1, 0] · transposes_S128x128_S128x128_1_0) : (⟨S128x128, .f32⟩ : BufTy).Contents (Elt F) → (⟨S128x128, .f32⟩ : BufTy).Contents (Elt F)),
    binary main_arg2 main_v87 main_v88 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg20 main_v89 (broadcastInDim S1x128 ![1] bcast_S128_S1x128_1 : (⟨S128, .f32⟩ : BufTy).Contents (Elt F) → (⟨S1x128, .f32⟩ : BufTy).Contents (Elt F)),
    unary main_v89 main_v90 (broadcastInDim S20000x128 ![0, 1] bcast_S1x128_S20000x128_0_1 : (⟨S1x128, .f32⟩ : BufTy).Contents (Elt F) → (⟨S20000x128, .f32⟩ : BufTy).Contents (Elt F)),
    binary main_v88 main_v90 main_v91 (addf : (⟨S20000x128, .f32⟩ : BufTy).Contents (Elt F) → (⟨S20000x128, .f32⟩ : BufTy).Contents (Elt F) → (⟨S20000x128, .f32⟩ : BufTy).Contents (Elt F)),
    unary main_arg17 main_v92 ((transpose S128x128 [1, 0] · transposes_S128x128_S128x128_1_0) : (⟨S128x128, .f32⟩ : BufTy).Contents (Elt F) → (⟨S128x128, .f32⟩ : BufTy).Contents (Elt F)),
    binary main_v86 main_v92 main_v93 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v91 main_v93 main_v94 (addf : (⟨S20000x128, .f32⟩ : BufTy).Contents (Elt F) → (⟨S20000x128, .f32⟩ : BufTy).Contents (Elt F) → (⟨S20000x128, .f32⟩ : BufTy).Contents (Elt F)),
    unary main_arg18 main_v95 (broadcastInDim S1x128 ![1] bcast_S128_S1x128_1 : (⟨S128, .f32⟩ : BufTy).Contents (Elt F) → (⟨S1x128, .f32⟩ : BufTy).Contents (Elt F)),
    unary main_v95 main_v96 (broadcastInDim S20000x128 ![0, 1] bcast_S1x128_S20000x128_0_1 : (⟨S1x128, .f32⟩ : BufTy).Contents (Elt F) → (⟨S20000x128, .f32⟩ : BufTy).Contents (Elt F)),
    binary main_v94 main_v96 main_v97 (addf : (⟨S20000x128, .f32⟩ : BufTy).Contents (Elt F) → (⟨S20000x128, .f32⟩ : BufTy).Contents (Elt F) → (⟨S20000x128, .f32⟩ : BufTy).Contents (Elt F)),
    binary main_v68 main_v97 main_v98 (addf : (⟨S20000x128, .f32⟩ : BufTy).Contents (Elt F) → (⟨S20000x128, .f32⟩ : BufTy).Contents (Elt F) → (⟨S20000x128, .f32⟩ : BufTy).Contents (Elt F)),
    nullary main_c_16 (constantI S_ 32 0#32),
    unary main_c_16 main_v99 (broadcastInDim S250000 ![] bcast_S_S250000 : (⟨S_, .i32⟩ : BufTy).Contents (Elt F) → (⟨S250000, .i32⟩ : BufTy).Contents (Elt F)),
    binary main_arg37 main_v99 main_v100 (cmpi .slt : (⟨S250000, .i32⟩ : BufTy).Contents (Elt F) → (⟨S250000, .i32⟩ : BufTy).Contents (Elt F) → (⟨S250000, .i1⟩ : BufTy).Contents (Elt F)),
    nullary main_c_17 (constantI S_ 32 8000#32),
    unary main_c_17 main_v101 (broadcastInDim S250000 ![] bcast_S_S250000 : (⟨S_, .i32⟩ : BufTy).Contents (Elt F) → (⟨S250000, .i32⟩ : BufTy).Contents (Elt F)),
    binary main_arg37 main_v101 main_v102 (addi : (⟨S250000, .i32⟩ : BufTy).Contents (Elt F) → (⟨S250000, .i32⟩ : BufTy).Contents (Elt F) → (⟨S250000, .i32⟩ : BufTy).Contents (Elt F)),
    ternary main_v100 main_v102 main_arg37 main_v103 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v103 main_v104 (broadcastInDim S250000x1 ![0] bcast_S250000_S250000x1_0 : (⟨S250000, .i32⟩ : BufTy).Contents (Elt F) → (⟨S250000x1, .i32⟩ : BufTy).Contents (Elt F)),
    binary main_v9 main_v104 main_v105 ((fun x i => Host.gather gather_S8000x128_S250000x1_S250000x128_1_0_n_n_0_1_1128 x i) : (⟨S8000x128, .f32⟩ : BufTy).Contents (Elt F) → (⟨S250000x1, .i32⟩ : BufTy).Contents (Elt F) → (⟨S250000x128, .f32⟩ : BufTy).Contents (Elt F)),
    nullary main_cst_18 (constant S_ .f32 0x00000000#32),
    unary main_cst_18 main_v106 (broadcastInDim S20000x128 ![] bcast_S_S20000x128 : (⟨S_, .f32⟩ : BufTy).Contents (Elt F) → (⟨S20000x128, .f32⟩ : BufTy).Contents (Elt F)),
    unary main_arg38 main_v107 (broadcastInDim S250000x1 ![0] bcast_S250000_S250000x1_0 : (⟨S250000, .i32⟩ : BufTy).Contents (Elt F) → (⟨S250000x1, .i32⟩ : BufTy).Contents (Elt F)),
    ternary main_v106 main_v107 main_v105 main_v108 ((fun x i u => Host.scatterAdd scatter_S20000x128_S250000x1_S250000x128_1_0_0_1 x i u) : (⟨S20000x128, .f32⟩ : BufTy).Contents (Elt F) → (⟨S250000x1, .i32⟩ : BufTy).Contents (Elt F) → (⟨S250000x128, .f32⟩ : BufTy).Contents (Elt F) → (⟨S20000x128, .f32⟩ : BufTy).Contents (Elt F)),
    nullary main_cst_19 (constant S_ .f32 0x3F800000#32),
    unary main_cst_19 main_v109 (broadcastInDim S250000x1 ![] bcast_S_S250000x1 : (⟨S_, .f32⟩ : BufTy).Contents (Elt F) → (⟨S250000x1, .f32⟩ : BufTy).Contents (Elt F)),
    nullary main_cst_20 (constant S_ .f32 0x00000000#32),
    unary main_cst_20 main_v110 (broadcastInDim S20000x1 ![] bcast_S_S20000x1 : (⟨S_, .f32⟩ : BufTy).Contents (Elt F) → (⟨S20000x1, .f32⟩ : BufTy).Contents (Elt F)),
    unary main_arg38 main_v111 (broadcastInDim S250000x1 ![0] bcast_S250000_S250000x1_0 : (⟨S250000, .i32⟩ : BufTy).Contents (Elt F) → (⟨S250000x1, .i32⟩ : BufTy).Contents (Elt F)),
    ternary main_v110 main_v111 main_v109 main_v112 ((fun x i u => Host.scatterAdd scatter_S20000x1_S250000x1_S250000x1_1_0_0_1 x i u) : (⟨S20000x1, .f32⟩ : BufTy).Contents (Elt F) → (⟨S250000x1, .i32⟩ : BufTy).Contents (Elt F) → (⟨S250000x1, .f32⟩ : BufTy).Contents (Elt F) → (⟨S20000x1, .f32⟩ : BufTy).Contents (Elt F)),
    nullary main_cst_21 (constant S_ .f32 0x3F800000#32),
    unary main_cst_21 main_v113 (broadcastInDim S20000x1 ![] bcast_S_S20000x1 : (⟨S_, .f32⟩ : BufTy).Contents (Elt F) → (⟨S20000x1, .f32⟩ : BufTy).Contents (Elt F)),
    binary main_v112 main_v113 main_v114 (maximumf : (⟨S20000x1, .f32⟩ : BufTy).Contents (Elt F) → (⟨S20000x1, .f32⟩ : BufTy).Contents (Elt F) → (⟨S20000x1, .f32⟩ : BufTy).Contents (Elt F)),
    unary main_v114 main_v115 (broadcastInDim S20000x128 ![0, 1] bcast_S20000x1_S20000x128_0_1 : (⟨S20000x1, .f32⟩ : BufTy).Contents (Elt F) → (⟨S20000x128, .f32⟩ : BufTy).Contents (Elt F)),
    binary main_v108 main_v115 main_v116 (Host.divf : (⟨S20000x128, .f32⟩ : BufTy).Contents (Elt F) → (⟨S20000x128, .f32⟩ : BufTy).Contents (Elt F) → (⟨S20000x128, .f32⟩ : BufTy).Contents (Elt F)),
    unary main_arg23 main_v117 ((transpose S128x128 [1, 0] · transposes_S128x128_S128x128_1_0) : (⟨S128x128, .f32⟩ : BufTy).Contents (Elt F) → (⟨S128x128, .f32⟩ : BufTy).Contents (Elt F)),
    binary main_arg2 main_v117 main_v118 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v119 (broadcastInDim S1x128 ![1] bcast_S128_S1x128_1 : (⟨S128, .f32⟩ : BufTy).Contents (Elt F) → (⟨S1x128, .f32⟩ : BufTy).Contents (Elt F)),
    unary main_v119 main_v120 (broadcastInDim S20000x128 ![0, 1] bcast_S1x128_S20000x128_0_1 : (⟨S1x128, .f32⟩ : BufTy).Contents (Elt F) → (⟨S20000x128, .f32⟩ : BufTy).Contents (Elt F)),
    binary main_v118 main_v120 main_v121 (addf : (⟨S20000x128, .f32⟩ : BufTy).Contents (Elt F) → (⟨S20000x128, .f32⟩ : BufTy).Contents (Elt F) → (⟨S20000x128, .f32⟩ : BufTy).Contents (Elt F)),
    unary main_arg21 main_v122 ((transpose S128x128 [1, 0] · transposes_S128x128_S128x128_1_0) : (⟨S128x128, .f32⟩ : BufTy).Contents (Elt F) → (⟨S128x128, .f32⟩ : BufTy).Contents (Elt F)),
    binary main_v116 main_v122 main_v123 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v121 main_v123 main_v124 (addf : (⟨S20000x128, .f32⟩ : BufTy).Contents (Elt F) → (⟨S20000x128, .f32⟩ : BufTy).Contents (Elt F) → (⟨S20000x128, .f32⟩ : BufTy).Contents (Elt F)),
    unary main_arg22 main_v125 (broadcastInDim S1x128 ![1] bcast_S128_S1x128_1 : (⟨S128, .f32⟩ : BufTy).Contents (Elt F) → (⟨S1x128, .f32⟩ : BufTy).Contents (Elt F)),
    unary main_v125 main_v126 (broadcastInDim S20000x128 ![0, 1] bcast_S1x128_S20000x128_0_1 : (⟨S1x128, .f32⟩ : BufTy).Contents (Elt F) → (⟨S20000x128, .f32⟩ : BufTy).Contents (Elt F)),
    binary main_v124 main_v126 main_v127 (addf : (⟨S20000x128, .f32⟩ : BufTy).Contents (Elt F) → (⟨S20000x128, .f32⟩ : BufTy).Contents (Elt F) → (⟨S20000x128, .f32⟩ : BufTy).Contents (Elt F)),
    binary main_v98 main_v127 main_v128 (addf : (⟨S20000x128, .f32⟩ : BufTy).Contents (Elt F) → (⟨S20000x128, .f32⟩ : BufTy).Contents (Elt F) → (⟨S20000x128, .f32⟩ : BufTy).Contents (Elt F)),
    nullary main_cst_22 (constant S_ .f32 0x3F800000#32),
    unary main_cst_22 main_v129 (broadcastInDim S300000 ![] bcast_S_S300000 : (⟨S_, .f32⟩ : BufTy).Contents (Elt F) → (⟨S300000, .f32⟩ : BufTy).Contents (Elt F)),
    nullary main_cst_23 (constant S_ .f32 0x00000000#32),
    unary main_cst_23 main_v130 (broadcastInDim S20000 ![] bcast_S_S20000 : (⟨S_, .f32⟩ : BufTy).Contents (Elt F) → (⟨S20000, .f32⟩ : BufTy).Contents (Elt F)),
    unary main_arg39 main_v131 (broadcastInDim S300000x1 ![0] bcast_S300000_S300000x1_0 : (⟨S300000, .i32⟩ : BufTy).Contents (Elt F) → (⟨S300000x1, .i32⟩ : BufTy).Contents (Elt F)),
    ternary main_v130 main_v131 main_v129 main_v132 ((fun x i u => Host.scatterAdd scatter_S20000_S300000x1_S300000_n_0_0_1 x i u) : (⟨S20000, .f32⟩ : BufTy).Contents (Elt F) → (⟨S300000x1, .i32⟩ : BufTy).Contents (Elt F) → (⟨S300000, .f32⟩ : BufTy).Contents (Elt F) → (⟨S20000, .f32⟩ : BufTy).Contents (Elt F)),
    nullary main_cst_24 (constant S_ .f32 0x3F800000#32),
    unary main_cst_24 main_v133 (broadcastInDim S20000 ![] bcast_S_S20000 : (⟨S_, .f32⟩ : BufTy).Contents (Elt F) → (⟨S20000, .f32⟩ : BufTy).Contents (Elt F)),
    binary main_v132 main_v133 main_v134 (maximumf : (⟨S20000, .f32⟩ : BufTy).Contents (Elt F) → (⟨S20000, .f32⟩ : BufTy).Contents (Elt F) → (⟨S20000, .f32⟩ : BufTy).Contents (Elt F)),
    nullary main_cst_25 (constant S_ .f32 0xBF000000#32),
    unary main_cst_25 main_v135 (broadcastInDim S20000 ![] bcast_S_S20000 : (⟨S_, .f32⟩ : BufTy).Contents (Elt F) → (⟨S20000, .f32⟩ : BufTy).Contents (Elt F)),
    binary main_v134 main_v135 main_v136 (Host.powf : (⟨S20000, .f32⟩ : BufTy).Contents (Elt F) → (⟨S20000, .f32⟩ : BufTy).Contents (Elt F) → (⟨S20000, .f32⟩ : BufTy).Contents (Elt F)),
    nullary main_cst_26 (constant S_ .f32 0x00000000#32),
    unary main_cst_26 main_v137 (broadcastInDim S1000 ![] bcast_S_S1000 : (⟨S_, .f32⟩ : BufTy).Contents (Elt F) → (⟨S1000, .f32⟩ : BufTy).Contents (Elt F)),
    unary main_arg40 main_v138 (broadcastInDim S300000x1 ![0] bcast_S300000_S300000x1_0 : (⟨S300000, .i32⟩ : BufTy).Contents (Elt F) → (⟨S300000x1, .i32⟩ : BufTy).Contents (Elt F)),
    ternary main_v137 main_v138 main_v129 main_v139 ((fun x i u => Host.scatterAdd scatter_S1000_S300000x1_S300000_n_0_0_1 x i u) : (⟨S1000, .f32⟩ : BufTy).Contents (Elt F) → (⟨S300000x1, .i32⟩ : BufTy).Contents (Elt F) → (⟨S300000, .f32⟩ : BufTy).Contents (Elt F) → (⟨S1000, .f32⟩ : BufTy).Contents (Elt F)),
    nullary main_cst_27 (constant S_ .f32 0x3F800000#32),
    unary main_cst_27 main_v140 (broadcastInDim S1000 ![] bcast_S_S1000 : (⟨S_, .f32⟩ : BufTy).Contents (Elt F) → (⟨S1000, .f32⟩ : BufTy).Contents (Elt F)),
    binary main_v139 main_v140 main_v141 (maximumf : (⟨S1000, .f32⟩ : BufTy).Contents (Elt F) → (⟨S1000, .f32⟩ : BufTy).Contents (Elt F) → (⟨S1000, .f32⟩ : BufTy).Contents (Elt F)),
    nullary main_cst_28 (constant S_ .f32 0xBF000000#32),
    unary main_cst_28 main_v142 (broadcastInDim S1000 ![] bcast_S_S1000 : (⟨S_, .f32⟩ : BufTy).Contents (Elt F) → (⟨S1000, .f32⟩ : BufTy).Contents (Elt F)),
    binary main_v141 main_v142 main_v143 (Host.powf : (⟨S1000, .f32⟩ : BufTy).Contents (Elt F) → (⟨S1000, .f32⟩ : BufTy).Contents (Elt F) → (⟨S1000, .f32⟩ : BufTy).Contents (Elt F)),
    unary main_v136 main_v144 (broadcastInDim S20000x1 ![0] bcast_S20000_S20000x1_0 : (⟨S20000, .f32⟩ : BufTy).Contents (Elt F) → (⟨S20000x1, .f32⟩ : BufTy).Contents (Elt F)),
    unary main_v144 main_v145 (broadcastInDim S20000x128 ![0, 1] bcast_S20000x1_S20000x128_0_1 : (⟨S20000x1, .f32⟩ : BufTy).Contents (Elt F) → (⟨S20000x128, .f32⟩ : BufTy).Contents (Elt F)),
    binary main_v128 main_v145 main_v146 (mulf : (⟨S20000x128, .f32⟩ : BufTy).Contents (Elt F) → (⟨S20000x128, .f32⟩ : BufTy).Contents (Elt F) → (⟨S20000x128, .f32⟩ : BufTy).Contents (Elt F)),
    nullary main_c_29 (constantI S_ 32 0#32),
    unary main_c_29 main_v147 (broadcastInDim S300000 ![] bcast_S_S300000 : (⟨S_, .i32⟩ : BufTy).Contents (Elt F) → (⟨S300000, .i32⟩ : BufTy).Contents (Elt F)),
    binary main_arg39 main_v147 main_v148 (cmpi .slt : (⟨S300000, .i32⟩ : BufTy).Contents (Elt F) → (⟨S300000, .i32⟩ : BufTy).Contents (Elt F) → (⟨S300000, .i1⟩ : BufTy).Contents (Elt F)),
    nullary main_c_30 (constantI S_ 32 20000#32),
    unary main_c_30 main_v149 (broadcastInDim S300000 ![] bcast_S_S300000 : (⟨S_, .i32⟩ : BufTy).Contents (Elt F) → (⟨S300000, .i32⟩ : BufTy).Contents (Elt F)),
    binary main_arg39 main_v149 main_v150 (addi : (⟨S300000, .i32⟩ : BufTy).Contents (Elt F) → (⟨S300000, .i32⟩ : BufTy).Contents (Elt F) → (⟨S300000, .i32⟩ : BufTy).Contents (Elt F)),
    ternary main_v148 main_v150 main_arg39 main_v151 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v151 main_v152 (broadcastInDim S300000x1 ![0] bcast_S300000_S300000x1_0 : (⟨S300000, .i32⟩ : BufTy).Contents (Elt F) → (⟨S300000x1, .i32⟩ : BufTy).Contents (Elt F)),
    binary main_v146 main_v152 main_v153 ((fun x i => Host.gather gather_S20000x128_S300000x1_S300000x128_1_0_n_n_0_1_1128 x i) : (⟨S20000x128, .f32⟩ : BufTy).Contents (Elt F) → (⟨S300000x1, .i32⟩ : BufTy).Contents (Elt F) → (⟨S300000x128, .f32⟩ : BufTy).Contents (Elt F)),
    nullary main_cst_31 (constant S_ .f32 0x00000000#32),
    unary main_cst_31 main_v154 (broadcastInDim S1000x128 ![] bcast_S_S1000x128 : (⟨S_, .f32⟩ : BufTy).Contents (Elt F) → (⟨S1000x128, .f32⟩ : BufTy).Contents (Elt F)),
    unary main_arg40 main_v155 (broadcastInDim S300000x1 ![0] bcast_S300000_S300000x1_0 : (⟨S300000, .i32⟩ : BufTy).Contents (Elt F) → (⟨S300000x1, .i32⟩ : BufTy).Contents (Elt F)),
    ternary main_v154 main_v155 main_v153 main_v156 ((fun x i u => Host.scatterAdd scatter_S1000x128_S300000x1_S300000x128_1_0_0_1 x i u) : (⟨S1000x128, .f32⟩ : BufTy).Contents (Elt F) → (⟨S300000x1, .i32⟩ : BufTy).Contents (Elt F) → (⟨S300000x128, .f32⟩ : BufTy).Contents (Elt F) → (⟨S1000x128, .f32⟩ : BufTy).Contents (Elt F)),
    unary main_v143 main_v157 (broadcastInDim S1000x1 ![0] bcast_S1000_S1000x1_0 : (⟨S1000, .f32⟩ : BufTy).Contents (Elt F) → (⟨S1000x1, .f32⟩ : BufTy).Contents (Elt F)),
    unary main_v157 main_v158 (broadcastInDim S1000x128 ![0, 1] bcast_S1000x1_S1000x128_0_1 : (⟨S1000x1, .f32⟩ : BufTy).Contents (Elt F) → (⟨S1000x128, .f32⟩ : BufTy).Contents (Elt F)),
    binary main_v156 main_v158 main_v159 (mulf : (⟨S1000x128, .f32⟩ : BufTy).Contents (Elt F) → (⟨S1000x128, .f32⟩ : BufTy).Contents (Elt F) → (⟨S1000x128, .f32⟩ : BufTy).Contents (Elt F)),
    unary main_arg25 main_v160 ((transpose S128x128 [1, 0] · transposes_S128x128_S128x128_1_0) : (⟨S128x128, .f32⟩ : BufTy).Contents (Elt F) → (⟨S128x128, .f32⟩ : BufTy).Contents (Elt F)),
    binary main_v159 main_v160 main_v161 ((fun l r => Host.dotGeneral dot_S1000x128_S128x128_S1000x128_1_0_0_1_n_n none l r) : (⟨S1000x128, .f32⟩ : BufTy).Contents (Elt F) → (⟨S128x128, .f32⟩ : BufTy).Contents (Elt F) → (⟨S1000x128, .f32⟩ : BufTy).Contents (Elt F)),
    unary main_arg26 main_v162 (broadcastInDim S1x128 ![1] bcast_S128_S1x128_1 : (⟨S128, .f32⟩ : BufTy).Contents (Elt F) → (⟨S1x128, .f32⟩ : BufTy).Contents (Elt F)),
    unary main_v162 main_v163 (broadcastInDim S1000x128 ![0, 1] bcast_S1x128_S1000x128_0_1 : (⟨S1x128, .f32⟩ : BufTy).Contents (Elt F) → (⟨S1000x128, .f32⟩ : BufTy).Contents (Elt F)),
    binary main_v161 main_v163 main_v164 (addf : (⟨S1000x128, .f32⟩ : BufTy).Contents (Elt F) → (⟨S1000x128, .f32⟩ : BufTy).Contents (Elt F) → (⟨S1000x128, .f32⟩ : BufTy).Contents (Elt F)),
    nullary main_c_32 (constantI S_ 32 0#32),
    unary main_c_32 main_v165 (broadcastInDim S50000 ![] bcast_S_S50000 : (⟨S_, .i32⟩ : BufTy).Contents (Elt F) → (⟨S50000, .i32⟩ : BufTy).Contents (Elt F)),
    binary main_arg41 main_v165 main_v166 (cmpi .slt : (⟨S50000, .i32⟩ : BufTy).Contents (Elt F) → (⟨S50000, .i32⟩ : BufTy).Contents (Elt F) → (⟨S50000, .i1⟩ : BufTy).Contents (Elt F)),
    nullary main_c_33 (constantI S_ 32 20000#32),
    unary main_c_33 main_v167 (broadcastInDim S50000 ![] bcast_S_S50000 : (⟨S_, .i32⟩ : BufTy).Contents (Elt F) → (⟨S50000, .i32⟩ : BufTy).Contents (Elt F)),
    binary main_arg41 main_v167 main_v168 (addi : (⟨S50000, .i32⟩ : BufTy).Contents (Elt F) → (⟨S50000, .i32⟩ : BufTy).Contents (Elt F) → (⟨S50000, .i32⟩ : BufTy).Contents (Elt F)),
    ternary main_v166 main_v168 main_arg41 main_v169 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v169 main_v170 (broadcastInDim S50000x1 ![0] bcast_S50000_S50000x1_0 : (⟨S50000, .i32⟩ : BufTy).Contents (Elt F) → (⟨S50000x1, .i32⟩ : BufTy).Contents (Elt F)),
    binary main_v128 main_v170 main_v171 ((fun x i => Host.gather gather_S20000x128_S50000x1_S50000x128_1_0_n_n_0_1_1128 x i) : (⟨S20000x128, .f32⟩ : BufTy).Contents (Elt F) → (⟨S50000x1, .i32⟩ : BufTy).Contents (Elt F) → (⟨S50000x128, .f32⟩ : BufTy).Contents (Elt F)),
    nullary main_c_34 (constantI S_ 32 0#32),
    unary main_c_34 main_v172 (broadcastInDim S50000 ![] bcast_S_S50000 : (⟨S_, .i32⟩ : BufTy).Contents (Elt F) → (⟨S50000, .i32⟩ : BufTy).Contents (Elt F)),
    binary main_arg42 main_v172 main_v173 (cmpi .slt : (⟨S50000, .i32⟩ : BufTy).Contents (Elt F) → (⟨S50000, .i32⟩ : BufTy).Contents (Elt F) → (⟨S50000, .i1⟩ : BufTy).Contents (Elt F)),
    nullary main_c_35 (constantI S_ 32 1000#32),
    unary main_c_35 main_v174 (broadcastInDim S50000 ![] bcast_S_S50000 : (⟨S_, .i32⟩ : BufTy).Contents (Elt F) → (⟨S50000, .i32⟩ : BufTy).Contents (Elt F)),
    binary main_arg42 main_v174 main_v175 (addi : (⟨S50000, .i32⟩ : BufTy).Contents (Elt F) → (⟨S50000, .i32⟩ : BufTy).Contents (Elt F) → (⟨S50000, .i32⟩ : BufTy).Contents (Elt F)),
    ternary main_v173 main_v175 main_arg42 main_v176 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v176 main_v177 (broadcastInDim S50000x1 ![0] bcast_S50000_S50000x1_0 : (⟨S50000, .i32⟩ : BufTy).Contents (Elt F) → (⟨S50000x1, .i32⟩ : BufTy).Contents (Elt F)),
    binary main_v164 main_v177 main_v178 ((fun x i => Host.gather gather_S1000x128_S50000x1_S50000x128_1_0_n_n_0_1_1128 x i) : (⟨S1000x128, .f32⟩ : BufTy).Contents (Elt F) → (⟨S50000x1, .i32⟩ : BufTy).Contents (Elt F) → (⟨S50000x128, .f32⟩ : BufTy).Contents (Elt F)),
    binary main_v171 main_v178 main_v179 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg27 main_v180 ((transpose S256x256 [1, 0] · transposes_S256x256_S256x256_1_0) : (⟨S256x256, .f32⟩ : BufTy).Contents (Elt F) → (⟨S256x256, .f32⟩ : BufTy).Contents (Elt F)),
    binary main_v179 main_v180 main_v181 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg28 main_v182 (broadcastInDim S1x256 ![1] bcast_S256_S1x256_1 : (⟨S256, .f32⟩ : BufTy).Contents (Elt F) → (⟨S1x256, .f32⟩ : BufTy).Contents (Elt F)),
    unary main_v182 main_v183 (broadcastInDim S50000x256 ![0, 1] bcast_S1x256_S50000x256_0_1 : (⟨S1x256, .f32⟩ : BufTy).Contents (Elt F) → (⟨S50000x256, .f32⟩ : BufTy).Contents (Elt F)),
    binary main_v181 main_v183 main_v184 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v184) (TRef.of (T := ⟨S50000x256, .f32⟩) main_call0_v0) (TRef.of (T := ⟨S50000x256, .f32⟩) main_v185) maximumf,
    unary main_arg29 main_v186 ((transpose S256x1 [1, 0] · transposes_S1x256_S256x1_1_0) : (⟨S1x256, .f32⟩ : BufTy).Contents (Elt F) → (⟨S256x1, .f32⟩ : BufTy).Contents (Elt F)),
    binary main_v185 main_v186 main_v187 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg30 main_v188 (broadcastInDim S1x1 ![1] bcast_S1_S1x1_1 : (⟨S1, .f32⟩ : BufTy).Contents (Elt F) → (⟨S1x1, .f32⟩ : BufTy).Contents (Elt F)),
    unary main_v188 main_v189 (broadcastInDim S50000x1 ![0, 1] bcast_S1x1_S50000x1_0_1 : (⟨S1x1, .f32⟩ : BufTy).Contents (Elt F) → (⟨S50000x1, .f32⟩ : BufTy).Contents (Elt F)),
    binary main_v187 main_v189 main_v190 (addf : (⟨S50000x1, .f32⟩ : BufTy).Contents (Elt F) → (⟨S50000x1, .f32⟩ : BufTy).Contents (Elt F) → (⟨S50000x1, .f32⟩ : BufTy).Contents (Elt F)),
    nullary main_c_36 (constantI S_ 32 0#32),
    unary main_c_36 main_v191 (broadcastInDim S50000 ![] bcast_S_S50000 : (⟨S_, .i32⟩ : BufTy).Contents (Elt F) → (⟨S50000, .i32⟩ : BufTy).Contents (Elt F)),
    binary main_arg41 main_v191 main_v192 (cmpi .slt : (⟨S50000, .i32⟩ : BufTy).Contents (Elt F) → (⟨S50000, .i32⟩ : BufTy).Contents (Elt F) → (⟨S50000, .i1⟩ : BufTy).Contents (Elt F)),
    nullary main_c_37 (constantI S_ 32 20000#32),
    unary main_c_37 main_v193 (broadcastInDim S50000 ![] bcast_S_S50000 : (⟨S_, .i32⟩ : BufTy).Contents (Elt F) → (⟨S50000, .i32⟩ : BufTy).Contents (Elt F)),
    binary main_arg41 main_v193 main_v194 (addi : (⟨S50000, .i32⟩ : BufTy).Contents (Elt F) → (⟨S50000, .i32⟩ : BufTy).Contents (Elt F) → (⟨S50000, .i32⟩ : BufTy).Contents (Elt F)),
    ternary main_v192 main_v194 main_arg41 main_v195 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v195 main_v196 (broadcastInDim S50000x1 ![0] bcast_S50000_S50000x1_0 : (⟨S50000, .i32⟩ : BufTy).Contents (Elt F) → (⟨S50000x1, .i32⟩ : BufTy).Contents (Elt F)),
    binary main_v128 main_v196 main_v197 ((fun x i => Host.gather gather_S20000x128_S50000x1_S50000x128_1_0_n_n_0_1_1128 x i) : (⟨S20000x128, .f32⟩ : BufTy).Contents (Elt F) → (⟨S50000x1, .i32⟩ : BufTy).Contents (Elt F) → (⟨S50000x128, .f32⟩ : BufTy).Contents (Elt F)),
    nullary main_c_38 (constantI S_ 32 0#32),
    unary main_c_38 main_v198 (broadcastInDim S50000 ![] bcast_S_S50000 : (⟨S_, .i32⟩ : BufTy).Contents (Elt F) → (⟨S50000, .i32⟩ : BufTy).Contents (Elt F)),
    binary main_arg43 main_v198 main_v199 (cmpi .slt : (⟨S50000, .i32⟩ : BufTy).Contents (Elt F) → (⟨S50000, .i32⟩ : BufTy).Contents (Elt F) → (⟨S50000, .i1⟩ : BufTy).Contents (Elt F)),
    nullary main_c_39 (constantI S_ 32 1000#32),
    unary main_c_39 main_v200 (broadcastInDim S50000 ![] bcast_S_S50000 : (⟨S_, .i32⟩ : BufTy).Contents (Elt F) → (⟨S50000, .i32⟩ : BufTy).Contents (Elt F)),
    binary main_arg43 main_v200 main_v201 (addi : (⟨S50000, .i32⟩ : BufTy).Contents (Elt F) → (⟨S50000, .i32⟩ : BufTy).Contents (Elt F) → (⟨S50000, .i32⟩ : BufTy).Contents (Elt F)),
    ternary main_v199 main_v201 main_arg43 main_v202 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v202 main_v203 (broadcastInDim S50000x1 ![0] bcast_S50000_S50000x1_0 : (⟨S50000, .i32⟩ : BufTy).Contents (Elt F) → (⟨S50000x1, .i32⟩ : BufTy).Contents (Elt F)),
    binary main_v164 main_v203 main_v204 ((fun x i => Host.gather gather_S1000x128_S50000x1_S50000x128_1_0_n_n_0_1_1128 x i) : (⟨S1000x128, .f32⟩ : BufTy).Contents (Elt F) → (⟨S50000x1, .i32⟩ : BufTy).Contents (Elt F) → (⟨S50000x128, .f32⟩ : BufTy).Contents (Elt F)),
    binary main_v197 main_v204 main_v205 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg27 main_v206 ((transpose S256x256 [1, 0] · transposes_S256x256_S256x256_1_0) : (⟨S256x256, .f32⟩ : BufTy).Contents (Elt F) → (⟨S256x256, .f32⟩ : BufTy).Contents (Elt F)),
    binary main_v205 main_v206 main_v207 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg28 main_v208 (broadcastInDim S1x256 ![1] bcast_S256_S1x256_1 : (⟨S256, .f32⟩ : BufTy).Contents (Elt F) → (⟨S1x256, .f32⟩ : BufTy).Contents (Elt F)),
    unary main_v208 main_v209 (broadcastInDim S50000x256 ![0, 1] bcast_S1x256_S50000x256_0_1 : (⟨S1x256, .f32⟩ : BufTy).Contents (Elt F) → (⟨S50000x256, .f32⟩ : BufTy).Contents (Elt F)),
    binary main_v207 main_v209 main_v210 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v210) (TRef.of (T := ⟨S50000x256, .f32⟩) main_call1_v0) (TRef.of (T := ⟨S50000x256, .f32⟩) main_v211) maximumf,
    unary main_arg29 main_v212 ((transpose S256x1 [1, 0] · transposes_S1x256_S256x1_1_0) : (⟨S1x256, .f32⟩ : BufTy).Contents (Elt F) → (⟨S256x1, .f32⟩ : BufTy).Contents (Elt F)),
    binary main_v211 main_v212 main_v213 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg30 main_v214 (broadcastInDim S1x1 ![1] bcast_S1_S1x1_1 : (⟨S1, .f32⟩ : BufTy).Contents (Elt F) → (⟨S1x1, .f32⟩ : BufTy).Contents (Elt F)),
    unary main_v214 main_v215 (broadcastInDim S50000x1 ![0, 1] bcast_S1x1_S50000x1_0_1 : (⟨S1x1, .f32⟩ : BufTy).Contents (Elt F) → (⟨S50000x1, .f32⟩ : BufTy).Contents (Elt F)),
    binary main_v213 main_v215 main_v216 (addf : (⟨S50000x1, .f32⟩ : BufTy).Contents (Elt F) → (⟨S50000x1, .f32⟩ : BufTy).Contents (Elt F) → (⟨S50000x1, .f32⟩ : BufTy).Contents (Elt F)),
    nullary main_c_40 (constantI S_ 32 0#32),
    unary main_c_40 main_v217 (broadcastInDim S50000 ![] bcast_S_S50000 : (⟨S_, .i32⟩ : BufTy).Contents (Elt F) → (⟨S50000, .i32⟩ : BufTy).Contents (Elt F)),
    binary main_arg45 main_v217 main_v218 (cmpi .slt : (⟨S50000, .i32⟩ : BufTy).Contents (Elt F) → (⟨S50000, .i32⟩ : BufTy).Contents (Elt F) → (⟨S50000, .i1⟩ : BufTy).Contents (Elt F)),
    nullary main_c_41 (constantI S_ 32 20000#32),
    unary main_c_41 main_v219 (broadcastInDim S50000 ![] bcast_S_S50000 : (⟨S_, .i32⟩ : BufTy).Contents (Elt F) → (⟨S50000, .i32⟩ : BufTy).Contents (Elt F)),
    binary main_arg45 main_v219 main_v220 (addi : (⟨S50000, .i32⟩ : BufTy).Contents (Elt F) → (⟨S50000, .i32⟩ : BufTy).Contents (Elt F) → (⟨S50000, .i32⟩ : BufTy).Contents (Elt F)),
    ternary main_v218 main_v220 main_arg45 main_v221 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v221 main_v222 (broadcastInDim S50000x1 ![0] bcast_S50000_S50000x1_0 : (⟨S50000, .i32⟩ : BufTy).Contents (Elt F) → (⟨S50000x1, .i32⟩ : BufTy).Contents (Elt F)),
    binary main_v128 main_v222 main_v223 ((fun x i => Host.gather gather_S20000x128_S50000x1_S50000x128_1_0_n_n_0_1_1128 x i) : (⟨S20000x128, .f32⟩ : BufTy).Contents (Elt F) → (⟨S50000x1, .i32⟩ : BufTy).Contents (Elt F) → (⟨S50000x128, .f32⟩ : BufTy).Contents (Elt F)),
    nullary main_c_42 (constantI S_ 32 0#32),
    unary main_c_42 main_v224 (broadcastInDim S50000 ![] bcast_S_S50000 : (⟨S_, .i32⟩ : BufTy).Contents (Elt F) → (⟨S50000, .i32⟩ : BufTy).Contents (Elt F)),
    binary main_arg44 main_v224 main_v225 (cmpi .slt : (⟨S50000, .i32⟩ : BufTy).Contents (Elt F) → (⟨S50000, .i32⟩ : BufTy).Contents (Elt F) → (⟨S50000, .i1⟩ : BufTy).Contents (Elt F)),
    nullary main_c_43 (constantI S_ 32 1000#32),
    unary main_c_43 main_v226 (broadcastInDim S50000 ![] bcast_S_S50000 : (⟨S_, .i32⟩ : BufTy).Contents (Elt F) → (⟨S50000, .i32⟩ : BufTy).Contents (Elt F)),
    binary main_arg44 main_v226 main_v227 (addi : (⟨S50000, .i32⟩ : BufTy).Contents (Elt F) → (⟨S50000, .i32⟩ : BufTy).Contents (Elt F) → (⟨S50000, .i32⟩ : BufTy).Contents (Elt F)),
    ternary main_v225 main_v227 main_arg44 main_v228 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v228 main_v229 (broadcastInDim S50000x1 ![0] bcast_S50000_S50000x1_0 : (⟨S50000, .i32⟩ : BufTy).Contents (Elt F) → (⟨S50000x1, .i32⟩ : BufTy).Contents (Elt F)),
    binary main_v164 main_v229 main_v230 ((fun x i => Host.gather gather_S1000x128_S50000x1_S50000x128_1_0_n_n_0_1_1128 x i) : (⟨S1000x128, .f32⟩ : BufTy).Contents (Elt F) → (⟨S50000x1, .i32⟩ : BufTy).Contents (Elt F) → (⟨S50000x128, .f32⟩ : BufTy).Contents (Elt F)),
    binary main_v223 main_v230 main_v231 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg27 main_v232 ((transpose S256x256 [1, 0] · transposes_S256x256_S256x256_1_0) : (⟨S256x256, .f32⟩ : BufTy).Contents (Elt F) → (⟨S256x256, .f32⟩ : BufTy).Contents (Elt F)),
    binary main_v231 main_v232 main_v233 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg28 main_v234 (broadcastInDim S1x256 ![1] bcast_S256_S1x256_1 : (⟨S256, .f32⟩ : BufTy).Contents (Elt F) → (⟨S1x256, .f32⟩ : BufTy).Contents (Elt F)),
    unary main_v234 main_v235 (broadcastInDim S50000x256 ![0, 1] bcast_S1x256_S50000x256_0_1 : (⟨S1x256, .f32⟩ : BufTy).Contents (Elt F) → (⟨S50000x256, .f32⟩ : BufTy).Contents (Elt F)),
    binary main_v233 main_v235 main_v236 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v236) (TRef.of (T := ⟨S50000x256, .f32⟩) main_call2_v0) (TRef.of (T := ⟨S50000x256, .f32⟩) main_v237) maximumf,
    unary main_arg29 main_v238 ((transpose S256x1 [1, 0] · transposes_S1x256_S256x1_1_0) : (⟨S1x256, .f32⟩ : BufTy).Contents (Elt F) → (⟨S256x1, .f32⟩ : BufTy).Contents (Elt F)),
    binary main_v237 main_v238 main_v239 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg30 main_v240 (broadcastInDim S1x1 ![1] bcast_S1_S1x1_1 : (⟨S1, .f32⟩ : BufTy).Contents (Elt F) → (⟨S1x1, .f32⟩ : BufTy).Contents (Elt F)),
    unary main_v240 main_v241 (broadcastInDim S50000x1 ![0, 1] bcast_S1x1_S50000x1_0_1 : (⟨S1x1, .f32⟩ : BufTy).Contents (Elt F) → (⟨S50000x1, .f32⟩ : BufTy).Contents (Elt F)),
    binary main_v239 main_v241 main_v242 (addf : (⟨S50000x1, .f32⟩ : BufTy).Contents (Elt F) → (⟨S50000x1, .f32⟩ : BufTy).Contents (Elt F) → (⟨S50000x1, .f32⟩ : BufTy).Contents (Elt F)),
    nullary main_c_44 (constantI S_ 32 0#32),
    unary main_c_44 main_v243 (broadcastInDim S50000 ![] bcast_S_S50000 : (⟨S_, .i32⟩ : BufTy).Contents (Elt F) → (⟨S50000, .i32⟩ : BufTy).Contents (Elt F)),
    binary main_arg46 main_v243 main_v244 (cmpi .slt : (⟨S50000, .i32⟩ : BufTy).Contents (Elt F) → (⟨S50000, .i32⟩ : BufTy).Contents (Elt F) → (⟨S50000, .i1⟩ : BufTy).Contents (Elt F)),
    nullary main_c_45 (constantI S_ 32 20000#32),
    unary main_c_45 main_v245 (broadcastInDim S50000 ![] bcast_S_S50000 : (⟨S_, .i32⟩ : BufTy).Contents (Elt F) → (⟨S50000, .i32⟩ : BufTy).Contents (Elt F)),
    binary main_arg46 main_v245 main_v246 (addi : (⟨S50000, .i32⟩ : BufTy).Contents (Elt F) → (⟨S50000, .i32⟩ : BufTy).Contents (Elt F) → (⟨S50000, .i32⟩ : BufTy).Contents (Elt F)),
    ternary main_v244 main_v246 main_arg46 main_v247 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v247 main_v248 (broadcastInDim S50000x1 ![0] bcast_S50000_S50000x1_0 : (⟨S50000, .i32⟩ : BufTy).Contents (Elt F) → (⟨S50000x1, .i32⟩ : BufTy).Contents (Elt F)),
    binary main_v128 main_v248 main_v249 ((fun x i => Host.gather gather_S20000x128_S50000x1_S50000x128_1_0_n_n_0_1_1128 x i) : (⟨S20000x128, .f32⟩ : BufTy).Contents (Elt F) → (⟨S50000x1, .i32⟩ : BufTy).Contents (Elt F) → (⟨S50000x128, .f32⟩ : BufTy).Contents (Elt F)),
    nullary main_c_46 (constantI S_ 32 0#32),
    unary main_c_46 main_v250 (broadcastInDim S50000 ![] bcast_S_S50000 : (⟨S_, .i32⟩ : BufTy).Contents (Elt F) → (⟨S50000, .i32⟩ : BufTy).Contents (Elt F)),
    binary main_arg44 main_v250 main_v251 (cmpi .slt : (⟨S50000, .i32⟩ : BufTy).Contents (Elt F) → (⟨S50000, .i32⟩ : BufTy).Contents (Elt F) → (⟨S50000, .i1⟩ : BufTy).Contents (Elt F)),
    nullary main_c_47 (constantI S_ 32 1000#32),
    unary main_c_47 main_v252 (broadcastInDim S50000 ![] bcast_S_S50000 : (⟨S_, .i32⟩ : BufTy).Contents (Elt F) → (⟨S50000, .i32⟩ : BufTy).Contents (Elt F)),
    binary main_arg44 main_v252 main_v253 (addi : (⟨S50000, .i32⟩ : BufTy).Contents (Elt F) → (⟨S50000, .i32⟩ : BufTy).Contents (Elt F) → (⟨S50000, .i32⟩ : BufTy).Contents (Elt F)),
    ternary main_v251 main_v253 main_arg44 main_v254 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v254 main_v255 (broadcastInDim S50000x1 ![0] bcast_S50000_S50000x1_0 : (⟨S50000, .i32⟩ : BufTy).Contents (Elt F) → (⟨S50000x1, .i32⟩ : BufTy).Contents (Elt F)),
    binary main_v164 main_v255 main_v256 ((fun x i => Host.gather gather_S1000x128_S50000x1_S50000x128_1_0_n_n_0_1_1128 x i) : (⟨S1000x128, .f32⟩ : BufTy).Contents (Elt F) → (⟨S50000x1, .i32⟩ : BufTy).Contents (Elt F) → (⟨S50000x128, .f32⟩ : BufTy).Contents (Elt F)),
    binary main_v249 main_v256 main_v257 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg27 main_v258 ((transpose S256x256 [1, 0] · transposes_S256x256_S256x256_1_0) : (⟨S256x256, .f32⟩ : BufTy).Contents (Elt F) → (⟨S256x256, .f32⟩ : BufTy).Contents (Elt F)),
    binary main_v257 main_v258 main_v259 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg28 main_v260 (broadcastInDim S1x256 ![1] bcast_S256_S1x256_1 : (⟨S256, .f32⟩ : BufTy).Contents (Elt F) → (⟨S1x256, .f32⟩ : BufTy).Contents (Elt F)),
    unary main_v260 main_v261 (broadcastInDim S50000x256 ![0, 1] bcast_S1x256_S50000x256_0_1 : (⟨S1x256, .f32⟩ : BufTy).Contents (Elt F) → (⟨S50000x256, .f32⟩ : BufTy).Contents (Elt F)),
    binary main_v259 main_v261 main_v262 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v262) (TRef.of (T := ⟨S50000x256, .f32⟩) main_call3_v0) (TRef.of (T := ⟨S50000x256, .f32⟩) main_v263) maximumf,
    unary main_arg29 main_v264 ((transpose S256x1 [1, 0] · transposes_S1x256_S256x1_1_0) : (⟨S1x256, .f32⟩ : BufTy).Contents (Elt F) → (⟨S256x1, .f32⟩ : BufTy).Contents (Elt F)),
    binary main_v263 main_v264 main_v265 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg30 main_v266 (broadcastInDim S1x1 ![1] bcast_S1_S1x1_1 : (⟨S1, .f32⟩ : BufTy).Contents (Elt F) → (⟨S1x1, .f32⟩ : BufTy).Contents (Elt F)),
    unary main_v266 main_v267 (broadcastInDim S50000x1 ![0, 1] bcast_S1x1_S50000x1_0_1 : (⟨S1x1, .f32⟩ : BufTy).Contents (Elt F) → (⟨S50000x1, .f32⟩ : BufTy).Contents (Elt F)),
    binary main_v265 main_v267 main_v268 (addf : (⟨S50000x1, .f32⟩ : BufTy).Contents (Elt F) → (⟨S50000x1, .f32⟩ : BufTy).Contents (Elt F) → (⟨S50000x1, .f32⟩ : BufTy).Contents (Elt F)),
    binary main_v190 main_v216 main_v269 (subf : (⟨S50000x1, .f32⟩ : BufTy).Contents (Elt F) → (⟨S50000x1, .f32⟩ : BufTy).Contents (Elt F) → (⟨S50000x1, .f32⟩ : BufTy).Contents (Elt F)),
    binary main_v242 main_v268 main_v270 (subf : (⟨S50000x1, .f32⟩ : BufTy).Contents (Elt F) → (⟨S50000x1, .f32⟩ : BufTy).Contents (Elt F) → (⟨S50000x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., binary_bufs_sub ..⟩

end Cert.ReferenceIdeal.RunHand

end
-- ==== Proof.ReferenceRunHandParts.lean ====
/-
  The reference program cut in three stretches, and the composed terms of what it returns.

  The reference is a straight line of 329 host operations. Stretch A (operations 1 to 153) ends with the node update h₁ of
  the first graph layer (`main_v128`, the sum of the four relations' terms) and also holds the item-feature projection
  (`main_v9`); stretch B (154 to 199) ends with the user update (`main_v164`), which reads h₁; stretch C (the rest)
  computes the two score differences (`main_v269`, `main_v270`), which read h₁ and the user update. Each stretch is read as
  a function of the contents X it starts from: what it leaves in a buffer is the stretch's operations substituted into
  one another in order, a term of X at the buffers the stretch reads from outside itself. Stated over a variable X the
  equations are about the operations alone. Here: the three stretches, the buffers each writes, and the composed terms.
-/
import proofs.«144146_j85358180041108_1_alg».proof.Proof.Gen.ReferenceIdeal
import Idealize.ShloMosaic.Lib.StableHlo.Run

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- Stretch A: operations 1 to 153, the last writing `main_v128`. -/
abbrev opsA : List (HloOp τ sig (Elt F)) :=
  [ unary main_arg5 main_v0 ((transpose S5000x128 [1, 0] · transposes_S128x5000_S5000x128_1_0) : (⟨S128x5000, .f32⟩ : BufTy).Contents (Elt F) → (⟨S5000x128, .f32⟩ : BufTy).Contents (Elt F)),
    binary main_arg0 main_v0 main_v1 ((fun l r => Host.dotGeneral dot_S1000x5000_S5000x128_S1000x128_1_0_0_1_n_n none l r) : (⟨S1000x5000, .f32⟩ : BufTy).Contents (Elt F) → (⟨S5000x128, .f32⟩ : BufTy).Contents (Elt F) → (⟨S1000x128, .f32⟩ : BufTy).Contents (Elt F)),
    unary main_arg6 main_v2 (broadcastInDim S1x128 ![1] bcast_S128_S1x128_1 : (⟨S128, .f32⟩ : BufTy).Contents (Elt F) → (⟨S1x128, .f32⟩ : BufTy).Contents (Elt F)),
    unary main_v2 main_v3 (broadcastInDim S1000x128 ![0, 1] bcast_S1x128_S1000x128_0_1 : (⟨S1x128, .f32⟩ : BufTy).Contents (Elt F) → (⟨S1000x128, .f32⟩ : BufTy).Contents (Elt F)),
    binary main_v1 main_v3 main_v4 (addf : (⟨S1000x128, .f32⟩ : BufTy).Contents (Elt F) → (⟨S1000x128, .f32⟩ : BufTy).Contents (Elt F) → (⟨S1000x128, .f32⟩ : BufTy).Contents (Elt F)),
    unary main_arg7 main_v5 ((transpose S1024x128 [1, 0] · transposes_S128x1024_S1024x128_1_0) : (⟨S128x1024, .f32⟩ : BufTy).Contents (Elt F) → (⟨S1024x128, .f32⟩ : BufTy).Contents (Elt F)),
    binary main_arg1 main_v5 main_v6 ((fun l r => Host.dotGeneral dot_S8000x1024_S1024x128_S8000x128_1_0_0_1_n_n none l r) : (⟨S8000x1024, .f32⟩ : BufTy).Contents (Elt F) → (⟨S1024x128, .f32⟩ : BufTy).Contents (Elt F) → (⟨S8000x128, .f32⟩ : BufTy).Contents (Elt F)),
    unary main_arg8 main_v7 (broadcastInDim S1x128 ![1] bcast_S128_S1x128_1 : (⟨S128, .f32⟩ : BufTy).Contents (Elt F) → (⟨S1x128, .f32⟩ : BufTy).Contents (Elt F)),
    unary main_v7 main_v8 (broadcastInDim S8000x128 ![0, 1] bcast_S1x128_S8000x128_0_1 : (⟨S1x128, .f32⟩ : BufTy).Contents (Elt F) → (⟨S8000x128, .f32⟩ : BufTy).Contents (Elt F)),
    binary main_v6 main_v8 main_v9 (addf : (⟨S8000x128, .f32⟩ : BufTy).Contents (Elt F) → (⟨S8000x128, .f32⟩ : BufTy).Contents (Elt F) → (⟨S8000x128, .f32⟩ : BufTy).Contents (Elt F)),
    nullary main_c (constantI S_ 32 0#32),
    unary main_c main_v10 (broadcastInDim S500000 ![] bcast_S_S500000 : (⟨S_, .i32⟩ : BufTy).Contents (Elt F) → (⟨S500000, .i32⟩ : BufTy).Contents (Elt F)),
    binary main_arg31 main_v10 main_v11 (cmpi .slt : (⟨S500000, .i32⟩ : BufTy).Contents (Elt F) → (⟨S500000, .i32⟩ : BufTy).Contents (Elt F) → (⟨S500000, .i1⟩ : BufTy).Contents (Elt F)),
    nullary main_c_0 (constantI S_ 32 20000#32),
    unary main_c_0 main_v12 (broadcastInDim S500000 ![] bcast_S_S500000 : (⟨S_, .i32⟩ : BufTy).Contents (Elt F) → (⟨S500000, .i32⟩ : BufTy).Contents (Elt F)),
    binary main_arg31 main_v12 main_v13 (addi : (⟨S500000, .i32⟩ : BufTy).Contents (Elt F) → (⟨S500000, .i32⟩ : BufTy).Contents (Elt F) → (⟨S500000, .i32⟩ : BufTy).Contents (Elt F)),
    ternary main_v11 main_v13 main_arg31 main_v14 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v14 main_v15 (broadcastInDim S500000x1 ![0] bcast_S500000_S500000x1_0 : (⟨S500000, .i32⟩ : BufTy).Contents (Elt F) → (⟨S500000x1, .i32⟩ : BufTy).Contents (Elt F)),
    binary main_arg2 main_v15 main_v16 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v17 (broadcastInDim S20000x128 ![] bcast_S_S20000x128 : (⟨S_, .f32⟩ : BufTy).Contents (Elt F) → (⟨S20000x128, .f32⟩ : BufTy).Contents (Elt F)),
    unary main_arg32 main_v18 (broadcastInDim S500000x1 ![0] bcast_S500000_S500000x1_0 : (⟨S500000, .i32⟩ : BufTy).Contents (Elt F) → (⟨S500000x1, .i32⟩ : BufTy).Contents (Elt F)),
    ternary main_v17 main_v18 main_v16 main_v19 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    nullary main_cst_1 (constant S_ .f32 0x3F800000#32),
    unary main_cst_1 main_v20 (broadcastInDim S500000x1 ![] bcast_S_S500000x1 : (⟨S_, .f32⟩ : BufTy).Contents (Elt F) → (⟨S500000x1, .f32⟩ : BufTy).Contents (Elt F)),
    nullary main_cst_2 (constant S_ .f32 0x00000000#32),
    unary main_cst_2 main_v21 (broadcastInDim S20000x1 ![] bcast_S_S20000x1 : (⟨S_, .f32⟩ : BufTy).Contents (Elt F) → (⟨S20000x1, .f32⟩ : BufTy).Contents (Elt F)),
    unary main_arg32 main_v22 (broadcastInDim S500000x1 ![0] bcast_S500000_S500000x1_0 : (⟨S500000, .i32⟩ : BufTy).Contents (Elt F) → (⟨S500000x1, .i32⟩ : BufTy).Contents (Elt F)),
    ternary main_v21 main_v22 main_v20 main_v23 ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)),
    nullary main_cst_3 (constant S_ .f32 0x3F800000#32),
    unary main_cst_3 main_v24 (broadcastInDim S20000x1 ![] bcast_S_S20000x1 : (⟨S_, .f32⟩ : BufTy).Contents (Elt F) → (⟨S20000x1, .f32⟩ : BufTy).Contents (Elt F)),
    binary main_v23 main_v24 main_v25 (maximumf : (⟨S20000x1, .f32⟩ : BufTy).Contents (Elt F) → (⟨S20000x1, .f32⟩ : BufTy).Contents (Elt F) → (⟨S20000x1, .f32⟩ : BufTy).Contents (Elt F)),
    unary main_v25 main_v26 (broadcastInDim S20000x128 ![0, 1] bcast_S20000x1_S20000x128_0_1 : (⟨S20000x1, .f32⟩ : BufTy).Contents (Elt F) → (⟨S20000x128, .f32⟩ : BufTy).Contents (Elt F)),
    binary main_v19 main_v26 main_v27 (Host.divf : (⟨S20000x128, .f32⟩ : BufTy).Contents (Elt F) → (⟨S20000x128, .f32⟩ : BufTy).Contents (Elt F) → (⟨S20000x128, .f32⟩ : BufTy).Contents (Elt F)),
    unary main_arg11 main_v28 ((transpose S128x128 [1, 0] · transposes_S128x128_S128x128_1_0) : (⟨S128x128, .f32⟩ : BufTy).Contents (Elt F) → (⟨S128x128, .f32⟩ : BufTy).Contents (Elt F)),
    binary main_arg2 main_v28 main_v29 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg12 main_v30 (broadcastInDim S1x128 ![1] bcast_S128_S1x128_1 : (⟨S128, .f32⟩ : BufTy).Contents (Elt F) → (⟨S1x128, .f32⟩ : BufTy).Contents (Elt F)),
    unary main_v30 main_v31 (broadcastInDim S20000x128 ![0, 1] bcast_S1x128_S20000x128_0_1 : (⟨S1x128, .f32⟩ : BufTy).Contents (Elt F) → (⟨S20000x128, .f32⟩ : BufTy).Contents (Elt F)),
    binary main_v29 main_v31 main_v32 (addf : (⟨S20000x128, .f32⟩ : BufTy).Contents (Elt F) → (⟨S20000x128, .f32⟩ : BufTy).Contents (Elt F) → (⟨S20000x128, .f32⟩ : BufTy).Contents (Elt F)),
    unary main_arg9 main_v33 ((transpose S128x128 [1, 0] · transposes_S128x128_S128x128_1_0) : (⟨S128x128, .f32⟩ : BufTy).Contents (Elt F) → (⟨S128x128, .f32⟩ : BufTy).Contents (Elt F)),
    binary main_v27 main_v33 main_v34 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v32 main_v34 main_v35 (addf : (⟨S20000x128, .f32⟩ : BufTy).Contents (Elt F) → (⟨S20000x128, .f32⟩ : BufTy).Contents (Elt F) → (⟨S20000x128, .f32⟩ : BufTy).Contents (Elt F)),
    unary main_arg10 main_v36 (broadcastInDim S1x128 ![1] bcast_S128_S1x128_1 : (⟨S128, .f32⟩ : BufTy).Contents (Elt F) → (⟨S1x128, .f32⟩ : BufTy).Contents (Elt F)),
    unary main_v36 main_v37 (broadcastInDim S20000x128 ![0, 1] bcast_S1x128_S20000x128_0_1 : (⟨S1x128, .f32⟩ : BufTy).Contents (Elt F) → (⟨S20000x128, .f32⟩ : BufTy).Contents (Elt F)),
    binary main_v35 main_v37 main_v38 (addf : (⟨S20000x128, .f32⟩ : BufTy).Contents (Elt F) → (⟨S20000x128, .f32⟩ : BufTy).Contents (Elt F) → (⟨S20000x128, .f32⟩ : BufTy).Contents (Elt F)),
    nullary main_c_4 (constantI S_ 32 0#32),
    unary main_c_4 main_v39 (broadcastInDim S300000 ![] bcast_S_S300000 : (⟨S_, .i32⟩ : BufTy).Contents (Elt F) → (⟨S300000, .i32⟩ : BufTy).Contents (Elt F)),
    binary main_arg33 main_v39 main_v40 (cmpi .slt : (⟨S300000, .i32⟩ : BufTy).Contents (Elt F) → (⟨S300000, .i32⟩ : BufTy).Contents (Elt F) → (⟨S300000, .i1⟩ : BufTy).Contents (Elt F)),
    nullary main_c_5 (constantI S_ 32 2000#32),
    unary main_c_5 main_v41 (broadcastInDim S300000 ![] bcast_S_S300000 : (⟨S_, .i32⟩ : BufTy).Contents (Elt F) → (⟨S300000, .i32⟩ : BufTy).Contents (Elt F)),
    binary main_arg33 main_v41 main_v42 (addi : (⟨S300000, .i32⟩ : BufTy).Contents (Elt F) → (⟨S300000, .i32⟩ : BufTy).Contents (Elt F) → (⟨S300000, .i32⟩ : BufTy).Contents (Elt F)),
    ternary main_v40 main_v42 main_arg33 main_v43 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v43 main_v44 (broadcastInDim S300000x1 ![0] bcast_S300000_S300000x1_0 : (⟨S300000, .i32⟩ : BufTy).Contents (Elt F) → (⟨S300000x1, .i32⟩ : BufTy).Contents (Elt F)),
    binary main_arg3 main_v44 main_v45 ((fun x i => Host.gather gather_S2000x128_S300000x1_S300000x128_1_0_n_n_0_1_1128 x i) : (⟨S2000x128, .f32⟩ : BufTy).Contents (Elt F) → (⟨S300000x1, .i32⟩ : BufTy).Contents (Elt F) → (⟨S300000x128, .f32⟩ : BufTy).Contents (Elt F)),
    nullary main_cst_6 (constant S_ .f32 0x00000000#32),
    unary main_cst_6 main_v46 (broadcastInDim S20000x128 ![] bcast_S_S20000x128 : (⟨S_, .f32⟩ : BufTy).Contents (Elt F) → (⟨S20000x128, .f32⟩ : BufTy).Contents (Elt F)),
    unary main_arg34 main_v47 (broadcastInDim S300000x1 ![0] bcast_S300000_S300000x1_0 : (⟨S300000, .i32⟩ : BufTy).Contents (Elt F) → (⟨S300000x1, .i32⟩ : BufTy).Contents (Elt F)),
    ternary main_v46 main_v47 main_v45 main_v48 ((fun x i u => Host.scatterAdd scatter_S20000x128_S300000x1_S300000x128_1_0_0_1 x i u) : (⟨S20000x128, .f32⟩ : BufTy).Contents (Elt F) → (⟨S300000x1, .i32⟩ : BufTy).Contents (Elt F) → (⟨S300000x128, .f32⟩ : BufTy).Contents (Elt F) → (⟨S20000x128, .f32⟩ : BufTy).Contents (Elt F)),
    nullary main_cst_7 (constant S_ .f32 0x3F800000#32),
    unary main_cst_7 main_v49 (broadcastInDim S300000x1 ![] bcast_S_S300000x1 : (⟨S_, .f32⟩ : BufTy).Contents (Elt F) → (⟨S300000x1, .f32⟩ : BufTy).Contents (Elt F)),
    nullary main_cst_8 (constant S_ .f32 0x00000000#32),
    unary main_cst_8 main_v50 (broadcastInDim S20000x1 ![] bcast_S_S20000x1 : (⟨S_, .f32⟩ : BufTy).Contents (Elt F) → (⟨S20000x1, .f32⟩ : BufTy).Contents (Elt F)),
    unary main_arg34 main_v51 (broadcastInDim S300000x1 ![0] bcast_S300000_S300000x1_0 : (⟨S300000, .i32⟩ : BufTy).Contents (Elt F) → (⟨S300000x1, .i32⟩ : BufTy).Contents (Elt F)),
    ternary main_v50 main_v51 main_v49 main_v52 ((fun x i u => Host.scatterAdd scatter_S20000x1_S300000x1_S300000x1_1_0_0_1 x i u) : (⟨S20000x1, .f32⟩ : BufTy).Contents (Elt F) → (⟨S300000x1, .i32⟩ : BufTy).Contents (Elt F) → (⟨S300000x1, .f32⟩ : BufTy).Contents (Elt F) → (⟨S20000x1, .f32⟩ : BufTy).Contents (Elt F)),
    nullary main_cst_9 (constant S_ .f32 0x3F800000#32),
    unary main_cst_9 main_v53 (broadcastInDim S20000x1 ![] bcast_S_S20000x1 : (⟨S_, .f32⟩ : BufTy).Contents (Elt F) → (⟨S20000x1, .f32⟩ : BufTy).Contents (Elt F)),
    binary main_v52 main_v53 main_v54 (maximumf : (⟨S20000x1, .f32⟩ : BufTy).Contents (Elt F) → (⟨S20000x1, .f32⟩ : BufTy).Contents (Elt F) → (⟨S20000x1, .f32⟩ : BufTy).Contents (Elt F)),
    unary main_v54 main_v55 (broadcastInDim S20000x128 ![0, 1] bcast_S20000x1_S20000x128_0_1 : (⟨S20000x1, .f32⟩ : BufTy).Contents (Elt F) → (⟨S20000x128, .f32⟩ : BufTy).Contents (Elt F)),
    binary main_v48 main_v55 main_v56 (Host.divf : (⟨S20000x128, .f32⟩ : BufTy).Contents (Elt F) → (⟨S20000x128, .f32⟩ : BufTy).Contents (Elt F) → (⟨S20000x128, .f32⟩ : BufTy).Contents (Elt F)),
    unary main_arg15 main_v57 ((transpose S128x128 [1, 0] · transposes_S128x128_S128x128_1_0) : (⟨S128x128, .f32⟩ : BufTy).Contents (Elt F) → (⟨S128x128, .f32⟩ : BufTy).Contents (Elt F)),
    binary main_arg2 main_v57 main_v58 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg16 main_v59 (broadcastInDim S1x128 ![1] bcast_S128_S1x128_1 : (⟨S128, .f32⟩ : BufTy).Contents (Elt F) → (⟨S1x128, .f32⟩ : BufTy).Contents (Elt F)),
    unary main_v59 main_v60 (broadcastInDim S20000x128 ![0, 1] bcast_S1x128_S20000x128_0_1 : (⟨S1x128, .f32⟩ : BufTy).Contents (Elt F) → (⟨S20000x128, .f32⟩ : BufTy).Contents (Elt F)),
    binary main_v58 main_v60 main_v61 (addf : (⟨S20000x128, .f32⟩ : BufTy).Contents (Elt F) → (⟨S20000x128, .f32⟩ : BufTy).Contents (Elt F) → (⟨S20000x128, .f32⟩ : BufTy).Contents (Elt F)),
    unary main_arg13 main_v62 ((transpose S128x128 [1, 0] · transposes_S128x128_S128x128_1_0) : (⟨S128x128, .f32⟩ : BufTy).Contents (Elt F) → (⟨S128x128, .f32⟩ : BufTy).Contents (Elt F)),
    binary main_v56 main_v62 main_v63 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v61 main_v63 main_v64 (addf : (⟨S20000x128, .f32⟩ : BufTy).Contents (Elt F) → (⟨S20000x128, .f32⟩ : BufTy).Contents (Elt F) → (⟨S20000x128, .f32⟩ : BufTy).Contents (Elt F)),
    unary main_arg14 main_v65 (broadcastInDim S1x128 ![1] bcast_S128_S1x128_1 : (⟨S128, .f32⟩ : BufTy).Contents (Elt F) → (⟨S1x128, .f32⟩ : BufTy).Contents (Elt F)),
    unary main_v65 main_v66 (broadcastInDim S20000x128 ![0, 1] bcast_S1x128_S20000x128_0_1 : (⟨S1x128, .f32⟩ : BufTy).Contents (Elt F) → (⟨S20000x128, .f32⟩ : BufTy).Contents (Elt F)),
    binary main_v64 main_v66 main_v67 (addf : (⟨S20000x128, .f32⟩ : BufTy).Contents (Elt F) → (⟨S20000x128, .f32⟩ : BufTy).Contents (Elt F) → (⟨S20000x128, .f32⟩ : BufTy).Contents (Elt F)),
    binary main_v38 main_v67 main_v68 (addf : (⟨S20000x128, .f32⟩ : BufTy).Contents (Elt F) → (⟨S20000x128, .f32⟩ : BufTy).Contents (Elt F) → (⟨S20000x128, .f32⟩ : BufTy).Contents (Elt F)),
    nullary main_c_10 (constantI S_ 32 0#32),
    unary main_c_10 main_v69 (broadcastInDim S400000 ![] bcast_S_S400000 : (⟨S_, .i32⟩ : BufTy).Contents (Elt F) → (⟨S400000, .i32⟩ : BufTy).Contents (Elt F)),
    binary main_arg35 main_v69 main_v70 (cmpi .slt : (⟨S400000, .i32⟩ : BufTy).Contents (Elt F) → (⟨S400000, .i32⟩ : BufTy).Contents (Elt F) → (⟨S400000, .i1⟩ : BufTy).Contents (Elt F)),
    nullary main_c_11 (constantI S_ 32 10000#32),
    unary main_c_11 main_v71 (broadcastInDim S400000 ![] bcast_S_S400000 : (⟨S_, .i32⟩ : BufTy).Contents (Elt F) → (⟨S400000, .i32⟩ : BufTy).Contents (Elt F)),
    binary main_arg35 main_v71 main_v72 (addi : (⟨S400000, .i32⟩ : BufTy).Contents (Elt F) → (⟨S400000, .i32⟩ : BufTy).Contents (Elt F) → (⟨S400000, .i32⟩ : BufTy).Contents (Elt F)),
    ternary main_v70 main_v72 main_arg35 main_v73 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v73 main_v74 (broadcastInDim S400000x1 ![0] bcast_S400000_S400000x1_0 : (⟨S400000, .i32⟩ : BufTy).Contents (Elt F) → (⟨S400000x1, .i32⟩ : BufTy).Contents (Elt F)),
    binary main_arg4 main_v74 main_v75 ((fun x i => Host.gather gather_S10000x128_S400000x1_S400000x128_1_0_n_n_0_1_1128 x i) : (⟨S10000x128, .f32⟩ : BufTy).Contents (Elt F) → (⟨S400000x1, .i32⟩ : BufTy).Contents (Elt F) → (⟨S400000x128, .f32⟩ : BufTy).Contents (Elt F)),
    nullary main_cst_12 (constant S_ .f32 0x00000000#32),
    unary main_cst_12 main_v76 (broadcastInDim S20000x128 ![] bcast_S_S20000x128 : (⟨S_, .f32⟩ : BufTy).Contents (Elt F) → (⟨S20000x128, .f32⟩ : BufTy).Contents (Elt F)),
    unary main_arg36 main_v77 (broadcastInDim S400000x1 ![0] bcast_S400000_S400000x1_0 : (⟨S400000, .i32⟩ : BufTy).Contents (Elt F) → (⟨S400000x1, .i32⟩ : BufTy).Contents (Elt F)),
    ternary main_v76 main_v77 main_v75 main_v78 ((fun x i u => Host.scatterAdd scatter_S20000x128_S400000x1_S400000x128_1_0_0_1 x i u) : (⟨S20000x128, .f32⟩ : BufTy).Contents (Elt F) → (⟨S400000x1, .i32⟩ : BufTy).Contents (Elt F) → (⟨S400000x128, .f32⟩ : BufTy).Contents (Elt F) → (⟨S20000x128, .f32⟩ : BufTy).Contents (Elt F)),
    nullary main_cst_13 (constant S_ .f32 0x3F800000#32),
    unary main_cst_13 main_v79 (broadcastInDim S400000x1 ![] bcast_S_S400000x1 : (⟨S_, .f32⟩ : BufTy).Contents (Elt F) → (⟨S400000x1, .f32⟩ : BufTy).Contents (Elt F)),
    nullary main_cst_14 (constant S_ .f32 0x00000000#32),
    unary main_cst_14 main_v80 (broadcastInDim S20000x1 ![] bcast_S_S20000x1 : (⟨S_, .f32⟩ : BufTy).Contents (Elt F) → (⟨S20000x1, .f32⟩ : BufTy).Contents (Elt F)),
    unary main_arg36 main_v81 (broadcastInDim S400000x1 ![0] bcast_S400000_S400000x1_0 : (⟨S400000, .i32⟩ : BufTy).Contents (Elt F) → (⟨S400000x1, .i32⟩ : BufTy).Contents (Elt F)),
    ternary main_v80 main_v81 main_v79 main_v82 ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F)),
    nullary main_cst_15 (constant S_ .f32 0x3F800000#32),
    unary main_cst_15 main_v83 (broadcastInDim S20000x1 ![] bcast_S_S20000x1 : (⟨S_, .f32⟩ : BufTy).Contents (Elt F) → (⟨S20000x1, .f32⟩ : BufTy).Contents (Elt F)),
    binary main_v82 main_v83 main_v84 (maximumf : (⟨S20000x1, .f32⟩ : BufTy).Contents (Elt F) → (⟨S20000x1, .f32⟩ : BufTy).Contents (Elt F) → (⟨S20000x1, .f32⟩ : BufTy).Contents (Elt F)),
    unary main_v84 main_v85 (broadcastInDim S20000x128 ![0, 1] bcast_S20000x1_S20000x128_0_1 : (⟨S20000x1, .f32⟩ : BufTy).Contents (Elt F) → (⟨S20000x128, .f32⟩ : BufTy).Contents (Elt F)),
    binary main_v78 main_v85 main_v86 (Host.divf : (⟨S20000x128, .f32⟩ : BufTy).Contents (Elt F) → (⟨S20000x128, .f32⟩ : BufTy).Contents (Elt F) → (⟨S20000x128, .f32⟩ : BufTy).Contents (Elt F)),
    unary main_arg19 main_v87 ((transpose S128x128 [1, 0] · transposes_S128x128_S128x128_1_0) : (⟨S128x128, .f32⟩ : BufTy).Contents (Elt F) → (⟨S128x128, .f32⟩ : BufTy).Contents (Elt F)),
    binary main_arg2 main_v87 main_v88 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg20 main_v89 (broadcastInDim S1x128 ![1] bcast_S128_S1x128_1 : (⟨S128, .f32⟩ : BufTy).Contents (Elt F) → (⟨S1x128, .f32⟩ : BufTy).Contents (Elt F)),
    unary main_v89 main_v90 (broadcastInDim S20000x128 ![0, 1] bcast_S1x128_S20000x128_0_1 : (⟨S1x128, .f32⟩ : BufTy).Contents (Elt F) → (⟨S20000x128, .f32⟩ : BufTy).Contents (Elt F)),
    binary main_v88 main_v90 main_v91 (addf : (⟨S20000x128, .f32⟩ : BufTy).Contents (Elt F) → (⟨S20000x128, .f32⟩ : BufTy).Contents (Elt F) → (⟨S20000x128, .f32⟩ : BufTy).Contents (Elt F)),
    unary main_arg17 main_v92 ((transpose S128x128 [1, 0] · transposes_S128x128_S128x128_1_0) : (⟨S128x128, .f32⟩ : BufTy).Contents (Elt F) → (⟨S128x128, .f32⟩ : BufTy).Contents (Elt F)),
    binary main_v86 main_v92 main_v93 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v91 main_v93 main_v94 (addf : (⟨S20000x128, .f32⟩ : BufTy).Contents (Elt F) → (⟨S20000x128, .f32⟩ : BufTy).Contents (Elt F) → (⟨S20000x128, .f32⟩ : BufTy).Contents (Elt F)),
    unary main_arg18 main_v95 (broadcastInDim S1x128 ![1] bcast_S128_S1x128_1 : (⟨S128, .f32⟩ : BufTy).Contents (Elt F) → (⟨S1x128, .f32⟩ : BufTy).Contents (Elt F)),
    unary main_v95 main_v96 (broadcastInDim S20000x128 ![0, 1] bcast_S1x128_S20000x128_0_1 : (⟨S1x128, .f32⟩ : BufTy).Contents (Elt F) → (⟨S20000x128, .f32⟩ : BufTy).Contents (Elt F)),
    binary main_v94 main_v96 main_v97 (addf : (⟨S20000x128, .f32⟩ : BufTy).Contents (Elt F) → (⟨S20000x128, .f32⟩ : BufTy).Contents (Elt F) → (⟨S20000x128, .f32⟩ : BufTy).Contents (Elt F)),
    binary main_v68 main_v97 main_v98 (addf : (⟨S20000x128, .f32⟩ : BufTy).Contents (Elt F) → (⟨S20000x128, .f32⟩ : BufTy).Contents (Elt F) → (⟨S20000x128, .f32⟩ : BufTy).Contents (Elt F)),
    nullary main_c_16 (constantI S_ 32 0#32),
    unary main_c_16 main_v99 (broadcastInDim S250000 ![] bcast_S_S250000 : (⟨S_, .i32⟩ : BufTy).Contents (Elt F) → (⟨S250000, .i32⟩ : BufTy).Contents (Elt F)),
    binary main_arg37 main_v99 main_v100 (cmpi .slt : (⟨S250000, .i32⟩ : BufTy).Contents (Elt F) → (⟨S250000, .i32⟩ : BufTy).Contents (Elt F) → (⟨S250000, .i1⟩ : BufTy).Contents (Elt F)),
    nullary main_c_17 (constantI S_ 32 8000#32),
    unary main_c_17 main_v101 (broadcastInDim S250000 ![] bcast_S_S250000 : (⟨S_, .i32⟩ : BufTy).Contents (Elt F) → (⟨S250000, .i32⟩ : BufTy).Contents (Elt F)),
    binary main_arg37 main_v101 main_v102 (addi : (⟨S250000, .i32⟩ : BufTy).Contents (Elt F) → (⟨S250000, .i32⟩ : BufTy).Contents (Elt F) → (⟨S250000, .i32⟩ : BufTy).Contents (Elt F)),
    ternary main_v100 main_v102 main_arg37 main_v103 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v103 main_v104 (broadcastInDim S250000x1 ![0] bcast_S250000_S250000x1_0 : (⟨S250000, .i32⟩ : BufTy).Contents (Elt F) → (⟨S250000x1, .i32⟩ : BufTy).Contents (Elt F)),
    binary main_v9 main_v104 main_v105 ((fun x i => Host.gather gather_S8000x128_S250000x1_S250000x128_1_0_n_n_0_1_1128 x i) : (⟨S8000x128, .f32⟩ : BufTy).Contents (Elt F) → (⟨S250000x1, .i32⟩ : BufTy).Contents (Elt F) → (⟨S250000x128, .f32⟩ : BufTy).Contents (Elt F)),
    nullary main_cst_18 (constant S_ .f32 0x00000000#32),
    unary main_cst_18 main_v106 (broadcastInDim S20000x128 ![] bcast_S_S20000x128 : (⟨S_, .f32⟩ : BufTy).Contents (Elt F) → (⟨S20000x128, .f32⟩ : BufTy).Contents (Elt F)),
    unary main_arg38 main_v107 (broadcastInDim S250000x1 ![0] bcast_S250000_S250000x1_0 : (⟨S250000, .i32⟩ : BufTy).Contents (Elt F) → (⟨S250000x1, .i32⟩ : BufTy).Contents (Elt F)),
    ternary main_v106 main_v107 main_v105 main_v108 ((fun x i u => Host.scatterAdd scatter_S20000x128_S250000x1_S250000x128_1_0_0_1 x i u) : (⟨S20000x128, .f32⟩ : BufTy).Contents (Elt F) → (⟨S250000x1, .i32⟩ : BufTy).Contents (Elt F) → (⟨S250000x128, .f32⟩ : BufTy).Contents (Elt F) → (⟨S20000x128, .f32⟩ : BufTy).Contents (Elt F)),
    nullary main_cst_19 (constant S_ .f32 0x3F800000#32),
    unary main_cst_19 main_v109 (broadcastInDim S250000x1 ![] bcast_S_S250000x1 : (⟨S_, .f32⟩ : BufTy).Contents (Elt F) → (⟨S250000x1, .f32⟩ : BufTy).Contents (Elt F)),
    nullary main_cst_20 (constant S_ .f32 0x00000000#32),
    unary main_cst_20 main_v110 (broadcastInDim S20000x1 ![] bcast_S_S20000x1 : (⟨S_, .f32⟩ : BufTy).Contents (Elt F) → (⟨S20000x1, .f32⟩ : BufTy).Contents (Elt F)),
    unary main_arg38 main_v111 (broadcastInDim S250000x1 ![0] bcast_S250000_S250000x1_0 : (⟨S250000, .i32⟩ : BufTy).Contents (Elt F) → (⟨S250000x1, .i32⟩ : BufTy).Contents (Elt F)),
    ternary main_v110 main_v111 main_v109 main_v112 ((fun x i u => Host.scatterAdd scatter_S20000x1_S250000x1_S250000x1_1_0_0_1 x i u) : (⟨S20000x1, .f32⟩ : BufTy).Contents (Elt F) → (⟨S250000x1, .i32⟩ : BufTy).Contents (Elt F) → (⟨S250000x1, .f32⟩ : BufTy).Contents (Elt F) → (⟨S20000x1, .f32⟩ : BufTy).Contents (Elt F)),
    nullary main_cst_21 (constant S_ .f32 0x3F800000#32),
    unary main_cst_21 main_v113 (broadcastInDim S20000x1 ![] bcast_S_S20000x1 : (⟨S_, .f32⟩ : BufTy).Contents (Elt F) → (⟨S20000x1, .f32⟩ : BufTy).Contents (Elt F)),
    binary main_v112 main_v113 main_v114 (maximumf : (⟨S20000x1, .f32⟩ : BufTy).Contents (Elt F) → (⟨S20000x1, .f32⟩ : BufTy).Contents (Elt F) → (⟨S20000x1, .f32⟩ : BufTy).Contents (Elt F)),
    unary main_v114 main_v115 (broadcastInDim S20000x128 ![0, 1] bcast_S20000x1_S20000x128_0_1 : (⟨S20000x1, .f32⟩ : BufTy).Contents (Elt F) → (⟨S20000x128, .f32⟩ : BufTy).Contents (Elt F)),
    binary main_v108 main_v115 main_v116 (Host.divf : (⟨S20000x128, .f32⟩ : BufTy).Contents (Elt F) → (⟨S20000x128, .f32⟩ : BufTy).Contents (Elt F) → (⟨S20000x128, .f32⟩ : BufTy).Contents (Elt F)),
    unary main_arg23 main_v117 ((transpose S128x128 [1, 0] · transposes_S128x128_S128x128_1_0) : (⟨S128x128, .f32⟩ : BufTy).Contents (Elt F) → (⟨S128x128, .f32⟩ : BufTy).Contents (Elt F)),
    binary main_arg2 main_v117 main_v118 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg24 main_v119 (broadcastInDim S1x128 ![1] bcast_S128_S1x128_1 : (⟨S128, .f32⟩ : BufTy).Contents (Elt F) → (⟨S1x128, .f32⟩ : BufTy).Contents (Elt F)),
    unary main_v119 main_v120 (broadcastInDim S20000x128 ![0, 1] bcast_S1x128_S20000x128_0_1 : (⟨S1x128, .f32⟩ : BufTy).Contents (Elt F) → (⟨S20000x128, .f32⟩ : BufTy).Contents (Elt F)),
    binary main_v118 main_v120 main_v121 (addf : (⟨S20000x128, .f32⟩ : BufTy).Contents (Elt F) → (⟨S20000x128, .f32⟩ : BufTy).Contents (Elt F) → (⟨S20000x128, .f32⟩ : BufTy).Contents (Elt F)),
    unary main_arg21 main_v122 ((transpose S128x128 [1, 0] · transposes_S128x128_S128x128_1_0) : (⟨S128x128, .f32⟩ : BufTy).Contents (Elt F) → (⟨S128x128, .f32⟩ : BufTy).Contents (Elt F)),
    binary main_v116 main_v122 main_v123 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v121 main_v123 main_v124 (addf : (⟨S20000x128, .f32⟩ : BufTy).Contents (Elt F) → (⟨S20000x128, .f32⟩ : BufTy).Contents (Elt F) → (⟨S20000x128, .f32⟩ : BufTy).Contents (Elt F)),
    unary main_arg22 main_v125 (broadcastInDim S1x128 ![1] bcast_S128_S1x128_1 : (⟨S128, .f32⟩ : BufTy).Contents (Elt F) → (⟨S1x128, .f32⟩ : BufTy).Contents (Elt F)),
    unary main_v125 main_v126 (broadcastInDim S20000x128 ![0, 1] bcast_S1x128_S20000x128_0_1 : (⟨S1x128, .f32⟩ : BufTy).Contents (Elt F) → (⟨S20000x128, .f32⟩ : BufTy).Contents (Elt F)),
    binary main_v124 main_v126 main_v127 (addf : (⟨S20000x128, .f32⟩ : BufTy).Contents (Elt F) → (⟨S20000x128, .f32⟩ : BufTy).Contents (Elt F) → (⟨S20000x128, .f32⟩ : BufTy).Contents (Elt F)),
    binary main_v98 main_v127 main_v128 (addf : (⟨S20000x128, .f32⟩ : BufTy).Contents (Elt F) → (⟨S20000x128, .f32⟩ : BufTy).Contents (Elt F) → (⟨S20000x128, .f32⟩ : BufTy).Contents (Elt F)) ]

set_option maxHeartbeats 8000000 in
/-- Stretch B: operations 154 to 199, the last writing `main_v164`. -/
abbrev opsB : List (HloOp τ sig (Elt F)) :=
  [ nullary main_cst_22 (constant S_ .f32 0x3F800000#32),
    unary main_cst_22 main_v129 (broadcastInDim S300000 ![] bcast_S_S300000 : (⟨S_, .f32⟩ : BufTy).Contents (Elt F) → (⟨S300000, .f32⟩ : BufTy).Contents (Elt F)),
    nullary main_cst_23 (constant S_ .f32 0x00000000#32),
    unary main_cst_23 main_v130 (broadcastInDim S20000 ![] bcast_S_S20000 : (⟨S_, .f32⟩ : BufTy).Contents (Elt F) → (⟨S20000, .f32⟩ : BufTy).Contents (Elt F)),
    unary main_arg39 main_v131 (broadcastInDim S300000x1 ![0] bcast_S300000_S300000x1_0 : (⟨S300000, .i32⟩ : BufTy).Contents (Elt F) → (⟨S300000x1, .i32⟩ : BufTy).Contents (Elt F)),
    ternary main_v130 main_v131 main_v129 main_v132 ((fun x i u => Host.scatterAdd scatter_S20000_S300000x1_S300000_n_0_0_1 x i u) : (⟨S20000, .f32⟩ : BufTy).Contents (Elt F) → (⟨S300000x1, .i32⟩ : BufTy).Contents (Elt F) → (⟨S300000, .f32⟩ : BufTy).Contents (Elt F) → (⟨S20000, .f32⟩ : BufTy).Contents (Elt F)),
    nullary main_cst_24 (constant S_ .f32 0x3F800000#32),
    unary main_cst_24 main_v133 (broadcastInDim S20000 ![] bcast_S_S20000 : (⟨S_, .f32⟩ : BufTy).Contents (Elt F) → (⟨S20000, .f32⟩ : BufTy).Contents (Elt F)),
    binary main_v132 main_v133 main_v134 (maximumf : (⟨S20000, .f32⟩ : BufTy).Contents (Elt F) → (⟨S20000, .f32⟩ : BufTy).Contents (Elt F) → (⟨S20000, .f32⟩ : BufTy).Contents (Elt F)),
    nullary main_cst_25 (constant S_ .f32 0xBF000000#32),
    unary main_cst_25 main_v135 (broadcastInDim S20000 ![] bcast_S_S20000 : (⟨S_, .f32⟩ : BufTy).Contents (Elt F) → (⟨S20000, .f32⟩ : BufTy).Contents (Elt F)),
    binary main_v134 main_v135 main_v136 (Host.powf : (⟨S20000, .f32⟩ : BufTy).Contents (Elt F) → (⟨S20000, .f32⟩ : BufTy).Contents (Elt F) → (⟨S20000, .f32⟩ : BufTy).Contents (Elt F)),
    nullary main_cst_26 (constant S_ .f32 0x00000000#32),
    unary main_cst_26 main_v137 (broadcastInDim S1000 ![] bcast_S_S1000 : (⟨S_, .f32⟩ : BufTy).Contents (Elt F) → (⟨S1000, .f32⟩ : BufTy).Contents (Elt F)),
    unary main_arg40 main_v138 (broadcastInDim S300000x1 ![0] bcast_S300000_S300000x1_0 : (⟨S300000, .i32⟩ : BufTy).Contents (Elt F) → (⟨S300000x1, .i32⟩ : BufTy).Contents (Elt F)),
    ternary main_v137 main_v138 main_v129 main_v139 ((fun x i u => Host.scatterAdd scatter_S1000_S300000x1_S300000_n_0_0_1 x i u) : (⟨S1000, .f32⟩ : BufTy).Contents (Elt F) → (⟨S300000x1, .i32⟩ : BufTy).Contents (Elt F) → (⟨S300000, .f32⟩ : BufTy).Contents (Elt F) → (⟨S1000, .f32⟩ : BufTy).Contents (Elt F)),
    nullary main_cst_27 (constant S_ .f32 0x3F800000#32),
    unary main_cst_27 main_v140 (broadcastInDim S1000 ![] bcast_S_S1000 : (⟨S_, .f32⟩ : BufTy).Contents (Elt F) → (⟨S1000, .f32⟩ : BufTy).Contents (Elt F)),
    binary main_v139 main_v140 main_v141 (maximumf : (⟨S1000, .f32⟩ : BufTy).Contents (Elt F) → (⟨S1000, .f32⟩ : BufTy).Contents (Elt F) → (⟨S1000, .f32⟩ : BufTy).Contents (Elt F)),
    nullary main_cst_28 (constant S_ .f32 0xBF000000#32),
    unary main_cst_28 main_v142 (broadcastInDim S1000 ![] bcast_S_S1000 : (⟨S_, .f32⟩ : BufTy).Contents (Elt F) → (⟨S1000, .f32⟩ : BufTy).Contents (Elt F)),
    binary main_v141 main_v142 main_v143 (Host.powf : (⟨S1000, .f32⟩ : BufTy).Contents (Elt F) → (⟨S1000, .f32⟩ : BufTy).Contents (Elt F) → (⟨S1000, .f32⟩ : BufTy).Contents (Elt F)),
    unary main_v136 main_v144 (broadcastInDim S20000x1 ![0] bcast_S20000_S20000x1_0 : (⟨S20000, .f32⟩ : BufTy).Contents (Elt F) → (⟨S20000x1, .f32⟩ : BufTy).Contents (Elt F)),
    unary main_v144 main_v145 (broadcastInDim S20000x128 ![0, 1] bcast_S20000x1_S20000x128_0_1 : (⟨S20000x1, .f32⟩ : BufTy).Contents (Elt F) → (⟨S20000x128, .f32⟩ : BufTy).Contents (Elt F)),
    binary main_v128 main_v145 main_v146 (mulf : (⟨S20000x128, .f32⟩ : BufTy).Contents (Elt F) → (⟨S20000x128, .f32⟩ : BufTy).Contents (Elt F) → (⟨S20000x128, .f32⟩ : BufTy).Contents (Elt F)),
    nullary main_c_29 (constantI S_ 32 0#32),
    unary main_c_29 main_v147 (broadcastInDim S300000 ![] bcast_S_S300000 : (⟨S_, .i32⟩ : BufTy).Contents (Elt F) → (⟨S300000, .i32⟩ : BufTy).Contents (Elt F)),
    binary main_arg39 main_v147 main_v148 (cmpi .slt : (⟨S300000, .i32⟩ : BufTy).Contents (Elt F) → (⟨S300000, .i32⟩ : BufTy).Contents (Elt F) → (⟨S300000, .i1⟩ : BufTy).Contents (Elt F)),
    nullary main_c_30 (constantI S_ 32 20000#32),
    unary main_c_30 main_v149 (broadcastInDim S300000 ![] bcast_S_S300000 : (⟨S_, .i32⟩ : BufTy).Contents (Elt F) → (⟨S300000, .i32⟩ : BufTy).Contents (Elt F)),
    binary main_arg39 main_v149 main_v150 (addi : (⟨S300000, .i32⟩ : BufTy).Contents (Elt F) → (⟨S300000, .i32⟩ : BufTy).Contents (Elt F) → (⟨S300000, .i32⟩ : BufTy).Contents (Elt F)),
    ternary main_v148 main_v150 main_arg39 main_v151 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v151 main_v152 (broadcastInDim S300000x1 ![0] bcast_S300000_S300000x1_0 : (⟨S300000, .i32⟩ : BufTy).Contents (Elt F) → (⟨S300000x1, .i32⟩ : BufTy).Contents (Elt F)),
    binary main_v146 main_v152 main_v153 ((fun x i => Host.gather gather_S20000x128_S300000x1_S300000x128_1_0_n_n_0_1_1128 x i) : (⟨S20000x128, .f32⟩ : BufTy).Contents (Elt F) → (⟨S300000x1, .i32⟩ : BufTy).Contents (Elt F) → (⟨S300000x128, .f32⟩ : BufTy).Contents (Elt F)),
    nullary main_cst_31 (constant S_ .f32 0x00000000#32),
    unary main_cst_31 main_v154 (broadcastInDim S1000x128 ![] bcast_S_S1000x128 : (⟨S_, .f32⟩ : BufTy).Contents (Elt F) → (⟨S1000x128, .f32⟩ : BufTy).Contents (Elt F)),
    unary main_arg40 main_v155 (broadcastInDim S300000x1 ![0] bcast_S300000_S300000x1_0 : (⟨S300000, .i32⟩ : BufTy).Contents (Elt F) → (⟨S300000x1, .i32⟩ : BufTy).Contents (Elt F)),
    ternary main_v154 main_v155 main_v153 main_v156 ((fun x i u => Host.scatterAdd scatter_S1000x128_S300000x1_S300000x128_1_0_0_1 x i u) : (⟨S1000x128, .f32⟩ : BufTy).Contents (Elt F) → (⟨S300000x1, .i32⟩ : BufTy).Contents (Elt F) → (⟨S300000x128, .f32⟩ : BufTy).Contents (Elt F) → (⟨S1000x128, .f32⟩ : BufTy).Contents (Elt F)),
    unary main_v143 main_v157 (broadcastInDim S1000x1 ![0] bcast_S1000_S1000x1_0 : (⟨S1000, .f32⟩ : BufTy).Contents (Elt F) → (⟨S1000x1, .f32⟩ : BufTy).Contents (Elt F)),
    unary main_v157 main_v158 (broadcastInDim S1000x128 ![0, 1] bcast_S1000x1_S1000x128_0_1 : (⟨S1000x1, .f32⟩ : BufTy).Contents (Elt F) → (⟨S1000x128, .f32⟩ : BufTy).Contents (Elt F)),
    binary main_v156 main_v158 main_v159 (mulf : (⟨S1000x128, .f32⟩ : BufTy).Contents (Elt F) → (⟨S1000x128, .f32⟩ : BufTy).Contents (Elt F) → (⟨S1000x128, .f32⟩ : BufTy).Contents (Elt F)),
    unary main_arg25 main_v160 ((transpose S128x128 [1, 0] · transposes_S128x128_S128x128_1_0) : (⟨S128x128, .f32⟩ : BufTy).Contents (Elt F) → (⟨S128x128, .f32⟩ : BufTy).Contents (Elt F)),
    binary main_v159 main_v160 main_v161 ((fun l r => Host.dotGeneral dot_S1000x128_S128x128_S1000x128_1_0_0_1_n_n none l r) : (⟨S1000x128, .f32⟩ : BufTy).Contents (Elt F) → (⟨S128x128, .f32⟩ : BufTy).Contents (Elt F) → (⟨S1000x128, .f32⟩ : BufTy).Contents (Elt F)),
    unary main_arg26 main_v162 (broadcastInDim S1x128 ![1] bcast_S128_S1x128_1 : (⟨S128, .f32⟩ : BufTy).Contents (Elt F) → (⟨S1x128, .f32⟩ : BufTy).Contents (Elt F)),
    unary main_v162 main_v163 (broadcastInDim S1000x128 ![0, 1] bcast_S1x128_S1000x128_0_1 : (⟨S1x128, .f32⟩ : BufTy).Contents (Elt F) → (⟨S1000x128, .f32⟩ : BufTy).Contents (Elt F)),
    binary main_v161 main_v163 main_v164 (addf : (⟨S1000x128, .f32⟩ : BufTy).Contents (Elt F) → (⟨S1000x128, .f32⟩ : BufTy).Contents (Elt F) → (⟨S1000x128, .f32⟩ : BufTy).Contents (Elt F)) ]

set_option maxHeartbeats 8000000 in
/-- Stretch C: operations 200 to 329, the last two writing `main_v269` and `main_v270`. -/
abbrev opsC : List (HloOp τ sig (Elt F)) :=
  [ nullary main_c_32 (constantI S_ 32 0#32),
    unary main_c_32 main_v165 (broadcastInDim S50000 ![] bcast_S_S50000 : (⟨S_, .i32⟩ : BufTy).Contents (Elt F) → (⟨S50000, .i32⟩ : BufTy).Contents (Elt F)),
    binary main_arg41 main_v165 main_v166 (cmpi .slt : (⟨S50000, .i32⟩ : BufTy).Contents (Elt F) → (⟨S50000, .i32⟩ : BufTy).Contents (Elt F) → (⟨S50000, .i1⟩ : BufTy).Contents (Elt F)),
    nullary main_c_33 (constantI S_ 32 20000#32),
    unary main_c_33 main_v167 (broadcastInDim S50000 ![] bcast_S_S50000 : (⟨S_, .i32⟩ : BufTy).Contents (Elt F) → (⟨S50000, .i32⟩ : BufTy).Contents (Elt F)),
    binary main_arg41 main_v167 main_v168 (addi : (⟨S50000, .i32⟩ : BufTy).Contents (Elt F) → (⟨S50000, .i32⟩ : BufTy).Contents (Elt F) → (⟨S50000, .i32⟩ : BufTy).Contents (Elt F)),
    ternary main_v166 main_v168 main_arg41 main_v169 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v169 main_v170 (broadcastInDim S50000x1 ![0] bcast_S50000_S50000x1_0 : (⟨S50000, .i32⟩ : BufTy).Contents (Elt F) → (⟨S50000x1, .i32⟩ : BufTy).Contents (Elt F)),
    binary main_v128 main_v170 main_v171 ((fun x i => Host.gather gather_S20000x128_S50000x1_S50000x128_1_0_n_n_0_1_1128 x i) : (⟨S20000x128, .f32⟩ : BufTy).Contents (Elt F) → (⟨S50000x1, .i32⟩ : BufTy).Contents (Elt F) → (⟨S50000x128, .f32⟩ : BufTy).Contents (Elt F)),
    nullary main_c_34 (constantI S_ 32 0#32),
    unary main_c_34 main_v172 (broadcastInDim S50000 ![] bcast_S_S50000 : (⟨S_, .i32⟩ : BufTy).Contents (Elt F) → (⟨S50000, .i32⟩ : BufTy).Contents (Elt F)),
    binary main_arg42 main_v172 main_v173 (cmpi .slt : (⟨S50000, .i32⟩ : BufTy).Contents (Elt F) → (⟨S50000, .i32⟩ : BufTy).Contents (Elt F) → (⟨S50000, .i1⟩ : BufTy).Contents (Elt F)),
    nullary main_c_35 (constantI S_ 32 1000#32),
    unary main_c_35 main_v174 (broadcastInDim S50000 ![] bcast_S_S50000 : (⟨S_, .i32⟩ : BufTy).Contents (Elt F) → (⟨S50000, .i32⟩ : BufTy).Contents (Elt F)),
    binary main_arg42 main_v174 main_v175 (addi : (⟨S50000, .i32⟩ : BufTy).Contents (Elt F) → (⟨S50000, .i32⟩ : BufTy).Contents (Elt F) → (⟨S50000, .i32⟩ : BufTy).Contents (Elt F)),
    ternary main_v173 main_v175 main_arg42 main_v176 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v176 main_v177 (broadcastInDim S50000x1 ![0] bcast_S50000_S50000x1_0 : (⟨S50000, .i32⟩ : BufTy).Contents (Elt F) → (⟨S50000x1, .i32⟩ : BufTy).Contents (Elt F)),
    binary main_v164 main_v177 main_v178 ((fun x i => Host.gather gather_S1000x128_S50000x1_S50000x128_1_0_n_n_0_1_1128 x i) : (⟨S1000x128, .f32⟩ : BufTy).Contents (Elt F) → (⟨S50000x1, .i32⟩ : BufTy).Contents (Elt F) → (⟨S50000x128, .f32⟩ : BufTy).Contents (Elt F)),
    binary main_v171 main_v178 main_v179 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg27 main_v180 ((transpose S256x256 [1, 0] · transposes_S256x256_S256x256_1_0) : (⟨S256x256, .f32⟩ : BufTy).Contents (Elt F) → (⟨S256x256, .f32⟩ : BufTy).Contents (Elt F)),
    binary main_v179 main_v180 main_v181 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg28 main_v182 (broadcastInDim S1x256 ![1] bcast_S256_S1x256_1 : (⟨S256, .f32⟩ : BufTy).Contents (Elt F) → (⟨S1x256, .f32⟩ : BufTy).Contents (Elt F)),
    unary main_v182 main_v183 (broadcastInDim S50000x256 ![0, 1] bcast_S1x256_S50000x256_0_1 : (⟨S1x256, .f32⟩ : BufTy).Contents (Elt F) → (⟨S50000x256, .f32⟩ : BufTy).Contents (Elt F)),
    binary main_v181 main_v183 main_v184 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v184) (TRef.of (T := ⟨S50000x256, .f32⟩) main_call0_v0) (TRef.of (T := ⟨S50000x256, .f32⟩) main_v185) maximumf,
    unary main_arg29 main_v186 ((transpose S256x1 [1, 0] · transposes_S1x256_S256x1_1_0) : (⟨S1x256, .f32⟩ : BufTy).Contents (Elt F) → (⟨S256x1, .f32⟩ : BufTy).Contents (Elt F)),
    binary main_v185 main_v186 main_v187 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg30 main_v188 (broadcastInDim S1x1 ![1] bcast_S1_S1x1_1 : (⟨S1, .f32⟩ : BufTy).Contents (Elt F) → (⟨S1x1, .f32⟩ : BufTy).Contents (Elt F)),
    unary main_v188 main_v189 (broadcastInDim S50000x1 ![0, 1] bcast_S1x1_S50000x1_0_1 : (⟨S1x1, .f32⟩ : BufTy).Contents (Elt F) → (⟨S50000x1, .f32⟩ : BufTy).Contents (Elt F)),
    binary main_v187 main_v189 main_v190 (addf : (⟨S50000x1, .f32⟩ : BufTy).Contents (Elt F) → (⟨S50000x1, .f32⟩ : BufTy).Contents (Elt F) → (⟨S50000x1, .f32⟩ : BufTy).Contents (Elt F)),
    nullary main_c_36 (constantI S_ 32 0#32),
    unary main_c_36 main_v191 (broadcastInDim S50000 ![] bcast_S_S50000 : (⟨S_, .i32⟩ : BufTy).Contents (Elt F) → (⟨S50000, .i32⟩ : BufTy).Contents (Elt F)),
    binary main_arg41 main_v191 main_v192 (cmpi .slt : (⟨S50000, .i32⟩ : BufTy).Contents (Elt F) → (⟨S50000, .i32⟩ : BufTy).Contents (Elt F) → (⟨S50000, .i1⟩ : BufTy).Contents (Elt F)),
    nullary main_c_37 (constantI S_ 32 20000#32),
    unary main_c_37 main_v193 (broadcastInDim S50000 ![] bcast_S_S50000 : (⟨S_, .i32⟩ : BufTy).Contents (Elt F) → (⟨S50000, .i32⟩ : BufTy).Contents (Elt F)),
    binary main_arg41 main_v193 main_v194 (addi : (⟨S50000, .i32⟩ : BufTy).Contents (Elt F) → (⟨S50000, .i32⟩ : BufTy).Contents (Elt F) → (⟨S50000, .i32⟩ : BufTy).Contents (Elt F)),
    ternary main_v192 main_v194 main_arg41 main_v195 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v195 main_v196 (broadcastInDim S50000x1 ![0] bcast_S50000_S50000x1_0 : (⟨S50000, .i32⟩ : BufTy).Contents (Elt F) → (⟨S50000x1, .i32⟩ : BufTy).Contents (Elt F)),
    binary main_v128 main_v196 main_v197 ((fun x i => Host.gather gather_S20000x128_S50000x1_S50000x128_1_0_n_n_0_1_1128 x i) : (⟨S20000x128, .f32⟩ : BufTy).Contents (Elt F) → (⟨S50000x1, .i32⟩ : BufTy).Contents (Elt F) → (⟨S50000x128, .f32⟩ : BufTy).Contents (Elt F)),
    nullary main_c_38 (constantI S_ 32 0#32),
    unary main_c_38 main_v198 (broadcastInDim S50000 ![] bcast_S_S50000 : (⟨S_, .i32⟩ : BufTy).Contents (Elt F) → (⟨S50000, .i32⟩ : BufTy).Contents (Elt F)),
    binary main_arg43 main_v198 main_v199 (cmpi .slt : (⟨S50000, .i32⟩ : BufTy).Contents (Elt F) → (⟨S50000, .i32⟩ : BufTy).Contents (Elt F) → (⟨S50000, .i1⟩ : BufTy).Contents (Elt F)),
    nullary main_c_39 (constantI S_ 32 1000#32),
    unary main_c_39 main_v200 (broadcastInDim S50000 ![] bcast_S_S50000 : (⟨S_, .i32⟩ : BufTy).Contents (Elt F) → (⟨S50000, .i32⟩ : BufTy).Contents (Elt F)),
    binary main_arg43 main_v200 main_v201 (addi : (⟨S50000, .i32⟩ : BufTy).Contents (Elt F) → (⟨S50000, .i32⟩ : BufTy).Contents (Elt F) → (⟨S50000, .i32⟩ : BufTy).Contents (Elt F)),
    ternary main_v199 main_v201 main_arg43 main_v202 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v202 main_v203 (broadcastInDim S50000x1 ![0] bcast_S50000_S50000x1_0 : (⟨S50000, .i32⟩ : BufTy).Contents (Elt F) → (⟨S50000x1, .i32⟩ : BufTy).Contents (Elt F)),
    binary main_v164 main_v203 main_v204 ((fun x i => Host.gather gather_S1000x128_S50000x1_S50000x128_1_0_n_n_0_1_1128 x i) : (⟨S1000x128, .f32⟩ : BufTy).Contents (Elt F) → (⟨S50000x1, .i32⟩ : BufTy).Contents (Elt F) → (⟨S50000x128, .f32⟩ : BufTy).Contents (Elt F)),
    binary main_v197 main_v204 main_v205 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg27 main_v206 ((transpose S256x256 [1, 0] · transposes_S256x256_S256x256_1_0) : (⟨S256x256, .f32⟩ : BufTy).Contents (Elt F) → (⟨S256x256, .f32⟩ : BufTy).Contents (Elt F)),
    binary main_v205 main_v206 main_v207 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg28 main_v208 (broadcastInDim S1x256 ![1] bcast_S256_S1x256_1 : (⟨S256, .f32⟩ : BufTy).Contents (Elt F) → (⟨S1x256, .f32⟩ : BufTy).Contents (Elt F)),
    unary main_v208 main_v209 (broadcastInDim S50000x256 ![0, 1] bcast_S1x256_S50000x256_0_1 : (⟨S1x256, .f32⟩ : BufTy).Contents (Elt F) → (⟨S50000x256, .f32⟩ : BufTy).Contents (Elt F)),
    binary main_v207 main_v209 main_v210 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v210) (TRef.of (T := ⟨S50000x256, .f32⟩) main_call1_v0) (TRef.of (T := ⟨S50000x256, .f32⟩) main_v211) maximumf,
    unary main_arg29 main_v212 ((transpose S256x1 [1, 0] · transposes_S1x256_S256x1_1_0) : (⟨S1x256, .f32⟩ : BufTy).Contents (Elt F) → (⟨S256x1, .f32⟩ : BufTy).Contents (Elt F)),
    binary main_v211 main_v212 main_v213 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg30 main_v214 (broadcastInDim S1x1 ![1] bcast_S1_S1x1_1 : (⟨S1, .f32⟩ : BufTy).Contents (Elt F) → (⟨S1x1, .f32⟩ : BufTy).Contents (Elt F)),
    unary main_v214 main_v215 (broadcastInDim S50000x1 ![0, 1] bcast_S1x1_S50000x1_0_1 : (⟨S1x1, .f32⟩ : BufTy).Contents (Elt F) → (⟨S50000x1, .f32⟩ : BufTy).Contents (Elt F)),
    binary main_v213 main_v215 main_v216 (addf : (⟨S50000x1, .f32⟩ : BufTy).Contents (Elt F) → (⟨S50000x1, .f32⟩ : BufTy).Contents (Elt F) → (⟨S50000x1, .f32⟩ : BufTy).Contents (Elt F)),
    nullary main_c_40 (constantI S_ 32 0#32),
    unary main_c_40 main_v217 (broadcastInDim S50000 ![] bcast_S_S50000 : (⟨S_, .i32⟩ : BufTy).Contents (Elt F) → (⟨S50000, .i32⟩ : BufTy).Contents (Elt F)),
    binary main_arg45 main_v217 main_v218 (cmpi .slt : (⟨S50000, .i32⟩ : BufTy).Contents (Elt F) → (⟨S50000, .i32⟩ : BufTy).Contents (Elt F) → (⟨S50000, .i1⟩ : BufTy).Contents (Elt F)),
    nullary main_c_41 (constantI S_ 32 20000#32),
    unary main_c_41 main_v219 (broadcastInDim S50000 ![] bcast_S_S50000 : (⟨S_, .i32⟩ : BufTy).Contents (Elt F) → (⟨S50000, .i32⟩ : BufTy).Contents (Elt F)),
    binary main_arg45 main_v219 main_v220 (addi : (⟨S50000, .i32⟩ : BufTy).Contents (Elt F) → (⟨S50000, .i32⟩ : BufTy).Contents (Elt F) → (⟨S50000, .i32⟩ : BufTy).Contents (Elt F)),
    ternary main_v218 main_v220 main_arg45 main_v221 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v221 main_v222 (broadcastInDim S50000x1 ![0] bcast_S50000_S50000x1_0 : (⟨S50000, .i32⟩ : BufTy).Contents (Elt F) → (⟨S50000x1, .i32⟩ : BufTy).Contents (Elt F)),
    binary main_v128 main_v222 main_v223 ((fun x i => Host.gather gather_S20000x128_S50000x1_S50000x128_1_0_n_n_0_1_1128 x i) : (⟨S20000x128, .f32⟩ : BufTy).Contents (Elt F) → (⟨S50000x1, .i32⟩ : BufTy).Contents (Elt F) → (⟨S50000x128, .f32⟩ : BufTy).Contents (Elt F)),
    nullary main_c_42 (constantI S_ 32 0#32),
    unary main_c_42 main_v224 (broadcastInDim S50000 ![] bcast_S_S50000 : (⟨S_, .i32⟩ : BufTy).Contents (Elt F) → (⟨S50000, .i32⟩ : BufTy).Contents (Elt F)),
    binary main_arg44 main_v224 main_v225 (cmpi .slt : (⟨S50000, .i32⟩ : BufTy).Contents (Elt F) → (⟨S50000, .i32⟩ : BufTy).Contents (Elt F) → (⟨S50000, .i1⟩ : BufTy).Contents (Elt F)),
    nullary main_c_43 (constantI S_ 32 1000#32),
    unary main_c_43 main_v226 (broadcastInDim S50000 ![] bcast_S_S50000 : (⟨S_, .i32⟩ : BufTy).Contents (Elt F) → (⟨S50000, .i32⟩ : BufTy).Contents (Elt F)),
    binary main_arg44 main_v226 main_v227 (addi : (⟨S50000, .i32⟩ : BufTy).Contents (Elt F) → (⟨S50000, .i32⟩ : BufTy).Contents (Elt F) → (⟨S50000, .i32⟩ : BufTy).Contents (Elt F)),
    ternary main_v225 main_v227 main_arg44 main_v228 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v228 main_v229 (broadcastInDim S50000x1 ![0] bcast_S50000_S50000x1_0 : (⟨S50000, .i32⟩ : BufTy).Contents (Elt F) → (⟨S50000x1, .i32⟩ : BufTy).Contents (Elt F)),
    binary main_v164 main_v229 main_v230 ((fun x i => Host.gather gather_S1000x128_S50000x1_S50000x128_1_0_n_n_0_1_1128 x i) : (⟨S1000x128, .f32⟩ : BufTy).Contents (Elt F) → (⟨S50000x1, .i32⟩ : BufTy).Contents (Elt F) → (⟨S50000x128, .f32⟩ : BufTy).Contents (Elt F)),
    binary main_v223 main_v230 main_v231 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg27 main_v232 ((transpose S256x256 [1, 0] · transposes_S256x256_S256x256_1_0) : (⟨S256x256, .f32⟩ : BufTy).Contents (Elt F) → (⟨S256x256, .f32⟩ : BufTy).Contents (Elt F)),
    binary main_v231 main_v232 main_v233 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg28 main_v234 (broadcastInDim S1x256 ![1] bcast_S256_S1x256_1 : (⟨S256, .f32⟩ : BufTy).Contents (Elt F) → (⟨S1x256, .f32⟩ : BufTy).Contents (Elt F)),
    unary main_v234 main_v235 (broadcastInDim S50000x256 ![0, 1] bcast_S1x256_S50000x256_0_1 : (⟨S1x256, .f32⟩ : BufTy).Contents (Elt F) → (⟨S50000x256, .f32⟩ : BufTy).Contents (Elt F)),
    binary main_v233 main_v235 main_v236 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v236) (TRef.of (T := ⟨S50000x256, .f32⟩) main_call2_v0) (TRef.of (T := ⟨S50000x256, .f32⟩) main_v237) maximumf,
    unary main_arg29 main_v238 ((transpose S256x1 [1, 0] · transposes_S1x256_S256x1_1_0) : (⟨S1x256, .f32⟩ : BufTy).Contents (Elt F) → (⟨S256x1, .f32⟩ : BufTy).Contents (Elt F)),
    binary main_v237 main_v238 main_v239 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg30 main_v240 (broadcastInDim S1x1 ![1] bcast_S1_S1x1_1 : (⟨S1, .f32⟩ : BufTy).Contents (Elt F) → (⟨S1x1, .f32⟩ : BufTy).Contents (Elt F)),
    unary main_v240 main_v241 (broadcastInDim S50000x1 ![0, 1] bcast_S1x1_S50000x1_0_1 : (⟨S1x1, .f32⟩ : BufTy).Contents (Elt F) → (⟨S50000x1, .f32⟩ : BufTy).Contents (Elt F)),
    binary main_v239 main_v241 main_v242 (addf : (⟨S50000x1, .f32⟩ : BufTy).Contents (Elt F) → (⟨S50000x1, .f32⟩ : BufTy).Contents (Elt F) → (⟨S50000x1, .f32⟩ : BufTy).Contents (Elt F)),
    nullary main_c_44 (constantI S_ 32 0#32),
    unary main_c_44 main_v243 (broadcastInDim S50000 ![] bcast_S_S50000 : (⟨S_, .i32⟩ : BufTy).Contents (Elt F) → (⟨S50000, .i32⟩ : BufTy).Contents (Elt F)),
    binary main_arg46 main_v243 main_v244 (cmpi .slt : (⟨S50000, .i32⟩ : BufTy).Contents (Elt F) → (⟨S50000, .i32⟩ : BufTy).Contents (Elt F) → (⟨S50000, .i1⟩ : BufTy).Contents (Elt F)),
    nullary main_c_45 (constantI S_ 32 20000#32),
    unary main_c_45 main_v245 (broadcastInDim S50000 ![] bcast_S_S50000 : (⟨S_, .i32⟩ : BufTy).Contents (Elt F) → (⟨S50000, .i32⟩ : BufTy).Contents (Elt F)),
    binary main_arg46 main_v245 main_v246 (addi : (⟨S50000, .i32⟩ : BufTy).Contents (Elt F) → (⟨S50000, .i32⟩ : BufTy).Contents (Elt F) → (⟨S50000, .i32⟩ : BufTy).Contents (Elt F)),
    ternary main_v244 main_v246 main_arg46 main_v247 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v247 main_v248 (broadcastInDim S50000x1 ![0] bcast_S50000_S50000x1_0 : (⟨S50000, .i32⟩ : BufTy).Contents (Elt F) → (⟨S50000x1, .i32⟩ : BufTy).Contents (Elt F)),
    binary main_v128 main_v248 main_v249 ((fun x i => Host.gather gather_S20000x128_S50000x1_S50000x128_1_0_n_n_0_1_1128 x i) : (⟨S20000x128, .f32⟩ : BufTy).Contents (Elt F) → (⟨S50000x1, .i32⟩ : BufTy).Contents (Elt F) → (⟨S50000x128, .f32⟩ : BufTy).Contents (Elt F)),
    nullary main_c_46 (constantI S_ 32 0#32),
    unary main_c_46 main_v250 (broadcastInDim S50000 ![] bcast_S_S50000 : (⟨S_, .i32⟩ : BufTy).Contents (Elt F) → (⟨S50000, .i32⟩ : BufTy).Contents (Elt F)),
    binary main_arg44 main_v250 main_v251 (cmpi .slt : (⟨S50000, .i32⟩ : BufTy).Contents (Elt F) → (⟨S50000, .i32⟩ : BufTy).Contents (Elt F) → (⟨S50000, .i1⟩ : BufTy).Contents (Elt F)),
    nullary main_c_47 (constantI S_ 32 1000#32),
    unary main_c_47 main_v252 (broadcastInDim S50000 ![] bcast_S_S50000 : (⟨S_, .i32⟩ : BufTy).Contents (Elt F) → (⟨S50000, .i32⟩ : BufTy).Contents (Elt F)),
    binary main_arg44 main_v252 main_v253 (addi : (⟨S50000, .i32⟩ : BufTy).Contents (Elt F) → (⟨S50000, .i32⟩ : BufTy).Contents (Elt F) → (⟨S50000, .i32⟩ : BufTy).Contents (Elt F)),
    ternary main_v251 main_v253 main_arg44 main_v254 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v254 main_v255 (broadcastInDim S50000x1 ![0] bcast_S50000_S50000x1_0 : (⟨S50000, .i32⟩ : BufTy).Contents (Elt F) → (⟨S50000x1, .i32⟩ : BufTy).Contents (Elt F)),
    binary main_v164 main_v255 main_v256 ((fun x i => Host.gather gather_S1000x128_S50000x1_S50000x128_1_0_n_n_0_1_1128 x i) : (⟨S1000x128, .f32⟩ : BufTy).Contents (Elt F) → (⟨S50000x1, .i32⟩ : BufTy).Contents (Elt F) → (⟨S50000x128, .f32⟩ : BufTy).Contents (Elt F)),
    binary main_v249 main_v256 main_v257 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg27 main_v258 ((transpose S256x256 [1, 0] · transposes_S256x256_S256x256_1_0) : (⟨S256x256, .f32⟩ : BufTy).Contents (Elt F) → (⟨S256x256, .f32⟩ : BufTy).Contents (Elt F)),
    binary main_v257 main_v258 main_v259 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg28 main_v260 (broadcastInDim S1x256 ![1] bcast_S256_S1x256_1 : (⟨S256, .f32⟩ : BufTy).Contents (Elt F) → (⟨S1x256, .f32⟩ : BufTy).Contents (Elt F)),
    unary main_v260 main_v261 (broadcastInDim S50000x256 ![0, 1] bcast_S1x256_S50000x256_0_1 : (⟨S1x256, .f32⟩ : BufTy).Contents (Elt F) → (⟨S50000x256, .f32⟩ : BufTy).Contents (Elt F)),
    binary main_v259 main_v261 main_v262 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v262) (TRef.of (T := ⟨S50000x256, .f32⟩) main_call3_v0) (TRef.of (T := ⟨S50000x256, .f32⟩) main_v263) maximumf,
    unary main_arg29 main_v264 ((transpose S256x1 [1, 0] · transposes_S1x256_S256x1_1_0) : (⟨S1x256, .f32⟩ : BufTy).Contents (Elt F) → (⟨S256x1, .f32⟩ : BufTy).Contents (Elt F)),
    binary main_v263 main_v264 main_v265 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    unary main_arg30 main_v266 (broadcastInDim S1x1 ![1] bcast_S1_S1x1_1 : (⟨S1, .f32⟩ : BufTy).Contents (Elt F) → (⟨S1x1, .f32⟩ : BufTy).Contents (Elt F)),
    unary main_v266 main_v267 (broadcastInDim S50000x1 ![0, 1] bcast_S1x1_S50000x1_0_1 : (⟨S1x1, .f32⟩ : BufTy).Contents (Elt F) → (⟨S50000x1, .f32⟩ : BufTy).Contents (Elt F)),
    binary main_v265 main_v267 main_v268 (addf : (⟨S50000x1, .f32⟩ : BufTy).Contents (Elt F) → (⟨S50000x1, .f32⟩ : BufTy).Contents (Elt F) → (⟨S50000x1, .f32⟩ : BufTy).Contents (Elt F)),
    binary main_v190 main_v216 main_v269 (subf : (⟨S50000x1, .f32⟩ : BufTy).Contents (Elt F) → (⟨S50000x1, .f32⟩ : BufTy).Contents (Elt F) → (⟨S50000x1, .f32⟩ : BufTy).Contents (Elt F)),
    binary main_v242 main_v268 main_v270 (subf : (⟨S50000x1, .f32⟩ : BufTy).Contents (Elt F) → (⟨S50000x1, .f32⟩ : BufTy).Contents (Elt F) → (⟨S50000x1, .f32⟩ : BufTy).Contents (Elt F)) ]

/-- The buffers each stretch writes, in order: each operation writes its own result. -/
abbrev wA : List (Ref sig .tc) := [main_v0, main_v1, main_v2, main_v3, main_v4, main_v5, main_v6, main_v7, main_v8, main_v9, main_c, main_v10, main_v11, main_c_0, main_v12, main_v13, main_v14, main_v15, main_v16, main_cst, main_v17, main_v18, main_v19, main_cst_1, main_v20, main_cst_2, main_v21, main_v22, main_v23, main_cst_3, main_v24, main_v25, main_v26, main_v27, main_v28, main_v29, main_v30, main_v31, main_v32, main_v33, main_v34, main_v35, main_v36, main_v37, main_v38, main_c_4, main_v39, main_v40, main_c_5, main_v41, main_v42, main_v43, main_v44, main_v45, main_cst_6, main_v46, main_v47, main_v48, main_cst_7, main_v49, main_cst_8, main_v50, main_v51, main_v52, main_cst_9, main_v53, main_v54, main_v55, main_v56, main_v57, main_v58, main_v59, main_v60, main_v61, main_v62, main_v63, main_v64, main_v65, main_v66, main_v67, main_v68, main_c_10, main_v69, main_v70, main_c_11, main_v71, main_v72, main_v73, main_v74, main_v75, main_cst_12, main_v76, main_v77, main_v78, main_cst_13, main_v79, main_cst_14, main_v80, main_v81, main_v82, main_cst_15, main_v83, main_v84, main_v85, main_v86, main_v87, main_v88, main_v89, main_v90, main_v91, main_v92, main_v93, main_v94, main_v95, main_v96, main_v97, main_v98, main_c_16, main_v99, main_v100, main_c_17, main_v101, main_v102, main_v103, main_v104, main_v105, main_cst_18, main_v106, main_v107, main_v108, main_cst_19, main_v109, main_cst_20, main_v110, main_v111, main_v112, main_cst_21, main_v113, main_v114, main_v115, main_v116, main_v117, main_v118, main_v119, main_v120, main_v121, main_v122, main_v123, main_v124, main_v125, main_v126, main_v127, main_v128]
abbrev wB : List (Ref sig .tc) := [main_cst_22, main_v129, main_cst_23, main_v130, main_v131, main_v132, main_cst_24, main_v133, main_v134, main_cst_25, main_v135, main_v136, main_cst_26, main_v137, main_v138, main_v139, main_cst_27, main_v140, main_v141, main_cst_28, main_v142, main_v143, main_v144, main_v145, main_v146, main_c_29, main_v147, main_v148, main_c_30, main_v149, main_v150, main_v151, main_v152, main_v153, main_cst_31, main_v154, main_v155, main_v156, main_v157, main_v158, main_v159, main_v160, main_v161, main_v162, main_v163, main_v164]
abbrev wC : List (Ref sig .tc) := [main_c_32, main_v165, main_v166, main_c_33, main_v167, main_v168, main_v169, main_v170, main_v171, main_c_34, main_v172, main_v173, main_c_35, main_v174, main_v175, main_v176, main_v177, main_v178, main_v179, main_v180, main_v181, main_v182, main_v183, main_v184, main_call0_cst, main_call0_v0, main_v185, main_v186, main_v187, main_v188, main_v189, main_v190, main_c_36, main_v191, main_v192, main_c_37, main_v193, main_v194, main_v195, main_v196, main_v197, main_c_38, main_v198, main_v199, main_c_39, main_v200, main_v201, main_v202, main_v203, main_v204, main_v205, main_v206, main_v207, main_v208, main_v209, main_v210, main_call1_cst, main_call1_v0, main_v211, main_v212, main_v213, main_v214, main_v215, main_v216, main_c_40, main_v217, main_v218, main_c_41, main_v219, main_v220, main_v221, main_v222, main_v223, main_c_42, main_v224, main_v225, main_c_43, main_v226, main_v227, main_v228, main_v229, main_v230, main_v231, main_v232, main_v233, main_v234, main_v235, main_v236, main_call2_cst, main_call2_v0, main_v237, main_v238, main_v239, main_v240, main_v241, main_v242, main_c_44, main_v243, main_v244, main_c_45, main_v245, main_v246, main_v247, main_v248, main_v249, main_c_46, main_v250, main_v251, main_c_47, main_v252, main_v253, main_v254, main_v255, main_v256, main_v257, main_v258, main_v259, main_v260, main_v261, main_v262, main_call3_cst, main_call3_v0, main_v263, main_v264, main_v265, main_v266, main_v267, main_v268, main_v269, main_v270]

/-- The item-feature projection, of the contents X. -/
def t9 (X : Valuation τ sig (Elt F)) : (⟨S8000x128, .f32⟩ : BufTy).Contents (Elt F) :=
  addf (Host.dotGeneral dot_S8000x1024_S1024x128_S8000x128_1_0_0_1_n_n none ((X (Proc.devRef .tc main_arg1) : (⟨S8000x1024, .f32⟩ : BufTy).Contents (Elt F))) (transpose S1024x128 [1, 0] ((X (Proc.devRef .tc main_arg7) : (⟨S128x1024, .f32⟩ : BufTy).Contents (Elt F))) transposes_S128x1024_S1024x128_1_0)) (broadcastInDim S8000x128 ![0, 1] bcast_S1x128_S8000x128_0_1 (broadcastInDim S1x128 ![1] bcast_S128_S1x128_1 ((X (Proc.devRef .tc main_arg8) : (⟨S128, .f32⟩ : BufTy).Contents (Elt F)))))

/-- The node update of the first layer, of the contents X. -/
def t128 (X : Valuation τ sig (Elt F)) : (⟨S20000x128, .f32⟩ : BufTy).Contents (Elt F) :=
  addf (addf (addf (addf (addf (addf (Host.dotGeneral dot_S20000x128_S128x128_S20000x128_1_0_0_1_n_n none ((X (Proc.devRef .tc main_arg2) : (⟨S20000x128, .f32⟩ : BufTy).Contents (Elt F))) (transpose S128x128 [1, 0] ((X (Proc.devRef .tc main_arg11) : (⟨S128x128, .f32⟩ : BufTy).Contents (Elt F))) transposes_S128x128_S128x128_1_0)) (broadcastInDim S20000x128 ![0, 1] bcast_S1x128_S20000x128_0_1 (broadcastInDim S1x128 ![1] bcast_S128_S1x128_1 ((X (Proc.devRef .tc main_arg12) : (⟨S128, .f32⟩ : BufTy).Contents (Elt F)))))) (Host.dotGeneral dot_S20000x128_S128x128_S20000x128_1_0_0_1_n_n none (Host.divf (Host.scatterAdd scatter_S20000x128_S500000x1_S500000x128_1_0_0_1 (broadcastInDim S20000x128 ![] bcast_S_S20000x128 (constant (F := F) S_ .f32 0x00000000#32)) (broadcastInDim S500000x1 ![0] bcast_S500000_S500000x1_0 ((X (Proc.devRef .tc main_arg32) : (⟨S500000, .i32⟩ : BufTy).Contents (Elt F)))) (Host.gather gather_S20000x128_S500000x1_S500000x128_1_0_n_n_0_1_1128 ((X (Proc.devRef .tc main_arg2) : (⟨S20000x128, .f32⟩ : BufTy).Contents (Elt F))) (broadcastInDim S500000x1 ![0] bcast_S500000_S500000x1_0 (select (cmpi .slt ((X (Proc.devRef .tc main_arg31) : (⟨S500000, .i32⟩ : BufTy).Contents (Elt F))) (broadcastInDim S500000 ![] bcast_S_S500000 (constantI S_ 32 0#32))) (addi ((X (Proc.devRef .tc main_arg31) : (⟨S500000, .i32⟩ : BufTy).Contents (Elt F))) (broadcastInDim S500000 ![] bcast_S_S500000 (constantI S_ 32 20000#32))) ((X (Proc.devRef .tc main_arg31) : (⟨S500000, .i32⟩ : BufTy).Contents (Elt F))))))) (broadcastInDim S20000x128 ![0, 1] bcast_S20000x1_S20000x128_0_1 (maximumf (Host.scatterAdd scatter_S20000x1_S500000x1_S500000x1_1_0_0_1 (broadcastInDim S20000x1 ![] bcast_S_S20000x1 (constant (F := F) S_ .f32 0x00000000#32)) (broadcastInDim S500000x1 ![0] bcast_S500000_S500000x1_0 ((X (Proc.devRef .tc main_arg32) : (⟨S500000, .i32⟩ : BufTy).Contents (Elt F)))) (broadcastInDim S500000x1 ![] bcast_S_S500000x1 (constant (F := F) S_ .f32 0x3F800000#32))) (broadcastInDim S20000x1 ![] bcast_S_S20000x1 (constant (F := F) S_ .f32 0x3F800000#32))))) (transpose S128x128 [1, 0] ((X (Proc.devRef .tc main_arg9) : (⟨S128x128, .f32⟩ : BufTy).Contents (Elt F))) transposes_S128x128_S128x128_1_0))) (broadcastInDim S20000x128 ![0, 1] bcast_S1x128_S20000x128_0_1 (broadcastInDim S1x128 ![1] bcast_S128_S1x128_1 ((X (Proc.devRef .tc main_arg10) : (⟨S128, .f32⟩ : BufTy).Contents (Elt F)))))) (addf (addf (addf (Host.dotGeneral dot_S20000x128_S128x128_S20000x128_1_0_0_1_n_n none ((X (Proc.devRef .tc main_arg2) : (⟨S20000x128, .f32⟩ : BufTy).Contents (Elt F))) (transpose S128x128 [1, 0] ((X (Proc.devRef .tc main_arg15) : (⟨S128x128, .f32⟩ : BufTy).Contents (Elt F))) transposes_S128x128_S128x128_1_0)) (broadcastInDim S20000x128 ![0, 1] bcast_S1x128_S20000x128_0_1 (broadcastInDim S1x128 ![1] bcast_S128_S1x128_1 ((X (Proc.devRef .tc main_arg16) : (⟨S128, .f32⟩ : BufTy).Contents (Elt F)))))) (Host.dotGeneral dot_S20000x128_S128x128_S20000x128_1_0_0_1_n_n none (Host.divf (Host.scatterAdd scatter_S20000x128_S300000x1_S300000x128_1_0_0_1 (broadcastInDim S20000x128 ![] bcast_S_S20000x128 (constant (F := F) S_ .f32 0x00000000#32)) (broadcastInDim S300000x1 ![0] bcast_S300000_S300000x1_0 ((X (Proc.devRef .tc main_arg34) : (⟨S300000, .i32⟩ : BufTy).Contents (Elt F)))) (Host.gather gather_S2000x128_S300000x1_S300000x128_1_0_n_n_0_1_1128 ((X (Proc.devRef .tc main_arg3) : (⟨S2000x128, .f32⟩ : BufTy).Contents (Elt F))) (broadcastInDim S300000x1 ![0] bcast_S300000_S300000x1_0 (select (cmpi .slt ((X (Proc.devRef .tc main_arg33) : (⟨S300000, .i32⟩ : BufTy).Contents (Elt F))) (broadcastInDim S300000 ![] bcast_S_S300000 (constantI S_ 32 0#32))) (addi ((X (Proc.devRef .tc main_arg33) : (⟨S300000, .i32⟩ : BufTy).Contents (Elt F))) (broadcastInDim S300000 ![] bcast_S_S300000 (constantI S_ 32 2000#32))) ((X (Proc.devRef .tc main_arg33) : (⟨S300000, .i32⟩ : BufTy).Contents (Elt F))))))) (broadcastInDim S20000x128 ![0, 1] bcast_S20000x1_S20000x128_0_1 (maximumf (Host.scatterAdd scatter_S20000x1_S300000x1_S300000x1_1_0_0_1 (broadcastInDim S20000x1 ![] bcast_S_S20000x1 (constant (F := F) S_ .f32 0x00000000#32)) (broadcastInDim S300000x1 ![0] bcast_S300000_S300000x1_0 ((X (Proc.devRef .tc main_arg34) : (⟨S300000, .i32⟩ : BufTy).Contents (Elt F)))) (broadcastInDim S300000x1 ![] bcast_S_S300000x1 (constant (F := F) S_ .f32 0x3F800000#32))) (broadcastInDim S20000x1 ![] bcast_S_S20000x1 (constant (F := F) S_ .f32 0x3F800000#32))))) (transpose S128x128 [1, 0] ((X (Proc.devRef .tc main_arg13) : (⟨S128x128, .f32⟩ : BufTy).Contents (Elt F))) transposes_S128x128_S128x128_1_0))) (broadcastInDim S20000x128 ![0, 1] bcast_S1x128_S20000x128_0_1 (broadcastInDim S1x128 ![1] bcast_S128_S1x128_1 ((X (Proc.devRef .tc main_arg14) : (⟨S128, .f32⟩ : BufTy).Contents (Elt F))))))) (addf (addf (addf (Host.dotGeneral dot_S20000x128_S128x128_S20000x128_1_0_0_1_n_n none ((X (Proc.devRef .tc main_arg2) : (⟨S20000x128, .f32⟩ : BufTy).Contents (Elt F))) (transpose S128x128 [1, 0] ((X (Proc.devRef .tc main_arg19) : (⟨S128x128, .f32⟩ : BufTy).Contents (Elt F))) transposes_S128x128_S128x128_1_0)) (broadcastInDim S20000x128 ![0, 1] bcast_S1x128_S20000x128_0_1 (broadcastInDim S1x128 ![1] bcast_S128_S1x128_1 ((X (Proc.devRef .tc main_arg20) : (⟨S128, .f32⟩ : BufTy).Contents (Elt F)))))) (Host.dotGeneral dot_S20000x128_S128x128_S20000x128_1_0_0_1_n_n none (Host.divf (Host.scatterAdd scatter_S20000x128_S400000x1_S400000x128_1_0_0_1 (broadcastInDim S20000x128 ![] bcast_S_S20000x128 (constant (F := F) S_ .f32 0x00000000#32)) (broadcastInDim S400000x1 ![0] bcast_S400000_S400000x1_0 ((X (Proc.devRef .tc main_arg36) : (⟨S400000, .i32⟩ : BufTy).Contents (Elt F)))) (Host.gather gather_S10000x128_S400000x1_S400000x128_1_0_n_n_0_1_1128 ((X (Proc.devRef .tc main_arg4) : (⟨S10000x128, .f32⟩ : BufTy).Contents (Elt F))) (broadcastInDim S400000x1 ![0] bcast_S400000_S400000x1_0 (select (cmpi .slt ((X (Proc.devRef .tc main_arg35) : (⟨S400000, .i32⟩ : BufTy).Contents (Elt F))) (broadcastInDim S400000 ![] bcast_S_S400000 (constantI S_ 32 0#32))) (addi ((X (Proc.devRef .tc main_arg35) : (⟨S400000, .i32⟩ : BufTy).Contents (Elt F))) (broadcastInDim S400000 ![] bcast_S_S400000 (constantI S_ 32 10000#32))) ((X (Proc.devRef .tc main_arg35) : (⟨S400000, .i32⟩ : BufTy).Contents (Elt F))))))) (broadcastInDim S20000x128 ![0, 1] bcast_S20000x1_S20000x128_0_1 (maximumf (Host.scatterAdd scatter_S20000x1_S400000x1_S400000x1_1_0_0_1 (broadcastInDim S20000x1 ![] bcast_S_S20000x1 (constant (F := F) S_ .f32 0x00000000#32)) (broadcastInDim S400000x1 ![0] bcast_S400000_S400000x1_0 ((X (Proc.devRef .tc main_arg36) : (⟨S400000, .i32⟩ : BufTy).Contents (Elt F)))) (broadcastInDim S400000x1 ![] bcast_S_S400000x1 (constant (F := F) S_ .f32 0x3F800000#32))) (broadcastInDim S20000x1 ![] bcast_S_S20000x1 (constant (F := F) S_ .f32 0x3F800000#32))))) (transpose S128x128 [1, 0] ((X (Proc.devRef .tc main_arg17) : (⟨S128x128, .f32⟩ : BufTy).Contents (Elt F))) transposes_S128x128_S128x128_1_0))) (broadcastInDim S20000x128 ![0, 1] bcast_S1x128_S20000x128_0_1 (broadcastInDim S1x128 ![1] bcast_S128_S1x128_1 ((X (Proc.devRef .tc main_arg18) : (⟨S128, .f32⟩ : BufTy).Contents (Elt F))))))) (addf (addf (addf (Host.dotGeneral dot_S20000x128_S128x128_S20000x128_1_0_0_1_n_n none ((X (Proc.devRef .tc main_arg2) : (⟨S20000x128, .f32⟩ : BufTy).Contents (Elt F))) (transpose S128x128 [1, 0] ((X (Proc.devRef .tc main_arg23) : (⟨S128x128, .f32⟩ : BufTy).Contents (Elt F))) transposes_S128x128_S128x128_1_0)) (broadcastInDim S20000x128 ![0, 1] bcast_S1x128_S20000x128_0_1 (broadcastInDim S1x128 ![1] bcast_S128_S1x128_1 ((X (Proc.devRef .tc main_arg24) : (⟨S128, .f32⟩ : BufTy).Contents (Elt F)))))) (Host.dotGeneral dot_S20000x128_S128x128_S20000x128_1_0_0_1_n_n none (Host.divf (Host.scatterAdd scatter_S20000x128_S250000x1_S250000x128_1_0_0_1 (broadcastInDim S20000x128 ![] bcast_S_S20000x128 (constant (F := F) S_ .f32 0x00000000#32)) (broadcastInDim S250000x1 ![0] bcast_S250000_S250000x1_0 ((X (Proc.devRef .tc main_arg38) : (⟨S250000, .i32⟩ : BufTy).Contents (Elt F)))) (Host.gather gather_S8000x128_S250000x1_S250000x128_1_0_n_n_0_1_1128 (addf (Host.dotGeneral dot_S8000x1024_S1024x128_S8000x128_1_0_0_1_n_n none ((X (Proc.devRef .tc main_arg1) : (⟨S8000x1024, .f32⟩ : BufTy).Contents (Elt F))) (transpose S1024x128 [1, 0] ((X (Proc.devRef .tc main_arg7) : (⟨S128x1024, .f32⟩ : BufTy).Contents (Elt F))) transposes_S128x1024_S1024x128_1_0)) (broadcastInDim S8000x128 ![0, 1] bcast_S1x128_S8000x128_0_1 (broadcastInDim S1x128 ![1] bcast_S128_S1x128_1 ((X (Proc.devRef .tc main_arg8) : (⟨S128, .f32⟩ : BufTy).Contents (Elt F)))))) (broadcastInDim S250000x1 ![0] bcast_S250000_S250000x1_0 (select (cmpi .slt ((X (Proc.devRef .tc main_arg37) : (⟨S250000, .i32⟩ : BufTy).Contents (Elt F))) (broadcastInDim S250000 ![] bcast_S_S250000 (constantI S_ 32 0#32))) (addi ((X (Proc.devRef .tc main_arg37) : (⟨S250000, .i32⟩ : BufTy).Contents (Elt F))) (broadcastInDim S250000 ![] bcast_S_S250000 (constantI S_ 32 8000#32))) ((X (Proc.devRef .tc main_arg37) : (⟨S250000, .i32⟩ : BufTy).Contents (Elt F))))))) (broadcastInDim S20000x128 ![0, 1] bcast_S20000x1_S20000x128_0_1 (maximumf (Host.scatterAdd scatter_S20000x1_S250000x1_S250000x1_1_0_0_1 (broadcastInDim S20000x1 ![] bcast_S_S20000x1 (constant (F := F) S_ .f32 0x00000000#32)) (broadcastInDim S250000x1 ![0] bcast_S250000_S250000x1_0 ((X (Proc.devRef .tc main_arg38) : (⟨S250000, .i32⟩ : BufTy).Contents (Elt F)))) (broadcastInDim S250000x1 ![] bcast_S_S250000x1 (constant (F := F) S_ .f32 0x3F800000#32))) (broadcastInDim S20000x1 ![] bcast_S_S20000x1 (constant (F := F) S_ .f32 0x3F800000#32))))) (transpose S128x128 [1, 0] ((X (Proc.devRef .tc main_arg21) : (⟨S128x128, .f32⟩ : BufTy).Contents (Elt F))) transposes_S128x128_S128x128_1_0))) (broadcastInDim S20000x128 ![0, 1] bcast_S1x128_S20000x128_0_1 (broadcastInDim S1x128 ![1] bcast_S128_S1x128_1 ((X (Proc.devRef .tc main_arg22) : (⟨S128, .f32⟩ : BufTy).Contents (Elt F))))))

/-- The user update, of the node update `v128` and the contents X. -/
def t164 (v128 : (⟨S20000x128, .f32⟩ : BufTy).Contents (Elt F)) (X : Valuation τ sig (Elt F)) :
    (⟨S1000x128, .f32⟩ : BufTy).Contents (Elt F) :=
  addf (Host.dotGeneral dot_S1000x128_S128x128_S1000x128_1_0_0_1_n_n none (mulf (Host.scatterAdd scatter_S1000x128_S300000x1_S300000x128_1_0_0_1 (broadcastInDim S1000x128 ![] bcast_S_S1000x128 (constant (F := F) S_ .f32 0x00000000#32)) (broadcastInDim S300000x1 ![0] bcast_S300000_S300000x1_0 ((X (Proc.devRef .tc main_arg40) : (⟨S300000, .i32⟩ : BufTy).Contents (Elt F)))) (Host.gather gather_S20000x128_S300000x1_S300000x128_1_0_n_n_0_1_1128 (mulf (v128) (broadcastInDim S20000x128 ![0, 1] bcast_S20000x1_S20000x128_0_1 (broadcastInDim S20000x1 ![0] bcast_S20000_S20000x1_0 (Host.powf (maximumf (Host.scatterAdd scatter_S20000_S300000x1_S300000_n_0_0_1 (broadcastInDim S20000 ![] bcast_S_S20000 (constant (F := F) S_ .f32 0x00000000#32)) (broadcastInDim S300000x1 ![0] bcast_S300000_S300000x1_0 ((X (Proc.devRef .tc main_arg39) : (⟨S300000, .i32⟩ : BufTy).Contents (Elt F)))) (broadcastInDim S300000 ![] bcast_S_S300000 (constant (F := F) S_ .f32 0x3F800000#32))) (broadcastInDim S20000 ![] bcast_S_S20000 (constant (F := F) S_ .f32 0x3F800000#32))) (broadcastInDim S20000 ![] bcast_S_S20000 (constant (F := F) S_ .f32 0xBF000000#32)))))) (broadcastInDim S300000x1 ![0] bcast_S300000_S300000x1_0 (select (cmpi .slt ((X (Proc.devRef .tc main_arg39) : (⟨S300000, .i32⟩ : BufTy).Contents (Elt F))) (broadcastInDim S300000 ![] bcast_S_S300000 (constantI S_ 32 0#32))) (addi ((X (Proc.devRef .tc main_arg39) : (⟨S300000, .i32⟩ : BufTy).Contents (Elt F))) (broadcastInDim S300000 ![] bcast_S_S300000 (constantI S_ 32 20000#32))) ((X (Proc.devRef .tc main_arg39) : (⟨S300000, .i32⟩ : BufTy).Contents (Elt F))))))) (broadcastInDim S1000x128 ![0, 1] bcast_S1000x1_S1000x128_0_1 (broadcastInDim S1000x1 ![0] bcast_S1000_S1000x1_0 (Host.powf (maximumf (Host.scatterAdd scatter_S1000_S300000x1_S300000_n_0_0_1 (broadcastInDim S1000 ![] bcast_S_S1000 (constant (F := F) S_ .f32 0x00000000#32)) (broadcastInDim S300000x1 ![0] bcast_S300000_S300000x1_0 ((X (Proc.devRef .tc main_arg40) : (⟨S300000, .i32⟩ : BufTy).Contents (Elt F)))) (broadcastInDim S300000 ![] bcast_S_S300000 (constant (F := F) S_ .f32 0x3F800000#32))) (broadcastInDim S1000 ![] bcast_S_S1000 (constant (F := F) S_ .f32 0x3F800000#32))) (broadcastInDim S1000 ![] bcast_S_S1000 (constant (F := F) S_ .f32 0xBF000000#32)))))) (transpose S128x128 [1, 0] ((X (Proc.devRef .tc main_arg25) : (⟨S128x128, .f32⟩ : BufTy).Contents (Elt F))) transposes_S128x128_S128x128_1_0)) (broadcastInDim S1000x128 ![0, 1] bcast_S1x128_S1000x128_0_1 (broadcastInDim S1x128 ![1] bcast_S128_S1x128_1 ((X (Proc.devRef .tc main_arg26) : (⟨S128, .f32⟩ : BufTy).Contents (Elt F)))))

/-- The first score difference, of the node update, the user update and the contents X. -/
def t269 (v128 : (⟨S20000x128, .f32⟩ : BufTy).Contents (Elt F)) (v164 : (⟨S1000x128, .f32⟩ : BufTy).Contents (Elt F))
    (X : Valuation τ sig (Elt F)) : (⟨S50000x1, .f32⟩ : BufTy).Contents (Elt F) :=
  subf (addf (Host.dotGeneral dot_S50000x256_S256x1_S50000x1_1_0_0_1_n_n none (maximumf (addf (Host.dotGeneral dot_S50000x256_S256x256_S50000x256_1_0_0_1_n_n none (concatenate S50000x256 1 [⟨S50000x128, (Host.gather gather_S20000x128_S50000x1_S50000x128_1_0_n_n_0_1_1128 (v128) (broadcastInDim S50000x1 ![0] bcast_S50000_S50000x1_0 (select (cmpi .slt ((X (Proc.devRef .tc main_arg41) : (⟨S50000, .i32⟩ : BufTy).Contents (Elt F))) (broadcastInDim S50000 ![] bcast_S_S50000 (constantI S_ 32 0#32))) (addi ((X (Proc.devRef .tc main_arg41) : (⟨S50000, .i32⟩ : BufTy).Contents (Elt F))) (broadcastInDim S50000 ![] bcast_S_S50000 (constantI S_ 32 20000#32))) ((X (Proc.devRef .tc main_arg41) : (⟨S50000, .i32⟩ : BufTy).Contents (Elt F))))))⟩, ⟨S50000x128, (Host.gather gather_S1000x128_S50000x1_S50000x128_1_0_n_n_0_1_1128 (v164) (broadcastInDim S50000x1 ![0] bcast_S50000_S50000x1_0 (select (cmpi .slt ((X (Proc.devRef .tc main_arg42) : (⟨S50000, .i32⟩ : BufTy).Contents (Elt F))) (broadcastInDim S50000 ![] bcast_S_S50000 (constantI S_ 32 0#32))) (addi ((X (Proc.devRef .tc main_arg42) : (⟨S50000, .i32⟩ : BufTy).Contents (Elt F))) (broadcastInDim S50000 ![] bcast_S_S50000 (constantI S_ 32 1000#32))) ((X (Proc.devRef .tc main_arg42) : (⟨S50000, .i32⟩ : BufTy).Contents (Elt F))))))⟩] concatenates_S50000x128_S50000x128_S50000x256_d1) (transpose S256x256 [1, 0] ((X (Proc.devRef .tc main_arg27) : (⟨S256x256, .f32⟩ : BufTy).Contents (Elt F))) transposes_S256x256_S256x256_1_0)) (broadcastInDim S50000x256 ![0, 1] bcast_S1x256_S50000x256_0_1 (broadcastInDim S1x256 ![1] bcast_S256_S1x256_1 ((X (Proc.devRef .tc main_arg28) : (⟨S256, .f32⟩ : BufTy).Contents (Elt F)))))) (broadcastInDim S50000x256 ![] bcast_S_S50000x256 (constant (F := F) S_ .f32 0x00000000#32))) (transpose S256x1 [1, 0] ((X (Proc.devRef .tc main_arg29) : (⟨S1x256, .f32⟩ : BufTy).Contents (Elt F))) transposes_S1x256_S256x1_1_0)) (broadcastInDim S50000x1 ![0, 1] bcast_S1x1_S50000x1_0_1 (broadcastInDim S1x1 ![1] bcast_S1_S1x1_1 ((X (Proc.devRef .tc main_arg30) : (⟨S1, .f32⟩ : BufTy).Contents (Elt F)))))) (addf (Host.dotGeneral dot_S50000x256_S256x1_S50000x1_1_0_0_1_n_n none (maximumf (addf (Host.dotGeneral dot_S50000x256_S256x256_S50000x256_1_0_0_1_n_n none (concatenate S50000x256 1 [⟨S50000x128, (Host.gather gather_S20000x128_S50000x1_S50000x128_1_0_n_n_0_1_1128 (v128) (broadcastInDim S50000x1 ![0] bcast_S50000_S50000x1_0 (select (cmpi .slt ((X (Proc.devRef .tc main_arg41) : (⟨S50000, .i32⟩ : BufTy).Contents (Elt F))) (broadcastInDim S50000 ![] bcast_S_S50000 (constantI S_ 32 0#32))) (addi ((X (Proc.devRef .tc main_arg41) : (⟨S50000, .i32⟩ : BufTy).Contents (Elt F))) (broadcastInDim S50000 ![] bcast_S_S50000 (constantI S_ 32 20000#32))) ((X (Proc.devRef .tc main_arg41) : (⟨S50000, .i32⟩ : BufTy).Contents (Elt F))))))⟩, ⟨S50000x128, (Host.gather gather_S1000x128_S50000x1_S50000x128_1_0_n_n_0_1_1128 (v164) (broadcastInDim S50000x1 ![0] bcast_S50000_S50000x1_0 (select (cmpi .slt ((X (Proc.devRef .tc main_arg43) : (⟨S50000, .i32⟩ : BufTy).Contents (Elt F))) (broadcastInDim S50000 ![] bcast_S_S50000 (constantI S_ 32 0#32))) (addi ((X (Proc.devRef .tc main_arg43) : (⟨S50000, .i32⟩ : BufTy).Contents (Elt F))) (broadcastInDim S50000 ![] bcast_S_S50000 (constantI S_ 32 1000#32))) ((X (Proc.devRef .tc main_arg43) : (⟨S50000, .i32⟩ : BufTy).Contents (Elt F))))))⟩] concatenates_S50000x128_S50000x128_S50000x256_d1) (transpose S256x256 [1, 0] ((X (Proc.devRef .tc main_arg27) : (⟨S256x256, .f32⟩ : BufTy).Contents (Elt F))) transposes_S256x256_S256x256_1_0)) (broadcastInDim S50000x256 ![0, 1] bcast_S1x256_S50000x256_0_1 (broadcastInDim S1x256 ![1] bcast_S256_S1x256_1 ((X (Proc.devRef .tc main_arg28) : (⟨S256, .f32⟩ : BufTy).Contents (Elt F)))))) (broadcastInDim S50000x256 ![] bcast_S_S50000x256 (constant (F := F) S_ .f32 0x00000000#32))) (transpose S256x1 [1, 0] ((X (Proc.devRef .tc main_arg29) : (⟨S1x256, .f32⟩ : BufTy).Contents (Elt F))) transposes_S1x256_S256x1_1_0)) (broadcastInDim S50000x1 ![0, 1] bcast_S1x1_S50000x1_0_1 (broadcastInDim S1x1 ![1] bcast_S1_S1x1_1 ((X (Proc.devRef .tc main_arg30) : (⟨S1, .f32⟩ : BufTy).Contents (Elt F))))))

/-- The second score difference, of the node update, the user update and the contents X. -/
def t270 (v128 : (⟨S20000x128, .f32⟩ : BufTy).Contents (Elt F)) (v164 : (⟨S1000x128, .f32⟩ : BufTy).Contents (Elt F))
    (X : Valuation τ sig (Elt F)) : (⟨S50000x1, .f32⟩ : BufTy).Contents (Elt F) :=
  subf (addf (Host.dotGeneral dot_S50000x256_S256x1_S50000x1_1_0_0_1_n_n none (maximumf (addf (Host.dotGeneral dot_S50000x256_S256x256_S50000x256_1_0_0_1_n_n none (concatenate S50000x256 1 [⟨S50000x128, (Host.gather gather_S20000x128_S50000x1_S50000x128_1_0_n_n_0_1_1128 (v128) (broadcastInDim S50000x1 ![0] bcast_S50000_S50000x1_0 (select (cmpi .slt ((X (Proc.devRef .tc main_arg45) : (⟨S50000, .i32⟩ : BufTy).Contents (Elt F))) (broadcastInDim S50000 ![] bcast_S_S50000 (constantI S_ 32 0#32))) (addi ((X (Proc.devRef .tc main_arg45) : (⟨S50000, .i32⟩ : BufTy).Contents (Elt F))) (broadcastInDim S50000 ![] bcast_S_S50000 (constantI S_ 32 20000#32))) ((X (Proc.devRef .tc main_arg45) : (⟨S50000, .i32⟩ : BufTy).Contents (Elt F))))))⟩, ⟨S50000x128, (Host.gather gather_S1000x128_S50000x1_S50000x128_1_0_n_n_0_1_1128 (v164) (broadcastInDim S50000x1 ![0] bcast_S50000_S50000x1_0 (select (cmpi .slt ((X (Proc.devRef .tc main_arg44) : (⟨S50000, .i32⟩ : BufTy).Contents (Elt F))) (broadcastInDim S50000 ![] bcast_S_S50000 (constantI S_ 32 0#32))) (addi ((X (Proc.devRef .tc main_arg44) : (⟨S50000, .i32⟩ : BufTy).Contents (Elt F))) (broadcastInDim S50000 ![] bcast_S_S50000 (constantI S_ 32 1000#32))) ((X (Proc.devRef .tc main_arg44) : (⟨S50000, .i32⟩ : BufTy).Contents (Elt F))))))⟩] concatenates_S50000x128_S50000x128_S50000x256_d1) (transpose S256x256 [1, 0] ((X (Proc.devRef .tc main_arg27) : (⟨S256x256, .f32⟩ : BufTy).Contents (Elt F))) transposes_S256x256_S256x256_1_0)) (broadcastInDim S50000x256 ![0, 1] bcast_S1x256_S50000x256_0_1 (broadcastInDim S1x256 ![1] bcast_S256_S1x256_1 ((X (Proc.devRef .tc main_arg28) : (⟨S256, .f32⟩ : BufTy).Contents (Elt F)))))) (broadcastInDim S50000x256 ![] bcast_S_S50000x256 (constant (F := F) S_ .f32 0x00000000#32))) (transpose S256x1 [1, 0] ((X (Proc.devRef .tc main_arg29) : (⟨S1x256, .f32⟩ : BufTy).Contents (Elt F))) transposes_S1x256_S256x1_1_0)) (broadcastInDim S50000x1 ![0, 1] bcast_S1x1_S50000x1_0_1 (broadcastInDim S1x1 ![1] bcast_S1_S1x1_1 ((X (Proc.devRef .tc main_arg30) : (⟨S1, .f32⟩ : BufTy).Contents (Elt F)))))) (addf (Host.dotGeneral dot_S50000x256_S256x1_S50000x1_1_0_0_1_n_n none (maximumf (addf (Host.dotGeneral dot_S50000x256_S256x256_S50000x256_1_0_0_1_n_n none (concatenate S50000x256 1 [⟨S50000x128, (Host.gather gather_S20000x128_S50000x1_S50000x128_1_0_n_n_0_1_1128 (v128) (broadcastInDim S50000x1 ![0] bcast_S50000_S50000x1_0 (select (cmpi .slt ((X (Proc.devRef .tc main_arg46) : (⟨S50000, .i32⟩ : BufTy).Contents (Elt F))) (broadcastInDim S50000 ![] bcast_S_S50000 (constantI S_ 32 0#32))) (addi ((X (Proc.devRef .tc main_arg46) : (⟨S50000, .i32⟩ : BufTy).Contents (Elt F))) (broadcastInDim S50000 ![] bcast_S_S50000 (constantI S_ 32 20000#32))) ((X (Proc.devRef .tc main_arg46) : (⟨S50000, .i32⟩ : BufTy).Contents (Elt F))))))⟩, ⟨S50000x128, (Host.gather gather_S1000x128_S50000x1_S50000x128_1_0_n_n_0_1_1128 (v164) (broadcastInDim S50000x1 ![0] bcast_S50000_S50000x1_0 (select (cmpi .slt ((X (Proc.devRef .tc main_arg44) : (⟨S50000, .i32⟩ : BufTy).Contents (Elt F))) (broadcastInDim S50000 ![] bcast_S_S50000 (constantI S_ 32 0#32))) (addi ((X (Proc.devRef .tc main_arg44) : (⟨S50000, .i32⟩ : BufTy).Contents (Elt F))) (broadcastInDim S50000 ![] bcast_S_S50000 (constantI S_ 32 1000#32))) ((X (Proc.devRef .tc main_arg44) : (⟨S50000, .i32⟩ : BufTy).Contents (Elt F))))))⟩] concatenates_S50000x128_S50000x128_S50000x256_d1) (transpose S256x256 [1, 0] ((X (Proc.devRef .tc main_arg27) : (⟨S256x256, .f32⟩ : BufTy).Contents (Elt F))) transposes_S256x256_S256x256_1_0)) (broadcastInDim S50000x256 ![0, 1] bcast_S1x256_S50000x256_0_1 (broadcastInDim S1x256 ![1] bcast_S256_S1x256_1 ((X (Proc.devRef .tc main_arg28) : (⟨S256, .f32⟩ : BufTy).Contents (Elt F)))))) (broadcastInDim S50000x256 ![] bcast_S_S50000x256 (constant (F := F) S_ .f32 0x00000000#32))) (transpose S256x1 [1, 0] ((X (Proc.devRef .tc main_arg29) : (⟨S1x256, .f32⟩ : BufTy).Contents (Elt F))) transposes_S1x256_S256x1_1_0)) (broadcastInDim S50000x1 ![0, 1] bcast_S1x1_S50000x1_0_1 (broadcastInDim S1x1 ![1] bcast_S1_S1x1_1 ((X (Proc.devRef .tc main_arg30) : (⟨S1, .f32⟩ : BufTy).Contents (Elt F))))))

end Cert.ReferenceIdeal.RunHand

end
-- ==== Proof.ReferenceRunHandWrites.lean ====
/-
  What the three stretches of the reference leave alone. Running two stretches one after the other is running their
  concatenation; a stretch changes only the buffers its operations write (each writes its own result), so every other
  buffer holds after it what it held before. No stretch writes an argument; B and C do not write the node update, C does
  not write the user update, and B and C do not write the item-feature projection.
-/
import proofs.«144146_j85358180041108_1_alg».proof.Proof.ReferenceRunHandParts

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- The contents after two stretches in a row are the second's after the first's. -/
theorem after_append (l₁ l₂ : List (HloOp τ sig (Elt F))) (X : Valuation τ sig (Elt F)) :
    StableHlo.after (l₁ ++ l₂) X = StableHlo.after l₂ (StableHlo.after l₁ X) := by
  induction l₁ generalizing X with
  | nil => rfl
  | cons op l ih => exact ih _

set_option maxHeartbeats 8000000 in
theorem opsA_writes : (opsA : List (HloOp τ sig (Elt F))).Forall fun op => op.writes ⊆ (wA.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxHeartbeats 8000000 in
theorem opsB_writes : (opsB : List (HloOp τ sig (Elt F))).Forall fun op => op.writes ⊆ (wB.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxHeartbeats 8000000 in
theorem opsC_writes : (opsC : List (HloOp τ sig (Elt F))).Forall fun op => op.writes ⊆ (wC.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

/-- The program's 47 arguments. -/
abbrev argList : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35, main_arg36, main_arg37, main_arg38, main_arg39, main_arg40, main_arg41, main_arg42, main_arg43, main_arg44, main_arg45, main_arg46]

/-- No stretch writes an argument. -/
theorem args_untouched : ∀ b ∈ argList, b ∉ wA ∧ b ∉ wB ∧ b ∉ wC := by decide

theorem v128_untouched : main_v128 ∉ wB ∧ main_v128 ∉ wC := by decide
theorem v164_untouched : main_v164 ∉ wC := by decide
theorem v9_untouched : main_v9 ∉ wB ∧ main_v9 ∉ wC := by decide

/-- A stretch leaves a buffer it does not write as it found it. -/
theorem keepA (X : Valuation τ sig (Elt F)) (b : Ref sig .tc) (hb : b ∉ wA) :
    StableHlo.after opsA X (Proc.devRef .tc b) = X (Proc.devRef .tc b) := StableHlo.after_of_writes_sub opsA X opsA_writes hb
theorem keepB (X : Valuation τ sig (Elt F)) (b : Ref sig .tc) (hb : b ∉ wB) :
    StableHlo.after opsB X (Proc.devRef .tc b) = X (Proc.devRef .tc b) := StableHlo.after_of_writes_sub opsB X opsB_writes hb
theorem keepC (X : Valuation τ sig (Elt F)) (b : Ref sig .tc) (hb : b ∉ wC) :
    StableHlo.after opsC X (Proc.devRef .tc b) = X (Proc.devRef .tc b) := StableHlo.after_of_writes_sub opsC X opsC_writes hb

end Cert.ReferenceIdeal.RunHand

end
-- ==== Proof.ReferenceRunHandA128.lean ====
/-
  Stretch A of the reference read at the node update: from any contents X, what operations 1 to 153 leave in `main_v128` is
  the composed term of X — the four relations' terms (each a product with the node features, a bias row, a product with the
  relation's neighbourhood mean, a bias row) added in order.
-/
import proofs.«144146_j85358180041108_1_alg».proof.Proof.ReferenceRunHandParts

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
theorem a128 (X : Valuation τ sig (Elt F)) :
    (StableHlo.after opsA X (Proc.devRef .tc main_v128) : (⟨S20000x128, .f32⟩ : BufTy).Contents (Elt F)) = t128 X := by
  unfold t128
  after_results_simp <;> rfl

end Cert.ReferenceIdeal.RunHand

end
-- ==== Proof.ReferenceRunHandA9.lean ====
/-
  Stretch A of the reference read at the item-feature projection: from any contents X, what operations 1 to 153 leave in
  `main_v9` is the product of the item features with the transposed weight plus the bias row, of X.
-/
import proofs.«144146_j85358180041108_1_alg».proof.Proof.ReferenceRunHandParts

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
theorem a9 (X : Valuation τ sig (Elt F)) :
    (StableHlo.after opsA X (Proc.devRef .tc main_v9) : (⟨S8000x128, .f32⟩ : BufTy).Contents (Elt F)) = t9 X := by
  unfold t9
  after_results_simp <;> rfl

end Cert.ReferenceIdeal.RunHand

end
-- ==== Proof.ReferenceRunHandB164.lean ====
/-
  Stretch B of the reference read at the user update: from any contents X, what operations 154 to 199 leave in `main_v164`
  is the composed term of the node update X holds in `main_v128` and of X at the arguments.
-/
import proofs.«144146_j85358180041108_1_alg».proof.Proof.ReferenceRunHandParts

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
theorem b164 (X : Valuation τ sig (Elt F)) :
    (StableHlo.after opsB X (Proc.devRef .tc main_v164) : (⟨S1000x128, .f32⟩ : BufTy).Contents (Elt F))
      = t164 (X (Proc.devRef .tc main_v128) : (⟨S20000x128, .f32⟩ : BufTy).Contents (Elt F)) X := by
  unfold t164
  after_results_simp <;> rfl

end Cert.ReferenceIdeal.RunHand

end
-- ==== Proof.ReferenceRunHandC269.lean ====
/-
  Stretch C of the reference read at the first score difference: from any contents X, what operations 200 to 329 leave in
  `main_v269` is the composed term of the node update and the user update X holds in `main_v128` and `main_v164` and of X
  at the arguments.
-/
import proofs.«144146_j85358180041108_1_alg».proof.Proof.ReferenceRunHandParts

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
theorem c269 (X : Valuation τ sig (Elt F)) :
    (StableHlo.after opsC X (Proc.devRef .tc main_v269) : (⟨S50000x1, .f32⟩ : BufTy).Contents (Elt F))
      = t269 (X (Proc.devRef .tc main_v128) : (⟨S20000x128, .f32⟩ : BufTy).Contents (Elt F)) (X (Proc.devRef .tc main_v164) : (⟨S1000x128, .f32⟩ : BufTy).Contents (Elt F)) X := by
  unfold t269
  after_results_simp <;> rfl

end Cert.ReferenceIdeal.RunHand

end
-- ==== Proof.ReferenceRunHandC270.lean ====
/-
  Stretch C of the reference read at the second score difference: from any contents X, what operations 200 to 329 leave in
  `main_v270` is the composed term of the node update and the user update X holds in `main_v128` and `main_v164` and of X
  at the arguments.
-/
import proofs.«144146_j85358180041108_1_alg».proof.Proof.ReferenceRunHandParts

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
theorem c270 (X : Valuation τ sig (Elt F)) :
    (StableHlo.after opsC X (Proc.devRef .tc main_v270) : (⟨S50000x1, .f32⟩ : BufTy).Contents (Elt F))
      = t270 (X (Proc.devRef .tc main_v128) : (⟨S20000x128, .f32⟩ : BufTy).Contents (Elt F)) (X (Proc.devRef .tc main_v164) : (⟨S1000x128, .f32⟩ : BufTy).Contents (Elt F)) X := by
  unfold t270
  after_results_simp <;> rfl

end Cert.ReferenceIdeal.RunHand

end
-- ==== Proof.ReferenceResults.lean ====
/-
  The reference's five results as terms of its arguments: the first dense layer; the four-relation layer (four neighbourhood
  means, each relation's self and neighbour products with their biases, summed); the graph convolution as a term of the
  four-relation layer's output; the two score differences as terms of both layers' outputs.
-/
import proofs.«144146_j85358180041108_1_alg».proof.Proof.Gen.ReferenceIdeal
import Idealize.ShloMosaic.Lib.StableHlo.Run
import Idealize.ShloMosaic.PureOps.Ideal.Laws

set_option maxRecDepth 16384

noncomputable section

namespace Cert.ReferenceIdeal.Results

open Cert.ReferenceIdeal Cert.ReferenceIdeal.Gen
open Idealize.ShloMosaic Idealize.ShloMosaic.TcCoe Idealize.SL.Sem Idealize.ShloMosaic.StableHlo

variable (m : (ℓ : Loc nD τ sig) → Buf (Elt Ideal) ℓ) (c : Dev nD)

/-- The first dense layer. -/
def res9 : FVec Ideal S8000x128 .f32 :=
  addf (Host.dotGeneral (φ₁ := .f32) (φ₂ := .f32) dot_S8000x1024_S1024x128_S8000x128_1_0_0_1_n_n none ((m ((c.tc : Thread nD τ).loc main_arg1) : (⟨S8000x1024, .f32⟩ : BufTy).Contents (Elt Ideal))) (transpose (α := Ideal .f32) S1024x128 [1, 0] ((m ((c.tc : Thread nD τ).loc main_arg7) : (⟨S128x1024, .f32⟩ : BufTy).Contents (Elt Ideal))) transposes_S128x1024_S1024x128_1_0)) (broadcastInDim S8000x128 ![0, 1] bcast_S1x128_S8000x128_0_1 (broadcastInDim S1x128 ![1] bcast_S128_S1x128_1 ((m ((c.tc : Thread nD τ).loc main_arg8) : (⟨S128, .f32⟩ : BufTy).Contents (Elt Ideal)))))

/-- The four-relation layer. -/
def res128 : FVec Ideal S20000x128 .f32 :=
  addf (addf (addf (addf (addf (addf (Host.dotGeneral (φ₁ := .f32) (φ₂ := .f32) dot_S20000x128_S128x128_S20000x128_1_0_0_1_n_n none ((m ((c.tc : Thread nD τ).loc main_arg2) : (⟨S20000x128, .f32⟩ : BufTy).Contents (Elt Ideal))) (transpose (α := Ideal .f32) S128x128 [1, 0] ((m ((c.tc : Thread nD τ).loc main_arg11) : (⟨S128x128, .f32⟩ : BufTy).Contents (Elt Ideal))) transposes_S128x128_S128x128_1_0)) (broadcastInDim S20000x128 ![0, 1] bcast_S1x128_S20000x128_0_1 (broadcastInDim S1x128 ![1] bcast_S128_S1x128_1 ((m ((c.tc : Thread nD τ).loc main_arg12) : (⟨S128, .f32⟩ : BufTy).Contents (Elt Ideal)))))) (Host.dotGeneral (φ₁ := .f32) (φ₂ := .f32) dot_S20000x128_S128x128_S20000x128_1_0_0_1_n_n none (Host.divf (Host.scatterAdd scatter_S20000x128_S500000x1_S500000x128_1_0_0_1 (broadcastInDim S20000x128 ![] bcast_S_S20000x128 (constant (F := Ideal) S_ .f32 0x00000000#32)) (broadcastInDim S500000x1 ![0] bcast_S500000_S500000x1_0 ((m ((c.tc : Thread nD τ).loc main_arg32) : (⟨S500000, .i32⟩ : BufTy).Contents (Elt Ideal)))) (Host.gather gather_S20000x128_S500000x1_S500000x128_1_0_n_n_0_1_1128 ((m ((c.tc : Thread nD τ).loc main_arg2) : (⟨S20000x128, .f32⟩ : BufTy).Contents (Elt Ideal))) (broadcastInDim S500000x1 ![0] bcast_S500000_S500000x1_0 (select (cmpi .slt ((m ((c.tc : Thread nD τ).loc main_arg31) : (⟨S500000, .i32⟩ : BufTy).Contents (Elt Ideal))) (broadcastInDim S500000 ![] bcast_S_S500000 (constantI S_ 32 0#32))) (addi ((m ((c.tc : Thread nD τ).loc main_arg31) : (⟨S500000, .i32⟩ : BufTy).Contents (Elt Ideal))) (broadcastInDim S500000 ![] bcast_S_S500000 (constantI S_ 32 20000#32))) ((m ((c.tc : Thread nD τ).loc main_arg31) : (⟨S500000, .i32⟩ : BufTy).Contents (Elt Ideal))))))) (broadcastInDim S20000x128 ![0, 1] bcast_S20000x1_S20000x128_0_1 (maximumf (Host.scatterAdd scatter_S20000x1_S500000x1_S500000x1_1_0_0_1 (broadcastInDim S20000x1 ![] bcast_S_S20000x1 (constant (F := Ideal) S_ .f32 0x00000000#32)) (broadcastInDim S500000x1 ![0] bcast_S500000_S500000x1_0 ((m ((c.tc : Thread nD τ).loc main_arg32) : (⟨S500000, .i32⟩ : BufTy).Contents (Elt Ideal)))) (broadcastInDim S500000x1 ![] bcast_S_S500000x1 (constant (F := Ideal) S_ .f32 0x3F800000#32))) (broadcastInDim S20000x1 ![] bcast_S_S20000x1 (constant (F := Ideal) S_ .f32 0x3F800000#32))))) (transpose (α := Ideal .f32) S128x128 [1, 0] ((m ((c.tc : Thread nD τ).loc main_arg9) : (⟨S128x128, .f32⟩ : BufTy).Contents (Elt Ideal))) transposes_S128x128_S128x128_1_0))) (broadcastInDim S20000x128 ![0, 1] bcast_S1x128_S20000x128_0_1 (broadcastInDim S1x128 ![1] bcast_S128_S1x128_1 ((m ((c.tc : Thread nD τ).loc main_arg10) : (⟨S128, .f32⟩ : BufTy).Contents (Elt Ideal)))))) (addf (addf (addf (Host.dotGeneral (φ₁ := .f32) (φ₂ := .f32) dot_S20000x128_S128x128_S20000x128_1_0_0_1_n_n none ((m ((c.tc : Thread nD τ).loc main_arg2) : (⟨S20000x128, .f32⟩ : BufTy).Contents (Elt Ideal))) (transpose (α := Ideal .f32) S128x128 [1, 0] ((m ((c.tc : Thread nD τ).loc main_arg15) : (⟨S128x128, .f32⟩ : BufTy).Contents (Elt Ideal))) transposes_S128x128_S128x128_1_0)) (broadcastInDim S20000x128 ![0, 1] bcast_S1x128_S20000x128_0_1 (broadcastInDim S1x128 ![1] bcast_S128_S1x128_1 ((m ((c.tc : Thread nD τ).loc main_arg16) : (⟨S128, .f32⟩ : BufTy).Contents (Elt Ideal)))))) (Host.dotGeneral (φ₁ := .f32) (φ₂ := .f32) dot_S20000x128_S128x128_S20000x128_1_0_0_1_n_n none (Host.divf (Host.scatterAdd scatter_S20000x128_S300000x1_S300000x128_1_0_0_1 (broadcastInDim S20000x128 ![] bcast_S_S20000x128 (constant (F := Ideal) S_ .f32 0x00000000#32)) (broadcastInDim S300000x1 ![0] bcast_S300000_S300000x1_0 ((m ((c.tc : Thread nD τ).loc main_arg34) : (⟨S300000, .i32⟩ : BufTy).Contents (Elt Ideal)))) (Host.gather gather_S2000x128_S300000x1_S300000x128_1_0_n_n_0_1_1128 ((m ((c.tc : Thread nD τ).loc main_arg3) : (⟨S2000x128, .f32⟩ : BufTy).Contents (Elt Ideal))) (broadcastInDim S300000x1 ![0] bcast_S300000_S300000x1_0 (select (cmpi .slt ((m ((c.tc : Thread nD τ).loc main_arg33) : (⟨S300000, .i32⟩ : BufTy).Contents (Elt Ideal))) (broadcastInDim S300000 ![] bcast_S_S300000 (constantI S_ 32 0#32))) (addi ((m ((c.tc : Thread nD τ).loc main_arg33) : (⟨S300000, .i32⟩ : BufTy).Contents (Elt Ideal))) (broadcastInDim S300000 ![] bcast_S_S300000 (constantI S_ 32 2000#32))) ((m ((c.tc : Thread nD τ).loc main_arg33) : (⟨S300000, .i32⟩ : BufTy).Contents (Elt Ideal))))))) (broadcastInDim S20000x128 ![0, 1] bcast_S20000x1_S20000x128_0_1 (maximumf (Host.scatterAdd scatter_S20000x1_S300000x1_S300000x1_1_0_0_1 (broadcastInDim S20000x1 ![] bcast_S_S20000x1 (constant (F := Ideal) S_ .f32 0x00000000#32)) (broadcastInDim S300000x1 ![0] bcast_S300000_S300000x1_0 ((m ((c.tc : Thread nD τ).loc main_arg34) : (⟨S300000, .i32⟩ : BufTy).Contents (Elt Ideal)))) (broadcastInDim S300000x1 ![] bcast_S_S300000x1 (constant (F := Ideal) S_ .f32 0x3F800000#32))) (broadcastInDim S20000x1 ![] bcast_S_S20000x1 (constant (F := Ideal) S_ .f32 0x3F800000#32))))) (transpose (α := Ideal .f32) S128x128 [1, 0] ((m ((c.tc : Thread nD τ).loc main_arg13) : (⟨S128x128, .f32⟩ : BufTy).Contents (Elt Ideal))) transposes_S128x128_S128x128_1_0))) (broadcastInDim S20000x128 ![0, 1] bcast_S1x128_S20000x128_0_1 (broadcastInDim S1x128 ![1] bcast_S128_S1x128_1 ((m ((c.tc : Thread nD τ).loc main_arg14) : (⟨S128, .f32⟩ : BufTy).Contents (Elt Ideal))))))) (addf (addf (addf (Host.dotGeneral (φ₁ := .f32) (φ₂ := .f32) dot_S20000x128_S128x128_S20000x128_1_0_0_1_n_n none ((m ((c.tc : Thread nD τ).loc main_arg2) : (⟨S20000x128, .f32⟩ : BufTy).Contents (Elt Ideal))) (transpose (α := Ideal .f32) S128x128 [1, 0] ((m ((c.tc : Thread nD τ).loc main_arg19) : (⟨S128x128, .f32⟩ : BufTy).Contents (Elt Ideal))) transposes_S128x128_S128x128_1_0)) (broadcastInDim S20000x128 ![0, 1] bcast_S1x128_S20000x128_0_1 (broadcastInDim S1x128 ![1] bcast_S128_S1x128_1 ((m ((c.tc : Thread nD τ).loc main_arg20) : (⟨S128, .f32⟩ : BufTy).Contents (Elt Ideal)))))) (Host.dotGeneral (φ₁ := .f32) (φ₂ := .f32) dot_S20000x128_S128x128_S20000x128_1_0_0_1_n_n none (Host.divf (Host.scatterAdd scatter_S20000x128_S400000x1_S400000x128_1_0_0_1 (broadcastInDim S20000x128 ![] bcast_S_S20000x128 (constant (F := Ideal) S_ .f32 0x00000000#32)) (broadcastInDim S400000x1 ![0] bcast_S400000_S400000x1_0 ((m ((c.tc : Thread nD τ).loc main_arg36) : (⟨S400000, .i32⟩ : BufTy).Contents (Elt Ideal)))) (Host.gather gather_S10000x128_S400000x1_S400000x128_1_0_n_n_0_1_1128 ((m ((c.tc : Thread nD τ).loc main_arg4) : (⟨S10000x128, .f32⟩ : BufTy).Contents (Elt Ideal))) (broadcastInDim S400000x1 ![0] bcast_S400000_S400000x1_0 (select (cmpi .slt ((m ((c.tc : Thread nD τ).loc main_arg35) : (⟨S400000, .i32⟩ : BufTy).Contents (Elt Ideal))) (broadcastInDim S400000 ![] bcast_S_S400000 (constantI S_ 32 0#32))) (addi ((m ((c.tc : Thread nD τ).loc main_arg35) : (⟨S400000, .i32⟩ : BufTy).Contents (Elt Ideal))) (broadcastInDim S400000 ![] bcast_S_S400000 (constantI S_ 32 10000#32))) ((m ((c.tc : Thread nD τ).loc main_arg35) : (⟨S400000, .i32⟩ : BufTy).Contents (Elt Ideal))))))) (broadcastInDim S20000x128 ![0, 1] bcast_S20000x1_S20000x128_0_1 (maximumf (Host.scatterAdd scatter_S20000x1_S400000x1_S400000x1_1_0_0_1 (broadcastInDim S20000x1 ![] bcast_S_S20000x1 (constant (F := Ideal) S_ .f32 0x00000000#32)) (broadcastInDim S400000x1 ![0] bcast_S400000_S400000x1_0 ((m ((c.tc : Thread nD τ).loc main_arg36) : (⟨S400000, .i32⟩ : BufTy).Contents (Elt Ideal)))) (broadcastInDim S400000x1 ![] bcast_S_S400000x1 (constant (F := Ideal) S_ .f32 0x3F800000#32))) (broadcastInDim S20000x1 ![] bcast_S_S20000x1 (constant (F := Ideal) S_ .f32 0x3F800000#32))))) (transpose (α := Ideal .f32) S128x128 [1, 0] ((m ((c.tc : Thread nD τ).loc main_arg17) : (⟨S128x128, .f32⟩ : BufTy).Contents (Elt Ideal))) transposes_S128x128_S128x128_1_0))) (broadcastInDim S20000x128 ![0, 1] bcast_S1x128_S20000x128_0_1 (broadcastInDim S1x128 ![1] bcast_S128_S1x128_1 ((m ((c.tc : Thread nD τ).loc main_arg18) : (⟨S128, .f32⟩ : BufTy).Contents (Elt Ideal))))))) (addf (addf (addf (Host.dotGeneral (φ₁ := .f32) (φ₂ := .f32) dot_S20000x128_S128x128_S20000x128_1_0_0_1_n_n none ((m ((c.tc : Thread nD τ).loc main_arg2) : (⟨S20000x128, .f32⟩ : BufTy).Contents (Elt Ideal))) (transpose (α := Ideal .f32) S128x128 [1, 0] ((m ((c.tc : Thread nD τ).loc main_arg23) : (⟨S128x128, .f32⟩ : BufTy).Contents (Elt Ideal))) transposes_S128x128_S128x128_1_0)) (broadcastInDim S20000x128 ![0, 1] bcast_S1x128_S20000x128_0_1 (broadcastInDim S1x128 ![1] bcast_S128_S1x128_1 ((m ((c.tc : Thread nD τ).loc main_arg24) : (⟨S128, .f32⟩ : BufTy).Contents (Elt Ideal)))))) (Host.dotGeneral (φ₁ := .f32) (φ₂ := .f32) dot_S20000x128_S128x128_S20000x128_1_0_0_1_n_n none (Host.divf (Host.scatterAdd scatter_S20000x128_S250000x1_S250000x128_1_0_0_1 (broadcastInDim S20000x128 ![] bcast_S_S20000x128 (constant (F := Ideal) S_ .f32 0x00000000#32)) (broadcastInDim S250000x1 ![0] bcast_S250000_S250000x1_0 ((m ((c.tc : Thread nD τ).loc main_arg38) : (⟨S250000, .i32⟩ : BufTy).Contents (Elt Ideal)))) (Host.gather gather_S8000x128_S250000x1_S250000x128_1_0_n_n_0_1_1128 (addf (Host.dotGeneral (φ₁ := .f32) (φ₂ := .f32) dot_S8000x1024_S1024x128_S8000x128_1_0_0_1_n_n none ((m ((c.tc : Thread nD τ).loc main_arg1) : (⟨S8000x1024, .f32⟩ : BufTy).Contents (Elt Ideal))) (transpose (α := Ideal .f32) S1024x128 [1, 0] ((m ((c.tc : Thread nD τ).loc main_arg7) : (⟨S128x1024, .f32⟩ : BufTy).Contents (Elt Ideal))) transposes_S128x1024_S1024x128_1_0)) (broadcastInDim S8000x128 ![0, 1] bcast_S1x128_S8000x128_0_1 (broadcastInDim S1x128 ![1] bcast_S128_S1x128_1 ((m ((c.tc : Thread nD τ).loc main_arg8) : (⟨S128, .f32⟩ : BufTy).Contents (Elt Ideal)))))) (broadcastInDim S250000x1 ![0] bcast_S250000_S250000x1_0 (select (cmpi .slt ((m ((c.tc : Thread nD τ).loc main_arg37) : (⟨S250000, .i32⟩ : BufTy).Contents (Elt Ideal))) (broadcastInDim S250000 ![] bcast_S_S250000 (constantI S_ 32 0#32))) (addi ((m ((c.tc : Thread nD τ).loc main_arg37) : (⟨S250000, .i32⟩ : BufTy).Contents (Elt Ideal))) (broadcastInDim S250000 ![] bcast_S_S250000 (constantI S_ 32 8000#32))) ((m ((c.tc : Thread nD τ).loc main_arg37) : (⟨S250000, .i32⟩ : BufTy).Contents (Elt Ideal))))))) (broadcastInDim S20000x128 ![0, 1] bcast_S20000x1_S20000x128_0_1 (maximumf (Host.scatterAdd scatter_S20000x1_S250000x1_S250000x1_1_0_0_1 (broadcastInDim S20000x1 ![] bcast_S_S20000x1 (constant (F := Ideal) S_ .f32 0x00000000#32)) (broadcastInDim S250000x1 ![0] bcast_S250000_S250000x1_0 ((m ((c.tc : Thread nD τ).loc main_arg38) : (⟨S250000, .i32⟩ : BufTy).Contents (Elt Ideal)))) (broadcastInDim S250000x1 ![] bcast_S_S250000x1 (constant (F := Ideal) S_ .f32 0x3F800000#32))) (broadcastInDim S20000x1 ![] bcast_S_S20000x1 (constant (F := Ideal) S_ .f32 0x3F800000#32))))) (transpose (α := Ideal .f32) S128x128 [1, 0] ((m ((c.tc : Thread nD τ).loc main_arg21) : (⟨S128x128, .f32⟩ : BufTy).Contents (Elt Ideal))) transposes_S128x128_S128x128_1_0))) (broadcastInDim S20000x128 ![0, 1] bcast_S1x128_S20000x128_0_1 (broadcastInDim S1x128 ![1] bcast_S128_S1x128_1 ((m ((c.tc : Thread nD τ).loc main_arg22) : (⟨S128, .f32⟩ : BufTy).Contents (Elt Ideal))))))

/-- The graph convolution, from the four-relation layer's output. -/
def res164 : FVec Ideal S1000x128 .f32 :=
  addf (Host.dotGeneral (φ₁ := .f32) (φ₂ := .f32) dot_S1000x128_S128x128_S1000x128_1_0_0_1_n_n none (mulf (Host.scatterAdd scatter_S1000x128_S300000x1_S300000x128_1_0_0_1 (broadcastInDim S1000x128 ![] bcast_S_S1000x128 (constant (F := Ideal) S_ .f32 0x00000000#32)) (broadcastInDim S300000x1 ![0] bcast_S300000_S300000x1_0 ((m ((c.tc : Thread nD τ).loc main_arg40) : (⟨S300000, .i32⟩ : BufTy).Contents (Elt Ideal)))) (Host.gather gather_S20000x128_S300000x1_S300000x128_1_0_n_n_0_1_1128 (mulf ((res128 m c)) (broadcastInDim S20000x128 ![0, 1] bcast_S20000x1_S20000x128_0_1 (broadcastInDim S20000x1 ![0] bcast_S20000_S20000x1_0 (Host.powf (maximumf (Host.scatterAdd scatter_S20000_S300000x1_S300000_n_0_0_1 (broadcastInDim S20000 ![] bcast_S_S20000 (constant (F := Ideal) S_ .f32 0x00000000#32)) (broadcastInDim S300000x1 ![0] bcast_S300000_S300000x1_0 ((m ((c.tc : Thread nD τ).loc main_arg39) : (⟨S300000, .i32⟩ : BufTy).Contents (Elt Ideal)))) (broadcastInDim S300000 ![] bcast_S_S300000 (constant (F := Ideal) S_ .f32 0x3F800000#32))) (broadcastInDim S20000 ![] bcast_S_S20000 (constant (F := Ideal) S_ .f32 0x3F800000#32))) (broadcastInDim S20000 ![] bcast_S_S20000 (constant (F := Ideal) S_ .f32 0xBF000000#32)))))) (broadcastInDim S300000x1 ![0] bcast_S300000_S300000x1_0 (select (cmpi .slt ((m ((c.tc : Thread nD τ).loc main_arg39) : (⟨S300000, .i32⟩ : BufTy).Contents (Elt Ideal))) (broadcastInDim S300000 ![] bcast_S_S300000 (constantI S_ 32 0#32))) (addi ((m ((c.tc : Thread nD τ).loc main_arg39) : (⟨S300000, .i32⟩ : BufTy).Contents (Elt Ideal))) (broadcastInDim S300000 ![] bcast_S_S300000 (constantI S_ 32 20000#32))) ((m ((c.tc : Thread nD τ).loc main_arg39) : (⟨S300000, .i32⟩ : BufTy).Contents (Elt Ideal))))))) (broadcastInDim S1000x128 ![0, 1] bcast_S1000x1_S1000x128_0_1 (broadcastInDim S1000x1 ![0] bcast_S1000_S1000x1_0 (Host.powf (maximumf (Host.scatterAdd scatter_S1000_S300000x1_S300000_n_0_0_1 (broadcastInDim S1000 ![] bcast_S_S1000 (constant (F := Ideal) S_ .f32 0x00000000#32)) (broadcastInDim S300000x1 ![0] bcast_S300000_S300000x1_0 ((m ((c.tc : Thread nD τ).loc main_arg40) : (⟨S300000, .i32⟩ : BufTy).Contents (Elt Ideal)))) (broadcastInDim S300000 ![] bcast_S_S300000 (constant (F := Ideal) S_ .f32 0x3F800000#32))) (broadcastInDim S1000 ![] bcast_S_S1000 (constant (F := Ideal) S_ .f32 0x3F800000#32))) (broadcastInDim S1000 ![] bcast_S_S1000 (constant (F := Ideal) S_ .f32 0xBF000000#32)))))) (transpose (α := Ideal .f32) S128x128 [1, 0] ((m ((c.tc : Thread nD τ).loc main_arg25) : (⟨S128x128, .f32⟩ : BufTy).Contents (Elt Ideal))) transposes_S128x128_S128x128_1_0)) (broadcastInDim S1000x128 ![0, 1] bcast_S1x128_S1000x128_0_1 (broadcastInDim S1x128 ![1] bcast_S128_S1x128_1 ((m ((c.tc : Thread nD τ).loc main_arg26) : (⟨S128, .f32⟩ : BufTy).Contents (Elt Ideal)))))

/-- The first score difference, from both layers' outputs. -/
def res269 : FVec Ideal S50000x1 .f32 :=
  subf (addf (Host.dotGeneral (φ₁ := .f32) (φ₂ := .f32) dot_S50000x256_S256x1_S50000x1_1_0_0_1_n_n none (maximumf (addf (Host.dotGeneral (φ₁ := .f32) (φ₂ := .f32) dot_S50000x256_S256x256_S50000x256_1_0_0_1_n_n none (concatenate S50000x256 1 [⟨S50000x128, (Host.gather gather_S20000x128_S50000x1_S50000x128_1_0_n_n_0_1_1128 ((res128 m c)) (broadcastInDim S50000x1 ![0] bcast_S50000_S50000x1_0 (select (cmpi .slt ((m ((c.tc : Thread nD τ).loc main_arg41) : (⟨S50000, .i32⟩ : BufTy).Contents (Elt Ideal))) (broadcastInDim S50000 ![] bcast_S_S50000 (constantI S_ 32 0#32))) (addi ((m ((c.tc : Thread nD τ).loc main_arg41) : (⟨S50000, .i32⟩ : BufTy).Contents (Elt Ideal))) (broadcastInDim S50000 ![] bcast_S_S50000 (constantI S_ 32 20000#32))) ((m ((c.tc : Thread nD τ).loc main_arg41) : (⟨S50000, .i32⟩ : BufTy).Contents (Elt Ideal))))))⟩, ⟨S50000x128, (Host.gather gather_S1000x128_S50000x1_S50000x128_1_0_n_n_0_1_1128 ((res164 m c)) (broadcastInDim S50000x1 ![0] bcast_S50000_S50000x1_0 (select (cmpi .slt ((m ((c.tc : Thread nD τ).loc main_arg42) : (⟨S50000, .i32⟩ : BufTy).Contents (Elt Ideal))) (broadcastInDim S50000 ![] bcast_S_S50000 (constantI S_ 32 0#32))) (addi ((m ((c.tc : Thread nD τ).loc main_arg42) : (⟨S50000, .i32⟩ : BufTy).Contents (Elt Ideal))) (broadcastInDim S50000 ![] bcast_S_S50000 (constantI S_ 32 1000#32))) ((m ((c.tc : Thread nD τ).loc main_arg42) : (⟨S50000, .i32⟩ : BufTy).Contents (Elt Ideal))))))⟩] concatenates_S50000x128_S50000x128_S50000x256_d1) (transpose (α := Ideal .f32) S256x256 [1, 0] ((m ((c.tc : Thread nD τ).loc main_arg27) : (⟨S256x256, .f32⟩ : BufTy).Contents (Elt Ideal))) transposes_S256x256_S256x256_1_0)) (broadcastInDim S50000x256 ![0, 1] bcast_S1x256_S50000x256_0_1 (broadcastInDim S1x256 ![1] bcast_S256_S1x256_1 ((m ((c.tc : Thread nD τ).loc main_arg28) : (⟨S256, .f32⟩ : BufTy).Contents (Elt Ideal)))))) (broadcastInDim S50000x256 ![] bcast_S_S50000x256 (constant (F := Ideal) S_ .f32 0x00000000#32))) (transpose (α := Ideal .f32) S256x1 [1, 0] ((m ((c.tc : Thread nD τ).loc main_arg29) : (⟨S1x256, .f32⟩ : BufTy).Contents (Elt Ideal))) transposes_S1x256_S256x1_1_0)) (broadcastInDim S50000x1 ![0, 1] bcast_S1x1_S50000x1_0_1 (broadcastInDim S1x1 ![1] bcast_S1_S1x1_1 ((m ((c.tc : Thread nD τ).loc main_arg30) : (⟨S1, .f32⟩ : BufTy).Contents (Elt Ideal)))))) (addf (Host.dotGeneral (φ₁ := .f32) (φ₂ := .f32) dot_S50000x256_S256x1_S50000x1_1_0_0_1_n_n none (maximumf (addf (Host.dotGeneral (φ₁ := .f32) (φ₂ := .f32) dot_S50000x256_S256x256_S50000x256_1_0_0_1_n_n none (concatenate S50000x256 1 [⟨S50000x128, (Host.gather gather_S20000x128_S50000x1_S50000x128_1_0_n_n_0_1_1128 ((res128 m c)) (broadcastInDim S50000x1 ![0] bcast_S50000_S50000x1_0 (select (cmpi .slt ((m ((c.tc : Thread nD τ).loc main_arg41) : (⟨S50000, .i32⟩ : BufTy).Contents (Elt Ideal))) (broadcastInDim S50000 ![] bcast_S_S50000 (constantI S_ 32 0#32))) (addi ((m ((c.tc : Thread nD τ).loc main_arg41) : (⟨S50000, .i32⟩ : BufTy).Contents (Elt Ideal))) (broadcastInDim S50000 ![] bcast_S_S50000 (constantI S_ 32 20000#32))) ((m ((c.tc : Thread nD τ).loc main_arg41) : (⟨S50000, .i32⟩ : BufTy).Contents (Elt Ideal))))))⟩, ⟨S50000x128, (Host.gather gather_S1000x128_S50000x1_S50000x128_1_0_n_n_0_1_1128 ((res164 m c)) (broadcastInDim S50000x1 ![0] bcast_S50000_S50000x1_0 (select (cmpi .slt ((m ((c.tc : Thread nD τ).loc main_arg43) : (⟨S50000, .i32⟩ : BufTy).Contents (Elt Ideal))) (broadcastInDim S50000 ![] bcast_S_S50000 (constantI S_ 32 0#32))) (addi ((m ((c.tc : Thread nD τ).loc main_arg43) : (⟨S50000, .i32⟩ : BufTy).Contents (Elt Ideal))) (broadcastInDim S50000 ![] bcast_S_S50000 (constantI S_ 32 1000#32))) ((m ((c.tc : Thread nD τ).loc main_arg43) : (⟨S50000, .i32⟩ : BufTy).Contents (Elt Ideal))))))⟩] concatenates_S50000x128_S50000x128_S50000x256_d1) (transpose (α := Ideal .f32) S256x256 [1, 0] ((m ((c.tc : Thread nD τ).loc main_arg27) : (⟨S256x256, .f32⟩ : BufTy).Contents (Elt Ideal))) transposes_S256x256_S256x256_1_0)) (broadcastInDim S50000x256 ![0, 1] bcast_S1x256_S50000x256_0_1 (broadcastInDim S1x256 ![1] bcast_S256_S1x256_1 ((m ((c.tc : Thread nD τ).loc main_arg28) : (⟨S256, .f32⟩ : BufTy).Contents (Elt Ideal)))))) (broadcastInDim S50000x256 ![] bcast_S_S50000x256 (constant (F := Ideal) S_ .f32 0x00000000#32))) (transpose (α := Ideal .f32) S256x1 [1, 0] ((m ((c.tc : Thread nD τ).loc main_arg29) : (⟨S1x256, .f32⟩ : BufTy).Contents (Elt Ideal))) transposes_S1x256_S256x1_1_0)) (broadcastInDim S50000x1 ![0, 1] bcast_S1x1_S50000x1_0_1 (broadcastInDim S1x1 ![1] bcast_S1_S1x1_1 ((m ((c.tc : Thread nD τ).loc main_arg30) : (⟨S1, .f32⟩ : BufTy).Contents (Elt Ideal))))))

/-- The second score difference. -/
def res270 : FVec Ideal S50000x1 .f32 :=
  subf (addf (Host.dotGeneral (φ₁ := .f32) (φ₂ := .f32) dot_S50000x256_S256x1_S50000x1_1_0_0_1_n_n none (maximumf (addf (Host.dotGeneral (φ₁ := .f32) (φ₂ := .f32) dot_S50000x256_S256x256_S50000x256_1_0_0_1_n_n none (concatenate S50000x256 1 [⟨S50000x128, (Host.gather gather_S20000x128_S50000x1_S50000x128_1_0_n_n_0_1_1128 ((res128 m c)) (broadcastInDim S50000x1 ![0] bcast_S50000_S50000x1_0 (select (cmpi .slt ((m ((c.tc : Thread nD τ).loc main_arg45) : (⟨S50000, .i32⟩ : BufTy).Contents (Elt Ideal))) (broadcastInDim S50000 ![] bcast_S_S50000 (constantI S_ 32 0#32))) (addi ((m ((c.tc : Thread nD τ).loc main_arg45) : (⟨S50000, .i32⟩ : BufTy).Contents (Elt Ideal))) (broadcastInDim S50000 ![] bcast_S_S50000 (constantI S_ 32 20000#32))) ((m ((c.tc : Thread nD τ).loc main_arg45) : (⟨S50000, .i32⟩ : BufTy).Contents (Elt Ideal))))))⟩, ⟨S50000x128, (Host.gather gather_S1000x128_S50000x1_S50000x128_1_0_n_n_0_1_1128 ((res164 m c)) (broadcastInDim S50000x1 ![0] bcast_S50000_S50000x1_0 (select (cmpi .slt ((m ((c.tc : Thread nD τ).loc main_arg44) : (⟨S50000, .i32⟩ : BufTy).Contents (Elt Ideal))) (broadcastInDim S50000 ![] bcast_S_S50000 (constantI S_ 32 0#32))) (addi ((m ((c.tc : Thread nD τ).loc main_arg44) : (⟨S50000, .i32⟩ : BufTy).Contents (Elt Ideal))) (broadcastInDim S50000 ![] bcast_S_S50000 (constantI S_ 32 1000#32))) ((m ((c.tc : Thread nD τ).loc main_arg44) : (⟨S50000, .i32⟩ : BufTy).Contents (Elt Ideal))))))⟩] concatenates_S50000x128_S50000x128_S50000x256_d1) (transpose (α := Ideal .f32) S256x256 [1, 0] ((m ((c.tc : Thread nD τ).loc main_arg27) : (⟨S256x256, .f32⟩ : BufTy).Contents (Elt Ideal))) transposes_S256x256_S256x256_1_0)) (broadcastInDim S50000x256 ![0, 1] bcast_S1x256_S50000x256_0_1 (broadcastInDim S1x256 ![1] bcast_S256_S1x256_1 ((m ((c.tc : Thread nD τ).loc main_arg28) : (⟨S256, .f32⟩ : BufTy).Contents (Elt Ideal)))))) (broadcastInDim S50000x256 ![] bcast_S_S50000x256 (constant (F := Ideal) S_ .f32 0x00000000#32))) (transpose (α := Ideal .f32) S256x1 [1, 0] ((m ((c.tc : Thread nD τ).loc main_arg29) : (⟨S1x256, .f32⟩ : BufTy).Contents (Elt Ideal))) transposes_S1x256_S256x1_1_0)) (broadcastInDim S50000x1 ![0, 1] bcast_S1x1_S50000x1_0_1 (broadcastInDim S1x1 ![1] bcast_S1_S1x1_1 ((m ((c.tc : Thread nD τ).loc main_arg30) : (⟨S1, .f32⟩ : BufTy).Contents (Elt Ideal)))))) (addf (Host.dotGeneral (φ₁ := .f32) (φ₂ := .f32) dot_S50000x256_S256x1_S50000x1_1_0_0_1_n_n none (maximumf (addf (Host.dotGeneral (φ₁ := .f32) (φ₂ := .f32) dot_S50000x256_S256x256_S50000x256_1_0_0_1_n_n none (concatenate S50000x256 1 [⟨S50000x128, (Host.gather gather_S20000x128_S50000x1_S50000x128_1_0_n_n_0_1_1128 ((res128 m c)) (broadcastInDim S50000x1 ![0] bcast_S50000_S50000x1_0 (select (cmpi .slt ((m ((c.tc : Thread nD τ).loc main_arg46) : (⟨S50000, .i32⟩ : BufTy).Contents (Elt Ideal))) (broadcastInDim S50000 ![] bcast_S_S50000 (constantI S_ 32 0#32))) (addi ((m ((c.tc : Thread nD τ).loc main_arg46) : (⟨S50000, .i32⟩ : BufTy).Contents (Elt Ideal))) (broadcastInDim S50000 ![] bcast_S_S50000 (constantI S_ 32 20000#32))) ((m ((c.tc : Thread nD τ).loc main_arg46) : (⟨S50000, .i32⟩ : BufTy).Contents (Elt Ideal))))))⟩, ⟨S50000x128, (Host.gather gather_S1000x128_S50000x1_S50000x128_1_0_n_n_0_1_1128 ((res164 m c)) (broadcastInDim S50000x1 ![0] bcast_S50000_S50000x1_0 (select (cmpi .slt ((m ((c.tc : Thread nD τ).loc main_arg44) : (⟨S50000, .i32⟩ : BufTy).Contents (Elt Ideal))) (broadcastInDim S50000 ![] bcast_S_S50000 (constantI S_ 32 0#32))) (addi ((m ((c.tc : Thread nD τ).loc main_arg44) : (⟨S50000, .i32⟩ : BufTy).Contents (Elt Ideal))) (broadcastInDim S50000 ![] bcast_S_S50000 (constantI S_ 32 1000#32))) ((m ((c.tc : Thread nD τ).loc main_arg44) : (⟨S50000, .i32⟩ : BufTy).Contents (Elt Ideal))))))⟩] concatenates_S50000x128_S50000x128_S50000x256_d1) (transpose (α := Ideal .f32) S256x256 [1, 0] ((m ((c.tc : Thread nD τ).loc main_arg27) : (⟨S256x256, .f32⟩ : BufTy).Contents (Elt Ideal))) transposes_S256x256_S256x256_1_0)) (broadcastInDim S50000x256 ![0, 1] bcast_S1x256_S50000x256_0_1 (broadcastInDim S1x256 ![1] bcast_S256_S1x256_1 ((m ((c.tc : Thread nD τ).loc main_arg28) : (⟨S256, .f32⟩ : BufTy).Contents (Elt Ideal)))))) (broadcastInDim S50000x256 ![] bcast_S_S50000x256 (constant (F := Ideal) S_ .f32 0x00000000#32))) (transpose (α := Ideal .f32) S256x1 [1, 0] ((m ((c.tc : Thread nD τ).loc main_arg29) : (⟨S1x256, .f32⟩ : BufTy).Contents (Elt Ideal))) transposes_S1x256_S256x1_1_0)) (broadcastInDim S50000x1 ![0, 1] bcast_S1x1_S50000x1_0_1 (broadcastInDim S1x1 ![1] bcast_S1_S1x1_1 ((m ((c.tc : Thread nD τ).loc main_arg30) : (⟨S1, .f32⟩ : BufTy).Contents (Elt Ideal))))))

end Cert.ReferenceIdeal.Results

end
-- ==== Proof.ReferenceRunHand.lean ====
/-
  The reference's run, read in stages. Every weakly fair execution of the reference ends with each buffer at the fold of the
  329 operations over the launch contents. The fold over the whole line is the fold over stretch C of the fold over B of
  the fold over A. Stretch A leaves the node update and the item-feature projection at their composed terms of the launch
  contents and the arguments untouched; stretch B then leaves the user update at its term of that node update and keeps
  what A left; stretch C leaves the two score differences at their terms of the node update and the user update and keeps
  both. A term reads the contents it is given only at the arguments, which no stretch writes, so it may be read at the
  launch contents throughout. So the five results are the five terms of the arguments, and the arguments are unchanged.
-/
import proofs.«144146_j85358180041108_1_alg».proof.Proof.ReferenceRunHandOps
import proofs.«144146_j85358180041108_1_alg».proof.Proof.ReferenceRunHandWrites
import proofs.«144146_j85358180041108_1_alg».proof.Proof.ReferenceRunHandA128
import proofs.«144146_j85358180041108_1_alg».proof.Proof.ReferenceRunHandA9
import proofs.«144146_j85358180041108_1_alg».proof.Proof.ReferenceRunHandB164
import proofs.«144146_j85358180041108_1_alg».proof.Proof.ReferenceRunHandC269
import proofs.«144146_j85358180041108_1_alg».proof.Proof.ReferenceRunHandC270
import proofs.«144146_j85358180041108_1_alg».proof.Proof.ReferenceResults

set_option maxRecDepth 16384

noncomputable section

namespace Cert.ReferenceIdeal.RunHand

open Cert.ReferenceIdeal Cert.ReferenceIdeal.Gen Idealize.ShloMosaic Idealize.ShloMosaic.TcCoe Idealize.SL.Sem Idealize.ShloMosaic.StableHlo

section AnyF
variable {F : FTy → Type} [FloatOps F]

set_option maxHeartbeats 8000000 in
/-- The line of operations is the three stretches one after the other. -/
theorem ops_split : (ops : List (HloOp τ sig (Elt F))) = opsA ++ (opsB ++ opsC) := rfl

/-- So its fold is the fold over C of the fold over B of the fold over A. -/
theorem after_ops (X : Valuation τ sig (Elt F)) :
    StableHlo.after ops X = StableHlo.after opsC (StableHlo.after opsB (StableHlo.after opsA X)) := by
  rw [ops_split, after_append, after_append]

/-- Each composed term reads the contents it is given at argument buffers only. -/
theorem t164_congr (v128 : (⟨S20000x128, .f32⟩ : BufTy).Contents (Elt F)) (X X' : Valuation τ sig (Elt F))
    (h : ∀ b ∈ argList, X (Proc.devRef .tc b) = X' (Proc.devRef .tc b)) : t164 v128 X = t164 v128 X' := by
  unfold t164
  rw [h main_arg40 (by decide), h main_arg39 (by decide), h main_arg25 (by decide), h main_arg26 (by decide)]

theorem t269_congr (v128 : (⟨S20000x128, .f32⟩ : BufTy).Contents (Elt F)) (v164 : (⟨S1000x128, .f32⟩ : BufTy).Contents (Elt F)) (X X' : Valuation τ sig (Elt F))
    (h : ∀ b ∈ argList, X (Proc.devRef .tc b) = X' (Proc.devRef .tc b)) : t269 v128 v164 X = t269 v128 v164 X' := by
  unfold t269
  rw [h main_arg41 (by decide), h main_arg42 (by decide), h main_arg27 (by decide), h main_arg28 (by decide), h main_arg29 (by decide), h main_arg30 (by decide), h main_arg43 (by decide)]

theorem t270_congr (v128 : (⟨S20000x128, .f32⟩ : BufTy).Contents (Elt F)) (v164 : (⟨S1000x128, .f32⟩ : BufTy).Contents (Elt F)) (X X' : Valuation τ sig (Elt F))
    (h : ∀ b ∈ argList, X (Proc.devRef .tc b) = X' (Proc.devRef .tc b)) : t270 v128 v164 X = t270 v128 v164 X' := by
  unfold t270
  rw [h main_arg45 (by decide), h main_arg44 (by decide), h main_arg27 (by decide), h main_arg28 (by decide), h main_arg29 (by decide), h main_arg30 (by decide), h main_arg46 (by decide)]

end AnyF

section AtIdeal
variable (m : (ℓ : Loc nD τ sig) → Buf (Elt Ideal) ℓ) (c : Dev nD)

/-- The contents after stretch A, and after stretch B, from the launch contents. -/
abbrev Y1 : Valuation τ sig (Elt Ideal) := StableHlo.after opsA (launchContents m c)
abbrev Y2 : Valuation τ sig (Elt Ideal) := StableHlo.after opsB (Y1 m c)

set_option maxHeartbeats 4000000 in
theorem res9_eq : Results.res9 m c = t9 (launchContents m c) := rfl
set_option maxHeartbeats 4000000 in
theorem res128_eq : Results.res128 m c = t128 (launchContents m c) := rfl
set_option maxHeartbeats 4000000 in
theorem res164_eq : Results.res164 m c = t164 (Results.res128 m c) (launchContents m c) := rfl
set_option maxHeartbeats 4000000 in
theorem res269_eq : Results.res269 m c = t269 (Results.res128 m c) (Results.res164 m c) (launchContents m c) := rfl
set_option maxHeartbeats 4000000 in
theorem res270_eq : Results.res270 m c = t270 (Results.res128 m c) (Results.res164 m c) (launchContents m c) := rfl

theorem args_Y1 : ∀ b ∈ argList, Y1 m c (Proc.devRef .tc b) = launchContents m c (Proc.devRef .tc b) :=
  fun b hb => keepA (launchContents m c) b (args_untouched b hb).1
theorem args_Y2 : ∀ b ∈ argList, Y2 m c (Proc.devRef .tc b) = launchContents m c (Proc.devRef .tc b) :=
  fun b hb => (keepB (Y1 m c) b (args_untouched b hb).2.1).trans (args_Y1 m c b hb)

/-- After stretch A, and still after stretch B, the node update is its term of the arguments. -/
theorem y1_128 : (Y1 m c (Proc.devRef .tc main_v128) : (⟨S20000x128, .f32⟩ : BufTy).Contents (Elt Ideal)) = Results.res128 m c :=
  (a128 (launchContents m c)).trans (res128_eq m c).symm
theorem y2_128 : (Y2 m c (Proc.devRef .tc main_v128) : (⟨S20000x128, .f32⟩ : BufTy).Contents (Elt Ideal)) = Results.res128 m c :=
  (keepB (Y1 m c) main_v128 v128_untouched.1).trans (y1_128 m c)
/-- After stretch B the user update is its term of the node update and the arguments. -/
theorem y2_164 : (Y2 m c (Proc.devRef .tc main_v164) : (⟨S1000x128, .f32⟩ : BufTy).Contents (Elt Ideal)) = Results.res164 m c := by
  refine (b164 (Y1 m c)).trans ?_
  rw [y1_128 m c, t164_congr _ _ _ (args_Y1 m c)]
  exact (res164_eq m c).symm
theorem y2_9 : (Y2 m c (Proc.devRef .tc main_v9) : (⟨S8000x128, .f32⟩ : BufTy).Contents (Elt Ideal)) = Results.res9 m c :=
  (keepB (Y1 m c) main_v9 v9_untouched.1).trans ((a9 (launchContents m c)).trans (res9_eq m c).symm)

/-- The five results after the whole line. -/
theorem out269 : StableHlo.after ops (launchContents m c) (Proc.devRef .tc main_v269) = Results.res269 m c := by
  rw [after_ops]
  refine (c269 (Y2 m c)).trans ?_
  rw [y2_128 m c, y2_164 m c, t269_congr _ _ _ _ (args_Y2 m c)]
  exact (res269_eq m c).symm
theorem out270 : StableHlo.after ops (launchContents m c) (Proc.devRef .tc main_v270) = Results.res270 m c := by
  rw [after_ops]
  refine (c270 (Y2 m c)).trans ?_
  rw [y2_128 m c, y2_164 m c, t270_congr _ _ _ _ (args_Y2 m c)]
  exact (res270_eq m c).symm
theorem out128 : StableHlo.after ops (launchContents m c) (Proc.devRef .tc main_v128) = Results.res128 m c := by
  rw [after_ops]
  exact (keepC (Y2 m c) main_v128 v128_untouched.2).trans (y2_128 m c)
theorem out164 : StableHlo.after ops (launchContents m c) (Proc.devRef .tc main_v164) = Results.res164 m c := by
  rw [after_ops]
  exact (keepC (Y2 m c) main_v164 v164_untouched).trans (y2_164 m c)
theorem out9 : StableHlo.after ops (launchContents m c) (Proc.devRef .tc main_v9) = Results.res9 m c := by
  rw [after_ops]
  exact (keepC (Y2 m c) main_v9 v9_untouched.2).trans (y2_9 m c)

/-- An argument holds after the whole line what it was launched with. -/
theorem arg_kept (b : Ref sig .tc) (hb : b ∈ argList) :
    StableHlo.after ops (launchContents m c) (Proc.devRef .tc b) = m ((c.tc : Thread nD τ).loc b) := by
  rw [after_ops]
  exact (keepC (Y2 m c) b (args_untouched b hb).2.2).trans (args_Y2 m c b hb)

end AtIdeal

set_option maxHeartbeats 8000000 in
/-- On every device, from any memory with zero counters: every weakly fair execution of the reference terminates with its
    five results at their terms of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v269) = Results.res269 m c
      ∧ r.2.mem ((c.tc : Thread nD τ).loc main_v270) = Results.res270 m c
      ∧ r.2.mem ((c.tc : Thread nD τ).loc main_v128) = Results.res128 m c
      ∧ r.2.mem ((c.tc : Thread nD τ).loc main_v164) = Results.res164 m c
      ∧ r.2.mem ((c.tc : Thread nD τ).loc main_v9) = Results.res9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46) :=
  (θ_run defs _ _).mono (fun _ h c => ⟨(h c main_v269).trans (out269 m c), (h c main_v270).trans (out270 m c),
      (h c main_v128).trans (out128 m c), (h c main_v164).trans (out164 m c), (h c main_v9).trans (out9 m c),
      (h c main_arg0).trans (arg_kept m c main_arg0 (by decide)),
      (h c main_arg1).trans (arg_kept m c main_arg1 (by decide)),
      (h c main_arg2).trans (arg_kept m c main_arg2 (by decide)),
      (h c main_arg3).trans (arg_kept m c main_arg3 (by decide)),
      (h c main_arg4).trans (arg_kept m c main_arg4 (by decide)),
      (h c main_arg5).trans (arg_kept m c main_arg5 (by decide)),
      (h c main_arg6).trans (arg_kept m c main_arg6 (by decide)),
      (h c main_arg7).trans (arg_kept m c main_arg7 (by decide)),
      (h c main_arg8).trans (arg_kept m c main_arg8 (by decide)),
      (h c main_arg9).trans (arg_kept m c main_arg9 (by decide)),
      (h c main_arg10).trans (arg_kept m c main_arg10 (by decide)),
      (h c main_arg11).trans (arg_kept m c main_arg11 (by decide)),
      (h c main_arg12).trans (arg_kept m c main_arg12 (by decide)),
      (h c main_arg13).trans (arg_kept m c main_arg13 (by decide)),
      (h c main_arg14).trans (arg_kept m c main_arg14 (by decide)),
      (h c main_arg15).trans (arg_kept m c main_arg15 (by decide)),
      (h c main_arg16).trans (arg_kept m c main_arg16 (by decide)),
      (h c main_arg17).trans (arg_kept m c main_arg17 (by decide)),
      (h c main_arg18).trans (arg_kept m c main_arg18 (by decide)),
      (h c main_arg19).trans (arg_kept m c main_arg19 (by decide)),
      (h c main_arg20).trans (arg_kept m c main_arg20 (by decide)),
      (h c main_arg21).trans (arg_kept m c main_arg21 (by decide)),
      (h c main_arg22).trans (arg_kept m c main_arg22 (by decide)),
      (h c main_arg23).trans (arg_kept m c main_arg23 (by decide)),
      (h c main_arg24).trans (arg_kept m c main_arg24 (by decide)),
      (h c main_arg25).trans (arg_kept m c main_arg25 (by decide)),
      (h c main_arg26).trans (arg_kept m c main_arg26 (by decide)),
      (h c main_arg27).trans (arg_kept m c main_arg27 (by decide)),
      (h c main_arg28).trans (arg_kept m c main_arg28 (by decide)),
      (h c main_arg29).trans (arg_kept m c main_arg29 (by decide)),
      (h c main_arg30).trans (arg_kept m c main_arg30 (by decide)),
      (h c main_arg31).trans (arg_kept m c main_arg31 (by decide)),
      (h c main_arg32).trans (arg_kept m c main_arg32 (by decide)),
      (h c main_arg33).trans (arg_kept m c main_arg33 (by decide)),
      (h c main_arg34).trans (arg_kept m c main_arg34 (by decide)),
      (h c main_arg35).trans (arg_kept m c main_arg35 (by decide)),
      (h c main_arg36).trans (arg_kept m c main_arg36 (by decide)),
      (h c main_arg37).trans (arg_kept m c main_arg37 (by decide)),
      (h c main_arg38).trans (arg_kept m c main_arg38 (by decide)),
      (h c main_arg39).trans (arg_kept m c main_arg39 (by decide)),
      (h c main_arg40).trans (arg_kept m c main_arg40 (by decide)),
      (h c main_arg41).trans (arg_kept m c main_arg41 (by decide)),
      (h c main_arg42).trans (arg_kept m c main_arg42 (by decide)),
      (h c main_arg43).trans (arg_kept m c main_arg43 (by decide)),
      (h c main_arg44).trans (arg_kept m c main_arg44 (by decide)),
      (h c main_arg45).trans (arg_kept m c main_arg45 (by decide)),
      (h c main_arg46).trans (arg_kept m c main_arg46 (by decide))⟩)
    (run_seq scopedRefs_eq scopedSems_eq defs main (fun _ => ops) main_eq (fun _ => ops_sub) m ρ)

end Cert.ReferenceIdeal.RunHand

end
-- ==== Proof.ReferenceFrame.lean ====
/-
  The reference program is host operations only. Its run says every weakly fair execution terminates with each result at
  the operations' composed term of the arguments and with the arguments as launched; dropping the results leaves the frame
  statement.
-/
import proofs.«144146_j85358180041108_1_alg».proof.Defs
import proofs.«144146_j85358180041108_1_alg».proof.Proof.Gen.ReferenceIdeal
import proofs.«144146_j85358180041108_1_alg».proof.Proof.Gen.Pre_finite_inputs
import proofs.«144146_j85358180041108_1_alg».proof.Proof.ReferenceRunHand

noncomputable section

open Idealize.ShloMosaic Idealize.ShloMosaic.TcCoe Idealize.SL.Sem

namespace Cert.Proof.ReferenceFrame

/-- The reference terminates without a fault and leaves its argument arrays as launched. -/
theorem frame_ri : Cert.frame_ReferenceIdeal := fun m ρ _ =>
  (θ_run Cert.ReferenceIdeal.defs _ _).mono (fun _ h c => (h c).2.2.2.2.2) (Cert.ReferenceIdeal.RunHand.run m ρ)

end Cert.Proof.ReferenceFrame

end
-- ==== Proof.KernelIdealKeep.lean ====
/-
  How the fold of the buffers' contents is read at a buffer that a stretch of segments leaves alone: one step per segment.
  A host stretch leaves a buffer none of its operations writes; a region leaves every buffer but its output array. Composed,
  these give the contents at a later boundary from those at an earlier one, and from the launch memory.
-/
import proofs.«144146_j85358180041108_1_alg».proof.Proof.KernelIdealFrame

set_option maxRecDepth 16384

noncomputable section

namespace Cert.KernelIdeal.Run

open Cert.KernelIdeal Cert.KernelIdeal.Gen
open Cert.KernelIdeal.Region0 Cert.KernelIdeal.Region1 Cert.KernelIdeal.Region2 Cert.KernelIdeal.Region3
open Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD) (b : Ref sig .tc)

/-! ## One step -/

theorem W1_step (h : b ∉ hostOps0_W) : W1 m ρ c (Proc.devRef .tc b) = W0 m ρ c (Proc.devRef .tc b) :=
  after_keep hostOps0 hostOps0_W hostOps0_writes _ b h
theorem W3_step (h : b ∉ hostOps1_W) : W3 m ρ c (Proc.devRef .tc b) = W2 m ρ c (Proc.devRef .tc b) :=
  after_keep hostOps1 hostOps1_W hostOps1_writes _ b h
theorem W5_step (h : b ∉ hostOps2_W) : W5 m ρ c (Proc.devRef .tc b) = W4 m ρ c (Proc.devRef .tc b) :=
  after_keep hostOps2 hostOps2_W hostOps2_writes _ b h
theorem W7_step (h : b ∉ hostOps3_W) : W7 m ρ c (Proc.devRef .tc b) = W6 m ρ c (Proc.devRef .tc b) :=
  after_keep hostOps3 hostOps3_W hostOps3_writes _ b h
theorem W9_step (h : b ∉ hostOps4_W) : W9 m ρ c (Proc.devRef .tc b) = W8 m ρ c (Proc.devRef .tc b) :=
  after_keep hostOps4 hostOps4_W hostOps4_writes _ b h

/-! ## From the launch memory -/

theorem W1_launch (h0 : b ∉ hostOps0_W) : W1 m ρ c (Proc.devRef .tc b) = m ((c : Thread nD τ).loc b) :=
  W1_step m ρ c b h0
theorem W2_launch (h0 : b ∉ hostOps0_W) (r0 : b ≠ Pipeline.arrRef spec0 3) :
    W2 m ρ c (Proc.devRef .tc b) = m ((c : Thread nD τ).loc b) :=
  (W2_keep m ρ c b r0).trans (W1_launch m ρ c b h0)
theorem W3_launch (h0 : b ∉ hostOps0_W) (r0 : b ≠ Pipeline.arrRef spec0 3) (h1 : b ∉ hostOps1_W) :
    W3 m ρ c (Proc.devRef .tc b) = m ((c : Thread nD τ).loc b) :=
  (W3_step m ρ c b h1).trans (W2_launch m ρ c b h0 r0)
theorem W4_launch (h0 : b ∉ hostOps0_W) (r0 : b ≠ Pipeline.arrRef spec0 3) (h1 : b ∉ hostOps1_W) (r1 : b ≠ Pipeline.arrRef spec1 6) :
    W4 m ρ c (Proc.devRef .tc b) = m ((c : Thread nD τ).loc b) :=
  (W4_keep m ρ c b r1).trans (W3_launch m ρ c b h0 r0 h1)
theorem W5_launch (h0 : b ∉ hostOps0_W) (r0 : b ≠ Pipeline.arrRef spec0 3) (h1 : b ∉ hostOps1_W) (r1 : b ≠ Pipeline.arrRef spec1 6)
    (h2 : b ∉ hostOps2_W) : W5 m ρ c (Proc.devRef .tc b) = m ((c : Thread nD τ).loc b) :=
  (W5_step m ρ c b h2).trans (W4_launch m ρ c b h0 r0 h1 r1)
theorem W6_launch (h0 : b ∉ hostOps0_W) (r0 : b ≠ Pipeline.arrRef spec0 3) (h1 : b ∉ hostOps1_W) (r1 : b ≠ Pipeline.arrRef spec1 6)
    (h2 : b ∉ hostOps2_W) (r2 : b ≠ Pipeline.arrRef spec2 3) : W6 m ρ c (Proc.devRef .tc b) = m ((c : Thread nD τ).loc b) :=
  (W6_keep m ρ c b r2).trans (W5_launch m ρ c b h0 r0 h1 r1 h2)
theorem W7_launch (h0 : b ∉ hostOps0_W) (r0 : b ≠ Pipeline.arrRef spec0 3) (h1 : b ∉ hostOps1_W) (r1 : b ≠ Pipeline.arrRef spec1 6)
    (h2 : b ∉ hostOps2_W) (r2 : b ≠ Pipeline.arrRef spec2 3) (h3 : b ∉ hostOps3_W) :
    W7 m ρ c (Proc.devRef .tc b) = m ((c : Thread nD τ).loc b) :=
  (W7_step m ρ c b h3).trans (W6_launch m ρ c b h0 r0 h1 r1 h2 r2)
theorem W8_launch (h0 : b ∉ hostOps0_W) (r0 : b ≠ Pipeline.arrRef spec0 3) (h1 : b ∉ hostOps1_W) (r1 : b ≠ Pipeline.arrRef spec1 6)
    (h2 : b ∉ hostOps2_W) (r2 : b ≠ Pipeline.arrRef spec2 3) (h3 : b ∉ hostOps3_W) (r3 : b ≠ Pipeline.arrRef spec3 5) :
    W8 m ρ c (Proc.devRef .tc b) = m ((c : Thread nD τ).loc b) :=
  (W8_keep m ρ c b r3).trans (W7_launch m ρ c b h0 r0 h1 r1 h2 r2 h3)

/-! ## From a region's exit to the end -/

/-- From region 3's exit. -/
theorem W9_from8 (h4 : b ∉ hostOps4_W) : W9 m ρ c (Proc.devRef .tc b) = W8 m ρ c (Proc.devRef .tc b) := W9_step m ρ c b h4
/-- From region 2's exit. -/
theorem W7_from6 (h3 : b ∉ hostOps3_W) : W7 m ρ c (Proc.devRef .tc b) = W6 m ρ c (Proc.devRef .tc b) := W7_step m ρ c b h3
theorem W9_from6 (h3 : b ∉ hostOps3_W) (r3 : b ≠ Pipeline.arrRef spec3 5) (h4 : b ∉ hostOps4_W) :
    W9 m ρ c (Proc.devRef .tc b) = W6 m ρ c (Proc.devRef .tc b) :=
  (W9_step m ρ c b h4).trans ((W8_keep m ρ c b r3).trans (W7_step m ρ c b h3))
/-- From region 1's exit. -/
theorem W5_from4 (h2 : b ∉ hostOps2_W) : W5 m ρ c (Proc.devRef .tc b) = W4 m ρ c (Proc.devRef .tc b) := W5_step m ρ c b h2
theorem W6_from4 (h2 : b ∉ hostOps2_W) (r2 : b ≠ Pipeline.arrRef spec2 3) :
    W6 m ρ c (Proc.devRef .tc b) = W4 m ρ c (Proc.devRef .tc b) :=
  (W6_keep m ρ c b r2).trans (W5_step m ρ c b h2)
theorem W9_from4 (h2 : b ∉ hostOps2_W) (r2 : b ≠ Pipeline.arrRef spec2 3) (h3 : b ∉ hostOps3_W) (r3 : b ≠ Pipeline.arrRef spec3 5)
    (h4 : b ∉ hostOps4_W) : W9 m ρ c (Proc.devRef .tc b) = W4 m ρ c (Proc.devRef .tc b) :=
  (W9_from6 m ρ c b h3 r3 h4).trans (W6_from4 m ρ c b h2 r2)
/-- From region 0's exit. -/
theorem W3_from2 (h1 : b ∉ hostOps1_W) : W3 m ρ c (Proc.devRef .tc b) = W2 m ρ c (Proc.devRef .tc b) := W3_step m ρ c b h1
theorem W4_from2 (h1 : b ∉ hostOps1_W) (r1 : b ≠ Pipeline.arrRef spec1 6) :
    W4 m ρ c (Proc.devRef .tc b) = W2 m ρ c (Proc.devRef .tc b) :=
  (W4_keep m ρ c b r1).trans (W3_step m ρ c b h1)
theorem W9_from2 (h1 : b ∉ hostOps1_W) (r1 : b ≠ Pipeline.arrRef spec1 6) (h2 : b ∉ hostOps2_W) (r2 : b ≠ Pipeline.arrRef spec2 3)
    (h3 : b ∉ hostOps3_W) (r3 : b ≠ Pipeline.arrRef spec3 5) (h4 : b ∉ hostOps4_W) :
    W9 m ρ c (Proc.devRef .tc b) = W2 m ρ c (Proc.devRef .tc b) :=
  (W9_from4 m ρ c b h2 r2 h3 r3 h4).trans (W4_from2 m ρ c b h1 r1)

end Cert.KernelIdeal.Run

end
-- ==== Proof.KernelIdealHostTerms0.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 0's operations composed: what they leave in `main_v0`, as a term of the contents `X` the stretch starts from. -/
theorem ops0_v0 (X : Valuation τ sig (Elt Ideal)) :
    (StableHlo.after hostOps0 X (Proc.devRef .tc main_v0) : (⟨S1x128, .f32⟩ : BufTy).Contents (Elt Ideal))
      = shapeCast S1x128 ((X (Proc.devRef .tc main_arg8) : (⟨S128, .f32⟩ : BufTy).Contents (Elt Ideal))) shapeCasts_S128_S1x128 := by
  after_results_simp <;> rfl

end Cert.KernelIdeal.HostTerms

end
-- ==== Proof.KernelIdealHostTerms1Split.lean ====
/-
  The second host stretch cut in two: the operations that compute the four relations' neighbourhood means, then the
  operations that stack the relations' operands. The stretch is the first list followed by the second.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

variable {F : FTy → Type} [FloatOps F]

/-- The operations up to the fourth relation's neighbourhood mean. -/
abbrev ops1P : List (HloOp τ sig (Elt F)) :=
  [ StableHlo.nullary main_c (constantI S_ 32 0#32),
    StableHlo.unary main_c main_v2 (broadcastInDim S500000 ![] bcast_S_S500000 : (⟨S_, .i32⟩ : BufTy).Contents (Elt F) → (⟨S500000, .i32⟩ : BufTy).Contents (Elt F)),
    StableHlo.binary main_arg31 main_v2 main_v3 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 20000#32),
    StableHlo.unary main_c_0 main_v4 (broadcastInDim S500000 ![] bcast_S_S500000 : (⟨S_, .i32⟩ : BufTy).Contents (Elt F) → (⟨S500000, .i32⟩ : BufTy).Contents (Elt F)),
    StableHlo.binary main_arg31 main_v4 main_v5 (addi : (⟨S500000, .i32⟩ : BufTy).Contents (Elt F) → (⟨S500000, .i32⟩ : BufTy).Contents (Elt F) → (⟨S500000, .i32⟩ : BufTy).Contents (Elt F)),
    StableHlo.ternary main_v3 main_v5 main_arg31 main_v6 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v6 main_v7 (broadcastInDim S500000x1 ![0] bcast_S500000_S500000x1_0 : (⟨S500000, .i32⟩ : BufTy).Contents (Elt F) → (⟨S500000x1, .i32⟩ : BufTy).Contents (Elt F)),
    StableHlo.binary main_arg2 main_v7 main_v8 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    StableHlo.nullary main_cst (constant S_ .f32 0x00000000#32),
    StableHlo.unary main_cst main_v9 (broadcastInDim S20000x128 ![] bcast_S_S20000x128 : (⟨S_, .f32⟩ : BufTy).Contents (Elt F) → (⟨S20000x128, .f32⟩ : BufTy).Contents (Elt F)),
    StableHlo.unary main_arg32 main_v10 (broadcastInDim S500000x1 ![0] bcast_S500000_S500000x1_0 : (⟨S500000, .i32⟩ : BufTy).Contents (Elt F) → (⟨S500000x1, .i32⟩ : BufTy).Contents (Elt F)),
    StableHlo.ternary main_v9 main_v10 main_v8 main_v11 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    StableHlo.nullary main_cst_1 (constant S_ .f32 0x3F800000#32),
    StableHlo.unary main_cst_1 main_v12 (broadcastInDim S500000x1 ![] bcast_S_S500000x1 : (⟨S_, .f32⟩ : BufTy).Contents (Elt F) → (⟨S500000x1, .f32⟩ : BufTy).Contents (Elt F)),
    StableHlo.nullary main_cst_2 (constant S_ .f32 0x00000000#32),
    StableHlo.unary main_cst_2 main_v13 (broadcastInDim S20000x1 ![] bcast_S_S20000x1 : (⟨S_, .f32⟩ : BufTy).Contents (Elt F) → (⟨S20000x1, .f32⟩ : BufTy).Contents (Elt F)),
    StableHlo.unary main_arg32 main_v14 (broadcastInDim S500000x1 ![0] bcast_S500000_S500000x1_0 : (⟨S500000, .i32⟩ : BufTy).Contents (Elt F) → (⟨S500000x1, .i32⟩ : BufTy).Contents (Elt F)),
    StableHlo.ternary main_v13 main_v14 main_v12 main_v15 ((fun x i u => Host.scatterAdd scatter_S20000x1_S500000x1_S500000x1_1_0_0_1 x i u) : (⟨S20000x1, .f32⟩ : BufTy).Contents (Elt F) → (⟨S500000x1, .i32⟩ : BufTy).Contents (Elt F) → (⟨S500000x1, .f32⟩ : BufTy).Contents (Elt F) → (⟨S20000x1, .f32⟩ : BufTy).Contents (Elt F)),
    StableHlo.nullary main_cst_3 (constant S_ .f32 0x3F800000#32),
    StableHlo.unary main_cst_3 main_v16 (broadcastInDim S20000x1 ![] bcast_S_S20000x1 : (⟨S_, .f32⟩ : BufTy).Contents (Elt F) → (⟨S20000x1, .f32⟩ : BufTy).Contents (Elt F)),
    StableHlo.binary main_v15 main_v16 main_v17 (maximumf : (⟨S20000x1, .f32⟩ : BufTy).Contents (Elt F) → (⟨S20000x1, .f32⟩ : BufTy).Contents (Elt F) → (⟨S20000x1, .f32⟩ : BufTy).Contents (Elt F)),
    StableHlo.unary main_v17 main_v18 (broadcastInDim S20000x128 ![0, 1] bcast_S20000x1_S20000x128_0_1 : (⟨S20000x1, .f32⟩ : BufTy).Contents (Elt F) → (⟨S20000x128, .f32⟩ : BufTy).Contents (Elt F)),
    StableHlo.binary main_v11 main_v18 main_v19 (Host.divf : (⟨S20000x128, .f32⟩ : BufTy).Contents (Elt F) → (⟨S20000x128, .f32⟩ : BufTy).Contents (Elt F) → (⟨S20000x128, .f32⟩ : BufTy).Contents (Elt F)),
    StableHlo.nullary main_c_4 (constantI S_ 32 0#32),
    StableHlo.unary main_c_4 main_v20 (broadcastInDim S300000 ![] bcast_S_S300000 : (⟨S_, .i32⟩ : BufTy).Contents (Elt F) → (⟨S300000, .i32⟩ : BufTy).Contents (Elt F)),
    StableHlo.binary main_arg33 main_v20 main_v21 (cmpi .slt : (⟨S300000, .i32⟩ : BufTy).Contents (Elt F) → (⟨S300000, .i32⟩ : BufTy).Contents (Elt F) → (⟨S300000, .i1⟩ : BufTy).Contents (Elt F)),
    StableHlo.nullary main_c_5 (constantI S_ 32 2000#32),
    StableHlo.unary main_c_5 main_v22 (broadcastInDim S300000 ![] bcast_S_S300000 : (⟨S_, .i32⟩ : BufTy).Contents (Elt F) → (⟨S300000, .i32⟩ : BufTy).Contents (Elt F)),
    StableHlo.binary main_arg33 main_v22 main_v23 (addi : (⟨S300000, .i32⟩ : BufTy).Contents (Elt F) → (⟨S300000, .i32⟩ : BufTy).Contents (Elt F) → (⟨S300000, .i32⟩ : BufTy).Contents (Elt F)),
    StableHlo.ternary main_v21 main_v23 main_arg33 main_v24 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v24 main_v25 (broadcastInDim S300000x1 ![0] bcast_S300000_S300000x1_0 : (⟨S300000, .i32⟩ : BufTy).Contents (Elt F) → (⟨S300000x1, .i32⟩ : BufTy).Contents (Elt F)),
    StableHlo.binary main_arg3 main_v25 main_v26 ((fun x i => Host.gather gather_S2000x128_S300000x1_S300000x128_1_0_n_n_0_1_1128 x i) : (⟨S2000x128, .f32⟩ : BufTy).Contents (Elt F) → (⟨S300000x1, .i32⟩ : BufTy).Contents (Elt F) → (⟨S300000x128, .f32⟩ : BufTy).Contents (Elt F)),
    StableHlo.nullary main_cst_6 (constant S_ .f32 0x00000000#32),
    StableHlo.unary main_cst_6 main_v27 (broadcastInDim S20000x128 ![] bcast_S_S20000x128 : (⟨S_, .f32⟩ : BufTy).Contents (Elt F) → (⟨S20000x128, .f32⟩ : BufTy).Contents (Elt F)),
    StableHlo.unary main_arg34 main_v28 (broadcastInDim S300000x1 ![0] bcast_S300000_S300000x1_0 : (⟨S300000, .i32⟩ : BufTy).Contents (Elt F) → (⟨S300000x1, .i32⟩ : BufTy).Contents (Elt F)),
    StableHlo.ternary main_v27 main_v28 main_v26 main_v29 ((fun x i u => Host.scatterAdd scatter_S20000x128_S300000x1_S300000x128_1_0_0_1 x i u) : (⟨S20000x128, .f32⟩ : BufTy).Contents (Elt F) → (⟨S300000x1, .i32⟩ : BufTy).Contents (Elt F) → (⟨S300000x128, .f32⟩ : BufTy).Contents (Elt F) → (⟨S20000x128, .f32⟩ : BufTy).Contents (Elt F)),
    StableHlo.nullary main_cst_7 (constant S_ .f32 0x3F800000#32),
    StableHlo.unary main_cst_7 main_v30 (broadcastInDim S300000x1 ![] bcast_S_S300000x1 : (⟨S_, .f32⟩ : BufTy).Contents (Elt F) → (⟨S300000x1, .f32⟩ : BufTy).Contents (Elt F)),
    StableHlo.nullary main_cst_8 (constant S_ .f32 0x00000000#32),
    StableHlo.unary main_cst_8 main_v31 (broadcastInDim S20000x1 ![] bcast_S_S20000x1 : (⟨S_, .f32⟩ : BufTy).Contents (Elt F) → (⟨S20000x1, .f32⟩ : BufTy).Contents (Elt F)),
    StableHlo.unary main_arg34 main_v32 (broadcastInDim S300000x1 ![0] bcast_S300000_S300000x1_0 : (⟨S300000, .i32⟩ : BufTy).Contents (Elt F) → (⟨S300000x1, .i32⟩ : BufTy).Contents (Elt F)),
    StableHlo.ternary main_v31 main_v32 main_v30 main_v33 ((fun x i u => Host.scatterAdd scatter_S20000x1_S300000x1_S300000x1_1_0_0_1 x i u) : (⟨S20000x1, .f32⟩ : BufTy).Contents (Elt F) → (⟨S300000x1, .i32⟩ : BufTy).Contents (Elt F) → (⟨S300000x1, .f32⟩ : BufTy).Contents (Elt F) → (⟨S20000x1, .f32⟩ : BufTy).Contents (Elt F)),
    StableHlo.nullary main_cst_9 (constant S_ .f32 0x3F800000#32),
    StableHlo.unary main_cst_9 main_v34 (broadcastInDim S20000x1 ![] bcast_S_S20000x1 : (⟨S_, .f32⟩ : BufTy).Contents (Elt F) → (⟨S20000x1, .f32⟩ : BufTy).Contents (Elt F)),
    StableHlo.binary main_v33 main_v34 main_v35 (maximumf : (⟨S20000x1, .f32⟩ : BufTy).Contents (Elt F) → (⟨S20000x1, .f32⟩ : BufTy).Contents (Elt F) → (⟨S20000x1, .f32⟩ : BufTy).Contents (Elt F)),
    StableHlo.unary main_v35 main_v36 (broadcastInDim S20000x128 ![0, 1] bcast_S20000x1_S20000x128_0_1 : (⟨S20000x1, .f32⟩ : BufTy).Contents (Elt F) → (⟨S20000x128, .f32⟩ : BufTy).Contents (Elt F)),
    StableHlo.binary main_v29 main_v36 main_v37 (Host.divf : (⟨S20000x128, .f32⟩ : BufTy).Contents (Elt F) → (⟨S20000x128, .f32⟩ : BufTy).Contents (Elt F) → (⟨S20000x128, .f32⟩ : BufTy).Contents (Elt F)),
    StableHlo.nullary main_c_10 (constantI S_ 32 0#32),
    StableHlo.unary main_c_10 main_v38 (broadcastInDim S400000 ![] bcast_S_S400000 : (⟨S_, .i32⟩ : BufTy).Contents (Elt F) → (⟨S400000, .i32⟩ : BufTy).Contents (Elt F)),
    StableHlo.binary main_arg35 main_v38 main_v39 (cmpi .slt : (⟨S400000, .i32⟩ : BufTy).Contents (Elt F) → (⟨S400000, .i32⟩ : BufTy).Contents (Elt F) → (⟨S400000, .i1⟩ : BufTy).Contents (Elt F)),
    StableHlo.nullary main_c_11 (constantI S_ 32 10000#32),
    StableHlo.unary main_c_11 main_v40 (broadcastInDim S400000 ![] bcast_S_S400000 : (⟨S_, .i32⟩ : BufTy).Contents (Elt F) → (⟨S400000, .i32⟩ : BufTy).Contents (Elt F)),
    StableHlo.binary main_arg35 main_v40 main_v41 (addi : (⟨S400000, .i32⟩ : BufTy).Contents (Elt F) → (⟨S400000, .i32⟩ : BufTy).Contents (Elt F) → (⟨S400000, .i32⟩ : BufTy).Contents (Elt F)),
    StableHlo.ternary main_v39 main_v41 main_arg35 main_v42 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v42 main_v43 (broadcastInDim S400000x1 ![0] bcast_S400000_S400000x1_0 : (⟨S400000, .i32⟩ : BufTy).Contents (Elt F) → (⟨S400000x1, .i32⟩ : BufTy).Contents (Elt F)),
    StableHlo.binary main_arg4 main_v43 main_v44 ((fun x i => Host.gather gather_S10000x128_S400000x1_S400000x128_1_0_n_n_0_1_1128 x i) : (⟨S10000x128, .f32⟩ : BufTy).Contents (Elt F) → (⟨S400000x1, .i32⟩ : BufTy).Contents (Elt F) → (⟨S400000x128, .f32⟩ : BufTy).Contents (Elt F)),
    StableHlo.nullary main_cst_12 (constant S_ .f32 0x00000000#32),
    StableHlo.unary main_cst_12 main_v45 (broadcastInDim S20000x128 ![] bcast_S_S20000x128 : (⟨S_, .f32⟩ : BufTy).Contents (Elt F) → (⟨S20000x128, .f32⟩ : BufTy).Contents (Elt F)),
    StableHlo.unary main_arg36 main_v46 (broadcastInDim S400000x1 ![0] bcast_S400000_S400000x1_0 : (⟨S400000, .i32⟩ : BufTy).Contents (Elt F) → (⟨S400000x1, .i32⟩ : BufTy).Contents (Elt F)),
    StableHlo.ternary main_v45 main_v46 main_v44 main_v47 ((fun x i u => Host.scatterAdd scatter_S20000x128_S400000x1_S400000x128_1_0_0_1 x i u) : (⟨S20000x128, .f32⟩ : BufTy).Contents (Elt F) → (⟨S400000x1, .i32⟩ : BufTy).Contents (Elt F) → (⟨S400000x128, .f32⟩ : BufTy).Contents (Elt F) → (⟨S20000x128, .f32⟩ : BufTy).Contents (Elt F)),
    StableHlo.nullary main_cst_13 (constant S_ .f32 0x3F800000#32),
    StableHlo.unary main_cst_13 main_v48 (broadcastInDim S400000x1 ![] bcast_S_S400000x1 : (⟨S_, .f32⟩ : BufTy).Contents (Elt F) → (⟨S400000x1, .f32⟩ : BufTy).Contents (Elt F)),
    StableHlo.nullary main_cst_14 (constant S_ .f32 0x00000000#32),
    StableHlo.unary main_cst_14 main_v49 (broadcastInDim S20000x1 ![] bcast_S_S20000x1 : (⟨S_, .f32⟩ : BufTy).Contents (Elt F) → (⟨S20000x1, .f32⟩ : BufTy).Contents (Elt F)),
    StableHlo.unary main_arg36 main_v50 (broadcastInDim S400000x1 ![0] bcast_S400000_S400000x1_0 : (⟨S400000, .i32⟩ : BufTy).Contents (Elt F) → (⟨S400000x1, .i32⟩ : BufTy).Contents (Elt F)),
    StableHlo.ternary main_v49 main_v50 main_v48 main_v51 ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F)),
    StableHlo.nullary main_cst_15 (constant S_ .f32 0x3F800000#32),
    StableHlo.unary main_cst_15 main_v52 (broadcastInDim S20000x1 ![] bcast_S_S20000x1 : (⟨S_, .f32⟩ : BufTy).Contents (Elt F) → (⟨S20000x1, .f32⟩ : BufTy).Contents (Elt F)),
    StableHlo.binary main_v51 main_v52 main_v53 (maximumf : (⟨S20000x1, .f32⟩ : BufTy).Contents (Elt F) → (⟨S20000x1, .f32⟩ : BufTy).Contents (Elt F) → (⟨S20000x1, .f32⟩ : BufTy).Contents (Elt F)),
    StableHlo.unary main_v53 main_v54 (broadcastInDim S20000x128 ![0, 1] bcast_S20000x1_S20000x128_0_1 : (⟨S20000x1, .f32⟩ : BufTy).Contents (Elt F) → (⟨S20000x128, .f32⟩ : BufTy).Contents (Elt F)),
    StableHlo.binary main_v47 main_v54 main_v55 (Host.divf : (⟨S20000x128, .f32⟩ : BufTy).Contents (Elt F) → (⟨S20000x128, .f32⟩ : BufTy).Contents (Elt F) → (⟨S20000x128, .f32⟩ : BufTy).Contents (Elt F)),
    StableHlo.nullary main_c_16 (constantI S_ 32 0#32),
    StableHlo.unary main_c_16 main_v56 (broadcastInDim S250000 ![] bcast_S_S250000 : (⟨S_, .i32⟩ : BufTy).Contents (Elt F) → (⟨S250000, .i32⟩ : BufTy).Contents (Elt F)),
    StableHlo.binary main_arg37 main_v56 main_v57 (cmpi .slt : (⟨S250000, .i32⟩ : BufTy).Contents (Elt F) → (⟨S250000, .i32⟩ : BufTy).Contents (Elt F) → (⟨S250000, .i1⟩ : BufTy).Contents (Elt F)),
    StableHlo.nullary main_c_17 (constantI S_ 32 8000#32),
    StableHlo.unary main_c_17 main_v58 (broadcastInDim S250000 ![] bcast_S_S250000 : (⟨S_, .i32⟩ : BufTy).Contents (Elt F) → (⟨S250000, .i32⟩ : BufTy).Contents (Elt F)),
    StableHlo.binary main_arg37 main_v58 main_v59 (addi : (⟨S250000, .i32⟩ : BufTy).Contents (Elt F) → (⟨S250000, .i32⟩ : BufTy).Contents (Elt F) → (⟨S250000, .i32⟩ : BufTy).Contents (Elt F)),
    StableHlo.ternary main_v57 main_v59 main_arg37 main_v60 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v60 main_v61 (broadcastInDim S250000x1 ![0] bcast_S250000_S250000x1_0 : (⟨S250000, .i32⟩ : BufTy).Contents (Elt F) → (⟨S250000x1, .i32⟩ : BufTy).Contents (Elt F)),
    StableHlo.binary main_v1 main_v61 main_v62 ((fun x i => Host.gather gather_S8000x128_S250000x1_S250000x128_1_0_n_n_0_1_1128 x i) : (⟨S8000x128, .f32⟩ : BufTy).Contents (Elt F) → (⟨S250000x1, .i32⟩ : BufTy).Contents (Elt F) → (⟨S250000x128, .f32⟩ : BufTy).Contents (Elt F)),
    StableHlo.nullary main_cst_18 (constant S_ .f32 0x00000000#32),
    StableHlo.unary main_cst_18 main_v63 (broadcastInDim S20000x128 ![] bcast_S_S20000x128 : (⟨S_, .f32⟩ : BufTy).Contents (Elt F) → (⟨S20000x128, .f32⟩ : BufTy).Contents (Elt F)),
    StableHlo.unary main_arg38 main_v64 (broadcastInDim S250000x1 ![0] bcast_S250000_S250000x1_0 : (⟨S250000, .i32⟩ : BufTy).Contents (Elt F) → (⟨S250000x1, .i32⟩ : BufTy).Contents (Elt F)),
    StableHlo.ternary main_v63 main_v64 main_v62 main_v65 ((fun x i u => Host.scatterAdd scatter_S20000x128_S250000x1_S250000x128_1_0_0_1 x i u) : (⟨S20000x128, .f32⟩ : BufTy).Contents (Elt F) → (⟨S250000x1, .i32⟩ : BufTy).Contents (Elt F) → (⟨S250000x128, .f32⟩ : BufTy).Contents (Elt F) → (⟨S20000x128, .f32⟩ : BufTy).Contents (Elt F)),
    StableHlo.nullary main_cst_19 (constant S_ .f32 0x3F800000#32),
    StableHlo.unary main_cst_19 main_v66 (broadcastInDim S250000x1 ![] bcast_S_S250000x1 : (⟨S_, .f32⟩ : BufTy).Contents (Elt F) → (⟨S250000x1, .f32⟩ : BufTy).Contents (Elt F)),
    StableHlo.nullary main_cst_20 (constant S_ .f32 0x00000000#32),
    StableHlo.unary main_cst_20 main_v67 (broadcastInDim S20000x1 ![] bcast_S_S20000x1 : (⟨S_, .f32⟩ : BufTy).Contents (Elt F) → (⟨S20000x1, .f32⟩ : BufTy).Contents (Elt F)),
    StableHlo.unary main_arg38 main_v68 (broadcastInDim S250000x1 ![0] bcast_S250000_S250000x1_0 : (⟨S250000, .i32⟩ : BufTy).Contents (Elt F) → (⟨S250000x1, .i32⟩ : BufTy).Contents (Elt F)),
    StableHlo.ternary main_v67 main_v68 main_v66 main_v69 ((fun x i u => Host.scatterAdd scatter_S20000x1_S250000x1_S250000x1_1_0_0_1 x i u) : (⟨S20000x1, .f32⟩ : BufTy).Contents (Elt F) → (⟨S250000x1, .i32⟩ : BufTy).Contents (Elt F) → (⟨S250000x1, .f32⟩ : BufTy).Contents (Elt F) → (⟨S20000x1, .f32⟩ : BufTy).Contents (Elt F)),
    StableHlo.nullary main_cst_21 (constant S_ .f32 0x3F800000#32),
    StableHlo.unary main_cst_21 main_v70 (broadcastInDim S20000x1 ![] bcast_S_S20000x1 : (⟨S_, .f32⟩ : BufTy).Contents (Elt F) → (⟨S20000x1, .f32⟩ : BufTy).Contents (Elt F)),
    StableHlo.binary main_v69 main_v70 main_v71 (maximumf : (⟨S20000x1, .f32⟩ : BufTy).Contents (Elt F) → (⟨S20000x1, .f32⟩ : BufTy).Contents (Elt F) → (⟨S20000x1, .f32⟩ : BufTy).Contents (Elt F)),
    StableHlo.unary main_v71 main_v72 (broadcastInDim S20000x128 ![0, 1] bcast_S20000x1_S20000x128_0_1 : (⟨S20000x1, .f32⟩ : BufTy).Contents (Elt F) → (⟨S20000x128, .f32⟩ : BufTy).Contents (Elt F)),
    StableHlo.binary main_v65 main_v72 main_v73 (Host.divf : (⟨S20000x128, .f32⟩ : BufTy).Contents (Elt F) → (⟨S20000x128, .f32⟩ : BufTy).Contents (Elt F) → (⟨S20000x128, .f32⟩ : BufTy).Contents (Elt F)) ]

/-- The operations that stack the four relations' operands. -/
abbrev ops1Q : List (HloOp τ sig (Elt F)) :=
  [ StableHlo.unary main_v19 main_v74 (broadcastInDim S1x20000x128 ![1, 2] bcast_S20000x128_S1x20000x128_1_2 : (⟨S20000x128, .f32⟩ : BufTy).Contents (Elt F) → (⟨S1x20000x128, .f32⟩ : BufTy).Contents (Elt F)),
    StableHlo.unary main_v37 main_v75 (broadcastInDim S1x20000x128 ![1, 2] bcast_S20000x128_S1x20000x128_1_2 : (⟨S20000x128, .f32⟩ : BufTy).Contents (Elt F) → (⟨S1x20000x128, .f32⟩ : BufTy).Contents (Elt F)),
    StableHlo.unary main_v55 main_v76 (broadcastInDim S1x20000x128 ![1, 2] bcast_S20000x128_S1x20000x128_1_2 : (⟨S20000x128, .f32⟩ : BufTy).Contents (Elt F) → (⟨S1x20000x128, .f32⟩ : BufTy).Contents (Elt F)),
    StableHlo.unary main_v73 main_v77 (broadcastInDim S1x20000x128 ![1, 2] bcast_S20000x128_S1x20000x128_1_2 : (⟨S20000x128, .f32⟩ : BufTy).Contents (Elt F) → (⟨S1x20000x128, .f32⟩ : BufTy).Contents (Elt F)),
    StableHlo.nary ![main_v74, main_v75, main_v76, main_v77] main_v78 (fun u => concatenate S4x20000x128 0 [⟨S1x20000x128, u 0⟩, ⟨S1x20000x128, u 1⟩, ⟨S1x20000x128, u 2⟩, ⟨S1x20000x128, u 3⟩] concatenates_S1x20000x128_S1x20000x128_S1x20000x128_S1x20000x128_S4x20000x128_d0),
    StableHlo.unary main_arg11 main_v79 (broadcastInDim S1x128x128 ![1, 2] bcast_S128x128_S1x128x128_1_2 : (⟨S128x128, .f32⟩ : BufTy).Contents (Elt F) → (⟨S1x128x128, .f32⟩ : BufTy).Contents (Elt F)),
    StableHlo.unary main_arg15 main_v80 (broadcastInDim S1x128x128 ![1, 2] bcast_S128x128_S1x128x128_1_2 : (⟨S128x128, .f32⟩ : BufTy).Contents (Elt F) → (⟨S1x128x128, .f32⟩ : BufTy).Contents (Elt F)),
    StableHlo.unary main_arg19 main_v81 (broadcastInDim S1x128x128 ![1, 2] bcast_S128x128_S1x128x128_1_2 : (⟨S128x128, .f32⟩ : BufTy).Contents (Elt F) → (⟨S1x128x128, .f32⟩ : BufTy).Contents (Elt F)),
    StableHlo.unary main_arg23 main_v82 (broadcastInDim S1x128x128 ![1, 2] bcast_S128x128_S1x128x128_1_2 : (⟨S128x128, .f32⟩ : BufTy).Contents (Elt F) → (⟨S1x128x128, .f32⟩ : BufTy).Contents (Elt F)),
    StableHlo.nary ![main_v79, main_v80, main_v81, main_v82] main_v83 (fun u => concatenate S4x128x128 0 [⟨S1x128x128, u 0⟩, ⟨S1x128x128, u 1⟩, ⟨S1x128x128, u 2⟩, ⟨S1x128x128, u 3⟩] concatenates_S1x128x128_S1x128x128_S1x128x128_S1x128x128_S4x128x128_d0),
    StableHlo.unary main_arg12 main_v84 (broadcastInDim S1x128 ![1] bcast_S128_S1x128_1 : (⟨S128, .f32⟩ : BufTy).Contents (Elt F) → (⟨S1x128, .f32⟩ : BufTy).Contents (Elt F)),
    StableHlo.unary main_arg16 main_v85 (broadcastInDim S1x128 ![1] bcast_S128_S1x128_1 : (⟨S128, .f32⟩ : BufTy).Contents (Elt F) → (⟨S1x128, .f32⟩ : BufTy).Contents (Elt F)),
    StableHlo.unary main_arg20 main_v86 (broadcastInDim S1x128 ![1] bcast_S128_S1x128_1 : (⟨S128, .f32⟩ : BufTy).Contents (Elt F) → (⟨S1x128, .f32⟩ : BufTy).Contents (Elt F)),
    StableHlo.unary main_arg24 main_v87 (broadcastInDim S1x128 ![1] bcast_S128_S1x128_1 : (⟨S128, .f32⟩ : BufTy).Contents (Elt F) → (⟨S1x128, .f32⟩ : BufTy).Contents (Elt F)),
    StableHlo.nary ![main_v84, main_v85, main_v86, main_v87] main_v88 (fun u => concatenate S4x128 0 [⟨S1x128, u 0⟩, ⟨S1x128, u 1⟩, ⟨S1x128, u 2⟩, ⟨S1x128, u 3⟩] concatenates_S1x128_S1x128_S1x128_S1x128_S4x128_d0),
    StableHlo.reshape main_v88 main_v89 rfl shapeCasts_S4x128_S4x1x128,
    StableHlo.unary main_arg9 main_v90 (broadcastInDim S1x128x128 ![1, 2] bcast_S128x128_S1x128x128_1_2 : (⟨S128x128, .f32⟩ : BufTy).Contents (Elt F) → (⟨S1x128x128, .f32⟩ : BufTy).Contents (Elt F)),
    StableHlo.unary main_arg13 main_v91 (broadcastInDim S1x128x128 ![1, 2] bcast_S128x128_S1x128x128_1_2 : (⟨S128x128, .f32⟩ : BufTy).Contents (Elt F) → (⟨S1x128x128, .f32⟩ : BufTy).Contents (Elt F)),
    StableHlo.unary main_arg17 main_v92 (broadcastInDim S1x128x128 ![1, 2] bcast_S128x128_S1x128x128_1_2 : (⟨S128x128, .f32⟩ : BufTy).Contents (Elt F) → (⟨S1x128x128, .f32⟩ : BufTy).Contents (Elt F)),
    StableHlo.unary main_arg21 main_v93 (broadcastInDim S1x128x128 ![1, 2] bcast_S128x128_S1x128x128_1_2 : (⟨S128x128, .f32⟩ : BufTy).Contents (Elt F) → (⟨S1x128x128, .f32⟩ : BufTy).Contents (Elt F)),
    StableHlo.nary ![main_v90, main_v91, main_v92, main_v93] main_v94 (fun u => concatenate S4x128x128 0 [⟨S1x128x128, u 0⟩, ⟨S1x128x128, u 1⟩, ⟨S1x128x128, u 2⟩, ⟨S1x128x128, u 3⟩] concatenates_S1x128x128_S1x128x128_S1x128x128_S1x128x128_S4x128x128_d0),
    StableHlo.unary main_arg10 main_v95 (broadcastInDim S1x128 ![1] bcast_S128_S1x128_1 : (⟨S128, .f32⟩ : BufTy).Contents (Elt F) → (⟨S1x128, .f32⟩ : BufTy).Contents (Elt F)),
    StableHlo.unary main_arg14 main_v96 (broadcastInDim S1x128 ![1] bcast_S128_S1x128_1 : (⟨S128, .f32⟩ : BufTy).Contents (Elt F) → (⟨S1x128, .f32⟩ : BufTy).Contents (Elt F)),
    StableHlo.unary main_arg18 main_v97 (broadcastInDim S1x128 ![1] bcast_S128_S1x128_1 : (⟨S128, .f32⟩ : BufTy).Contents (Elt F) → (⟨S1x128, .f32⟩ : BufTy).Contents (Elt F)),
    StableHlo.unary main_arg22 main_v98 (broadcastInDim S1x128 ![1] bcast_S128_S1x128_1 : (⟨S128, .f32⟩ : BufTy).Contents (Elt F) → (⟨S1x128, .f32⟩ : BufTy).Contents (Elt F)),
    StableHlo.nary ![main_v95, main_v96, main_v97, main_v98] main_v99 (fun u => concatenate S4x128 0 [⟨S1x128, u 0⟩, ⟨S1x128, u 1⟩, ⟨S1x128, u 2⟩, ⟨S1x128, u 3⟩] concatenates_S1x128_S1x128_S1x128_S1x128_S4x128_d0),
    StableHlo.reshape main_v99 main_v100 rfl shapeCasts_S4x128_S4x1x128 ]

set_option maxHeartbeats 4000000 in
theorem ops1_split : (hostOps1 : List (HloOp τ sig (Elt F))) = ops1P ++ ops1Q := rfl

end Cert.KernelIdeal.HostTerms

end
-- ==== Proof.LibFoldAppend.lean ====
/-
  The host operations' fold over a list that is two lists in a row.

  What a straight line of host operations leaves in the buffers is a fold of the operations' results over the contents it
  starts from. Running two lines one after the other is running the second from what the first leaves: the fold over an
  appended list is the second list's fold over the first list's fold. This is what lets a long program be read piece by
  piece, each piece as a function of the contents it finds.
-/
import Idealize.ShloMosaic.Lib.StableHlo.Run

namespace Cert.Lib

open Idealize.ShloMosaic Idealize.ShloMosaic.StableHlo

/-- The fold over `l₁ ++ l₂` from `V` is the fold over `l₂` from the fold over `l₁` from `V`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.KernelIdealHostTerms1m0.lean ====
/-
  One relation's neighbourhood mean as a term of the contents the second host stretch starts from: the gathered source rows
  scatter-summed by destination, divided by the destination counts (at least 1).
-/
import proofs.«144146_j85358180041108_1_alg».proof.Proof.Gen.KernelIdeal.Launch
import proofs.«144146_j85358180041108_1_alg».proof.Proof.KernelIdealHostTerms1Split
import proofs.«144146_j85358180041108_1_alg».proof.Proof.LibFoldAppend
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
theorem ops1P_v19 (X : Valuation τ sig (Elt Ideal)) :
    (StableHlo.after ops1P X (Proc.devRef .tc main_v19) : (⟨S20000x128, .f32⟩ : BufTy).Contents (Elt Ideal))
      = Host.divf (Host.scatterAdd scatter_S20000x128_S500000x1_S500000x128_1_0_0_1 (broadcastInDim S20000x128 ![] bcast_S_S20000x128 (constant (F := Ideal) S_ .f32 0x00000000#32)) (broadcastInDim S500000x1 ![0] bcast_S500000_S500000x1_0 ((X (Proc.devRef .tc main_arg32) : (⟨S500000, .i32⟩ : BufTy).Contents (Elt Ideal)))) (Host.gather gather_S20000x128_S500000x1_S500000x128_1_0_n_n_0_1_1128 ((X (Proc.devRef .tc main_arg2) : (⟨S20000x128, .f32⟩ : BufTy).Contents (Elt Ideal))) (broadcastInDim S500000x1 ![0] bcast_S500000_S500000x1_0 (select (cmpi .slt ((X (Proc.devRef .tc main_arg31) : (⟨S500000, .i32⟩ : BufTy).Contents (Elt Ideal))) (broadcastInDim S500000 ![] bcast_S_S500000 (constantI S_ 32 0#32))) (addi ((X (Proc.devRef .tc main_arg31) : (⟨S500000, .i32⟩ : BufTy).Contents (Elt Ideal))) (broadcastInDim S500000 ![] bcast_S_S500000 (constantI S_ 32 20000#32))) ((X (Proc.devRef .tc main_arg31) : (⟨S500000, .i32⟩ : BufTy).Contents (Elt Ideal))))))) (broadcastInDim S20000x128 ![0, 1] bcast_S20000x1_S20000x128_0_1 (maximumf (Host.scatterAdd scatter_S20000x1_S500000x1_S500000x1_1_0_0_1 (broadcastInDim S20000x1 ![] bcast_S_S20000x1 (constant (F := Ideal) S_ .f32 0x00000000#32)) (broadcastInDim S500000x1 ![0] bcast_S500000_S500000x1_0 ((X (Proc.devRef .tc main_arg32) : (⟨S500000, .i32⟩ : BufTy).Contents (Elt Ideal)))) (broadcastInDim S500000x1 ![] bcast_S_S500000x1 (constant (F := Ideal) S_ .f32 0x3F800000#32))) (broadcastInDim S20000x1 ![] bcast_S_S20000x1 (constant (F := Ideal) S_ .f32 0x3F800000#32)))) := by
  after_results_simp <;> rfl

end Cert.KernelIdeal.HostTerms

end
-- ==== Proof.KernelIdealHostTerms1m1.lean ====
/-
  One relation's neighbourhood mean as a term of the contents the second host stretch starts from: the gathered source rows
  scatter-summed by destination, divided by the destination counts (at least 1).
-/
import proofs.«144146_j85358180041108_1_alg».proof.Proof.Gen.KernelIdeal.Launch
import proofs.«144146_j85358180041108_1_alg».proof.Proof.KernelIdealHostTerms1Split
import proofs.«144146_j85358180041108_1_alg».proof.Proof.LibFoldAppend
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
theorem ops1P_v37 (X : Valuation τ sig (Elt Ideal)) :
    (StableHlo.after ops1P X (Proc.devRef .tc main_v37) : (⟨S20000x128, .f32⟩ : BufTy).Contents (Elt Ideal))
      = Host.divf (Host.scatterAdd scatter_S20000x128_S300000x1_S300000x128_1_0_0_1 (broadcastInDim S20000x128 ![] bcast_S_S20000x128 (constant (F := Ideal) S_ .f32 0x00000000#32)) (broadcastInDim S300000x1 ![0] bcast_S300000_S300000x1_0 ((X (Proc.devRef .tc main_arg34) : (⟨S300000, .i32⟩ : BufTy).Contents (Elt Ideal)))) (Host.gather gather_S2000x128_S300000x1_S300000x128_1_0_n_n_0_1_1128 ((X (Proc.devRef .tc main_arg3) : (⟨S2000x128, .f32⟩ : BufTy).Contents (Elt Ideal))) (broadcastInDim S300000x1 ![0] bcast_S300000_S300000x1_0 (select (cmpi .slt ((X (Proc.devRef .tc main_arg33) : (⟨S300000, .i32⟩ : BufTy).Contents (Elt Ideal))) (broadcastInDim S300000 ![] bcast_S_S300000 (constantI S_ 32 0#32))) (addi ((X (Proc.devRef .tc main_arg33) : (⟨S300000, .i32⟩ : BufTy).Contents (Elt Ideal))) (broadcastInDim S300000 ![] bcast_S_S300000 (constantI S_ 32 2000#32))) ((X (Proc.devRef .tc main_arg33) : (⟨S300000, .i32⟩ : BufTy).Contents (Elt Ideal))))))) (broadcastInDim S20000x128 ![0, 1] bcast_S20000x1_S20000x128_0_1 (maximumf (Host.scatterAdd scatter_S20000x1_S300000x1_S300000x1_1_0_0_1 (broadcastInDim S20000x1 ![] bcast_S_S20000x1 (constant (F := Ideal) S_ .f32 0x00000000#32)) (broadcastInDim S300000x1 ![0] bcast_S300000_S300000x1_0 ((X (Proc.devRef .tc main_arg34) : (⟨S300000, .i32⟩ : BufTy).Contents (Elt Ideal)))) (broadcastInDim S300000x1 ![] bcast_S_S300000x1 (constant (F := Ideal) S_ .f32 0x3F800000#32))) (broadcastInDim S20000x1 ![] bcast_S_S20000x1 (constant (F := Ideal) S_ .f32 0x3F800000#32)))) := by
  after_results_simp <;> rfl

end Cert.KernelIdeal.HostTerms

end
-- ==== Proof.KernelIdealHostTerms1m2.lean ====
/-
  One relation's neighbourhood mean as a term of the contents the second host stretch starts from: the gathered source rows
  scatter-summed by destination, divided by the destination counts (at least 1).
-/
import proofs.«144146_j85358180041108_1_alg».proof.Proof.Gen.KernelIdeal.Launch
import proofs.«144146_j85358180041108_1_alg».proof.Proof.KernelIdealHostTerms1Split
import proofs.«144146_j85358180041108_1_alg».proof.Proof.LibFoldAppend
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
theorem ops1P_v55 (X : Valuation τ sig (Elt Ideal)) :
    (StableHlo.after ops1P X (Proc.devRef .tc main_v55) : (⟨S20000x128, .f32⟩ : BufTy).Contents (Elt Ideal))
      = Host.divf (Host.scatterAdd scatter_S20000x128_S400000x1_S400000x128_1_0_0_1 (broadcastInDim S20000x128 ![] bcast_S_S20000x128 (constant (F := Ideal) S_ .f32 0x00000000#32)) (broadcastInDim S400000x1 ![0] bcast_S400000_S400000x1_0 ((X (Proc.devRef .tc main_arg36) : (⟨S400000, .i32⟩ : BufTy).Contents (Elt Ideal)))) (Host.gather gather_S10000x128_S400000x1_S400000x128_1_0_n_n_0_1_1128 ((X (Proc.devRef .tc main_arg4) : (⟨S10000x128, .f32⟩ : BufTy).Contents (Elt Ideal))) (broadcastInDim S400000x1 ![0] bcast_S400000_S400000x1_0 (select (cmpi .slt ((X (Proc.devRef .tc main_arg35) : (⟨S400000, .i32⟩ : BufTy).Contents (Elt Ideal))) (broadcastInDim S400000 ![] bcast_S_S400000 (constantI S_ 32 0#32))) (addi ((X (Proc.devRef .tc main_arg35) : (⟨S400000, .i32⟩ : BufTy).Contents (Elt Ideal))) (broadcastInDim S400000 ![] bcast_S_S400000 (constantI S_ 32 10000#32))) ((X (Proc.devRef .tc main_arg35) : (⟨S400000, .i32⟩ : BufTy).Contents (Elt Ideal))))))) (broadcastInDim S20000x128 ![0, 1] bcast_S20000x1_S20000x128_0_1 (maximumf (Host.scatterAdd scatter_S20000x1_S400000x1_S400000x1_1_0_0_1 (broadcastInDim S20000x1 ![] bcast_S_S20000x1 (constant (F := Ideal) S_ .f32 0x00000000#32)) (broadcastInDim S400000x1 ![0] bcast_S400000_S400000x1_0 ((X (Proc.devRef .tc main_arg36) : (⟨S400000, .i32⟩ : BufTy).Contents (Elt Ideal)))) (broadcastInDim S400000x1 ![] bcast_S_S400000x1 (constant (F := Ideal) S_ .f32 0x3F800000#32))) (broadcastInDim S20000x1 ![] bcast_S_S20000x1 (constant (F := Ideal) S_ .f32 0x3F800000#32)))) := by
  after_results_simp <;> rfl

end Cert.KernelIdeal.HostTerms

end
-- ==== Proof.KernelIdealHostTerms1m3.lean ====
/-
  One relation's neighbourhood mean as a term of the contents the second host stretch starts from: the gathered source rows
  scatter-summed by destination, divided by the destination counts (at least 1).
-/
import proofs.«144146_j85358180041108_1_alg».proof.Proof.Gen.KernelIdeal.Launch
import proofs.«144146_j85358180041108_1_alg».proof.Proof.KernelIdealHostTerms1Split
import proofs.«144146_j85358180041108_1_alg».proof.Proof.LibFoldAppend
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
theorem ops1P_v73 (X : Valuation τ sig (Elt Ideal)) :
    (StableHlo.after ops1P X (Proc.devRef .tc main_v73) : (⟨S20000x128, .f32⟩ : BufTy).Contents (Elt Ideal))
      = Host.divf (Host.scatterAdd scatter_S20000x128_S250000x1_S250000x128_1_0_0_1 (broadcastInDim S20000x128 ![] bcast_S_S20000x128 (constant (F := Ideal) S_ .f32 0x00000000#32)) (broadcastInDim S250000x1 ![0] bcast_S250000_S250000x1_0 ((X (Proc.devRef .tc main_arg38) : (⟨S250000, .i32⟩ : BufTy).Contents (Elt Ideal)))) (Host.gather gather_S8000x128_S250000x1_S250000x128_1_0_n_n_0_1_1128 ((X (Proc.devRef .tc main_v1) : (⟨S8000x128, .f32⟩ : BufTy).Contents (Elt Ideal))) (broadcastInDim S250000x1 ![0] bcast_S250000_S250000x1_0 (select (cmpi .slt ((X (Proc.devRef .tc main_arg37) : (⟨S250000, .i32⟩ : BufTy).Contents (Elt Ideal))) (broadcastInDim S250000 ![] bcast_S_S250000 (constantI S_ 32 0#32))) (addi ((X (Proc.devRef .tc main_arg37) : (⟨S250000, .i32⟩ : BufTy).Contents (Elt Ideal))) (broadcastInDim S250000 ![] bcast_S_S250000 (constantI S_ 32 8000#32))) ((X (Proc.devRef .tc main_arg37) : (⟨S250000, .i32⟩ : BufTy).Contents (Elt Ideal))))))) (broadcastInDim S20000x128 ![0, 1] bcast_S20000x1_S20000x128_0_1 (maximumf (Host.scatterAdd scatter_S20000x1_S250000x1_S250000x1_1_0_0_1 (broadcastInDim S20000x1 ![] bcast_S_S20000x1 (constant (F := Ideal) S_ .f32 0x00000000#32)) (broadcastInDim S250000x1 ![0] bcast_S250000_S250000x1_0 ((X (Proc.devRef .tc main_arg38) : (⟨S250000, .i32⟩ : BufTy).Contents (Elt Ideal)))) (broadcastInDim S250000x1 ![] bcast_S_S250000x1 (constant (F := Ideal) S_ .f32 0x3F800000#32))) (broadcastInDim S20000x1 ![] bcast_S_S20000x1 (constant (F := Ideal) S_ .f32 0x3F800000#32)))) := by
  after_results_simp <;> rfl

end Cert.KernelIdeal.HostTerms

end
-- ==== Proof.KernelIdealHostTerms1a.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import proofs.«144146_j85358180041108_1_alg».proof.Proof.KernelIdealHostTerms1m0
import proofs.«144146_j85358180041108_1_alg».proof.Proof.KernelIdealHostTerms1m1
import proofs.«144146_j85358180041108_1_alg».proof.Proof.KernelIdealHostTerms1m2
import proofs.«144146_j85358180041108_1_alg».proof.Proof.KernelIdealHostTerms1m3
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- The stacking operations alone: the stack of the four means as they find them. -/
theorem ops1Q_v78 (Y : Valuation τ sig (Elt Ideal)) :
    (StableHlo.after ops1Q Y (Proc.devRef .tc main_v78) : (⟨S4x20000x128, .f32⟩ : BufTy).Contents (Elt Ideal))
      = concatenate S4x20000x128 0 [⟨S1x20000x128, (broadcastInDim S1x20000x128 ![1, 2] bcast_S20000x128_S1x20000x128_1_2 ((Y (Proc.devRef .tc main_v19) : (⟨S20000x128, .f32⟩ : BufTy).Contents (Elt Ideal))))⟩, ⟨S1x20000x128, (broadcastInDim S1x20000x128 ![1, 2] bcast_S20000x128_S1x20000x128_1_2 ((Y (Proc.devRef .tc main_v37) : (⟨S20000x128, .f32⟩ : BufTy).Contents (Elt Ideal))))⟩, ⟨S1x20000x128, (broadcastInDim S1x20000x128 ![1, 2] bcast_S20000x128_S1x20000x128_1_2 ((Y (Proc.devRef .tc main_v55) : (⟨S20000x128, .f32⟩ : BufTy).Contents (Elt Ideal))))⟩, ⟨S1x20000x128, (broadcastInDim S1x20000x128 ![1, 2] bcast_S20000x128_S1x20000x128_1_2 ((Y (Proc.devRef .tc main_v73) : (⟨S20000x128, .f32⟩ : BufTy).Contents (Elt Ideal))))⟩] concatenates_S1x20000x128_S1x20000x128_S1x20000x128_S1x20000x128_S4x20000x128_d0 := by
  after_results_simp <;> rfl

set_option maxHeartbeats 8000000 in
/-- Stretch 1's operations composed: what they leave in `main_v78`, as a term of the contents `X` the stretch starts from. -/
theorem ops1_v78 (X : Valuation τ sig (Elt Ideal)) :
    (StableHlo.after hostOps1 X (Proc.devRef .tc main_v78) : (⟨S4x20000x128, .f32⟩ : BufTy).Contents (Elt Ideal))
      = concatenate S4x20000x128 0 [⟨S1x20000x128, (broadcastInDim S1x20000x128 ![1, 2] bcast_S20000x128_S1x20000x128_1_2 (Host.divf (Host.scatterAdd scatter_S20000x128_S500000x1_S500000x128_1_0_0_1 (broadcastInDim S20000x128 ![] bcast_S_S20000x128 (constant (F := Ideal) S_ .f32 0x00000000#32)) (broadcastInDim S500000x1 ![0] bcast_S500000_S500000x1_0 ((X (Proc.devRef .tc main_arg32) : (⟨S500000, .i32⟩ : BufTy).Contents (Elt Ideal)))) (Host.gather gather_S20000x128_S500000x1_S500000x128_1_0_n_n_0_1_1128 ((X (Proc.devRef .tc main_arg2) : (⟨S20000x128, .f32⟩ : BufTy).Contents (Elt Ideal))) (broadcastInDim S500000x1 ![0] bcast_S500000_S500000x1_0 (select (cmpi .slt ((X (Proc.devRef .tc main_arg31) : (⟨S500000, .i32⟩ : BufTy).Contents (Elt Ideal))) (broadcastInDim S500000 ![] bcast_S_S500000 (constantI S_ 32 0#32))) (addi ((X (Proc.devRef .tc main_arg31) : (⟨S500000, .i32⟩ : BufTy).Contents (Elt Ideal))) (broadcastInDim S500000 ![] bcast_S_S500000 (constantI S_ 32 20000#32))) ((X (Proc.devRef .tc main_arg31) : (⟨S500000, .i32⟩ : BufTy).Contents (Elt Ideal))))))) (broadcastInDim S20000x128 ![0, 1] bcast_S20000x1_S20000x128_0_1 (maximumf (Host.scatterAdd scatter_S20000x1_S500000x1_S500000x1_1_0_0_1 (broadcastInDim S20000x1 ![] bcast_S_S20000x1 (constant (F := Ideal) S_ .f32 0x00000000#32)) (broadcastInDim S500000x1 ![0] bcast_S500000_S500000x1_0 ((X (Proc.devRef .tc main_arg32) : (⟨S500000, .i32⟩ : BufTy).Contents (Elt Ideal)))) (broadcastInDim S500000x1 ![] bcast_S_S500000x1 (constant (F := Ideal) S_ .f32 0x3F800000#32))) (broadcastInDim S20000x1 ![] bcast_S_S20000x1 (constant (F := Ideal) S_ .f32 0x3F800000#32))))))⟩, ⟨S1x20000x128, (broadcastInDim S1x20000x128 ![1, 2] bcast_S20000x128_S1x20000x128_1_2 (Host.divf (Host.scatterAdd scatter_S20000x128_S300000x1_S300000x128_1_0_0_1 (broadcastInDim S20000x128 ![] bcast_S_S20000x128 (constant (F := Ideal) S_ .f32 0x00000000#32)) (broadcastInDim S300000x1 ![0] bcast_S300000_S300000x1_0 ((X (Proc.devRef .tc main_arg34) : (⟨S300000, .i32⟩ : BufTy).Contents (Elt Ideal)))) (Host.gather gather_S2000x128_S300000x1_S300000x128_1_0_n_n_0_1_1128 ((X (Proc.devRef .tc main_arg3) : (⟨S2000x128, .f32⟩ : BufTy).Contents (Elt Ideal))) (broadcastInDim S300000x1 ![0] bcast_S300000_S300000x1_0 (select (cmpi .slt ((X (Proc.devRef .tc main_arg33) : (⟨S300000, .i32⟩ : BufTy).Contents (Elt Ideal))) (broadcastInDim S300000 ![] bcast_S_S300000 (constantI S_ 32 0#32))) (addi ((X (Proc.devRef .tc main_arg33) : (⟨S300000, .i32⟩ : BufTy).Contents (Elt Ideal))) (broadcastInDim S300000 ![] bcast_S_S300000 (constantI S_ 32 2000#32))) ((X (Proc.devRef .tc main_arg33) : (⟨S300000, .i32⟩ : BufTy).Contents (Elt Ideal))))))) (broadcastInDim S20000x128 ![0, 1] bcast_S20000x1_S20000x128_0_1 (maximumf (Host.scatterAdd scatter_S20000x1_S300000x1_S300000x1_1_0_0_1 (broadcastInDim S20000x1 ![] bcast_S_S20000x1 (constant (F := Ideal) S_ .f32 0x00000000#32)) (broadcastInDim S300000x1 ![0] bcast_S300000_S300000x1_0 ((X (Proc.devRef .tc main_arg34) : (⟨S300000, .i32⟩ : BufTy).Contents (Elt Ideal)))) (broadcastInDim S300000x1 ![] bcast_S_S300000x1 (constant (F := Ideal) S_ .f32 0x3F800000#32))) (broadcastInDim S20000x1 ![] bcast_S_S20000x1 (constant (F := Ideal) S_ .f32 0x3F800000#32))))))⟩, ⟨S1x20000x128, (broadcastInDim S1x20000x128 ![1, 2] bcast_S20000x128_S1x20000x128_1_2 (Host.divf (Host.scatterAdd scatter_S20000x128_S400000x1_S400000x128_1_0_0_1 (broadcastInDim S20000x128 ![] bcast_S_S20000x128 (constant (F := Ideal) S_ .f32 0x00000000#32)) (broadcastInDim S400000x1 ![0] bcast_S400000_S400000x1_0 ((X (Proc.devRef .tc main_arg36) : (⟨S400000, .i32⟩ : BufTy).Contents (Elt Ideal)))) (Host.gather gather_S10000x128_S400000x1_S400000x128_1_0_n_n_0_1_1128 ((X (Proc.devRef .tc main_arg4) : (⟨S10000x128, .f32⟩ : BufTy).Contents (Elt Ideal))) (broadcastInDim S400000x1 ![0] bcast_S400000_S400000x1_0 (select (cmpi .slt ((X (Proc.devRef .tc main_arg35) : (⟨S400000, .i32⟩ : BufTy).Contents (Elt Ideal))) (broadcastInDim S400000 ![] bcast_S_S400000 (constantI S_ 32 0#32))) (addi ((X (Proc.devRef .tc main_arg35) : (⟨S400000, .i32⟩ : BufTy).Contents (Elt Ideal))) (broadcastInDim S400000 ![] bcast_S_S400000 (constantI S_ 32 10000#32))) ((X (Proc.devRef .tc main_arg35) : (⟨S400000, .i32⟩ : BufTy).Contents (Elt Ideal))))))) (broadcastInDim S20000x128 ![0, 1] bcast_S20000x1_S20000x128_0_1 (maximumf (Host.scatterAdd scatter_S20000x1_S400000x1_S400000x1_1_0_0_1 (broadcastInDim S20000x1 ![] bcast_S_S20000x1 (constant (F := Ideal) S_ .f32 0x00000000#32)) (broadcastInDim S400000x1 ![0] bcast_S400000_S400000x1_0 ((X (Proc.devRef .tc main_arg36) : (⟨S400000, .i32⟩ : BufTy).Contents (Elt Ideal)))) (broadcastInDim S400000x1 ![] bcast_S_S400000x1 (constant (F := Ideal) S_ .f32 0x3F800000#32))) (broadcastInDim S20000x1 ![] bcast_S_S20000x1 (constant (F := Ideal) S_ .f32 0x3F800000#32))))))⟩, ⟨S1x20000x128, (broadcastInDim S1x20000x128 ![1, 2] bcast_S20000x128_S1x20000x128_1_2 (Host.divf (Host.scatterAdd scatter_S20000x128_S250000x1_S250000x128_1_0_0_1 (broadcastInDim S20000x128 ![] bcast_S_S20000x128 (constant (F := Ideal) S_ .f32 0x00000000#32)) (broadcastInDim S250000x1 ![0] bcast_S250000_S250000x1_0 ((X (Proc.devRef .tc main_arg38) : (⟨S250000, .i32⟩ : BufTy).Contents (Elt Ideal)))) (Host.gather gather_S8000x128_S250000x1_S250000x128_1_0_n_n_0_1_1128 ((X (Proc.devRef .tc main_v1) : (⟨S8000x128, .f32⟩ : BufTy).Contents (Elt Ideal))) (broadcastInDim S250000x1 ![0] bcast_S250000_S250000x1_0 (select (cmpi .slt ((X (Proc.devRef .tc main_arg37) : (⟨S250000, .i32⟩ : BufTy).Contents (Elt Ideal))) (broadcastInDim S250000 ![] bcast_S_S250000 (constantI S_ 32 0#32))) (addi ((X (Proc.devRef .tc main_arg37) : (⟨S250000, .i32⟩ : BufTy).Contents (Elt Ideal))) (broadcastInDim S250000 ![] bcast_S_S250000 (constantI S_ 32 8000#32))) ((X (Proc.devRef .tc main_arg37) : (⟨S250000, .i32⟩ : BufTy).Contents (Elt Ideal))))))) (broadcastInDim S20000x128 ![0, 1] bcast_S20000x1_S20000x128_0_1 (maximumf (Host.scatterAdd scatter_S20000x1_S250000x1_S250000x1_1_0_0_1 (broadcastInDim S20000x1 ![] bcast_S_S20000x1 (constant (F := Ideal) S_ .f32 0x00000000#32)) (broadcastInDim S250000x1 ![0] bcast_S250000_S250000x1_0 ((X (Proc.devRef .tc main_arg38) : (⟨S250000, .i32⟩ : BufTy).Contents (Elt Ideal)))) (broadcastInDim S250000x1 ![] bcast_S_S250000x1 (constant (F := Ideal) S_ .f32 0x3F800000#32))) (broadcastInDim S20000x1 ![] bcast_S_S20000x1 (constant (F := Ideal) S_ .f32 0x3F800000#32))))))⟩] concatenates_S1x20000x128_S1x20000x128_S1x20000x128_S1x20000x128_S4x20000x128_d0 := by
  rw [ops1_split, Cert.Lib.after_append, ops1Q_v78, ops1P_v19, ops1P_v37, ops1P_v55, ops1P_v73]

end Cert.KernelIdeal.HostTerms

end
-- ==== Proof.KernelIdealHostTerms1b.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 1's operations composed: what they leave in `main_v83`, as a term of the contents `X` the stretch starts from. -/
theorem ops1_v83 (X : Valuation τ sig (Elt Ideal)) :
    (StableHlo.after hostOps1 X (Proc.devRef .tc main_v83) : (⟨S4x128x128, .f32⟩ : BufTy).Contents (Elt Ideal))
      = concatenate S4x128x128 0 [⟨S1x128x128, (broadcastInDim S1x128x128 ![1, 2] bcast_S128x128_S1x128x128_1_2 ((X (Proc.devRef .tc main_arg11) : (⟨S128x128, .f32⟩ : BufTy).Contents (Elt Ideal))))⟩, ⟨S1x128x128, (broadcastInDim S1x128x128 ![1, 2] bcast_S128x128_S1x128x128_1_2 ((X (Proc.devRef .tc main_arg15) : (⟨S128x128, .f32⟩ : BufTy).Contents (Elt Ideal))))⟩, ⟨S1x128x128, (broadcastInDim S1x128x128 ![1, 2] bcast_S128x128_S1x128x128_1_2 ((X (Proc.devRef .tc main_arg19) : (⟨S128x128, .f32⟩ : BufTy).Contents (Elt Ideal))))⟩, ⟨S1x128x128, (broadcastInDim S1x128x128 ![1, 2] bcast_S128x128_S1x128x128_1_2 ((X (Proc.devRef .tc main_arg23) : (⟨S128x128, .f32⟩ : BufTy).Contents (Elt Ideal))))⟩] concatenates_S1x128x128_S1x128x128_S1x128x128_S1x128x128_S4x128x128_d0 := by
  after_results_simp <;> rfl

end Cert.KernelIdeal.HostTerms

end
-- ==== Proof.KernelIdealHostTerms1c.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 1's operations composed: what they leave in `main_v94`, as a term of the contents `X` the stretch starts from. -/
theorem ops1_v94 (X : Valuation τ sig (Elt Ideal)) :
    (StableHlo.after hostOps1 X (Proc.devRef .tc main_v94) : (⟨S4x128x128, .f32⟩ : BufTy).Contents (Elt Ideal))
      = concatenate S4x128x128 0 [⟨S1x128x128, (broadcastInDim S1x128x128 ![1, 2] bcast_S128x128_S1x128x128_1_2 ((X (Proc.devRef .tc main_arg9) : (⟨S128x128, .f32⟩ : BufTy).Contents (Elt Ideal))))⟩, ⟨S1x128x128, (broadcastInDim S1x128x128 ![1, 2] bcast_S128x128_S1x128x128_1_2 ((X (Proc.devRef .tc main_arg13) : (⟨S128x128, .f32⟩ : BufTy).Contents (Elt Ideal))))⟩, ⟨S1x128x128, (broadcastInDim S1x128x128 ![1, 2] bcast_S128x128_S1x128x128_1_2 ((X (Proc.devRef .tc main_arg17) : (⟨S128x128, .f32⟩ : BufTy).Contents (Elt Ideal))))⟩, ⟨S1x128x128, (broadcastInDim S1x128x128 ![1, 2] bcast_S128x128_S1x128x128_1_2 ((X (Proc.devRef .tc main_arg21) : (⟨S128x128, .f32⟩ : BufTy).Contents (Elt Ideal))))⟩] concatenates_S1x128x128_S1x128x128_S1x128x128_S1x128x128_S4x128x128_d0 := by
  after_results_simp <;> rfl

end Cert.KernelIdeal.HostTerms

end
-- ==== Proof.KernelIdealHostTerms1d.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 1's operations composed: what they leave in `main_v89`, as a term of the contents `X` the stretch starts from. -/
theorem ops1_v89 (X : Valuation τ sig (Elt Ideal)) :
    (StableHlo.after hostOps1 X (Proc.devRef .tc main_v89) : (⟨S4x1x128, .f32⟩ : BufTy).Contents (Elt Ideal))
      = shapeCast S4x1x128 (concatenate S4x128 0 [⟨S1x128, (broadcastInDim S1x128 ![1] bcast_S128_S1x128_1 ((X (Proc.devRef .tc main_arg12) : (⟨S128, .f32⟩ : BufTy).Contents (Elt Ideal))))⟩, ⟨S1x128, (broadcastInDim S1x128 ![1] bcast_S128_S1x128_1 ((X (Proc.devRef .tc main_arg16) : (⟨S128, .f32⟩ : BufTy).Contents (Elt Ideal))))⟩, ⟨S1x128, (broadcastInDim S1x128 ![1] bcast_S128_S1x128_1 ((X (Proc.devRef .tc main_arg20) : (⟨S128, .f32⟩ : BufTy).Contents (Elt Ideal))))⟩, ⟨S1x128, (broadcastInDim S1x128 ![1] bcast_S128_S1x128_1 ((X (Proc.devRef .tc main_arg24) : (⟨S128, .f32⟩ : BufTy).Contents (Elt Ideal))))⟩] concatenates_S1x128_S1x128_S1x128_S1x128_S4x128_d0) shapeCasts_S4x128_S4x1x128 := by
  after_results_simp <;> rfl

end Cert.KernelIdeal.HostTerms

end
-- ==== Proof.KernelIdealHostTerms1e.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 1's operations composed: what they leave in `main_v100`, as a term of the contents `X` the stretch starts from. -/
theorem ops1_v100 (X : Valuation τ sig (Elt Ideal)) :
    (StableHlo.after hostOps1 X (Proc.devRef .tc main_v100) : (⟨S4x1x128, .f32⟩ : BufTy).Contents (Elt Ideal))
      = shapeCast S4x1x128 (concatenate S4x128 0 [⟨S1x128, (broadcastInDim S1x128 ![1] bcast_S128_S1x128_1 ((X (Proc.devRef .tc main_arg10) : (⟨S128, .f32⟩ : BufTy).Contents (Elt Ideal))))⟩, ⟨S1x128, (broadcastInDim S1x128 ![1] bcast_S128_S1x128_1 ((X (Proc.devRef .tc main_arg14) : (⟨S128, .f32⟩ : BufTy).Contents (Elt Ideal))))⟩, ⟨S1x128, (broadcastInDim S1x128 ![1] bcast_S128_S1x128_1 ((X (Proc.devRef .tc main_arg18) : (⟨S128, .f32⟩ : BufTy).Contents (Elt Ideal))))⟩, ⟨S1x128, (broadcastInDim S1x128 ![1] bcast_S128_S1x128_1 ((X (Proc.devRef .tc main_arg22) : (⟨S128, .f32⟩ : BufTy).Contents (Elt Ideal))))⟩] concatenates_S1x128_S1x128_S1x128_S1x128_S4x128_d0) shapeCasts_S4x128_S4x1x128 := by
  after_results_simp <;> rfl

end Cert.KernelIdeal.HostTerms

end
-- ==== Proof.KernelIdealHostTerms2.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 2's operations composed: what they leave in `main_v132`, as a term of the contents `X` the stretch starts from. -/
theorem ops2_v132 (X : Valuation τ sig (Elt Ideal)) :
    (StableHlo.after hostOps2 X (Proc.devRef .tc main_v132) : (⟨S1000x128, .f32⟩ : BufTy).Contents (Elt Ideal))
      = mulf (Host.scatterAdd scatter_S1000x128_S300000x1_S300000x128_1_0_0_1 (broadcastInDim S1000x128 ![] bcast_S_S1000x128 (constant (F := Ideal) S_ .f32 0x00000000#32)) (broadcastInDim S300000x1 ![0] bcast_S300000_S300000x1_0 ((X (Proc.devRef .tc main_arg40) : (⟨S300000, .i32⟩ : BufTy).Contents (Elt Ideal)))) (Host.gather gather_S20000x128_S300000x1_S300000x128_1_0_n_n_0_1_1128 (mulf ((X (Proc.devRef .tc main_v101) : (⟨S20000x128, .f32⟩ : BufTy).Contents (Elt Ideal))) (broadcastInDim S20000x128 ![0, 1] bcast_S20000x1_S20000x128_0_1 (broadcastInDim S20000x1 ![0] bcast_S20000_S20000x1_0 (Host.powf (maximumf (Host.scatterAdd scatter_S20000_S300000x1_S300000_n_0_0_1 (broadcastInDim S20000 ![] bcast_S_S20000 (constant (F := Ideal) S_ .f32 0x00000000#32)) (broadcastInDim S300000x1 ![0] bcast_S300000_S300000x1_0 ((X (Proc.devRef .tc main_arg39) : (⟨S300000, .i32⟩ : BufTy).Contents (Elt Ideal)))) (broadcastInDim S300000 ![] bcast_S_S300000 (constant (F := Ideal) S_ .f32 0x3F800000#32))) (broadcastInDim S20000 ![] bcast_S_S20000 (constant (F := Ideal) S_ .f32 0x3F800000#32))) (broadcastInDim S20000 ![] bcast_S_S20000 (constant (F := Ideal) S_ .f32 0xBF000000#32)))))) (broadcastInDim S300000x1 ![0] bcast_S300000_S300000x1_0 (select (cmpi .slt ((X (Proc.devRef .tc main_arg39) : (⟨S300000, .i32⟩ : BufTy).Contents (Elt Ideal))) (broadcastInDim S300000 ![] bcast_S_S300000 (constantI S_ 32 0#32))) (addi ((X (Proc.devRef .tc main_arg39) : (⟨S300000, .i32⟩ : BufTy).Contents (Elt Ideal))) (broadcastInDim S300000 ![] bcast_S_S300000 (constantI S_ 32 20000#32))) ((X (Proc.devRef .tc main_arg39) : (⟨S300000, .i32⟩ : BufTy).Contents (Elt Ideal))))))) (broadcastInDim S1000x128 ![0, 1] bcast_S1000x1_S1000x128_0_1 (broadcastInDim S1000x1 ![0] bcast_S1000_S1000x1_0 (Host.powf (maximumf (Host.scatterAdd scatter_S1000_S300000x1_S300000_n_0_0_1 (broadcastInDim S1000 ![] bcast_S_S1000 (constant (F := Ideal) S_ .f32 0x00000000#32)) (broadcastInDim S300000x1 ![0] bcast_S300000_S300000x1_0 ((X (Proc.devRef .tc main_arg40) : (⟨S300000, .i32⟩ : BufTy).Contents (Elt Ideal)))) (broadcastInDim S300000 ![] bcast_S_S300000 (constant (F := Ideal) S_ .f32 0x3F800000#32))) (broadcastInDim S1000 ![] bcast_S_S1000 (constant (F := Ideal) S_ .f32 0x3F800000#32))) (broadcastInDim S1000 ![] bcast_S_S1000 (constant (F := Ideal) S_ .f32 0xBF000000#32))))) := by
  after_results_simp <;> rfl

set_option maxHeartbeats 8000000 in
/-- Stretch 2's operations composed: what they leave in `main_v133`, as a term of the contents `X` the stretch starts from. -/
theorem ops2_v133 (X : Valuation τ sig (Elt Ideal)) :
    (StableHlo.after hostOps2 X (Proc.devRef .tc main_v133) : (⟨S1x128, .f32⟩ : BufTy).Contents (Elt Ideal))
      = shapeCast S1x128 ((X (Proc.devRef .tc main_arg26) : (⟨S128, .f32⟩ : BufTy).Contents (Elt Ideal))) shapeCasts_S128_S1x128 := by
  after_results_simp <;> rfl

end Cert.KernelIdeal.HostTerms

end
-- ==== Proof.KernelIdealHostTerms3a.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 3's operations composed: what they leave in `main_v195`, as a term of the contents `X` the stretch starts from. -/
theorem ops3_v195 (X : Valuation τ sig (Elt Ideal)) :
    (StableHlo.after hostOps3 X (Proc.devRef .tc main_v195) : (⟨S200000x256, .f32⟩ : BufTy).Contents (Elt Ideal))
      = concatenate S200000x256 0 [⟨S50000x256, (concatenate S50000x256 1 [⟨S50000x128, (Host.gather gather_S20000x128_S50000x1_S50000x128_1_0_n_n_0_1_1128 ((X (Proc.devRef .tc main_v101) : (⟨S20000x128, .f32⟩ : BufTy).Contents (Elt Ideal))) (broadcastInDim S50000x1 ![0] bcast_S50000_S50000x1_0 (select (cmpi .slt ((X (Proc.devRef .tc main_arg41) : (⟨S50000, .i32⟩ : BufTy).Contents (Elt Ideal))) (broadcastInDim S50000 ![] bcast_S_S50000 (constantI S_ 32 0#32))) (addi ((X (Proc.devRef .tc main_arg41) : (⟨S50000, .i32⟩ : BufTy).Contents (Elt Ideal))) (broadcastInDim S50000 ![] bcast_S_S50000 (constantI S_ 32 20000#32))) ((X (Proc.devRef .tc main_arg41) : (⟨S50000, .i32⟩ : BufTy).Contents (Elt Ideal))))))⟩, ⟨S50000x128, (Host.gather gather_S1000x128_S50000x1_S50000x128_1_0_n_n_0_1_1128 ((X (Proc.devRef .tc main_v134) : (⟨S1000x128, .f32⟩ : BufTy).Contents (Elt Ideal))) (broadcastInDim S50000x1 ![0] bcast_S50000_S50000x1_0 (select (cmpi .slt ((X (Proc.devRef .tc main_arg42) : (⟨S50000, .i32⟩ : BufTy).Contents (Elt Ideal))) (broadcastInDim S50000 ![] bcast_S_S50000 (constantI S_ 32 0#32))) (addi ((X (Proc.devRef .tc main_arg42) : (⟨S50000, .i32⟩ : BufTy).Contents (Elt Ideal))) (broadcastInDim S50000 ![] bcast_S_S50000 (constantI S_ 32 1000#32))) ((X (Proc.devRef .tc main_arg42) : (⟨S50000, .i32⟩ : BufTy).Contents (Elt Ideal))))))⟩] concatenates_S50000x128_S50000x128_S50000x256_d1)⟩, ⟨S50000x256, (concatenate S50000x256 1 [⟨S50000x128, (Host.gather gather_S20000x128_S50000x1_S50000x128_1_0_n_n_0_1_1128 ((X (Proc.devRef .tc main_v101) : (⟨S20000x128, .f32⟩ : BufTy).Contents (Elt Ideal))) (broadcastInDim S50000x1 ![0] bcast_S50000_S50000x1_0 (select (cmpi .slt ((X (Proc.devRef .tc main_arg41) : (⟨S50000, .i32⟩ : BufTy).Contents (Elt Ideal))) (broadcastInDim S50000 ![] bcast_S_S50000 (constantI S_ 32 0#32))) (addi ((X (Proc.devRef .tc main_arg41) : (⟨S50000, .i32⟩ : BufTy).Contents (Elt Ideal))) (broadcastInDim S50000 ![] bcast_S_S50000 (constantI S_ 32 20000#32))) ((X (Proc.devRef .tc main_arg41) : (⟨S50000, .i32⟩ : BufTy).Contents (Elt Ideal))))))⟩, ⟨S50000x128, (Host.gather gather_S1000x128_S50000x1_S50000x128_1_0_n_n_0_1_1128 ((X (Proc.devRef .tc main_v134) : (⟨S1000x128, .f32⟩ : BufTy).Contents (Elt Ideal))) (broadcastInDim S50000x1 ![0] bcast_S50000_S50000x1_0 (select (cmpi .slt ((X (Proc.devRef .tc main_arg43) : (⟨S50000, .i32⟩ : BufTy).Contents (Elt Ideal))) (broadcastInDim S50000 ![] bcast_S_S50000 (constantI S_ 32 0#32))) (addi ((X (Proc.devRef .tc main_arg43) : (⟨S50000, .i32⟩ : BufTy).Contents (Elt Ideal))) (broadcastInDim S50000 ![] bcast_S_S50000 (constantI S_ 32 1000#32))) ((X (Proc.devRef .tc main_arg43) : (⟨S50000, .i32⟩ : BufTy).Contents (Elt Ideal))))))⟩] concatenates_S50000x128_S50000x128_S50000x256_d1)⟩, ⟨S50000x256, (concatenate S50000x256 1 [⟨S50000x128, (Host.gather gather_S20000x128_S50000x1_S50000x128_1_0_n_n_0_1_1128 ((X (Proc.devRef .tc main_v101) : (⟨S20000x128, .f32⟩ : BufTy).Contents (Elt Ideal))) (broadcastInDim S50000x1 ![0] bcast_S50000_S50000x1_0 (select (cmpi .slt ((X (Proc.devRef .tc main_arg45) : (⟨S50000, .i32⟩ : BufTy).Contents (Elt Ideal))) (broadcastInDim S50000 ![] bcast_S_S50000 (constantI S_ 32 0#32))) (addi ((X (Proc.devRef .tc main_arg45) : (⟨S50000, .i32⟩ : BufTy).Contents (Elt Ideal))) (broadcastInDim S50000 ![] bcast_S_S50000 (constantI S_ 32 20000#32))) ((X (Proc.devRef .tc main_arg45) : (⟨S50000, .i32⟩ : BufTy).Contents (Elt Ideal))))))⟩, ⟨S50000x128, (Host.gather gather_S1000x128_S50000x1_S50000x128_1_0_n_n_0_1_1128 ((X (Proc.devRef .tc main_v134) : (⟨S1000x128, .f32⟩ : BufTy).Contents (Elt Ideal))) (broadcastInDim S50000x1 ![0] bcast_S50000_S50000x1_0 (select (cmpi .slt ((X (Proc.devRef .tc main_arg44) : (⟨S50000, .i32⟩ : BufTy).Contents (Elt Ideal))) (broadcastInDim S50000 ![] bcast_S_S50000 (constantI S_ 32 0#32))) (addi ((X (Proc.devRef .tc main_arg44) : (⟨S50000, .i32⟩ : BufTy).Contents (Elt Ideal))) (broadcastInDim S50000 ![] bcast_S_S50000 (constantI S_ 32 1000#32))) ((X (Proc.devRef .tc main_arg44) : (⟨S50000, .i32⟩ : BufTy).Contents (Elt Ideal))))))⟩] concatenates_S50000x128_S50000x128_S50000x256_d1)⟩, ⟨S50000x256, (concatenate S50000x256 1 [⟨S50000x128, (Host.gather gather_S20000x128_S50000x1_S50000x128_1_0_n_n_0_1_1128 ((X (Proc.devRef .tc main_v101) : (⟨S20000x128, .f32⟩ : BufTy).Contents (Elt Ideal))) (broadcastInDim S50000x1 ![0] bcast_S50000_S50000x1_0 (select (cmpi .slt ((X (Proc.devRef .tc main_arg46) : (⟨S50000, .i32⟩ : BufTy).Contents (Elt Ideal))) (broadcastInDim S50000 ![] bcast_S_S50000 (constantI S_ 32 0#32))) (addi ((X (Proc.devRef .tc main_arg46) : (⟨S50000, .i32⟩ : BufTy).Contents (Elt Ideal))) (broadcastInDim S50000 ![] bcast_S_S50000 (constantI S_ 32 20000#32))) ((X (Proc.devRef .tc main_arg46) : (⟨S50000, .i32⟩ : BufTy).Contents (Elt Ideal))))))⟩, ⟨S50000x128, (Host.gather gather_S1000x128_S50000x1_S50000x128_1_0_n_n_0_1_1128 ((X (Proc.devRef .tc main_v134) : (⟨S1000x128, .f32⟩ : BufTy).Contents (Elt Ideal))) (broadcastInDim S50000x1 ![0] bcast_S50000_S50000x1_0 (select (cmpi .slt ((X (Proc.devRef .tc main_arg44) : (⟨S50000, .i32⟩ : BufTy).Contents (Elt Ideal))) (broadcastInDim S50000 ![] bcast_S_S50000 (constantI S_ 32 0#32))) (addi ((X (Proc.devRef .tc main_arg44) : (⟨S50000, .i32⟩ : BufTy).Contents (Elt Ideal))) (broadcastInDim S50000 ![] bcast_S_S50000 (constantI S_ 32 1000#32))) ((X (Proc.devRef .tc main_arg44) : (⟨S50000, .i32⟩ : BufTy).Contents (Elt Ideal))))))⟩] concatenates_S50000x128_S50000x128_S50000x256_d1)⟩] concatenates_S50000x256_S50000x256_S50000x256_S50000x256_S200000x256_d0 := by
  after_results_simp <;> rfl

end Cert.KernelIdeal.HostTerms

end
-- ==== Proof.KernelIdealHostTerms3b.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 3's operations composed: what they leave in `main_v196`, as a term of the contents `X` the stretch starts from. -/
theorem ops3_v196 (X : Valuation τ sig (Elt Ideal)) :
    (StableHlo.after hostOps3 X (Proc.devRef .tc main_v196) : (⟨S1x256, .f32⟩ : BufTy).Contents (Elt Ideal))
      = shapeCast S1x256 ((X (Proc.devRef .tc main_arg28) : (⟨S256, .f32⟩ : BufTy).Contents (Elt Ideal))) shapeCasts_S256_S1x256 := by
  after_results_simp <;> rfl

set_option maxHeartbeats 8000000 in
/-- Stretch 3's operations composed: what they leave in `main_v197`, as a term of the contents `X` the stretch starts from. -/
theorem ops3_v197 (X : Valuation τ sig (Elt Ideal)) :
    (StableHlo.after hostOps3 X (Proc.devRef .tc main_v197) : (⟨S1x1, .f32⟩ : BufTy).Contents (Elt Ideal))
      = shapeCast S1x1 ((X (Proc.devRef .tc main_arg30) : (⟨S1, .f32⟩ : BufTy).Contents (Elt Ideal))) shapeCasts_S1_S1x1 := by
  after_results_simp <;> rfl

end Cert.KernelIdeal.HostTerms

end
-- ==== Proof.KernelIdealHostTerms4.lean ====
/-
  A host stretch of the kernel's program read as a term: what the stretch's operations leave in a buffer the next region
  reads (or the program returns), as one composed term of the contents the stretch starts from. The right-hand side is the
  printed operations substituted into one another in order; the contents the stretch starts from are a variable, so the
  equation is about the operations alone.
-/
import proofs.«144146_j85358180041108_1_alg».proof.Proof.Gen.KernelIdeal.Launch
import Idealize.ShloMosaic.Lib.StableHlo.Run
import Idealize.ShloMosaic.PureOps.Ideal.Laws

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo

set_option maxHeartbeats 8000000 in
/-- Stretch 4's operations composed: what they leave in `main_v203`, as a term of the contents `X` the stretch starts from. -/
theorem ops4_v203 (X : Valuation τ sig (Elt Ideal)) :
    (StableHlo.after hostOps4 X (Proc.devRef .tc main_v203) : (⟨S50000x1, .f32⟩ : BufTy).Contents (Elt Ideal))
      = (subf (extractStridedSlice S50000x1 ![0, 0] ((X (Proc.devRef .tc main_v198) : (⟨S200000x1, .f32⟩ : BufTy).Contents (Elt Ideal))) slices_S200000x1_S50000x1_0_0) (extractStridedSlice S50000x1 ![50000, 0] ((X (Proc.devRef .tc main_v198) : (⟨S200000x1, .f32⟩ : BufTy).Contents (Elt Ideal))) slices_S200000x1_S50000x1_50000_0) : FVec Ideal S50000x1 .f32) := by
  after_results_simp <;> rfl

set_option maxHeartbeats 8000000 in
/-- Stretch 4's operations composed: what they leave in `main_v204`, as a term of the contents `X` the stretch starts from. -/
theorem ops4_v204 (X : Valuation τ sig (Elt Ideal)) :
    (StableHlo.after hostOps4 X (Proc.devRef .tc main_v204) : (⟨S50000x1, .f32⟩ : BufTy).Contents (Elt Ideal))
      = (subf (extractStridedSlice S50000x1 ![100000, 0] ((X (Proc.devRef .tc main_v198) : (⟨S200000x1, .f32⟩ : BufTy).Contents (Elt Ideal))) slices_S200000x1_S50000x1_100000_0) (extractStridedSlice S50000x1 ![150000, 0] ((X (Proc.devRef .tc main_v198) : (⟨S200000x1, .f32⟩ : BufTy).Contents (Elt Ideal))) slices_S200000x1_S50000x1_150000_0) : FVec Ideal S50000x1 .f32) := by
  after_results_simp <;> rfl

end Cert.KernelIdeal.HostTerms

end
-- ==== Proof.KernelIdealHostTerms.lean ====
/-
  The host stretches of the kernel's program read as terms, collected: one module per buffer read.
-/
import proofs.«144146_j85358180041108_1_alg».proof.Proof.KernelIdealHostTerms0
import proofs.«144146_j85358180041108_1_alg».proof.Proof.KernelIdealHostTerms1a
import proofs.«144146_j85358180041108_1_alg».proof.Proof.KernelIdealHostTerms1b
import proofs.«144146_j85358180041108_1_alg».proof.Proof.KernelIdealHostTerms1c
import proofs.«144146_j85358180041108_1_alg».proof.Proof.KernelIdealHostTerms1d
import proofs.«144146_j85358180041108_1_alg».proof.Proof.KernelIdealHostTerms1e
import proofs.«144146_j85358180041108_1_alg».proof.Proof.KernelIdealHostTerms2
import proofs.«144146_j85358180041108_1_alg».proof.Proof.KernelIdealHostTerms3a
import proofs.«144146_j85358180041108_1_alg».proof.Proof.KernelIdealHostTerms3b
import proofs.«144146_j85358180041108_1_alg».proof.Proof.KernelIdealHostTerms4
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«144146_j85358180041108_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibConvBlock.lean ====
/-
  A block of rows of a graph-convolution layer, over the extended reals.

  The layer is Y = (A · W_l + B) + H · W_r, where B repeats one bias row over all rows, optionally followed by the rectifier
  max(·, 0). Rows off, …, off + m - 1 of Y depend on those rows of A and H and on all of W_l, W_r and the bias row only. So a
  kernel that computes one block of m rows at a time — each product accumulated into zero, the bias row repeated over the
  block's rows — writes, block by block, the host's whole-array layer: at a block index j its value is Y read where the
  result block puts j. The same holds for the plain linear layer X · W + B. How a block sits in its array is left to index
  maps of which only the coordinates are assumed (rows shifted by `off`, columns kept). Addition is never reordered, so
  nothing is assumed finite.
-/
import proofs.«144146_j85358180041108_1_alg».proof.Proof.LibRowBlockProduct
import proofs.«144146_j85358180041108_1_alg».proof.Proof.LibHostSpread
import Idealize.ShloMosaic.Lib.ValueIdx
import Idealize.ShloMosaic.Lib.ValueLayout

noncomputable section

namespace Cert.Lib

open Idealize.ShloMosaic Idealize.ShloMosaic.ValueIdx

/-- One bias row repeated over the rows of a block, read at a block index `j`, is the row repeated over the rows of the whole
    array read where the block puts `j`: both read the row at `j`'s column. -/
theorem bias_row_block {m M n : Nat} (brow : (⟨2, ![1, n]⟩ : Shape).Idx → EReal)
    (eo : (⟨2, ![m, n]⟩ : Shape).Idx → (⟨2, ![M, n]⟩ : Shape).Idx)
    (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    broadcastTo ⟨2, ![m, n]⟩ brow hk j = broadcastInDim ⟨2, ![M, n]⟩ ![0, 1] hh brow (eo j) := by
  obtain ⟨a, b, rfl⟩ : ∃ (a : Fin m) (b : Fin n), j = ix2 a b := ⟨j 0, j 1, eq_ix2 j⟩
  obtain ⟨a', b', hab⟩ : ∃ (a' : Fin M) (b' : Fin n), eo (ix2 a b) = ix2 a' b' :=
    ⟨eo (ix2 a b) 0, eo (ix2 a b) 1, eq_ix2 _⟩
  have hb' : b' = b := Fin.ext (by have := heo1 (ix2 a b); rw [hab] at this; exact this)
  rw [hab, broadcastTo_1b_ab_apply, spread_1b_ab_apply, hb']

/-- x · w + (the bias row over the block) on an m-row block, the product accumulated into zero, read at a block index `j`, is
    X · w + (the bias row over the array) read where the result block puts `j`. -/
theorem linear_row_block {m M k n : Nat} {φ₁ φ₂ : FTy} (prec : Option ContractPrecision)
    (x : FVec Ideal ⟨2, ![m, k]⟩ φ₁) (w : FVec Ideal ⟨2, ![k, n]⟩ φ₂) (brow : FVec Ideal ⟨2, ![1, n]⟩ .f32)
    (X : FVec Ideal ⟨2, ![M, k]⟩ φ₁)
    (ex : (⟨2, ![m, k]⟩ : Shape).Idx → (⟨2, ![M, k]⟩ : Shape).Idx)
    (eo : (⟨2, ![m, n]⟩ : Shape).Idx → (⟨2, ![M, n]⟩ : Shape).Idx) (off : Nat)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec x w (constant ⟨2, ![m, n]⟩ .f32 0x00000000#32))
        (broadcastTo ⟨2, ![m, n]⟩ brow hk) j
      = addf (Host.dotGeneral (DotDims.plain M k n) prec X w) (broadcastInDim ⟨2, ![M, n]⟩ ![0, 1] hh brow) (eo j) := by
  rw [addf_apply, addf_apply,
    plain_product_row_block prec x w X w ex id eo off hx (fun _ => rfl) hex0 hex1 (fun _ => rfl) (fun _ => rfl) heo0 heo1 j,
    bias_row_block brow eo heo1 hk hh j]

/-- (a · w_l + bias row) + h · w_r on an m-row block, both products accumulated into zero, read at a block index `j`, is
    (A · w_l + bias row) + H · w_r read where the result block puts `j`. -/
theorem conv_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (addf (matmul (DotDims.plain m k n) prec xa wl (constant ⟨2, ![m, n]⟩ .f32 0x00000000#32))
          (broadcastTo ⟨2, ![m, n]⟩ brow hk))
        (matmul (DotDims.plain m k n) prec xh wr (constant ⟨2, ![m, n]⟩ .f32 0x00000000#32)) j
      = addf (addf (Host.dotGeneral (DotDims.plain M k n) prec A wl) (broadcastInDim ⟨2, ![M, n]⟩ ![0, 1] hh brow))
          (Host.dotGeneral (DotDims.plain M k n) prec H wr) (eo j) := by
  rw [addf_apply, addf_apply (addf _ _) _ (eo j),
    linear_row_block prec xa wl brow A ea eo off hxa hea0 hea1 heo0 heo1 hk hh j,
    plain_product_row_block prec xh wr H wr eh id eo off hxh (fun _ => rfl) heh0 heh1 (fun _ => rfl) (fun _ => rfl) heo0 heo1 j]

/-- The rectified layer: max((a · w_l + bias row) + h · w_r, z) on an m-row block against a splat of the constant `z`, read at
    a block index `j`, is the host's max of the whole-array layer and its spread of `z`, read where the result block puts `j`. -/
theorem conv_relu_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (addf (matmul (DotDims.plain m k n) prec xa wl (constant ⟨2, ![m, n]⟩ .f32 0x00000000#32))
            (broadcastTo ⟨2, ![m, n]⟩ brow hk))
          (matmul (DotDims.plain m k n) prec xh wr (constant ⟨2, ![m, n]⟩ .f32 0x00000000#32)))
        (broadcast ⟨2, ![m, n]⟩ (Scalar.ofBits (F := Ideal) .f32 z)) j
      = maximumf (addf (addf (Host.dotGeneral (DotDims.plain M k n) prec A wl) (broadcastInDim ⟨2, ![M, n]⟩ ![0, 1] hh brow))
            (Host.dotGeneral (DotDims.plain M k n) prec H wr))
          (broadcastInDim ⟨2, ![M, n]⟩ ![] hz (constant ⟨0, ![]⟩ .f32 z)) (eo j) := by
  rw [maximumf_apply, maximumf_apply,
    conv_row_block prec xa xh wl wr brow A H ea eh eo off hxa hxh hea0 hea1 heh0 heh1 heo0 heo1 hk hh j, splat_apply]
  rfl

end Cert.Lib

end
-- ==== Proof.LibKernelHostForms.lean ====
/-
  Three kernel-side operations and the host operations they are, as whole arrays over the extended reals.

  A kernel's matrix product of operands rounded to bf16, accumulated into zero, is the host's dot_general of the
  unrounded operands, for any dimension numbers: rounding is the identity on the extended reals and both products are
  the sum over the contracted coordinates. A [1, b] row broadcast over [a, b] by the kernel's vector broadcast is the
  host's broadcast_in_dim along dimensions [0, 1]. A scalar constant splat over an array by the kernel is the host's
  broadcast of the constant scalar.
-/
import proofs.«144146_j85358180041108_1_alg».proof.Proof.LibHostSpread
import Idealize.ShloMosaic.Lib.Pipeline.Value
import Idealize.ShloMosaic.Lib.ValueIdx
import Idealize.ShloMosaic.Lib.ValueLayout
import Idealize.ShloMosaic.PureOps.Ideal.Laws

noncomputable section

namespace Cert.Lib

open Idealize.ShloMosaic Idealize.ShloMosaic.ValueIdx

/-- A product into the zero accumulator of operands rounded to bf16 is the host's product of the operands: rounding is
    the identity on the extended reals, and both products are the sum over the contracted coordinate. -/
theorem rounded_product {sl sr so : Shape} (d : DotDims sl sr so) (prec : Option ContractPrecision)
    (a : FVec Ideal sl .f32) (b : FVec Ideal sr .f32) (h1 : FTy.bf16.bits < FTy.f32.bits) (h2 : FTy.bf16.bits < FTy.f32.bits) :
    matmul d prec (truncf .bf16 a h1) (truncf .bf16 b h2) (constant so .f32 0x00000000#32) = Host.dotGeneral d prec a b := by
  funext j
  exact (Ideal.matmul_constant_zero_apply d prec (truncf .bf16 a h1) (truncf .bf16 b h2) j).trans
    (Ideal.dotGeneral_apply d prec default a b j).symm

/-- One row spread over many rows, by the kernel's broadcast and by the host's, is the same array. -/
theorem row_spread {α : Type} {a b : ℕ} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ (![0, 1] : Fin 2 → Fin 2)) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [broadcastTo_1b_ab_apply, spread_1b_ab_apply]

/-- A scalar constant spread over an array, by the kernel's splat and by the host's, is the same array. -/
theorem zero_splat {t : Shape} (w : BitVec 32) (h : (⟨0, ![]⟩ : Shape).BroadcastsInDim t (![] : Fin 0 → Fin t.rank)) :
    (broadcast t (Scalar.ofBits (F := Ideal) .f32 w) : FVec Ideal t .f32) = broadcastInDim t ![] h (constant ⟨0, ![]⟩ .f32 w) := by
  funext j
  rw [splat_apply]
  rfl

end Cert.Lib

end
-- ==== Proof.KernelIdealValue0.lean ====
/-
  The value of region 0: the first dense layer as one array.

  The region's grid has 8 points; point t multiplies rows 1000·t … 1000·t+999 of the [8000,1024] feature array by the
  transpose of the [128,1024] weight array and adds the [1,128] bias row to every row, writing rows 1000·t … 1000·t+999
  of the [8000,128] result. A row of a matrix product depends only on the same row of the left factor, so each point's
  block is the block of the whole-array layer X · Wᵀ + b. The 8 blocks tile the result's rows (row r lies in the block of
  point r / 1000), so after the region the result array is that layer of the arrays the region found. Rounding the
  operands on the way into the product is the identity on the extended reals, and no sum is reordered, so nothing is
  assumed finite.
-/
import proofs.«144146_j85358180041108_1_alg».proof.Proof.KernelIdealRegion0
import proofs.«144146_j85358180041108_1_alg».proof.Proof.LibConvBlock
import proofs.«144146_j85358180041108_1_alg».proof.Proof.LibKernelHostForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value0

open Cert.KernelIdeal Cert.KernelIdeal.Gen Cert.KernelIdeal.Region0
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block of rows a point's product is, read at a block index, is the whole-array layer read where the result block
    puts the index: the rows of the feature block are rows off … of the feature array, the weight and the bias row are
    whole. -/
theorem pay0_at (x0 : Vec Ideal S1000x1024 .f32) (x1 : Vec Ideal S128x1024 .f32) (x2 : Vec Ideal S1x128 .f32)
    (X : FVec Ideal S8000x1024 .f32) (W : FVec Ideal S128x1024 .f32) (B : FVec Ideal S1x128 .f32)
    (ex : S1000x1024.Idx → S8000x1024.Idx) (eo : S1000x128.Idx → S8000x128.Idx) (off : Nat)
    (hx : ∀ y, x0 y = X (ex y)) (hw : x1 = W) (hb : x2 = B)
    (hex0 : ∀ y, (ex y 0).val = off + (y 0).val) (hex1 : ∀ y, (ex y 1).val = (y 1).val)
    (heo0 : ∀ y, (eo y 0).val = off + (y 0).val) (heo1 : ∀ y, (eo y 1).val = (y 1).val)
    (h1 : S128x1024.Transposes [1, 0] S1024x128)
    (h2 : S1x128.BroadcastsInDim S8000x128 (![0, 1] : Fin 2 → Fin 2))
    (j : S1000x128.Idx) :
    k0_pay1 x0 x1 x2 j
      = addf (Host.dotGeneral (DotDims.plain 8000 1024 128) none X (transpose S1024x128 [1, 0] W h1))
          (broadcastInDim S8000x128 ![0, 1] h2 B) (eo j) := by
  subst hw; subst hb
  unfold k0_pay1
  dsimp only
  rw [shapeCast_self]
  exact Cert.Lib.linear_row_block none x0 (transpose S1024x128 [1, 0] x1 h1) x2 X ex eo off hx hex0 hex1 heo0 heo1
    broadcasts_S1x128_S1000x128 h2 j

/-- The windows' index maps over the grid: the feature window and the result window are at row block t, the weight and the
    bias row at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The layer as one array of a feature array, a weight array and a bias row. -/
abbrev G0 (X : FVec Ideal S8000x1024 .f32) (W : FVec Ideal S128x1024 .f32) (B : FVec Ideal S1x128 .f32)
    (h1 : S128x1024.Transposes [1, 0] S1024x128)
    (h2 : S1x128.BroadcastsInDim S8000x128 (![0, 1] : Fin 2 → Fin 2)) : FVec Ideal S8000x128 .f32 :=
  addf (Host.dotGeneral (DotDims.plain 8000 1024 128) none X (transpose S1024x128 [1, 0] W h1))
    (broadcastInDim S8000x128 ![0, 1] h2 B)

/-- The weight window's block is the whole weight array at every point. -/
theorem iblk0_1_eq (c : Dev nD) (t : Fin cfg0.N) :
    (iblk0 V c 1 t : FVec Ideal S128x1024 .f32) = (V c main_arg7 : FVec Ideal S128x1024 .f32) := by
  obtain ⟨-, -, e2, e3, -, -, -, -⟩ := idx_facts0 t
  funext y
  unfold iblk0
  rw [View.read_apply]
  show V c main_arg7 (((cfg0.win 1).blk t).view.emb y) = V c main_arg7 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 1024 + 1 * (y 1).val = (y 1).val; omega

/-- The bias window's block is the whole bias row at every point. -/
theorem iblk0_2_eq (c : Dev nD) (t : Fin cfg0.N) :
    (iblk0 V c 2 t : FVec Ideal S1x128 .f32) = (V c main_v0 : FVec Ideal S1x128 .f32) := by
  obtain ⟨-, -, -, -, e4, e5, -, -⟩ := idx_facts0 t
  funext y
  unfold iblk0
  rw [View.read_apply]
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back is block t of the layer. -/
theorem flushed0_eq (c : Dev nD) (h1 : S128x1024.Transposes [1, 0] S1024x128)
    (h2 : S1x128.BroadcastsInDim S8000x128 (![0, 1] : Fin 2 → Fin 2)) (t : Fin cfg0.N) :
    (dat0 V c).flushed 3 t = ((cfg0.win 3).blk t).view.read (Elt Ideal) (G0 (V c main_arg1) (V c main_arg7) (V c main_v0) h1 h2) := by
  show (cfg0.win 3).cut (grid0.coords t) ((dat0 V c).after 3 t) = _
  rw [after0_3]
  unfold out0_3
  rw [View.canon_unit_zero hz]
  simp only [View.ld_unit_zero (S := S1000x1024) hz, View.ld_unit_zero (S := S128x1024) hz, View.ld_unit_zero (S := S1x128) hz]
  obtain ⟨e0, e1, -, -, -, -, e6, e7⟩ := idx_facts0 t
  funext j
  show k0_pay1 (iblk0 V c 0 t) (iblk0 V c 1 t) (iblk0 V c 2 t) j = G0 (V c main_arg1) (V c main_arg7) (V c main_v0) h1 h2 (((cfg0.win 3).blk t).view.emb j)
  exact pay0_at (iblk0 V c 0 t) (iblk0 V c 1 t) (iblk0 V c 2 t)
    (V c main_arg1 : FVec Ideal S8000x1024 .f32) (V c main_arg7 : FVec Ideal S128x1024 .f32) (V c main_v0 : FVec Ideal S1x128 .f32)
    (fun y => ((cfg0.win 0).blk t).view.emb y) (fun y => ((cfg0.win 3).blk t).view.emb y) (1000 * t.val)
    (fun y => rfl) (iblk0_1_eq V c t) (iblk0_2_eq V c t)
    (fun y => by show win0_0.index t (0 : Fin 2) * 1000 + 1 * (y 0).val = _; omega)
    (fun y => by show win0_0.index t (1 : Fin 2) * 1024 + 1 * (y 1).val = _; omega)
    (fun y => by show win0_3.index t (0 : Fin 2) * 1000 + 1 * (y 0).val = _; omega)
    (fun y => by show win0_3.index t (1 : Fin 2) * 128 + 1 * (y 1).val = _; omega)
    h1 h2 j

/-- An index of the result array is in point t's block iff each coordinate is in the block's range on its axis. -/
theorem mem_blk0 (t : Fin cfg0.N) (i : S8000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v1).slice (win0_3.rect t)).set ↔ _
  rw [View.set_slice_whole, Rect.mem_set_unit]
  exact Iff.rfl

/-- Every row r of the result is in the block of point r / 1000. -/
theorem cover0 (i : S8000x128.Idx) : ∃ t : Fin cfg0.N, (cfg0.win 3).flush t = true ∧ i ∈ ((cfg0.win 3).blk t).view.set := by
  have hi0 : (i 0).val < 8000 := (i 0).isLt
  have hi1 : (i 1).val < 128 := (i 1).isLt
  have hN : cfg0.N = 8 := N_0
  refine ⟨⟨(i 0).val / 1000, by omega⟩, flush0_3 _, ?_⟩
  rw [mem_blk0]
  obtain ⟨-, -, -, -, -, -, e6, e7⟩ := idx_facts0 ⟨(i 0).val / 1000, by omega⟩
  intro a
  match a with
  | ⟨0, _⟩ => show win0_3.index _ (0 : Fin 2) * 1000 ≤ (i 0).val ∧ (i 0).val < win0_3.index _ (0 : Fin 2) * 1000 + 1000; rw [e6]; show (i 0).val / 1000 * 1000 ≤ _ ∧ _ < (i 0).val / 1000 * 1000 + 1000; omega
  | ⟨1, _⟩ => show win0_3.index _ (1 : Fin 2) * 128 ≤ (i 1).val ∧ (i 1).val < win0_3.index _ (1 : Fin 2) * 128 + 128; rw [e7]; omega

/-- The result array after the region: the dense layer x · Wᵀ + b of the arrays the region found. -/
theorem arr0 (c : Dev nD) (h1 : S128x1024.Transposes [1, 0] S1024x128)
    (h2 : S1x128.BroadcastsInDim S8000x128 (![0, 1] : Fin 2 → Fin 2)) :
    ((dat0 V c).arrAt 3 cfg0.N : FVec Ideal S8000x128 .f32)
      = addf (Host.dotGeneral (φ₁ := .f32) (φ₂ := .f32) (DotDims.plain 8000 1024 128) none (V c main_arg1 : FVec Ideal S8000x1024 .f32)
          (transpose (α := Ideal .f32) S1024x128 [1, 0] (V c main_arg7 : FVec Ideal S128x1024 .f32) h1))
        (broadcastInDim (α := Ideal .f32) S8000x128 ![0, 1] h2 (V c main_v0 : FVec Ideal S1x128 .f32)) :=
  (dat0 V c).arrAt_eq_of_cover 3 (G0 (V c main_arg1) (V c main_arg7) (V c main_v0) h1 h2) (fun t _ => flushed0_eq V c h1 h2 t) cover0

end Cert.KernelIdeal.Value0
end
-- ==== Proof.KernelIdealValue1Pieces.lean ====
/-
  Region 1, what one grid point leaves, as arithmetic. Write term(x, hn, Ws, Wn, bs, bn) for the relation's contribution
  ((x · Wsᵀ + bs) + hn · Wnᵀ) + bn on a block of 2000 rows. Where the relation index is 0 the scratch ends at
  0 + term (the zero block is stored first and read back); where it is 1 or 2 at s + term, s what the scratch held; where
  it is 3 the scratch ends at s + term and the output buffer holds a copy of that. In each case the buffer is written by
  one store over the whole block, so what it holds is that store's value, and every load reads a whole buffer.
-/
import proofs.«144146_j85358180041108_1_alg».proof.Proof.KernelIdealRegion1
import Idealize.ShloMosaic.Lib.Pipeline.Value

set_option maxRecDepth 16384

noncomputable section

namespace Cert.KernelIdeal.Value1

open Cert.KernelIdeal Cert.KernelIdeal.Gen Cert.KernelIdeal.Region1
open Idealize.ShloMosaic Idealize.ShloMosaic.TcCoe Idealize.ShloMosaic.Tactic
open Idealize.SL.Sem

variable {F : FTy → Type} [FloatOps F]

/-- The offsets of a whole-block access, rank 2 and rank 3, are zero on every axis. -/
theorem hz : (![0, 0] : Fin 2 → Nat) = fun _ => 0 := funext fun a => by fin_cases a <;> rfl
theorem hz3 : (![0, 0, 0] : Fin 3 → Nat) = fun _ => 0 := funext fun a => by fin_cases a <;> rfl

/-- Relation index 1 or 2: the scratch ends at s + term of the point's blocks, s what it held before. -/
theorem sout_B (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) :
    sout1_B_0 c i arg2 harg2 arg3 harg3 arg4 harg4 arg5 harg5 arg6 harg6 arg7 harg7 arg8 harg8 arg9 harg9 hc0 hc1 x0 x1 x2 x3 x4 x5 xs0 = k1_pay2 x0 x1 x2 x4 x3 x5 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero hz]
  simp only [View.readAt_eq_ld, harg2.read_unread, harg3.read_unread, harg4.read_unread, harg5.read_unread, harg6.read_unread, harg7.read_unread, harg9.read_unread,
    View.ld_unit_zero (S := S2000x128) hz, View.ld_unit_zero (S := S1x2000x128) hz3, View.ld_unit_zero (S := S1x128x128) hz3, View.ld_unit_zero (S := S1x1x128) hz3]

/-- Relation index 0: the scratch ends at 0 + term of the point's blocks: the zero block stored first is what the sum
    starts from. -/
theorem sout_A (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : cond1_0 i) (hc1 : ¬cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) :
    sout1_A_0 c i arg2 harg2 arg3 harg3 arg4 harg4 arg5 harg5 arg6 harg6 arg7 harg7 arg8 harg8 arg9 harg9 hc0 hc1 x0 x1 x2 x3 x4 x5 = k1_pay2 x0 x1 x2 x4 x3 x5 k1_pay1 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S2000x128) hz, View.readCov_unit_zero (S := S2000x128) _ hz]
  simp only [View.readAt_eq_ld, harg2.read_unread, harg3.read_unread, harg4.read_unread, harg5.read_unread, harg6.read_unread, harg7.read_unread,
    View.ld_unit_zero (S := S2000x128) hz, View.ld_unit_zero (S := S1x2000x128) hz3, View.ld_unit_zero (S := S1x128x128) hz3, View.ld_unit_zero (S := S1x1x128) hz3]

/-- Relation index 3: the scratch ends at s + term of the point's blocks, s what it held before. -/
theorem sout_C (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) :
    sout1_C_0 c i arg2 harg2 arg3 harg3 arg4 harg4 arg5 harg5 arg6 harg6 arg7 harg7 arg8 harg8 arg9 harg9 hc0 hc1 x0 x1 x2 x3 x4 x5 xs0 = k1_pay2 x0 x1 x2 x4 x3 x5 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz]
  simp only [View.readAt_eq_ld, harg2.read_unread, harg3.read_unread, harg4.read_unread, harg5.read_unread, harg6.read_unread, harg7.read_unread, harg9.read_unread,
    View.ld_unit_zero (S := S2000x128) hz, View.ld_unit_zero (S := S1x2000x128) hz3, View.ld_unit_zero (S := S1x128x128) hz3, View.ld_unit_zero (S := S1x1x128) hz3]

/-- Relation index 3: the output buffer ends holding s + term too: it is stored with the scratch read back after the
    scratch's own store. -/
theorem out_C (c : Dev nD) (i : grid1.Coords) (arg2 : Memref sig .tc .vmem S2000x128 .f32) (harg2 : arg2.IsWhole) (arg3 : Memref sig .tc .vmem S1x2000x128 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S2000x128 .f32) (harg8 : arg8.IsWhole) (arg9 : Memref sig .tc .vmem S2000x128 .f32) (harg9 : arg9.IsWhole) (hc0 : ¬cond1_0 i) (hc1 : cond1_1 i)
    (x0 : Vec F S2000x128 .f32) (x1 : Vec F S1x2000x128 .f32) (x2 : Vec F S1x128x128 .f32) (x3 : Vec F S1x1x128 .f32) (x4 : Vec F S1x128x128 .f32) (x5 : Vec F S1x1x128 .f32) (xs0 : Vec F S2000x128 .f32) :
    out1_C_6 c i arg2 harg2 arg3 harg3 arg4 harg4 arg5 harg5 arg6 harg6 arg7 harg7 arg8 harg8 arg9 harg9 hc0 hc1 x0 x1 x2 x3 x4 x5 xs0 = k1_pay2 x0 x1 x2 x4 x3 x5 xs0 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz, View.readCov_unit_zero (S := S2000x128) _ hz]
  simp only [View.readAt_eq_ld, harg2.read_unread, harg3.read_unread, harg4.read_unread, harg5.read_unread, harg6.read_unread, harg7.read_unread, harg9.read_unread,
    View.ld_unit_zero (S := S2000x128) hz, View.ld_unit_zero (S := S1x2000x128) hz3, View.ld_unit_zero (S := S1x128x128) hz3, View.ld_unit_zero (S := S1x1x128) hz3]

end Cert.KernelIdeal.Value1

end
-- ==== Proof.KernelIdealValue1Term.lean ====
/-
  Region 1, the relation's term as a whole array, and a block of its rows.

  For one relation, with node features X [20000,128], neighbourhood means H [20000,128], weights Ws, Wn [128,128] and bias
  rows bs, bn [1,128], the term is T = ((X · Wsᵀ + bs) + H · Wnᵀ) + bn, the bias rows repeated over all rows. The four
  relations' operands are the members of arrays stacked along a leading axis of extent 4. Rows off, …, off + 1999 of T
  depend on those rows of X and H and on all of the weights and biases only, so the same expression of a 2000-row block of
  X and H (operands rounded to bf16 on the way into each product, which is the identity on the extended reals; each product
  accumulated into zero) is, at a block index j, T read where the block puts j. What one grid point adds to the scratch is
  that block. No addition is reordered, so nothing is assumed finite.
-/
import proofs.«144146_j85358180041108_1_alg».proof.Proof.Gen.KernelIdeal.Skeleton
import proofs.«144146_j85358180041108_1_alg».proof.Proof.LibConvBlock

noncomputable section

namespace Cert.KernelIdeal.Value1

open Cert.KernelIdeal Cert.KernelIdeal.Gen Cert.Lib
open Idealize.ShloMosaic Idealize.ShloMosaic.ValueIdx

/-- Member `r` of a stack of four [a, b] arrays: entry (p, q) of the member is entry (r, p, q) of the stack. -/
def member {a b : Nat} (r : Fin 4) (W : FVec Ideal ⟨3, ![4, a, b]⟩ .f32) : FVec Ideal ⟨2, ![a, b]⟩ .f32 :=
  fun y => W (ix3 r (y 0) (y 1))

/-- One relation's term ((X · wsᵀ + bs) + H · wnᵀ) + bn over all 20000 rows, in host operations. -/
def termOf (X H : FVec Ideal S20000x128 .f32) (ws wn : FVec Ideal S128x128 .f32) (bs bn : FVec Ideal S1x128 .f32)
    (hT : S128x128.Transposes [1, 0] S128x128) (hB : S1x128.BroadcastsInDim S20000x128 (![0, 1] : Fin 2 → Fin 2)) :
    FVec Ideal S20000x128 .f32 :=
  addf (addf (addf (Host.dotGeneral (DotDims.plain 20000 128 128) none X (transpose S128x128 [1, 0] ws hT))
        (broadcastInDim S20000x128 ![0, 1] hB bs))
      (Host.dotGeneral (DotDims.plain 20000 128 128) none H (transpose S128x128 [1, 0] wn hT)))
    (broadcastInDim S20000x128 ![0, 1] hB bn)

/-- Relation `r`'s term of the stacked operands. -/
def term (r : Fin 4) (X : FVec Ideal S20000x128 .f32) (HN : FVec Ideal S4x20000x128 .f32)
    (WS WN : FVec Ideal S4x128x128 .f32) (BS BN : FVec Ideal S4x1x128 .f32)
    (hT : S128x128.Transposes [1, 0] S128x128) (hB : S1x128.BroadcastsInDim S20000x128 (![0, 1] : Fin 2 → Fin 2)) :
    FVec Ideal S20000x128 .f32 :=
  termOf X (member r HN) (member r WS) (member r WN) (member r BS) (member r BN) hT hB

/-- A [1, a, b] block recast to [a, b] reads, at (p, q), the block at (0, p, q): the same row-major position. -/
theorem drop_unit_apply {a b : Nat} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  refine shapeCast_apply v h _ _ ?_
  rw [Shape.rowMajor_val_three, Shape.rowMajor_val_two]
  show ((0 : ℕ) * a + p.val) * b + q.val = p.val * b + q.val
  rw [Nat.zero_mul, Nat.zero_add]

/-- The host's product depends on its operands' entries only, not on the formats they are labelled with: both sides are
    the sum over the contracted coordinates of the products of the entries. -/
theorem dot_congr {sl sr so : Shape} (d : DotDims sl sr so) (prec : Option ContractPrecision) {φ₁ φ₂ ψ₁ ψ₂ : FTy}
    (a : FVec Ideal sl φ₁) (b : FVec Ideal sr φ₂) (a' : FVec Ideal sl ψ₁) (b' : FVec Ideal sr ψ₂)
    (ha : ∀ i, a i = a' i) (hb : ∀ i, b i = b' i) : Host.dotGeneral d prec a b = Host.dotGeneral d prec a' b' := by
  funext j
  refine (Ideal.dotGeneral_apply d prec default a b j).trans
    ((Finset.sum_congr rfl fun k _ => ?_).trans (Ideal.dotGeneral_apply d prec default a' b' j).symm)
  rw [ha, hb]

/-- The same term on a block of 2000 rows, as the kernel computes it: operands rounded to bf16, each product into zero,
    the bias rows repeated over the block's rows. -/
def body (xa xh : FVec Ideal S2000x128 .f32) (ws wn : FVec Ideal S128x128 .f32) (bs bn : FVec Ideal S1x128 .f32) :
    FVec Ideal S2000x128 .f32 :=
  addf (addf (addf (matmul dot_S2000x128_S128x128_S2000x128_1_0_0_1_n_n none (truncf .bf16 xa bitsLt_bf16_f32)
          (transpose S128x128 [1, 0] (truncf .bf16 ws bitsLt_bf16_f32) transposes_S128x128_p1_0_S128x128)
          (constant S2000x128 .f32 0x00000000#32))
        (broadcastTo S2000x128 bs broadcasts_S1x128_S2000x128))
      (matmul dot_S2000x128_S128x128_S2000x128_1_0_0_1_n_n none (truncf .bf16 xh bitsLt_bf16_f32)
        (transpose S128x128 [1, 0] (truncf .bf16 wn bitsLt_bf16_f32) transposes_S128x128_p1_0_S128x128)
        (constant S2000x128 .f32 0x00000000#32)))
    (broadcastTo S2000x128 bn broadcasts_S1x128_S2000x128)

/-- What a grid point stores into the scratch is s + (the block term of its blocks, the leading unit axes dropped). -/
theorem pay2_eq_body (x0 : Vec Ideal S2000x128 .f32) (x1 : Vec Ideal S1x2000x128 .f32) (x2 x4 : Vec Ideal S1x128x128 .f32)
    (x3 x5 : Vec Ideal S1x1x128 .f32) (s : Vec Ideal S2000x128 .f32) :
    k1_pay2 x0 x1 x2 x4 x3 x5 s
      = addf s (body x0 (shapeCast S2000x128 x1 shapeCasts_S1x2000x128_S2000x128)
          (shapeCast S128x128 x2 shapeCasts_S1x128x128_S128x128) (shapeCast S128x128 x4 shapeCasts_S1x128x128_S128x128)
          (shapeCast S1x128 x3 shapeCasts_S1x1x128_S1x128) (shapeCast S1x128 x5 shapeCasts_S1x1x128_S1x128)) := by
  unfold k1_pay2 body
  exact shapeCast_self _ _

/-- The block term of rows off … of X and H, read at a block index j, is the whole-array term read where the block puts j. -/
theorem body_row_block (off : Nat) (xa xh : FVec Ideal S2000x128 .f32) (ws wn : FVec Ideal S128x128 .f32)
    (bs bn : FVec Ideal S1x128 .f32) (X H : FVec Ideal S20000x128 .f32) (eo : S2000x128.Idx → S20000x128.Idx)
    (heo0 : ∀ y, (eo y 0).val = off + (y 0).val) (heo1 : ∀ y, (eo y 1).val = (y 1).val)
    (hxa : ∀ y, xa y = X (eo y)) (hxh : ∀ y, xh y = H (eo y))
    (hT : S128x128.Transposes [1, 0] S128x128) (hB : S1x128.BroadcastsInDim S20000x128 (![0, 1] : Fin 2 → Fin 2))
    (j : S2000x128.Idx) :
    body xa xh ws wn bs bn j = termOf X H ws wn bs bn hT hB (eo j) := by
  unfold body termOf
  refine (addf_apply _ _ j).trans (Eq.trans ?_ (addf_apply _ _ (eo j)).symm)
  refine congrArg₂ (· + ·) ?_ (bias_row_block bn eo heo1 broadcasts_S1x128_S2000x128 hB j)
  refine (conv_row_block (m := 2000) (M := 20000) (k := 128) (n := 128) none
    (truncf .bf16 xa bitsLt_bf16_f32) (truncf .bf16 xh bitsLt_bf16_f32)
    (transpose S128x128 [1, 0] (truncf .bf16 ws bitsLt_bf16_f32) transposes_S128x128_p1_0_S128x128)
    (transpose S128x128 [1, 0] (truncf .bf16 wn bitsLt_bf16_f32) transposes_S128x128_p1_0_S128x128) bs
    (truncf .bf16 X bitsLt_bf16_f32) (truncf .bf16 H bitsLt_bf16_f32) eo eo eo off hxa hxh heo0 heo1 heo0 heo1 heo0 heo1
    broadcasts_S1x128_S2000x128 hB j).trans ?_
  rw [dot_congr (DotDims.plain 20000 128 128) none (truncf .bf16 X bitsLt_bf16_f32)
      (transpose S128x128 [1, 0] (truncf .bf16 ws bitsLt_bf16_f32) transposes_S128x128_p1_0_S128x128) X
      (transpose S128x128 [1, 0] ws hT) (fun _ => rfl) (fun _ => rfl),
    dot_congr (DotDims.plain 20000 128 128) none (truncf .bf16 H bitsLt_bf16_f32)
      (transpose S128x128 [1, 0] (truncf .bf16 wn bitsLt_bf16_f32) transposes_S128x128_p1_0_S128x128) H
      (transpose S128x128 [1, 0] wn hT) (fun _ => rfl) (fun _ => rfl)]

/-- What a grid point stores into the scratch, at a block index j: s j plus relation r's whole-array term read where the
    output block puts j — when the point's blocks are rows off … of X and of member r of the stacked means, and member r
    of each stacked weight and bias. -/
theorem pay2_at (r : Fin 4) (off : Nat) (x0 : Vec Ideal S2000x128 .f32) (x1 : Vec Ideal S1x2000x128 .f32)
    (x2 x4 : Vec Ideal S1x128x128 .f32) (x3 x5 : Vec Ideal S1x1x128 .f32) (s : Vec Ideal S2000x128 .f32)
    (X : FVec Ideal S20000x128 .f32) (HN : FVec Ideal S4x20000x128 .f32)
    (WS WN : FVec Ideal S4x128x128 .f32) (BS BN : FVec Ideal S4x1x128 .f32) (eo : S2000x128.Idx → S20000x128.Idx)
    (heo0 : ∀ y, (eo y 0).val = off + (y 0).val) (heo1 : ∀ y, (eo y 1).val = (y 1).val)
    (hx0 : ∀ y, x0 y = X (eo y))
    (hx1 : ∀ (p : Fin 2000) (q : Fin 128), x1 (ix3 (0 : Fin 1) p q) = member r HN (eo (ix2 p q)))
    (hx2 : ∀ (a b : Fin 128), x2 (ix3 (0 : Fin 1) a b) = WS (ix3 r a b))
    (hx4 : ∀ (a b : Fin 128), x4 (ix3 (0 : Fin 1) a b) = WN (ix3 r a b))
    (hx3 : ∀ (u : Fin 1) (q : Fin 128), x3 (ix3 (0 : Fin 1) u q) = BS (ix3 r u q))
    (hx5 : ∀ (u : Fin 1) (q : Fin 128), x5 (ix3 (0 : Fin 1) u q) = BN (ix3 r u q))
    (hT : S128x128.Transposes [1, 0] S128x128) (hB : S1x128.BroadcastsInDim S20000x128 (![0, 1] : Fin 2 → Fin 2))
    (j : S2000x128.Idx) :
    k1_pay2 x0 x1 x2 x4 x3 x5 s j = s j + term r X HN WS WN BS BN hT hB (eo j) := by
  have e2 : shapeCast S128x128 x2 shapeCasts_S1x128x128_S128x128 = member r WS := funext fun y => by
    obtain ⟨a, b, rfl⟩ : ∃ (a b : Fin 128), y = ix2 a b := ⟨y 0, y 1, eq_ix2 y⟩
    exact (drop_unit_apply x2 _ a b).trans (hx2 a b)
  have e4 : shapeCast S128x128 x4 shapeCasts_S1x128x128_S128x128 = member r WN := funext fun y => by
    obtain ⟨a, b, rfl⟩ : ∃ (a b : Fin 128), y = ix2 a b := ⟨y 0, y 1, eq_ix2 y⟩
    exact (drop_unit_apply x4 _ a b).trans (hx4 a b)
  have e3 : shapeCast S1x128 x3 shapeCasts_S1x1x128_S1x128 = member r BS := funext fun y => by
    obtain ⟨u, q, rfl⟩ : ∃ (u : Fin 1) (q : Fin 128), y = ix2 u q := ⟨y 0, y 1, eq_ix2 y⟩
    exact (drop_unit_apply x3 _ u q).trans (hx3 u q)
  have e5 : shapeCast S1x128 x5 shapeCasts_S1x1x128_S1x128 = member r BN := funext fun y => by
    obtain ⟨u, q, rfl⟩ : ∃ (u : Fin 1) (q : Fin 128), y = ix2 u q := ⟨y 0, y 1, eq_ix2 y⟩
    exact (drop_unit_apply x5 _ u q).trans (hx5 u q)
  have e1 : ∀ y, shapeCast S2000x128 x1 shapeCasts_S1x2000x128_S2000x128 y = member r HN (eo y) := fun y => by
    obtain ⟨p, q, rfl⟩ : ∃ (p : Fin 2000) (q : Fin 128), y = ix2 p q := ⟨y 0, y 1, eq_ix2 y⟩
    exact (drop_unit_apply x1 _ p q).trans (hx1 p q)
  rw [pay2_eq_body, e2, e4, e3, e5]
  refine (addf_apply _ _ j).trans (congrArg (s j + ·) ?_)
  exact body_row_block off x0 _ (member r WS) (member r WN) (member r BS) (member r BN) X (member r HN) eo heo0 heo1
    hx0 e1 hT hB j

end Cert.KernelIdeal.Value1

end
-- ==== Proof.KernelIdealValue1Sum.lean ====
/-
  Region 1, the running sum over the relations. The scratch of a row block starts at zero and receives relation 0's term,
  then relation 1's, 2's and 3's, one per grid point, each added on the right of what is there: after relation r it holds
  (((0 + T₀) + T₁) + …) + T_r. Stated here on whole arrays, in that order of additions; nothing is reassociated.
-/
import proofs.«144146_j85358180041108_1_alg».proof.Proof.KernelIdealValue1Term

noncomputable section

namespace Cert.KernelIdeal.Value1

open Cert.KernelIdeal
open Idealize.ShloMosaic Idealize.ShloMosaic.ValueIdx

/-- The array of zeros the sum starts from. -/
def zeroArr : FVec Ideal S20000x128 .f32 := fun _ => (0 : EReal)

/-- The sum after relation `k` (for `k` = 0, 1, 2, 3; beyond 3 it stays at the sum after relation 3). -/
def psum (X : FVec Ideal S20000x128 .f32) (HN : FVec Ideal S4x20000x128 .f32) (WS WN : FVec Ideal S4x128x128 .f32)
    (BS BN : FVec Ideal S4x1x128 .f32) (hT : S128x128.Transposes [1, 0] S128x128)
    (hB : S1x128.BroadcastsInDim S20000x128 (![0, 1] : Fin 2 → Fin 2)) : ℕ → FVec Ideal S20000x128 .f32
  | 0 => addf zeroArr (term 0 X HN WS WN BS BN hT hB)
  | 1 => addf (addf zeroArr (term 0 X HN WS WN BS BN hT hB)) (term 1 X HN WS WN BS BN hT hB)
  | 2 => addf (addf (addf zeroArr (term 0 X HN WS WN BS BN hT hB)) (term 1 X HN WS WN BS BN hT hB)) (term 2 X HN WS WN BS BN hT hB)
  | _ + 3 => addf (addf (addf (addf zeroArr (term 0 X HN WS WN BS BN hT hB)) (term 1 X HN WS WN BS BN hT hB))
      (term 2 X HN WS WN BS BN hT hB)) (term 3 X HN WS WN BS BN hT hB)

/-- The whole sum: zero, then the four relations' terms added one at a time. -/
def total (X : FVec Ideal S20000x128 .f32) (HN : FVec Ideal S4x20000x128 .f32) (WS WN : FVec Ideal S4x128x128 .f32)
    (BS BN : FVec Ideal S4x1x128 .f32) (hT : S128x128.Transposes [1, 0] S128x128)
    (hB : S1x128.BroadcastsInDim S20000x128 (![0, 1] : Fin 2 → Fin 2)) : FVec Ideal S20000x128 .f32 :=
  addf (addf (addf (addf zeroArr (term 0 X HN WS WN BS BN hT hB)) (term 1 X HN WS WN BS BN hT hB))
    (term 2 X HN WS WN BS BN hT hB)) (term 3 X HN WS WN BS BN hT hB)

theorem psum_three (X : FVec Ideal S20000x128 .f32) (HN : FVec Ideal S4x20000x128 .f32) (WS WN : FVec Ideal S4x128x128 .f32)
    (BS BN : FVec Ideal S4x1x128 .f32) (hT : S128x128.Transposes [1, 0] S128x128)
    (hB : S1x128.BroadcastsInDim S20000x128 (![0, 1] : Fin 2 → Fin 2)) :
    psum X HN WS WN BS BN hT hB 3 = total X HN WS WN BS BN hT hB := rfl

/-- Each step adds the next relation's term on the right. -/
theorem psum_succ (X : FVec Ideal S20000x128 .f32) (HN : FVec Ideal S4x20000x128 .f32) (WS WN : FVec Ideal S4x128x128 .f32)
    (BS BN : FVec Ideal S4x1x128 .f32) (hT : S128x128.Transposes [1, 0] S128x128)
    (hB : S1x128.BroadcastsInDim S20000x128 (![0, 1] : Fin 2 → Fin 2)) (k : ℕ) (hk : k + 1 < 4) :
    psum X HN WS WN BS BN hT hB (k + 1)
      = addf (psum X HN WS WN BS BN hT hB k) (term ⟨k + 1, hk⟩ X HN WS WN BS BN hT hB) := by
  match k, hk with
  | 0, _ => rfl
  | 1, _ => rfl
  | 2, _ => rfl

end Cert.KernelIdeal.Value1

end
-- ==== Proof.KernelIdealValue1Blocks.lean ====
/-
  Region 1, where the blocks sit. Grid point t (of 40, the relation index running fastest) has row block t / 4 and
  relation t % 4. Its block of the node features and of the output is rows 2000·(t / 4) … of the [20000,128] array; its
  block of the stacked neighbourhood means is those rows of member t % 4; its blocks of the stacked weights and biases are
  member t % 4. Entry (p, q) of a 2000-row block of row block i is entry (2000·i + p, q) of the array.
-/
import proofs.«144146_j85358180041108_1_alg».proof.Proof.KernelIdealValue1Pieces
import proofs.«144146_j85358180041108_1_alg».proof.Proof.KernelIdealValue1Sum
import Idealize.ShloMosaic.Lib.Pipeline.Value
import Idealize.ShloMosaic.Lib.ValueIdx

set_option maxRecDepth 16384

noncomputable section

namespace Cert.KernelIdeal.Value1

open Cert.KernelIdeal Cert.KernelIdeal.Gen Cert.KernelIdeal.Region1
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Where row block `i` puts the block index `j`: row 2000·i + j₀, column j₁ (the row reduced mod 20000 so that the
    index is defined for every `i`; for the ten row blocks nothing is reduced). -/
def rowIdx (i : ℕ) (j : S2000x128.Idx) : S20000x128.Idx :=
  ix2 (⟨(i * 2000 + (j 0).val) % 20000, Nat.mod_lt _ (by decide)⟩ : Fin 20000) (⟨(j 1).val, (j 1).isLt⟩ : Fin 128)

theorem rowIdx_val0 (i : ℕ) (hi : i < 10) (j : S2000x128.Idx) : (rowIdx i j 0).val = i * 2000 + (j 0).val := by
  have hj : (j 0).val < 2000 := idx2_lt0 j
  show (i * 2000 + (j 0).val) % 20000 = _
  omega

theorem rowIdx_val1 (i : ℕ) (j : S2000x128.Idx) : (rowIdx i j 1).val = (j 1).val := rfl

/-- The relation of a grid point. -/
def rel (t : Fin cfg1.N) : Fin 4 := ⟨t.val % 4, Nat.mod_lt _ (by decide)⟩

/-- The windows' block indices at every grid point, decided once over the grid. -/
theorem idx_facts : ∀ t : Fin cfg1.N,
    win1_0.index t (0 : Fin 2) = t.val / 4 ∧ win1_0.index t (1 : Fin 2) = 0
    ∧ win1_1.index t (0 : Fin 3) = t.val % 4 ∧ win1_1.index t (1 : Fin 3) = t.val / 4 ∧ win1_1.index t (2 : Fin 3) = 0
    ∧ win1_2.index t (0 : Fin 3) = t.val % 4 ∧ win1_2.index t (1 : Fin 3) = 0 ∧ win1_2.index t (2 : Fin 3) = 0
    ∧ win1_3.index t (0 : Fin 3) = t.val % 4 ∧ win1_3.index t (1 : Fin 3) = 0 ∧ win1_3.index t (2 : Fin 3) = 0
    ∧ win1_4.index t (0 : Fin 3) = t.val % 4 ∧ win1_4.index t (1 : Fin 3) = 0 ∧ win1_4.index t (2 : Fin 3) = 0
    ∧ win1_5.index t (0 : Fin 3) = t.val % 4 ∧ win1_5.index t (1 : Fin 3) = 0 ∧ win1_5.index t (2 : Fin 3) = 0
    ∧ win1_6.index t (0 : Fin 2) = t.val / 4 ∧ win1_6.index t (1 : Fin 2) = 0 :=
  (by decide +kernel : ∀ t : Fin grid1.N, _)

theorem hN : cfg1.N = 40 := by decide

/-- The node-feature block at point t is rows 2000·(t / 4) … of the node features. -/
theorem blk0 (c : Dev nD) (t : Fin cfg1.N) (y : S2000x128.Idx) :
    iblk1 V c 0 t y = V c main_arg2 (rowIdx (t.val / 4) y) := by
  obtain ⟨e0, e1, -⟩ := idx_facts t
  have ht : t.val < 40 := hN ▸ t.isLt
  have hy0 : (y 0).val < 2000 := idx2_lt0 y
  show V c main_arg2 (((cfg1.win 0).blk t).view.emb y) = _
  refine congrArg (V c main_arg2) (funext fun a => Fin.ext ?_)
  match a with
  | ⟨0, _⟩ =>
    show win1_0.index t (0 : Fin 2) * 2000 + 1 * (y 0).val = (t.val / 4 * 2000 + (y 0).val) % 20000
    omega
  | ⟨1, _⟩ =>
    show win1_0.index t (1 : Fin 2) * 128 + 1 * (y 1).val = (y 1).val
    omega

/-- The output block at point t sits at the same rows. -/
theorem emb6 (t : Fin cfg1.N) (y : S2000x128.Idx) : ((cfg1.win 6).blk t).view.emb y = rowIdx (t.val / 4) y := by
  obtain ⟨-, -, -, -, -, -, -, -, -, -, -, -, -, -, -, -, -, e0, e1⟩ := idx_facts t
  have ht : t.val < 40 := hN ▸ t.isLt
  have hy0 : (y 0).val < 2000 := idx2_lt0 y
  refine funext fun a => Fin.ext ?_
  match a with
  | ⟨0, _⟩ =>
    show win1_6.index t (0 : Fin 2) * 2000 + 1 * (y 0).val = (t.val / 4 * 2000 + (y 0).val) % 20000
    omega
  | ⟨1, _⟩ =>
    show win1_6.index t (1 : Fin 2) * 128 + 1 * (y 1).val = (y 1).val
    omega

/-- The neighbourhood-mean block at point t is those rows of member t % 4 of the stacked means. -/
theorem blk1 (c : Dev nD) (t : Fin cfg1.N) (p : Fin 2000) (q : Fin 128) :
    iblk1 V c 1 t (ix3 (0 : Fin 1) p q) = member (a := 20000) (b := 128) (rel t) (V c main_v78) (rowIdx (t.val / 4) (ix2 p q)) := by
  obtain ⟨-, -, e0, e1, e2, -⟩ := idx_facts t
  have ht : t.val < 40 := hN ▸ t.isLt
  have hp : p.val < 2000 := p.isLt
  show V c main_v78 (((cfg1.win 1).blk t).view.emb (ix3 (0 : Fin 1) p q))
    = V c main_v78 (ix3 (rel t) (rowIdx (t.val / 4) (ix2 p q) 0) (rowIdx (t.val / 4) (ix2 p q) 1))
  refine congrArg (V c main_v78) (funext fun a => Fin.ext ?_)
  match a with
  | ⟨0, _⟩ =>
    show win1_1.index t (0 : Fin 3) * 1 + 1 * 0 = t.val % 4
    omega
  | ⟨1, _⟩ =>
    show win1_1.index t (1 : Fin 3) * 2000 + 1 * p.val = (t.val / 4 * 2000 + p.val) % 20000
    omega
  | ⟨2, _⟩ =>
    show win1_1.index t (2 : Fin 3) * 128 + 1 * q.val = q.val
    omega

/-- The first weight block at point t is member t % 4 of the first stacked weights. -/
theorem blk2 (c : Dev nD) (t : Fin cfg1.N) (a b : Fin 128) :
    iblk1 V c 2 t (ix3 (0 : Fin 1) a b) = V c main_v83 (ix3 (rel t) a b) := by
  obtain ⟨-, -, -, -, -, e0, e1, e2, -⟩ := idx_facts t
  show V c main_v83 (((cfg1.win 2).blk t).view.emb (ix3 (0 : Fin 1) a b)) = _
  refine congrArg (V c main_v83) (funext fun d => Fin.ext ?_)
  match d with
  | ⟨0, _⟩ =>
    show win1_2.index t (0 : Fin 3) * 1 + 1 * 0 = t.val % 4
    omega
  | ⟨1, _⟩ =>
    show win1_2.index t (1 : Fin 3) * 128 + 1 * a.val = a.val
    omega
  | ⟨2, _⟩ =>
    show win1_2.index t (2 : Fin 3) * 128 + 1 * b.val = b.val
    omega

/-- The first bias block at point t is member t % 4 of the first stacked biases. -/
theorem blk3 (c : Dev nD) (t : Fin cfg1.N) (u : Fin 1) (q : Fin 128) :
    iblk1 V c 3 t (ix3 (0 : Fin 1) u q) = V c main_v89 (ix3 (rel t) u q) := by
  obtain ⟨-, -, -, -, -, -, -, -, e0, e1, e2, -⟩ := idx_facts t
  show V c main_v89 (((cfg1.win 3).blk t).view.emb (ix3 (0 : Fin 1) u q)) = _
  refine congrArg (V c main_v89) (funext fun d => Fin.ext ?_)
  match d with
  | ⟨0, _⟩ =>
    show win1_3.index t (0 : Fin 3) * 1 + 1 * 0 = t.val % 4
    omega
  | ⟨1, _⟩ =>
    show win1_3.index t (1 : Fin 3) * 1 + 1 * u.val = u.val
    omega
  | ⟨2, _⟩ =>
    show win1_3.index t (2 : Fin 3) * 128 + 1 * q.val = q.val
    omega

/-- The second weight block at point t is member t % 4 of the second stacked weights. -/
theorem blk4 (c : Dev nD) (t : Fin cfg1.N) (a b : Fin 128) :
    iblk1 V c 4 t (ix3 (0 : Fin 1) a b) = V c main_v94 (ix3 (rel t) a b) := by
  obtain ⟨-, -, -, -, -, -, -, -, -, -, -, e0, e1, e2, -⟩ := idx_facts t
  show V c main_v94 (((cfg1.win 4).blk t).view.emb (ix3 (0 : Fin 1) a b)) = _
  refine congrArg (V c main_v94) (funext fun d => Fin.ext ?_)
  match d with
  | ⟨0, _⟩ =>
    show win1_4.index t (0 : Fin 3) * 1 + 1 * 0 = t.val % 4
    omega
  | ⟨1, _⟩ =>
    show win1_4.index t (1 : Fin 3) * 128 + 1 * a.val = a.val
    omega
  | ⟨2, _⟩ =>
    show win1_4.index t (2 : Fin 3) * 128 + 1 * b.val = b.val
    omega

/-- The second bias block at point t is member t % 4 of the second stacked biases. -/
theorem blk5 (c : Dev nD) (t : Fin cfg1.N) (u : Fin 1) (q : Fin 128) :
    iblk1 V c 5 t (ix3 (0 : Fin 1) u q) = V c main_v100 (ix3 (rel t) u q) := by
  obtain ⟨-, -, -, -, -, -, -, -, -, -, -, -, -, -, e0, e1, e2, -⟩ := idx_facts t
  show V c main_v100 (((cfg1.win 5).blk t).view.emb (ix3 (0 : Fin 1) u q)) = _
  refine congrArg (V c main_v100) (funext fun d => Fin.ext ?_)
  match d with
  | ⟨0, _⟩ =>
    show win1_5.index t (0 : Fin 3) * 1 + 1 * 0 = t.val % 4
    omega
  | ⟨1, _⟩ =>
    show win1_5.index t (1 : Fin 3) * 1 + 1 * u.val = u.val
    omega
  | ⟨2, _⟩ =>
    show win1_5.index t (2 : Fin 3) * 128 + 1 * q.val = q.val
    omega

end Cert.KernelIdeal.Value1

end
-- ==== Proof.KernelIdealValue1.lean ====
/-
  Region 1, the value of its output array. The grid runs over ten row blocks of 2000 rows and, fastest, the four
  relations. For each row block the scratch is zeroed at relation 0 and receives relation r's term
  T_r = ((X · Ws_rᵀ + bs_r) + H_r · Wn_rᵀ) + bn_r at relation r, added on the right of what it holds; at relation 3 the
  scratch is copied to the output block, which is then written back. So every row of the output array ends holding
  (((0 + T₀) + T₁) + T₂) + T₃ at that row: the scratch after each point is the running sum on the point's rows (induction
  on the point), the block written back is the last running sum on its rows, and the ten blocks written back cover the
  array. The additions are in the order the grid performs them; nothing is reassociated and nothing is assumed finite.
-/
import proofs.«144146_j85358180041108_1_alg».proof.Proof.KernelIdealValue1Blocks

set_option maxRecDepth 16384

noncomputable section

namespace Cert.KernelIdeal.Value1

open Cert.KernelIdeal Cert.KernelIdeal.Gen Cert.KernelIdeal.Region1
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The region's six input arrays as it finds them: node features, stacked neighbourhood means, the two stacked weights,
    the two stacked biases. -/
abbrev arrX (c : Dev nD) : FVec Ideal S20000x128 .f32 := V c main_arg2
abbrev arrHN (c : Dev nD) : FVec Ideal S4x20000x128 .f32 := V c main_v78
abbrev arrWS (c : Dev nD) : FVec Ideal S4x128x128 .f32 := V c main_v83
abbrev arrWN (c : Dev nD) : FVec Ideal S4x128x128 .f32 := V c main_v94
abbrev arrBS (c : Dev nD) : FVec Ideal S4x1x128 .f32 := V c main_v89
abbrev arrBN (c : Dev nD) : FVec Ideal S4x1x128 .f32 := V c main_v100

/-- The block the scratch is reset to is zero everywhere. -/
theorem pay1_apply (j : S2000x128.Idx) : k1_pay1 (F := Ideal) j = 0 := by
  unfold k1_pay1
  refine (congrFun (shapeCast_self _ _) j).trans ?_
  exact Ideal.ofBits_zero_f32

/-- What any grid point t stores into the scratch, over contents s: at block index j, s j plus relation (t % 4)'s term at
    row 2000·(t / 4) + j₀, column j₁. -/
theorem pay_step (c : Dev nD) (hT : S128x128.Transposes [1, 0] S128x128) (hB : S1x128.BroadcastsInDim S20000x128 (![0, 1] : Fin 2 → Fin 2)) (t : Fin cfg1.N) (s : Vec Ideal S2000x128 .f32) (j : S2000x128.Idx) :
    k1_pay2 (iblk1 V c 0 t) (iblk1 V c 1 t) (iblk1 V c 2 t) (iblk1 V c 4 t) (iblk1 V c 3 t) (iblk1 V c 5 t) s j
      = s j + term (rel t) (arrX V c) (arrHN V c) (arrWS V c) (arrWN V c) (arrBS V c) (arrBN V c) hT hB (rowIdx (t.val / 4) j) := by
  have ht : t.val < 40 := hN ▸ t.isLt
  exact pay2_at (rel t) (t.val / 4 * 2000) (iblk1 V c 0 t) (iblk1 V c 1 t) (iblk1 V c 2 t) (iblk1 V c 4 t) (iblk1 V c 3 t) (iblk1 V c 5 t) s
    (arrX V c) (arrHN V c) (arrWS V c) (arrWN V c) (arrBS V c) (arrBN V c) (rowIdx (t.val / 4)) (rowIdx_val0 _ (by omega)) (rowIdx_val1 _)
    (blk0 V c t) (blk1 V c t) (blk2 V c t) (blk4 V c t) (blk3 V c t) (blk5 V c t) hT hB j

/-- THE SCRATCH AFTER POINT t holds, at block index j, the running sum after relation t % 4 at row 2000·(t / 4) + j₀: by
    induction on the point — where the relation is 0 the sum restarts from zero, elsewhere the point adds its relation's
    term to what the point before (same row block, previous relation) left. -/
theorem scratch_eq (c : Dev nD) (hT : S128x128.Transposes [1, 0] S128x128) (hB : S1x128.BroadcastsInDim S20000x128 (![0, 1] : Fin 2 → Fin 2)) : ∀ (n : ℕ) (t : Fin cfg1.N), t.val = n → ∀ j : S2000x128.Idx,
    (outsAt1 V c t.val t.isLt).2 j = psum (arrX V c) (arrHN V c) (arrWS V c) (arrWN V c) (arrBS V c) (arrBN V c) hT hB (t.val % 4) (rowIdx (t.val / 4) j) := by
  intro n
  induction n using Nat.strong_induction_on with
  | _ n ih =>
    intro t htn j
    by_cases h0 : t.val % 4 = 0
    · have h1 : ¬t.val % 4 = 3 := by omega
      rw [outsAt1_A V c t h0 h1]
      dsimp only
      rw [sout_A]
      refine (pay_step V c hT hB t (k1_pay1 (F := Ideal)) j).trans ?_
      have hr : rel t = 0 := Fin.ext h0
      rw [hr, pay1_apply, h0]
      rfl
    · obtain ⟨k, hk⟩ : ∃ k, t.val % 4 = k + 1 := ⟨t.val % 4 - 1, by omega⟩
      have hk3 : k + 1 < 4 := by omega
      have hprev : (outsAt1 V c (t.val - 1) (Nat.lt_of_le_of_lt (Nat.sub_le _ _) t.isLt)).2 j = psum (arrX V c) (arrHN V c) (arrWS V c) (arrWN V c) (arrBS V c) (arrBN V c) hT hB k (rowIdx (t.val / 4) j) := by
        have := ih (t.val - 1) (by omega) ⟨t.val - 1, Nat.lt_of_le_of_lt (Nat.sub_le _ _) t.isLt⟩ rfl j
        rw [show (t.val - 1) % 4 = k by omega, show (t.val - 1) / 4 = t.val / 4 by omega] at this
        exact this
      have hr : rel t = ⟨k + 1, hk3⟩ := Fin.ext hk
      have step : ∀ s : Vec Ideal S2000x128 .f32, s j = psum (arrX V c) (arrHN V c) (arrWS V c) (arrWN V c) (arrBS V c) (arrBN V c) hT hB k (rowIdx (t.val / 4) j) →
          k1_pay2 (iblk1 V c 0 t) (iblk1 V c 1 t) (iblk1 V c 2 t) (iblk1 V c 4 t) (iblk1 V c 3 t) (iblk1 V c 5 t) s j = psum (arrX V c) (arrHN V c) (arrWS V c) (arrWN V c) (arrBS V c) (arrBN V c) hT hB (t.val % 4) (rowIdx (t.val / 4) j) := by
        intro s hs
        refine (pay_step V c hT hB t s j).trans ?_
        rw [hr, hs, hk, psum_succ _ _ _ _ _ _ hT hB k hk3]
        rfl
      by_cases h1 : t.val % 4 = 3
      · rw [outsAt1_C V c t h0 h1]
        dsimp only
        rw [sout_C]
        exact step _ hprev
      · rw [outsAt1_B V c t h0 h1]
        dsimp only
        rw [sout_B]
        exact step _ hprev

/-- Where the relation is 3 the output buffer holds the whole sum of its row block: it is a copy of the scratch. -/
theorem out_eq (c : Dev nD) (hT : S128x128.Transposes [1, 0] S128x128) (hB : S1x128.BroadcastsInDim S20000x128 (![0, 1] : Fin 2 → Fin 2)) (t : Fin cfg1.N) (h1 : t.val % 4 = 3) (j : S2000x128.Idx) :
    (outsAt1 V c t.val t.isLt).1 j = total (arrX V c) (arrHN V c) (arrWS V c) (arrWN V c) (arrBS V c) (arrBN V c) hT hB (rowIdx (t.val / 4) j) := by
  have h0 : ¬t.val % 4 = 0 := by omega
  have e : (outsAt1 V c t.val t.isLt).1 j = (outsAt1 V c t.val t.isLt).2 j := by
    rw [outsAt1_C V c t h0 h1]
    dsimp only
    rw [out_C, sout_C]
  refine e.trans ((scratch_eq V c hT hB t.val t rfl j).trans ?_)
  rw [h1]
  rfl

/-- What a point that writes back writes is its block of the whole sum. -/
theorem flushed_eq (c : Dev nD) (hT : S128x128.Transposes [1, 0] S128x128) (hB : S1x128.BroadcastsInDim S20000x128 (![0, 1] : Fin 2 → Fin 2)) (t : Fin cfg1.N) (hf : (cfg1.win 6).flush t = true) :
    (dat1 V c).flushed 6 t = ((cfg1.win 6).blk t).view.read (Elt Ideal) (total (arrX V c) (arrHN V c) (arrWS V c) (arrWN V c) (arrBS V c) (arrBN V c) hT hB) := by
  have h3 : t.val % 4 = 3 := (flush1_6 t).mp hf
  show (cfg1.win 6).cut (grid1.coords t) ((dat1 V c).after 6 t) = _
  rw [after1_6]
  funext j
  show (outsAt1 V c t.val t.isLt).1 j = total (arrX V c) (arrHN V c) (arrWS V c) (arrWN V c) (arrBS V c) (arrBN V c) hT hB (((cfg1.win 6).blk t).view.emb j)
  rw [emb6 t j]
  exact out_eq V c hT hB t h3 j

/-- An index of the output array is in point t's block iff each coordinate is in the block's range on its axis. -/
theorem mem_blk6 (t : Fin cfg1.N) (i : S20000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v101).slice (win1_6.rect t)).set ↔ _
  rw [View.set_slice_whole, Rect.mem_set_unit]
  exact Iff.rfl

/-- Every row is in the block written back at the last relation of its row block: row ρ at point 4·(ρ / 2000) + 3. -/
theorem cover6 (i : S20000x128.Idx) :
    ∃ t : Fin cfg1.N, (cfg1.win 6).flush t = true ∧ i ∈ ((cfg1.win 6).blk t).view.set := by
  have hi0 : (i 0).val < 20000 := idx2_lt0 i
  have hi1 : (i 1).val < 128 := idx2_lt1 i
  obtain ⟨m, hm⟩ : ∃ m, m = (i 0).val / 2000 * 4 + 3 := ⟨_, rfl⟩
  have hlt : m < cfg1.N := by rw [hN]; omega
  obtain ⟨-, -, -, -, -, -, -, -, -, -, -, -, -, -, -, -, -, e0, e1⟩ := idx_facts ⟨m, hlt⟩
  have e0' : win1_6.index ⟨m, hlt⟩ (0 : Fin 2) = m / 4 := e0
  refine ⟨⟨m, hlt⟩, (flush1_6 _).mpr (by show m % 4 = 3; omega), ?_⟩
  rw [mem_blk6]
  intro a
  match a with
  | ⟨0, _⟩ =>
    show win1_6.index ⟨m, hlt⟩ (0 : Fin 2) * 2000 ≤ (i 0).val ∧ (i 0).val < win1_6.index ⟨m, hlt⟩ (0 : Fin 2) * 2000 + 2000
    omega
  | ⟨1, _⟩ =>
    show win1_6.index ⟨m, hlt⟩ (1 : Fin 2) * 128 ≤ (i 1).val ∧ (i 1).val < win1_6.index ⟨m, hlt⟩ (1 : Fin 2) * 128 + 128
    omega

/-- THE OUTPUT ARRAY of the region ends holding zero plus the four relations' terms, added in the order 0, 1, 2, 3. -/
theorem arr1 (c : Dev nD) (hT : S128x128.Transposes [1, 0] S128x128) (hB : S1x128.BroadcastsInDim S20000x128 (![0, 1] : Fin 2 → Fin 2)) :
    (dat1 V c).arrAt 6 cfg1.N = total (arrX V c) (arrHN V c) (arrWS V c) (arrWN V c) (arrBS V c) (arrBN V c) hT hB :=
  (dat1 V c).arrAt_eq_of_cover 6 (total (arrX V c) (arrHN V c) (arrWS V c) (arrWN V c) (arrBS V c) (arrBN V c) hT hB) (fun t hf => flushed_eq V c hT hB t hf) cover6

end Cert.KernelIdeal.Value1

end
-- ==== Proof.KernelIdealValue2.lean ====
/-
  The value of region 2: the second dense layer as one array.

  The region's grid has one point, which multiplies the whole [1000,128] aggregated array by the transpose of the
  [128,128] weight array and adds the [1,128] bias row to every row, writing the whole [1000,128] result. Every window's
  one block is its whole array, so what the point writes back is the whole-array layer X · Wᵀ + b of the arrays the region
  found, and that block covers the result. Rounding the operands on the way into the product is the identity on the
  extended reals, and no sum is reordered, so nothing is assumed finite.
-/
import proofs.«144146_j85358180041108_1_alg».proof.Proof.KernelIdealRegion2
import proofs.«144146_j85358180041108_1_alg».proof.Proof.LibConvBlock
import proofs.«144146_j85358180041108_1_alg».proof.Proof.LibKernelHostForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value2

open Cert.KernelIdeal Cert.KernelIdeal.Gen Cert.KernelIdeal.Region2
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The point's product and bias, read at a block index, is the whole-array layer read where the result block puts the
    index: the input block's rows are rows off … of the input array, the weight and the bias row are whole. -/
theorem pay2_at (x0 : Vec Ideal S1000x128 .f32) (x1 : Vec Ideal S128x128 .f32) (x2 : Vec Ideal S1x128 .f32)
    (X : FVec Ideal S1000x128 .f32) (W : FVec Ideal S128x128 .f32) (B : FVec Ideal S1x128 .f32)
    (ex : S1000x128.Idx → S1000x128.Idx) (eo : S1000x128.Idx → S1000x128.Idx) (off : Nat)
    (hx : ∀ y, x0 y = X (ex y)) (hw : x1 = W) (hb : x2 = B)
    (hex0 : ∀ y, (ex y 0).val = off + (y 0).val) (hex1 : ∀ y, (ex y 1).val = (y 1).val)
    (heo0 : ∀ y, (eo y 0).val = off + (y 0).val) (heo1 : ∀ y, (eo y 1).val = (y 1).val)
    (h1 : S128x128.Transposes [1, 0] S128x128)
    (h2 : S1x128.BroadcastsInDim S1000x128 (![0, 1] : Fin 2 → Fin 2))
    (j : S1000x128.Idx) :
    k2_pay1 x0 x1 x2 j
      = addf (Host.dotGeneral (DotDims.plain 1000 128 128) none X (transpose S128x128 [1, 0] W h1))
          (broadcastInDim S1000x128 ![0, 1] h2 B) (eo j) := by
  subst hw; subst hb
  unfold k2_pay1
  dsimp only
  rw [shapeCast_self, shapeCast_self]
  exact Cert.Lib.linear_row_block none x0 (transpose S128x128 [1, 0] x1 h1) x2 X ex eo off hx hex0 hex1 heo0 heo1
    broadcasts_S1x128_S1000x128 h2 j

/-- The windows' index maps at the grid's one point: every window is at block 0 on both axes. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The layer as one array of an input array, a weight array and a bias row. -/
abbrev G2 (X : FVec Ideal S1000x128 .f32) (W : FVec Ideal S128x128 .f32) (B : FVec Ideal S1x128 .f32)
    (h1 : S128x128.Transposes [1, 0] S128x128)
    (h2 : S1x128.BroadcastsInDim S1000x128 (![0, 1] : Fin 2 → Fin 2)) : FVec Ideal S1000x128 .f32 :=
  addf (Host.dotGeneral (DotDims.plain 1000 128 128) none X (transpose S128x128 [1, 0] W h1))
    (broadcastInDim S1000x128 ![0, 1] h2 B)

/-- The weight window's block is the whole weight array. -/
theorem iblk2_1_eq (c : Dev nD) (t : Fin cfg2.N) :
    (iblk2 V c 1 t : FVec Ideal S128x128 .f32) = (V c main_arg25 : FVec Ideal S128x128 .f32) := by
  obtain ⟨-, -, e2, e3, -, -, -, -⟩ := idx_facts2 t
  funext y
  unfold iblk2
  rw [View.read_apply]
  show V c main_arg25 (((cfg2.win 1).blk t).view.emb y) = V c main_arg25 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias window's block is the whole bias row. -/
theorem iblk2_2_eq (c : Dev nD) (t : Fin cfg2.N) :
    (iblk2 V c 2 t : FVec Ideal S1x128 .f32) = (V c main_v133 : FVec Ideal S1x128 .f32) := by
  obtain ⟨-, -, -, -, e4, e5, -, -⟩ := idx_facts2 t
  funext y
  unfold iblk2
  rw [View.read_apply]
  show V c main_v133 (((cfg2.win 2).blk t).view.emb y) = V c main_v133 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- What the point writes back is the layer, read through the result's one block. -/
theorem flushed2_eq (c : Dev nD) (h1 : S128x128.Transposes [1, 0] S128x128)
    (h2 : S1x128.BroadcastsInDim S1000x128 (![0, 1] : Fin 2 → Fin 2)) (t : Fin cfg2.N) :
    (dat2 V c).flushed 3 t = ((cfg2.win 3).blk t).view.read (Elt Ideal) (G2 (V c main_v132) (V c main_arg25) (V c main_v133) h1 h2) := by
  show (cfg2.win 3).cut (grid2.coords t) ((dat2 V c).after 3 t) = _
  rw [after2_3]
  unfold out2_3
  rw [View.canon_unit_zero hz]
  simp only [View.ld_unit_zero (S := S1000x128) hz, View.ld_unit_zero (S := S128x128) hz, View.ld_unit_zero (S := S1x128) hz]
  obtain ⟨e0, e1, -, -, -, -, e6, e7⟩ := idx_facts2 t
  funext j
  show k2_pay1 (iblk2 V c 0 t) (iblk2 V c 1 t) (iblk2 V c 2 t) j = G2 (V c main_v132) (V c main_arg25) (V c main_v133) h1 h2 (((cfg2.win 3).blk t).view.emb j)
  exact pay2_at (iblk2 V c 0 t) (iblk2 V c 1 t) (iblk2 V c 2 t)
    (V c main_v132 : FVec Ideal S1000x128 .f32) (V c main_arg25 : FVec Ideal S128x128 .f32) (V c main_v133 : FVec Ideal S1x128 .f32)
    (fun y => ((cfg2.win 0).blk t).view.emb y) (fun y => ((cfg2.win 3).blk t).view.emb y) 0
    (fun y => rfl) (iblk2_1_eq V c t) (iblk2_2_eq V c t)
    (fun y => by show win2_0.index t (0 : Fin 2) * 1000 + 1 * (y 0).val = _; omega)
    (fun y => by show win2_0.index t (1 : Fin 2) * 128 + 1 * (y 1).val = _; omega)
    (fun y => by show win2_3.index t (0 : Fin 2) * 1000 + 1 * (y 0).val = _; omega)
    (fun y => by show win2_3.index t (1 : Fin 2) * 128 + 1 * (y 1).val = _; omega)
    h1 h2 j

/-- An index of the result array is in the point's block iff each coordinate is in the block's range on its axis. -/
theorem mem_blk2 (t : Fin cfg2.N) (i : S1000x128.Idx) :
    i ∈ ((cfg2.win 3).blk t).view.set ↔ ∀ a : Fin 2, win2_3.index t a * S1000x128.size a ≤ (i a).val ∧ (i a).val < win2_3.index t a * S1000x128.size a + S1000x128.size a := by
  show i ∈ ((View.whole main_v134).slice (win2_3.rect t)).set ↔ _
  rw [View.set_slice_whole, Rect.mem_set_unit]
  exact Iff.rfl

/-- The one point's block is the whole result. -/
theorem cover2 (i : S1000x128.Idx) : ∃ t : Fin cfg2.N, (cfg2.win 3).flush t = true ∧ i ∈ ((cfg2.win 3).blk t).view.set := by
  have hi0 : (i 0).val < 1000 := (i 0).isLt
  have hi1 : (i 1).val < 128 := (i 1).isLt
  have hN : cfg2.N = 1 := N_2
  refine ⟨⟨0, by omega⟩, flush2_3 _, ?_⟩
  rw [mem_blk2]
  obtain ⟨-, -, -, -, -, -, e6, e7⟩ := idx_facts2 ⟨0, by omega⟩
  intro a
  match a with
  | ⟨0, _⟩ => show win2_3.index _ (0 : Fin 2) * 1000 ≤ (i 0).val ∧ (i 0).val < win2_3.index _ (0 : Fin 2) * 1000 + 1000; rw [e6]; omega
  | ⟨1, _⟩ => show win2_3.index _ (1 : Fin 2) * 128 ≤ (i 1).val ∧ (i 1).val < win2_3.index _ (1 : Fin 2) * 128 + 128; rw [e7]; omega

/-- The result array after the region: the dense layer x · Wᵀ + b of the arrays the region found. -/
theorem arr2 (c : Dev nD) (h1 : S128x128.Transposes [1, 0] S128x128)
    (h2 : S1x128.BroadcastsInDim S1000x128 (![0, 1] : Fin 2 → Fin 2)) :
    ((dat2 V c).arrAt 3 cfg2.N : FVec Ideal S1000x128 .f32)
      = addf (Host.dotGeneral (φ₁ := .f32) (φ₂ := .f32) (DotDims.plain 1000 128 128) none (V c main_v132 : FVec Ideal S1000x128 .f32)
          (transpose (α := Ideal .f32) S128x128 [1, 0] (V c main_arg25 : FVec Ideal S128x128 .f32) h1))
        (broadcastInDim (α := Ideal .f32) S1000x128 ![0, 1] h2 (V c main_v133 : FVec Ideal S1x128 .f32)) :=
  (dat2 V c).arrAt_eq_of_cover 3 (G2 (V c main_v132) (V c main_arg25) (V c main_v133) h1 h2) (fun t _ => flushed2_eq V c h1 h2 t) cover2

end Cert.KernelIdeal.Value2
end
-- ==== Proof.KernelIdealValue3Pay.lean ====
/-
  Region 3's arithmetic at one grid point: a block of rows of a two-layer perceptron, over the extended reals.

  The perceptron is Y = max(X · W₁ + B₁, z) · W₂ + B₂, where B₁ and B₂ repeat one bias row over all rows and z is a
  constant. Rows off, …, off + m - 1 of Y depend on those rows of X and on all of W₁, W₂ and the bias rows only: a linear
  layer is row-local, so is the maximum with a constant, so the hidden layer of a block of rows is the block of the hidden
  layer, and the second linear layer is row-local again. Hence the body's result on a [2000,256] block of the input, read
  at a block index, is the whole-array perceptron read where the result block puts the index. Rounding the operands on the
  way into each product is the identity on the extended reals; no sum or product is reordered, so nothing is assumed
  finite.
-/
import proofs.«144146_j85358180041108_1_alg».proof.Proof.KernelIdealRegion3
import proofs.«144146_j85358180041108_1_alg».proof.Proof.LibConvBlock
import proofs.«144146_j85358180041108_1_alg».proof.Proof.LibKernelHostForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value3

open Cert.KernelIdeal Cert.KernelIdeal.Gen Cert.KernelIdeal.Region3
open Idealize.ShloMosaic Idealize.ShloMosaic.TcCoe Idealize.ShloMosaic.ValueIdx
open Idealize.SL.Sem
open Idealize.ShloMosaic.Pipeline (Dat Cfg Window)

/-- max(x · w₁ + bias row, z) · w₂ + bias row on an m-row block, each product accumulated into zero, read at a block index
    `j`, is the whole-array perceptron read where the result block puts `j`. The hidden block sits in the hidden array as
    the index map `e1` says: rows shifted by `off`, columns kept. -/
theorem mlp_row_block {m M k n p : Nat} (prec : Option ContractPrecision)
    (x : FVec Ideal ⟨2, ![m, k]⟩ .f32) (w1 : FVec Ideal ⟨2, ![k, n]⟩ .f32) (b1 : FVec Ideal ⟨2, ![1, n]⟩ .f32)
    (w2 : FVec Ideal ⟨2, ![n, p]⟩ .f32) (b2 : FVec Ideal ⟨2, ![1, p]⟩ .f32)
    (X : FVec Ideal ⟨2, ![M, k]⟩ .f32)
    (ex : (⟨2, ![m, k]⟩ : Shape).Idx → (⟨2, ![M, k]⟩ : Shape).Idx)
    (e1 : (⟨2, ![m, n]⟩ : Shape).Idx → (⟨2, ![M, n]⟩ : Shape).Idx)
    (eo : (⟨2, ![m, p]⟩ : Shape).Idx → (⟨2, ![M, p]⟩ : Shape).Idx) (off : Nat)
    (hx : ∀ y, x y = X (ex y))
    (hex0 : ∀ y, (ex y 0).val = off + (y 0).val) (hex1 : ∀ y, (ex y 1).val = (y 1).val)
    (he10 : ∀ y, (e1 y 0).val = off + (y 0).val) (he11 : ∀ y, (e1 y 1).val = (y 1).val)
    (heo0 : ∀ y, (eo y 0).val = off + (y 0).val) (heo1 : ∀ y, (eo y 1).val = (y 1).val)
    (hk1 : (⟨2, ![1, n]⟩ : Shape).Broadcasts ⟨2, ![m, n]⟩)
    (hh1 : (⟨2, ![1, n]⟩ : Shape).BroadcastsInDim ⟨2, ![M, n]⟩ (![0, 1] : Fin 2 → Fin 2))
    (hk2 : (⟨2, ![1, p]⟩ : Shape).Broadcasts ⟨2, ![m, p]⟩)
    (hh2 : (⟨2, ![1, p]⟩ : Shape).BroadcastsInDim ⟨2, ![M, p]⟩ (![0, 1] : Fin 2 → Fin 2))
    (z : BitVec 32) (hz : (⟨0, ![]⟩ : Shape).BroadcastsInDim ⟨2, ![M, n]⟩ (![] : Fin 0 → Fin 2))
    (j : (⟨2, ![m, p]⟩ : Shape).Idx) :
    addf (matmul (DotDims.plain m n p) prec
          (maximumf (addf (matmul (DotDims.plain m k n) prec x w1 (constant ⟨2, ![m, n]⟩ .f32 0x00000000#32))
              (broadcastTo ⟨2, ![m, n]⟩ b1 hk1))
            (broadcast ⟨2, ![m, n]⟩ (Scalar.ofBits (F := Ideal) .f32 z)))
          w2 (constant ⟨2, ![m, p]⟩ .f32 0x00000000#32))
        (broadcastTo ⟨2, ![m, p]⟩ b2 hk2) j
      = addf (Host.dotGeneral (DotDims.plain M n p) prec
            (maximumf (addf (Host.dotGeneral (DotDims.plain M k n) prec X w1) (broadcastInDim ⟨2, ![M, n]⟩ ![0, 1] hh1 b1))
              (broadcastInDim ⟨2, ![M, n]⟩ ![] hz (constant ⟨0, ![]⟩ .f32 z)))
            w2)
          (broadcastInDim ⟨2, ![M, p]⟩ ![0, 1] hh2 b2) (eo j) := by
  -- the hidden layer of the block is the block of the hidden layer
  have hid : ∀ y, (maximumf (addf (matmul (DotDims.plain m k n) prec x w1 (constant ⟨2, ![m, n]⟩ .f32 0x00000000#32))
            (broadcastTo ⟨2, ![m, n]⟩ b1 hk1))
          (broadcast ⟨2, ![m, n]⟩ (Scalar.ofBits (F := Ideal) .f32 z)) : FVec Ideal ⟨2, ![m, n]⟩ .f32) y
      = (maximumf (addf (Host.dotGeneral (DotDims.plain M k n) prec X w1) (broadcastInDim ⟨2, ![M, n]⟩ ![0, 1] hh1 b1))
          (broadcastInDim ⟨2, ![M, n]⟩ ![] hz (constant ⟨0, ![]⟩ .f32 z)) : FVec Ideal ⟨2, ![M, n]⟩ .f32) (e1 y) := fun y => by
    rw [maximumf_apply, maximumf_apply,
      Cert.Lib.linear_row_block prec x w1 b1 X ex e1 off hx hex0 hex1 he10 he11 hk1 hh1 y, Cert.Lib.splat_apply]
    rfl
  exact Cert.Lib.linear_row_block prec _ w2 b2 _ e1 eo off hid he10 he11 heo0 heo1 hk2 hh2 j

/-- The perceptron as one array of an input array, two weight arrays and two bias rows. -/
abbrev G3 (X : FVec Ideal S200000x256 .f32) (W1 : FVec Ideal S256x256 .f32) (B1 : FVec Ideal S1x256 .f32)
    (W2 : FVec Ideal S1x256 .f32) (B2 : FVec Ideal S1x1 .f32)
    (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2)) : FVec Ideal S200000x1 .f32 :=
  addf (Host.dotGeneral (DotDims.plain 200000 256 1) none
      (maximumf (addf (Host.dotGeneral (DotDims.plain 200000 256 256) none X (transpose S256x256 [1, 0] W1 h1))
          (broadcastInDim S200000x256 ![0, 1] h2 B1))
        (broadcastInDim S200000x256 ![] h3 (constant S_ .f32 0x00000000#32)))
      (transpose S256x1 [1, 0] W2 h4))
    (broadcastInDim S200000x1 ![0, 1] h5 B2)

/-- The body's result on a block of 2000 rows, read at a block index, is the whole-array perceptron read where the result
    block puts the index: the input block's rows are rows off … of the input array, the weights and bias rows are whole. -/
theorem pay3_at (x0 : Vec Ideal S2000x256 .f32) (x1 : Vec Ideal S256x256 .f32) (x2 : Vec Ideal S1x256 .f32)
    (x3 : Vec Ideal S1x256 .f32) (x4 : Vec Ideal S1x1 .f32)
    (X : FVec Ideal S200000x256 .f32) (W1 : FVec Ideal S256x256 .f32) (B1 : FVec Ideal S1x256 .f32)
    (W2 : FVec Ideal S1x256 .f32) (B2 : FVec Ideal S1x1 .f32)
    (ex : S2000x256.Idx → S200000x256.Idx) (eo : S2000x1.Idx → S200000x1.Idx) (off : Nat)
    (hx : ∀ y, x0 y = X (ex y)) (hw1 : x1 = W1) (hb1 : x2 = B1) (hw2 : x3 = W2) (hb2 : x4 = B2)
    (hex0 : ∀ y, (ex y 0).val = off + (y 0).val) (hex1 : ∀ y, (ex y 1).val = (y 1).val)
    (heo0 : ∀ y, (eo y 0).val = off + (y 0).val) (heo1 : ∀ y, (eo y 1).val = (y 1).val)
    (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2))
    (j : S2000x1.Idx) :
    k3_pay1 x0 x1 x2 x3 x4 j = G3 X W1 B1 W2 B2 h1 h2 h3 h4 h5 (eo j) := by
  subst hw1; subst hb1; subst hw2; subst hb2
  unfold k3_pay1
  dsimp only
  rw [shapeCast_self, shapeCast_self, shapeCast_self]
  exact mlp_row_block none x0 (transpose S256x256 [1, 0] x1 h1) x2 (transpose S256x1 [1, 0] x3 h4) x4 X ex ex eo off
    hx hex0 hex1 hex0 hex1 heo0 heo1 broadcasts_S1x256_S2000x256 h2 broadcasts_S1x1_S2000x1 h5 0x00000000#32 h3 j

end Cert.KernelIdeal.Value3
end
-- ==== Proof.KernelIdealValue3.lean ====
/-
  The value of region 3: the edge perceptron as one array.

  The region's grid has 100 points; point t takes rows 2000·t … 2000·t+1999 of the [200000,256] input array, the whole
  [256,256] and [1,256] weights and the [1,256] and [1,1] bias rows, and writes rows 2000·t … of the [200000,1] result:
  max(x · W₁ᵀ + b₁, 0) · W₂ᵀ + b₂ of those rows. Each point's block is the block of the whole-array perceptron (a block of
  rows of a two-layer perceptron depends only on the same rows of the input), and the 100 blocks tile the result's rows
  (row r lies in the block of point r / 2000), so after the region the result array is the perceptron of the arrays the
  region found.
-/
import proofs.«144146_j85358180041108_1_alg».proof.Proof.KernelIdealRegion3
import proofs.«144146_j85358180041108_1_alg».proof.Proof.KernelIdealValue3Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value3

open Cert.KernelIdeal Cert.KernelIdeal.Gen Cert.KernelIdeal.Region3
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the grid: the input window and the result window are at row block t, the weights and
    bias rows at block 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The first weight window's block is the whole weight array at every point. -/
theorem iblk3_1_eq (c : Dev nD) (t : Fin cfg3.N) :
    (iblk3 V c 1 t : FVec Ideal S256x256 .f32) = (V c main_arg27 : FVec Ideal S256x256 .f32) := by
  obtain ⟨-, -, e2, e3, -, -, -, -, -, -, -, -⟩ := idx_facts3 t
  funext y
  unfold iblk3
  rw [View.read_apply]
  show V c main_arg27 (((cfg3.win 1).blk t).view.emb y) = V c main_arg27 y
  refine congrArg _ (funext fun a => Fin.ext ?_)
  match a with
  | ⟨0, _⟩ => show win3_1.index t (0 : Fin 2) * 256 + 1 * (y 0).val = (y 0).val; omega
  | ⟨1, _⟩ => show win3_1.index t (1 : Fin 2) * 256 + 1 * (y 1).val = (y 1).val; omega

/-- The first bias window's block is the whole bias row at every point. -/
theorem iblk3_2_eq (c : Dev nD) (t : Fin cfg3.N) :
    (iblk3 V c 2 t : FVec Ideal S1x256 .f32) = (V c main_v196 : FVec Ideal S1x256 .f32) := by
  obtain ⟨-, -, -, -, e4, e5, -, -, -, -, -, -⟩ := idx_facts3 t
  funext y
  unfold iblk3
  rw [View.read_apply]
  show V c main_v196 (((cfg3.win 2).blk t).view.emb y) = V c main_v196 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- The second weight window's block is the whole weight row at every point. -/
theorem iblk3_3_eq (c : Dev nD) (t : Fin cfg3.N) :
    (iblk3 V c 3 t : FVec Ideal S1x256 .f32) = (V c main_arg29 : FVec Ideal S1x256 .f32) := by
  obtain ⟨-, -, -, -, -, -, e6, e7, -, -, -, -⟩ := idx_facts3 t
  funext y
  unfold iblk3
  rw [View.read_apply]
  show V c main_arg29 (((cfg3.win 3).blk t).view.emb y) = V c main_arg29 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- The second bias window's block is the whole one-entry bias at every point. -/
theorem iblk3_4_eq (c : Dev nD) (t : Fin cfg3.N) :
    (iblk3 V c 4 t : FVec Ideal S1x1 .f32) = (V c main_v197 : FVec Ideal S1x1 .f32) := by
  obtain ⟨-, -, -, -, -, -, -, -, e8, e9, -, -⟩ := idx_facts3 t
  funext y
  unfold iblk3
  rw [View.read_apply]
  show V c main_v197 (((cfg3.win 4).blk t).view.emb y) = V c main_v197 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 1 + 1 * (y 1).val = (y 1).val; omega

/-- What point t writes back is block t of the perceptron. -/
theorem flushed3_eq (c : Dev nD) (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2)) (t : Fin cfg3.N) :
    (dat3 V c).flushed 5 t = ((cfg3.win 5).blk t).view.read (Elt Ideal)
      (G3 (V c main_v195) (V c main_arg27) (V c main_v196) (V c main_arg29) (V c main_v197) h1 h2 h3 h4 h5) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz,
    View.ld_unit_zero (S := S1x1) hz]
  obtain ⟨e0, e1, -, -, -, -, -, -, -, -, e10, e11⟩ := idx_facts3 t
  funext j
  show k3_pay1 (iblk3 V c 0 t) (iblk3 V c 1 t) (iblk3 V c 2 t) (iblk3 V c 3 t) (iblk3 V c 4 t) j
    = G3 (V c main_v195) (V c main_arg27) (V c main_v196) (V c main_arg29) (V c main_v197) h1 h2 h3 h4 h5 (((cfg3.win 5).blk t).view.emb j)
  exact pay3_at (iblk3 V c 0 t) (iblk3 V c 1 t) (iblk3 V c 2 t) (iblk3 V c 3 t) (iblk3 V c 4 t)
    (V c main_v195 : FVec Ideal S200000x256 .f32) (V c main_arg27 : FVec Ideal S256x256 .f32) (V c main_v196 : FVec Ideal S1x256 .f32)
    (V c main_arg29 : FVec Ideal S1x256 .f32) (V c main_v197 : FVec Ideal S1x1 .f32)
    (fun y => ((cfg3.win 0).blk t).view.emb y) (fun y => ((cfg3.win 5).blk t).view.emb y) (2000 * t.val)
    (fun y => rfl) (iblk3_1_eq V c t) (iblk3_2_eq V c t) (iblk3_3_eq V c t) (iblk3_4_eq V c t)
    (fun y => by show win3_0.index t (0 : Fin 2) * 2000 + 1 * (y 0).val = _; omega)
    (fun y => by show win3_0.index t (1 : Fin 2) * 256 + 1 * (y 1).val = _; omega)
    (fun y => by show win3_5.index t (0 : Fin 2) * 2000 + 1 * (y 0).val = _; omega)
    (fun y => by show win3_5.index t (1 : Fin 2) * 1 + 1 * (y 1).val = _; omega)
    h1 h2 h3 h4 h5 j

/-- An index of the result array is in point t's block iff each coordinate is in the block's range on its axis. -/
theorem mem_blk3 (t : Fin cfg3.N) (i : S200000x1.Idx) :
    i ∈ ((cfg3.win 5).blk t).view.set ↔ ∀ a : Fin 2, win3_5.index t a * S2000x1.size a ≤ (i a).val ∧ (i a).val < win3_5.index t a * S2000x1.size a + S2000x1.size a := by
  show i ∈ ((View.whole main_v198).slice (win3_5.rect t)).set ↔ _
  rw [View.set_slice_whole, Rect.mem_set_unit]
  exact Iff.rfl

/-- Every row r of the result is in the block of point r / 2000. -/
theorem cover3 (i : S200000x1.Idx) : ∃ t : Fin cfg3.N, (cfg3.win 5).flush t = true ∧ i ∈ ((cfg3.win 5).blk t).view.set := by
  have hi0 : (i 0).val < 200000 := (i 0).isLt
  have hi1 : (i 1).val < 1 := (i 1).isLt
  have hN : cfg3.N = 100 := N_3
  refine ⟨⟨(i 0).val / 2000, by omega⟩, flush3_5 _, ?_⟩
  rw [mem_blk3]
  obtain ⟨-, -, -, -, -, -, -, -, -, -, e10, e11⟩ := idx_facts3 ⟨(i 0).val / 2000, by omega⟩
  intro a
  match a with
  | ⟨0, _⟩ => show win3_5.index _ (0 : Fin 2) * 2000 ≤ (i 0).val ∧ (i 0).val < win3_5.index _ (0 : Fin 2) * 2000 + 2000; rw [e10]; show (i 0).val / 2000 * 2000 ≤ _ ∧ _ < (i 0).val / 2000 * 2000 + 2000; omega
  | ⟨1, _⟩ => show win3_5.index _ (1 : Fin 2) * 1 ≤ (i 1).val ∧ (i 1).val < win3_5.index _ (1 : Fin 2) * 1 + 1; rw [e11]; omega

/-- The result array after the region: the perceptron max(x · W₁ᵀ + b₁, 0) · W₂ᵀ + b₂ of the arrays the region found. -/
theorem arr3 (c : Dev nD) (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2)) :
    ((dat3 V c).arrAt 5 cfg3.N : FVec Ideal S200000x1 .f32)
      = G3 (V c main_v195) (V c main_arg27) (V c main_v196) (V c main_arg29) (V c main_v197) h1 h2 h3 h4 h5 :=
  (dat3 V c).arrAt_eq_of_cover 5 (G3 (V c main_v195) (V c main_arg27) (V c main_v196) (V c main_arg29) (V c main_v197) h1 h2 h3 h4 h5)
    (fun t _ => flushed3_eq V c h1 h2 h3 h4 h5 t) cover3

end Cert.KernelIdeal.Value3
end
-- ==== Proof.KernelIdealValues.lean ====
/-
  The kernel program's buffers as terms of the arguments. Between the regions the host stretches gather rows, scatter-sum
  them into neighbourhood means, stack the four relations' operands, normalise by degrees, gather and concatenate the score
  inputs; each region's inputs are therefore explicit terms of the argument arrays and of the earlier regions' outputs, and
  each region's output array is the whole-array layer of those inputs.
-/
import proofs.«144146_j85358180041108_1_alg».proof.Proof.KernelIdealKeep
import proofs.«144146_j85358180041108_1_alg».proof.Proof.KernelIdealHostTerms
import proofs.«144146_j85358180041108_1_alg».proof.Proof.KernelIdealValue0
import proofs.«144146_j85358180041108_1_alg».proof.Proof.KernelIdealValue1
import proofs.«144146_j85358180041108_1_alg».proof.Proof.KernelIdealValue2
import proofs.«144146_j85358180041108_1_alg».proof.Proof.KernelIdealValue3

set_option maxRecDepth 16384

noncomputable section

namespace Cert.KernelIdeal.Values

open Cert.KernelIdeal Cert.KernelIdeal.Gen Cert.KernelIdeal.Run Cert.KernelIdeal.HostTerms
open Cert.KernelIdeal.Region0 Cert.KernelIdeal.Region1 Cert.KernelIdeal.Region2 Cert.KernelIdeal.Region3
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The regions' operands as terms of the arguments -/

/-- The first dense layer's bias as a row. -/
def biasRow0 : (⟨S1x128, .f32⟩ : BufTy).Contents (Elt Ideal) := shapeCast S1x128 ((m ((c : Thread nD τ).loc main_arg8) : (⟨S128, .f32⟩ : BufTy).Contents (Elt Ideal))) shapeCasts_S128_S1x128
/-- The four relations' neighbourhood means, stacked; `D` is the first dense layer's output. -/
def stackHN (D : (⟨S8000x128, .f32⟩ : BufTy).Contents (Elt Ideal)) : (⟨S4x20000x128, .f32⟩ : BufTy).Contents (Elt Ideal) := concatenate S4x20000x128 0 [⟨S1x20000x128, (broadcastInDim S1x20000x128 ![1, 2] bcast_S20000x128_S1x20000x128_1_2 (Host.divf (Host.scatterAdd scatter_S20000x128_S500000x1_S500000x128_1_0_0_1 (broadcastInDim S20000x128 ![] bcast_S_S20000x128 (constant (F := Ideal) S_ .f32 0x00000000#32)) (broadcastInDim S500000x1 ![0] bcast_S500000_S500000x1_0 ((m ((c : Thread nD τ).loc main_arg32) : (⟨S500000, .i32⟩ : BufTy).Contents (Elt Ideal)))) (Host.gather gather_S20000x128_S500000x1_S500000x128_1_0_n_n_0_1_1128 ((m ((c : Thread nD τ).loc main_arg2) : (⟨S20000x128, .f32⟩ : BufTy).Contents (Elt Ideal))) (broadcastInDim S500000x1 ![0] bcast_S500000_S500000x1_0 (select (cmpi .slt ((m ((c : Thread nD τ).loc main_arg31) : (⟨S500000, .i32⟩ : BufTy).Contents (Elt Ideal))) (broadcastInDim S500000 ![] bcast_S_S500000 (constantI S_ 32 0#32))) (addi ((m ((c : Thread nD τ).loc main_arg31) : (⟨S500000, .i32⟩ : BufTy).Contents (Elt Ideal))) (broadcastInDim S500000 ![] bcast_S_S500000 (constantI S_ 32 20000#32))) ((m ((c : Thread nD τ).loc main_arg31) : (⟨S500000, .i32⟩ : BufTy).Contents (Elt Ideal))))))) (broadcastInDim S20000x128 ![0, 1] bcast_S20000x1_S20000x128_0_1 (maximumf (Host.scatterAdd scatter_S20000x1_S500000x1_S500000x1_1_0_0_1 (broadcastInDim S20000x1 ![] bcast_S_S20000x1 (constant (F := Ideal) S_ .f32 0x00000000#32)) (broadcastInDim S500000x1 ![0] bcast_S500000_S500000x1_0 ((m ((c : Thread nD τ).loc main_arg32) : (⟨S500000, .i32⟩ : BufTy).Contents (Elt Ideal)))) (broadcastInDim S500000x1 ![] bcast_S_S500000x1 (constant (F := Ideal) S_ .f32 0x3F800000#32))) (broadcastInDim S20000x1 ![] bcast_S_S20000x1 (constant (F := Ideal) S_ .f32 0x3F800000#32))))))⟩, ⟨S1x20000x128, (broadcastInDim S1x20000x128 ![1, 2] bcast_S20000x128_S1x20000x128_1_2 (Host.divf (Host.scatterAdd scatter_S20000x128_S300000x1_S300000x128_1_0_0_1 (broadcastInDim S20000x128 ![] bcast_S_S20000x128 (constant (F := Ideal) S_ .f32 0x00000000#32)) (broadcastInDim S300000x1 ![0] bcast_S300000_S300000x1_0 ((m ((c : Thread nD τ).loc main_arg34) : (⟨S300000, .i32⟩ : BufTy).Contents (Elt Ideal)))) (Host.gather gather_S2000x128_S300000x1_S300000x128_1_0_n_n_0_1_1128 ((m ((c : Thread nD τ).loc main_arg3) : (⟨S2000x128, .f32⟩ : BufTy).Contents (Elt Ideal))) (broadcastInDim S300000x1 ![0] bcast_S300000_S300000x1_0 (select (cmpi .slt ((m ((c : Thread nD τ).loc main_arg33) : (⟨S300000, .i32⟩ : BufTy).Contents (Elt Ideal))) (broadcastInDim S300000 ![] bcast_S_S300000 (constantI S_ 32 0#32))) (addi ((m ((c : Thread nD τ).loc main_arg33) : (⟨S300000, .i32⟩ : BufTy).Contents (Elt Ideal))) (broadcastInDim S300000 ![] bcast_S_S300000 (constantI S_ 32 2000#32))) ((m ((c : Thread nD τ).loc main_arg33) : (⟨S300000, .i32⟩ : BufTy).Contents (Elt Ideal))))))) (broadcastInDim S20000x128 ![0, 1] bcast_S20000x1_S20000x128_0_1 (maximumf (Host.scatterAdd scatter_S20000x1_S300000x1_S300000x1_1_0_0_1 (broadcastInDim S20000x1 ![] bcast_S_S20000x1 (constant (F := Ideal) S_ .f32 0x00000000#32)) (broadcastInDim S300000x1 ![0] bcast_S300000_S300000x1_0 ((m ((c : Thread nD τ).loc main_arg34) : (⟨S300000, .i32⟩ : BufTy).Contents (Elt Ideal)))) (broadcastInDim S300000x1 ![] bcast_S_S300000x1 (constant (F := Ideal) S_ .f32 0x3F800000#32))) (broadcastInDim S20000x1 ![] bcast_S_S20000x1 (constant (F := Ideal) S_ .f32 0x3F800000#32))))))⟩, ⟨S1x20000x128, (broadcastInDim S1x20000x128 ![1, 2] bcast_S20000x128_S1x20000x128_1_2 (Host.divf (Host.scatterAdd scatter_S20000x128_S400000x1_S400000x128_1_0_0_1 (broadcastInDim S20000x128 ![] bcast_S_S20000x128 (constant (F := Ideal) S_ .f32 0x00000000#32)) (broadcastInDim S400000x1 ![0] bcast_S400000_S400000x1_0 ((m ((c : Thread nD τ).loc main_arg36) : (⟨S400000, .i32⟩ : BufTy).Contents (Elt Ideal)))) (Host.gather gather_S10000x128_S400000x1_S400000x128_1_0_n_n_0_1_1128 ((m ((c : Thread nD τ).loc main_arg4) : (⟨S10000x128, .f32⟩ : BufTy).Contents (Elt Ideal))) (broadcastInDim S400000x1 ![0] bcast_S400000_S400000x1_0 (select (cmpi .slt ((m ((c : Thread nD τ).loc main_arg35) : (⟨S400000, .i32⟩ : BufTy).Contents (Elt Ideal))) (broadcastInDim S400000 ![] bcast_S_S400000 (constantI S_ 32 0#32))) (addi ((m ((c : Thread nD τ).loc main_arg35) : (⟨S400000, .i32⟩ : BufTy).Contents (Elt Ideal))) (broadcastInDim S400000 ![] bcast_S_S400000 (constantI S_ 32 10000#32))) ((m ((c : Thread nD τ).loc main_arg35) : (⟨S400000, .i32⟩ : BufTy).Contents (Elt Ideal))))))) (broadcastInDim S20000x128 ![0, 1] bcast_S20000x1_S20000x128_0_1 (maximumf (Host.scatterAdd scatter_S20000x1_S400000x1_S400000x1_1_0_0_1 (broadcastInDim S20000x1 ![] bcast_S_S20000x1 (constant (F := Ideal) S_ .f32 0x00000000#32)) (broadcastInDim S400000x1 ![0] bcast_S400000_S400000x1_0 ((m ((c : Thread nD τ).loc main_arg36) : (⟨S400000, .i32⟩ : BufTy).Contents (Elt Ideal)))) (broadcastInDim S400000x1 ![] bcast_S_S400000x1 (constant (F := Ideal) S_ .f32 0x3F800000#32))) (broadcastInDim S20000x1 ![] bcast_S_S20000x1 (constant (F := Ideal) S_ .f32 0x3F800000#32))))))⟩, ⟨S1x20000x128, (broadcastInDim S1x20000x128 ![1, 2] bcast_S20000x128_S1x20000x128_1_2 (Host.divf (Host.scatterAdd scatter_S20000x128_S250000x1_S250000x128_1_0_0_1 (broadcastInDim S20000x128 ![] bcast_S_S20000x128 (constant (F := Ideal) S_ .f32 0x00000000#32)) (broadcastInDim S250000x1 ![0] bcast_S250000_S250000x1_0 ((m ((c : Thread nD τ).loc main_arg38) : (⟨S250000, .i32⟩ : BufTy).Contents (Elt Ideal)))) (Host.gather gather_S8000x128_S250000x1_S250000x128_1_0_n_n_0_1_1128 (D) (broadcastInDim S250000x1 ![0] bcast_S250000_S250000x1_0 (select (cmpi .slt ((m ((c : Thread nD τ).loc main_arg37) : (⟨S250000, .i32⟩ : BufTy).Contents (Elt Ideal))) (broadcastInDim S250000 ![] bcast_S_S250000 (constantI S_ 32 0#32))) (addi ((m ((c : Thread nD τ).loc main_arg37) : (⟨S250000, .i32⟩ : BufTy).Contents (Elt Ideal))) (broadcastInDim S250000 ![] bcast_S_S250000 (constantI S_ 32 8000#32))) ((m ((c : Thread nD τ).loc main_arg37) : (⟨S250000, .i32⟩ : BufTy).Contents (Elt Ideal))))))) (broadcastInDim S20000x128 ![0, 1] bcast_S20000x1_S20000x128_0_1 (maximumf (Host.scatterAdd scatter_S20000x1_S250000x1_S250000x1_1_0_0_1 (broadcastInDim S20000x1 ![] bcast_S_S20000x1 (constant (F := Ideal) S_ .f32 0x00000000#32)) (broadcastInDim S250000x1 ![0] bcast_S250000_S250000x1_0 ((m ((c : Thread nD τ).loc main_arg38) : (⟨S250000, .i32⟩ : BufTy).Contents (Elt Ideal)))) (broadcastInDim S250000x1 ![] bcast_S_S250000x1 (constant (F := Ideal) S_ .f32 0x3F800000#32))) (broadcastInDim S20000x1 ![] bcast_S_S20000x1 (constant (F := Ideal) S_ .f32 0x3F800000#32))))))⟩] concatenates_S1x20000x128_S1x20000x128_S1x20000x128_S1x20000x128_S4x20000x128_d0
/-- The four relations' self weights, stacked. -/
def stackWS : (⟨S4x128x128, .f32⟩ : BufTy).Contents (Elt Ideal) := concatenate S4x128x128 0 [⟨S1x128x128, (broadcastInDim S1x128x128 ![1, 2] bcast_S128x128_S1x128x128_1_2 ((m ((c : Thread nD τ).loc main_arg11) : (⟨S128x128, .f32⟩ : BufTy).Contents (Elt Ideal))))⟩, ⟨S1x128x128, (broadcastInDim S1x128x128 ![1, 2] bcast_S128x128_S1x128x128_1_2 ((m ((c : Thread nD τ).loc main_arg15) : (⟨S128x128, .f32⟩ : BufTy).Contents (Elt Ideal))))⟩, ⟨S1x128x128, (broadcastInDim S1x128x128 ![1, 2] bcast_S128x128_S1x128x128_1_2 ((m ((c : Thread nD τ).loc main_arg19) : (⟨S128x128, .f32⟩ : BufTy).Contents (Elt Ideal))))⟩, ⟨S1x128x128, (broadcastInDim S1x128x128 ![1, 2] bcast_S128x128_S1x128x128_1_2 ((m ((c : Thread nD τ).loc main_arg23) : (⟨S128x128, .f32⟩ : BufTy).Contents (Elt Ideal))))⟩] concatenates_S1x128x128_S1x128x128_S1x128x128_S1x128x128_S4x128x128_d0
/-- The four relations' neighbour weights, stacked. -/
def stackWN : (⟨S4x128x128, .f32⟩ : BufTy).Contents (Elt Ideal) := concatenate S4x128x128 0 [⟨S1x128x128, (broadcastInDim S1x128x128 ![1, 2] bcast_S128x128_S1x128x128_1_2 ((m ((c : Thread nD τ).loc main_arg9) : (⟨S128x128, .f32⟩ : BufTy).Contents (Elt Ideal))))⟩, ⟨S1x128x128, (broadcastInDim S1x128x128 ![1, 2] bcast_S128x128_S1x128x128_1_2 ((m ((c : Thread nD τ).loc main_arg13) : (⟨S128x128, .f32⟩ : BufTy).Contents (Elt Ideal))))⟩, ⟨S1x128x128, (broadcastInDim S1x128x128 ![1, 2] bcast_S128x128_S1x128x128_1_2 ((m ((c : Thread nD τ).loc main_arg17) : (⟨S128x128, .f32⟩ : BufTy).Contents (Elt Ideal))))⟩, ⟨S1x128x128, (broadcastInDim S1x128x128 ![1, 2] bcast_S128x128_S1x128x128_1_2 ((m ((c : Thread nD τ).loc main_arg21) : (⟨S128x128, .f32⟩ : BufTy).Contents (Elt Ideal))))⟩] concatenates_S1x128x128_S1x128x128_S1x128x128_S1x128x128_S4x128x128_d0
/-- The four relations' self biases, stacked as rows. -/
def stackBS : (⟨S4x1x128, .f32⟩ : BufTy).Contents (Elt Ideal) := shapeCast S4x1x128 (concatenate S4x128 0 [⟨S1x128, (broadcastInDim S1x128 ![1] bcast_S128_S1x128_1 ((m ((c : Thread nD τ).loc main_arg12) : (⟨S128, .f32⟩ : BufTy).Contents (Elt Ideal))))⟩, ⟨S1x128, (broadcastInDim S1x128 ![1] bcast_S128_S1x128_1 ((m ((c : Thread nD τ).loc main_arg16) : (⟨S128, .f32⟩ : BufTy).Contents (Elt Ideal))))⟩, ⟨S1x128, (broadcastInDim S1x128 ![1] bcast_S128_S1x128_1 ((m ((c : Thread nD τ).loc main_arg20) : (⟨S128, .f32⟩ : BufTy).Contents (Elt Ideal))))⟩, ⟨S1x128, (broadcastInDim S1x128 ![1] bcast_S128_S1x128_1 ((m ((c : Thread nD τ).loc main_arg24) : (⟨S128, .f32⟩ : BufTy).Contents (Elt Ideal))))⟩] concatenates_S1x128_S1x128_S1x128_S1x128_S4x128_d0) shapeCasts_S4x128_S4x1x128
/-- The four relations' neighbour biases, stacked as rows. -/
def stackBN : (⟨S4x1x128, .f32⟩ : BufTy).Contents (Elt Ideal) := shapeCast S4x1x128 (concatenate S4x128 0 [⟨S1x128, (broadcastInDim S1x128 ![1] bcast_S128_S1x128_1 ((m ((c : Thread nD τ).loc main_arg10) : (⟨S128, .f32⟩ : BufTy).Contents (Elt Ideal))))⟩, ⟨S1x128, (broadcastInDim S1x128 ![1] bcast_S128_S1x128_1 ((m ((c : Thread nD τ).loc main_arg14) : (⟨S128, .f32⟩ : BufTy).Contents (Elt Ideal))))⟩, ⟨S1x128, (broadcastInDim S1x128 ![1] bcast_S128_S1x128_1 ((m ((c : Thread nD τ).loc main_arg18) : (⟨S128, .f32⟩ : BufTy).Contents (Elt Ideal))))⟩, ⟨S1x128, (broadcastInDim S1x128 ![1] bcast_S128_S1x128_1 ((m ((c : Thread nD τ).loc main_arg22) : (⟨S128, .f32⟩ : BufTy).Contents (Elt Ideal))))⟩] concatenates_S1x128_S1x128_S1x128_S1x128_S4x128_d0) shapeCasts_S4x128_S4x1x128
/-- The degree-normalised aggregation of the combined features `H`. -/
def aggregated (H : (⟨S20000x128, .f32⟩ : BufTy).Contents (Elt Ideal)) : (⟨S1000x128, .f32⟩ : BufTy).Contents (Elt Ideal) := mulf (Host.scatterAdd scatter_S1000x128_S300000x1_S300000x128_1_0_0_1 (broadcastInDim S1000x128 ![] bcast_S_S1000x128 (constant (F := Ideal) S_ .f32 0x00000000#32)) (broadcastInDim S300000x1 ![0] bcast_S300000_S300000x1_0 ((m ((c : Thread nD τ).loc main_arg40) : (⟨S300000, .i32⟩ : BufTy).Contents (Elt Ideal)))) (Host.gather gather_S20000x128_S300000x1_S300000x128_1_0_n_n_0_1_1128 (mulf (H) (broadcastInDim S20000x128 ![0, 1] bcast_S20000x1_S20000x128_0_1 (broadcastInDim S20000x1 ![0] bcast_S20000_S20000x1_0 (Host.powf (maximumf (Host.scatterAdd scatter_S20000_S300000x1_S300000_n_0_0_1 (broadcastInDim S20000 ![] bcast_S_S20000 (constant (F := Ideal) S_ .f32 0x00000000#32)) (broadcastInDim S300000x1 ![0] bcast_S300000_S300000x1_0 ((m ((c : Thread nD τ).loc main_arg39) : (⟨S300000, .i32⟩ : BufTy).Contents (Elt Ideal)))) (broadcastInDim S300000 ![] bcast_S_S300000 (constant (F := Ideal) S_ .f32 0x3F800000#32))) (broadcastInDim S20000 ![] bcast_S_S20000 (constant (F := Ideal) S_ .f32 0x3F800000#32))) (broadcastInDim S20000 ![] bcast_S_S20000 (constant (F := Ideal) S_ .f32 0xBF000000#32)))))) (broadcastInDim S300000x1 ![0] bcast_S300000_S300000x1_0 (select (cmpi .slt ((m ((c : Thread nD τ).loc main_arg39) : (⟨S300000, .i32⟩ : BufTy).Contents (Elt Ideal))) (broadcastInDim S300000 ![] bcast_S_S300000 (constantI S_ 32 0#32))) (addi ((m ((c : Thread nD τ).loc main_arg39) : (⟨S300000, .i32⟩ : BufTy).Contents (Elt Ideal))) (broadcastInDim S300000 ![] bcast_S_S300000 (constantI S_ 32 20000#32))) ((m ((c : Thread nD τ).loc main_arg39) : (⟨S300000, .i32⟩ : BufTy).Contents (Elt Ideal))))))) (broadcastInDim S1000x128 ![0, 1] bcast_S1000x1_S1000x128_0_1 (broadcastInDim S1000x1 ![0] bcast_S1000_S1000x1_0 (Host.powf (maximumf (Host.scatterAdd scatter_S1000_S300000x1_S300000_n_0_0_1 (broadcastInDim S1000 ![] bcast_S_S1000 (constant (F := Ideal) S_ .f32 0x00000000#32)) (broadcastInDim S300000x1 ![0] bcast_S300000_S300000x1_0 ((m ((c : Thread nD τ).loc main_arg40) : (⟨S300000, .i32⟩ : BufTy).Contents (Elt Ideal)))) (broadcastInDim S300000 ![] bcast_S_S300000 (constant (F := Ideal) S_ .f32 0x3F800000#32))) (broadcastInDim S1000 ![] bcast_S_S1000 (constant (F := Ideal) S_ .f32 0x3F800000#32))) (broadcastInDim S1000 ![] bcast_S_S1000 (constant (F := Ideal) S_ .f32 0xBF000000#32)))))
/-- The second dense layer's bias as a row. -/
def biasRow2 : (⟨S1x128, .f32⟩ : BufTy).Contents (Elt Ideal) := shapeCast S1x128 ((m ((c : Thread nD τ).loc main_arg26) : (⟨S128, .f32⟩ : BufTy).Contents (Elt Ideal))) shapeCasts_S128_S1x128
/-- The four gathered-and-concatenated score inputs, stacked by rows; `H`, `Q` are the two layers' outputs. -/
def scoreInputs (H : (⟨S20000x128, .f32⟩ : BufTy).Contents (Elt Ideal)) (Q : (⟨S1000x128, .f32⟩ : BufTy).Contents (Elt Ideal)) : (⟨S200000x256, .f32⟩ : BufTy).Contents (Elt Ideal) := concatenate S200000x256 0 [⟨S50000x256, (concatenate S50000x256 1 [⟨S50000x128, (Host.gather gather_S20000x128_S50000x1_S50000x128_1_0_n_n_0_1_1128 (H) (broadcastInDim S50000x1 ![0] bcast_S50000_S50000x1_0 (select (cmpi .slt ((m ((c : Thread nD τ).loc main_arg41) : (⟨S50000, .i32⟩ : BufTy).Contents (Elt Ideal))) (broadcastInDim S50000 ![] bcast_S_S50000 (constantI S_ 32 0#32))) (addi ((m ((c : Thread nD τ).loc main_arg41) : (⟨S50000, .i32⟩ : BufTy).Contents (Elt Ideal))) (broadcastInDim S50000 ![] bcast_S_S50000 (constantI S_ 32 20000#32))) ((m ((c : Thread nD τ).loc main_arg41) : (⟨S50000, .i32⟩ : BufTy).Contents (Elt Ideal))))))⟩, ⟨S50000x128, (Host.gather gather_S1000x128_S50000x1_S50000x128_1_0_n_n_0_1_1128 (Q) (broadcastInDim S50000x1 ![0] bcast_S50000_S50000x1_0 (select (cmpi .slt ((m ((c : Thread nD τ).loc main_arg42) : (⟨S50000, .i32⟩ : BufTy).Contents (Elt Ideal))) (broadcastInDim S50000 ![] bcast_S_S50000 (constantI S_ 32 0#32))) (addi ((m ((c : Thread nD τ).loc main_arg42) : (⟨S50000, .i32⟩ : BufTy).Contents (Elt Ideal))) (broadcastInDim S50000 ![] bcast_S_S50000 (constantI S_ 32 1000#32))) ((m ((c : Thread nD τ).loc main_arg42) : (⟨S50000, .i32⟩ : BufTy).Contents (Elt Ideal))))))⟩] concatenates_S50000x128_S50000x128_S50000x256_d1)⟩, ⟨S50000x256, (concatenate S50000x256 1 [⟨S50000x128, (Host.gather gather_S20000x128_S50000x1_S50000x128_1_0_n_n_0_1_1128 (H) (broadcastInDim S50000x1 ![0] bcast_S50000_S50000x1_0 (select (cmpi .slt ((m ((c : Thread nD τ).loc main_arg41) : (⟨S50000, .i32⟩ : BufTy).Contents (Elt Ideal))) (broadcastInDim S50000 ![] bcast_S_S50000 (constantI S_ 32 0#32))) (addi ((m ((c : Thread nD τ).loc main_arg41) : (⟨S50000, .i32⟩ : BufTy).Contents (Elt Ideal))) (broadcastInDim S50000 ![] bcast_S_S50000 (constantI S_ 32 20000#32))) ((m ((c : Thread nD τ).loc main_arg41) : (⟨S50000, .i32⟩ : BufTy).Contents (Elt Ideal))))))⟩, ⟨S50000x128, (Host.gather gather_S1000x128_S50000x1_S50000x128_1_0_n_n_0_1_1128 (Q) (broadcastInDim S50000x1 ![0] bcast_S50000_S50000x1_0 (select (cmpi .slt ((m ((c : Thread nD τ).loc main_arg43) : (⟨S50000, .i32⟩ : BufTy).Contents (Elt Ideal))) (broadcastInDim S50000 ![] bcast_S_S50000 (constantI S_ 32 0#32))) (addi ((m ((c : Thread nD τ).loc main_arg43) : (⟨S50000, .i32⟩ : BufTy).Contents (Elt Ideal))) (broadcastInDim S50000 ![] bcast_S_S50000 (constantI S_ 32 1000#32))) ((m ((c : Thread nD τ).loc main_arg43) : (⟨S50000, .i32⟩ : BufTy).Contents (Elt Ideal))))))⟩] concatenates_S50000x128_S50000x128_S50000x256_d1)⟩, ⟨S50000x256, (concatenate S50000x256 1 [⟨S50000x128, (Host.gather gather_S20000x128_S50000x1_S50000x128_1_0_n_n_0_1_1128 (H) (broadcastInDim S50000x1 ![0] bcast_S50000_S50000x1_0 (select (cmpi .slt ((m ((c : Thread nD τ).loc main_arg45) : (⟨S50000, .i32⟩ : BufTy).Contents (Elt Ideal))) (broadcastInDim S50000 ![] bcast_S_S50000 (constantI S_ 32 0#32))) (addi ((m ((c : Thread nD τ).loc main_arg45) : (⟨S50000, .i32⟩ : BufTy).Contents (Elt Ideal))) (broadcastInDim S50000 ![] bcast_S_S50000 (constantI S_ 32 20000#32))) ((m ((c : Thread nD τ).loc main_arg45) : (⟨S50000, .i32⟩ : BufTy).Contents (Elt Ideal))))))⟩, ⟨S50000x128, (Host.gather gather_S1000x128_S50000x1_S50000x128_1_0_n_n_0_1_1128 (Q) (broadcastInDim S50000x1 ![0] bcast_S50000_S50000x1_0 (select (cmpi .slt ((m ((c : Thread nD τ).loc main_arg44) : (⟨S50000, .i32⟩ : BufTy).Contents (Elt Ideal))) (broadcastInDim S50000 ![] bcast_S_S50000 (constantI S_ 32 0#32))) (addi ((m ((c : Thread nD τ).loc main_arg44) : (⟨S50000, .i32⟩ : BufTy).Contents (Elt Ideal))) (broadcastInDim S50000 ![] bcast_S_S50000 (constantI S_ 32 1000#32))) ((m ((c : Thread nD τ).loc main_arg44) : (⟨S50000, .i32⟩ : BufTy).Contents (Elt Ideal))))))⟩] concatenates_S50000x128_S50000x128_S50000x256_d1)⟩, ⟨S50000x256, (concatenate S50000x256 1 [⟨S50000x128, (Host.gather gather_S20000x128_S50000x1_S50000x128_1_0_n_n_0_1_1128 (H) (broadcastInDim S50000x1 ![0] bcast_S50000_S50000x1_0 (select (cmpi .slt ((m ((c : Thread nD τ).loc main_arg46) : (⟨S50000, .i32⟩ : BufTy).Contents (Elt Ideal))) (broadcastInDim S50000 ![] bcast_S_S50000 (constantI S_ 32 0#32))) (addi ((m ((c : Thread nD τ).loc main_arg46) : (⟨S50000, .i32⟩ : BufTy).Contents (Elt Ideal))) (broadcastInDim S50000 ![] bcast_S_S50000 (constantI S_ 32 20000#32))) ((m ((c : Thread nD τ).loc main_arg46) : (⟨S50000, .i32⟩ : BufTy).Contents (Elt Ideal))))))⟩, ⟨S50000x128, (Host.gather gather_S1000x128_S50000x1_S50000x128_1_0_n_n_0_1_1128 (Q) (broadcastInDim S50000x1 ![0] bcast_S50000_S50000x1_0 (select (cmpi .slt ((m ((c : Thread nD τ).loc main_arg44) : (⟨S50000, .i32⟩ : BufTy).Contents (Elt Ideal))) (broadcastInDim S50000 ![] bcast_S_S50000 (constantI S_ 32 0#32))) (addi ((m ((c : Thread nD τ).loc main_arg44) : (⟨S50000, .i32⟩ : BufTy).Contents (Elt Ideal))) (broadcastInDim S50000 ![] bcast_S_S50000 (constantI S_ 32 1000#32))) ((m ((c : Thread nD τ).loc main_arg44) : (⟨S50000, .i32⟩ : BufTy).Contents (Elt Ideal))))))⟩] concatenates_S50000x128_S50000x128_S50000x256_d1)⟩] concatenates_S50000x256_S50000x256_S50000x256_S50000x256_S200000x256_d0
/-- The score network's two biases as rows. -/
def biasRow3a : (⟨S1x256, .f32⟩ : BufTy).Contents (Elt Ideal) := shapeCast S1x256 ((m ((c : Thread nD τ).loc main_arg28) : (⟨S256, .f32⟩ : BufTy).Contents (Elt Ideal))) shapeCasts_S256_S1x256
def biasRow3b : (⟨S1x1, .f32⟩ : BufTy).Contents (Elt Ideal) := shapeCast S1x1 ((m ((c : Thread nD τ).loc main_arg30) : (⟨S1, .f32⟩ : BufTy).Contents (Elt Ideal))) shapeCasts_S1_S1x1
/-- The two score differences, from the stacked scores `S`. -/
def scoreDiff0 (S : (⟨S200000x1, .f32⟩ : BufTy).Contents (Elt Ideal)) : (⟨S50000x1, .f32⟩ : BufTy).Contents (Elt Ideal) := subf (F := Ideal) (φ := .f32) (extractStridedSlice S50000x1 ![0, 0] (S) slices_S200000x1_S50000x1_0_0) (extractStridedSlice S50000x1 ![50000, 0] (S) slices_S200000x1_S50000x1_50000_0)
def scoreDiff1 (S : (⟨S200000x1, .f32⟩ : BufTy).Contents (Elt Ideal)) : (⟨S50000x1, .f32⟩ : BufTy).Contents (Elt Ideal) := subf (F := Ideal) (φ := .f32) (extractStridedSlice S50000x1 ![100000, 0] (S) slices_S200000x1_S50000x1_100000_0) (extractStridedSlice S50000x1 ![150000, 0] (S) slices_S200000x1_S50000x1_150000_0)

/-! ## The host stretches, read at the regions' operands -/

theorem V1_v0 : (V1 m ρ c main_v0 : (⟨S1x128, .f32⟩ : BufTy).Contents (Elt Ideal)) = biasRow0 m c := by
  have e := ops0_v0 (W0 m ρ c)
  exact e
theorem V1_arg (b : Ref sig .tc) (h0 : b ∉ hostOps0_W) : V1 m ρ c b = m ((c : Thread nD τ).loc b) := W1_launch m ρ c b h0
theorem V3_arg (b : Ref sig .tc) (h0 : b ∉ hostOps0_W) (r0 : b ≠ Pipeline.arrRef spec0 3) (h1 : b ∉ hostOps1_W) :
    V3 m ρ c b = m ((c : Thread nD τ).loc b) := W3_launch m ρ c b h0 r0 h1
theorem V5_arg (b : Ref sig .tc) (h0 : b ∉ hostOps0_W) (r0 : b ≠ Pipeline.arrRef spec0 3) (h1 : b ∉ hostOps1_W) (r1 : b ≠ Pipeline.arrRef spec1 6)
    (h2 : b ∉ hostOps2_W) : V5 m ρ c b = m ((c : Thread nD τ).loc b) := W5_launch m ρ c b h0 r0 h1 r1 h2
theorem V7_arg (b : Ref sig .tc) (h0 : b ∉ hostOps0_W) (r0 : b ≠ Pipeline.arrRef spec0 3) (h1 : b ∉ hostOps1_W) (r1 : b ≠ Pipeline.arrRef spec1 6)
    (h2 : b ∉ hostOps2_W) (r2 : b ≠ Pipeline.arrRef spec2 3) (h3 : b ∉ hostOps3_W) : V7 m ρ c b = m ((c : Thread nD τ).loc b) :=
  W7_launch m ρ c b h0 r0 h1 r1 h2 r2 h3

theorem V3_v78 (D : (⟨S8000x128, .f32⟩ : BufTy).Contents (Elt Ideal)) (hD : (W2 m ρ c (Proc.devRef .tc main_v1) : (⟨S8000x128, .f32⟩ : BufTy).Contents (Elt Ideal)) = D) :
    (V3 m ρ c main_v78 : (⟨S4x20000x128, .f32⟩ : BufTy).Contents (Elt Ideal)) = stackHN m c D := by
  have e := ops1_v78 (W2 m ρ c)
  rw [W2_launch m ρ c main_arg32 (by decide) (by decide),
    W2_launch m ρ c main_arg2 (by decide) (by decide),
    W2_launch m ρ c main_arg31 (by decide) (by decide),
    W2_launch m ρ c main_arg34 (by decide) (by decide),
    W2_launch m ρ c main_arg3 (by decide) (by decide),
    W2_launch m ρ c main_arg33 (by decide) (by decide),
    W2_launch m ρ c main_arg36 (by decide) (by decide),
    W2_launch m ρ c main_arg4 (by decide) (by decide),
    W2_launch m ρ c main_arg35 (by decide) (by decide),
    W2_launch m ρ c main_arg38 (by decide) (by decide),
    hD,
    W2_launch m ρ c main_arg37 (by decide) (by decide)] at e
  exact e

theorem V3_v83 :
    (V3 m ρ c main_v83 : (⟨S4x128x128, .f32⟩ : BufTy).Contents (Elt Ideal)) = stackWS m c := by
  have e := ops1_v83 (W2 m ρ c)
  rw [W2_launch m ρ c main_arg11 (by decide) (by decide),
    W2_launch m ρ c main_arg15 (by decide) (by decide),
    W2_launch m ρ c main_arg19 (by decide) (by decide),
    W2_launch m ρ c main_arg23 (by decide) (by decide)] at e
  exact e

theorem V3_v94 :
    (V3 m ρ c main_v94 : (⟨S4x128x128, .f32⟩ : BufTy).Contents (Elt Ideal)) = stackWN m c := by
  have e := ops1_v94 (W2 m ρ c)
  rw [W2_launch m ρ c main_arg9 (by decide) (by decide),
    W2_launch m ρ c main_arg13 (by decide) (by decide),
    W2_launch m ρ c main_arg17 (by decide) (by decide),
    W2_launch m ρ c main_arg21 (by decide) (by decide)] at e
  exact e

theorem V3_v89 :
    (V3 m ρ c main_v89 : (⟨S4x1x128, .f32⟩ : BufTy).Contents (Elt Ideal)) = stackBS m c := by
  have e := ops1_v89 (W2 m ρ c)
  rw [W2_launch m ρ c main_arg12 (by decide) (by decide),
    W2_launch m ρ c main_arg16 (by decide) (by decide),
    W2_launch m ρ c main_arg20 (by decide) (by decide),
    W2_launch m ρ c main_arg24 (by decide) (by decide)] at e
  exact e

theorem V3_v100 :
    (V3 m ρ c main_v100 : (⟨S4x1x128, .f32⟩ : BufTy).Contents (Elt Ideal)) = stackBN m c := by
  have e := ops1_v100 (W2 m ρ c)
  rw [W2_launch m ρ c main_arg10 (by decide) (by decide),
    W2_launch m ρ c main_arg14 (by decide) (by decide),
    W2_launch m ρ c main_arg18 (by decide) (by decide),
    W2_launch m ρ c main_arg22 (by decide) (by decide)] at e
  exact e

theorem V5_v132 (H : (⟨S20000x128, .f32⟩ : BufTy).Contents (Elt Ideal)) (hH : (W4 m ρ c (Proc.devRef .tc main_v101) : (⟨S20000x128, .f32⟩ : BufTy).Contents (Elt Ideal)) = H) :
    (V5 m ρ c main_v132 : (⟨S1000x128, .f32⟩ : BufTy).Contents (Elt Ideal)) = aggregated m c H := by
  have e := ops2_v132 (W4 m ρ c)
  rw [W4_launch m ρ c main_arg40 (by decide) (by decide) (by decide) (by decide),
    hH,
    W4_launch m ρ c main_arg39 (by decide) (by decide) (by decide) (by decide)] at e
  exact e

theorem V5_v133 :
    (V5 m ρ c main_v133 : (⟨S1x128, .f32⟩ : BufTy).Contents (Elt Ideal)) = biasRow2 m c := by
  have e := ops2_v133 (W4 m ρ c)
  rw [W4_launch m ρ c main_arg26 (by decide) (by decide) (by decide) (by decide)] at e
  exact e

theorem V7_v195 (H : (⟨S20000x128, .f32⟩ : BufTy).Contents (Elt Ideal)) (hH : (W6 m ρ c (Proc.devRef .tc main_v101) : (⟨S20000x128, .f32⟩ : BufTy).Contents (Elt Ideal)) = H) (Q : (⟨S1000x128, .f32⟩ : BufTy).Contents (Elt Ideal)) (hQ : (W6 m ρ c (Proc.devRef .tc main_v134) : (⟨S1000x128, .f32⟩ : BufTy).Contents (Elt Ideal)) = Q) :
    (V7 m ρ c main_v195 : (⟨S200000x256, .f32⟩ : BufTy).Contents (Elt Ideal)) = scoreInputs m c H Q := by
  have e := ops3_v195 (W6 m ρ c)
  rw [hH,
    W6_launch m ρ c main_arg41 (by decide) (by decide) (by decide) (by decide) (by decide) (by decide),
    hQ,
    W6_launch m ρ c main_arg42 (by decide) (by decide) (by decide) (by decide) (by decide) (by decide),
    W6_launch m ρ c main_arg43 (by decide) (by decide) (by decide) (by decide) (by decide) (by decide),
    W6_launch m ρ c main_arg45 (by decide) (by decide) (by decide) (by decide) (by decide) (by decide),
    W6_launch m ρ c main_arg44 (by decide) (by decide) (by decide) (by decide) (by decide) (by decide),
    W6_launch m ρ c main_arg46 (by decide) (by decide) (by decide) (by decide) (by decide) (by decide)] at e
  exact e

theorem V7_v196 :
    (V7 m ρ c main_v196 : (⟨S1x256, .f32⟩ : BufTy).Contents (Elt Ideal)) = biasRow3a m c := by
  have e := ops3_v196 (W6 m ρ c)
  rw [W6_launch m ρ c main_arg28 (by decide) (by decide) (by decide) (by decide) (by decide) (by decide)] at e
  exact e

theorem V7_v197 :
    (V7 m ρ c main_v197 : (⟨S1x1, .f32⟩ : BufTy).Contents (Elt Ideal)) = biasRow3b m c := by
  have e := ops3_v197 (W6 m ρ c)
  rw [W6_launch m ρ c main_arg30 (by decide) (by decide) (by decide) (by decide) (by decide) (by decide)] at e
  exact e

theorem W9_v203 (S : (⟨S200000x1, .f32⟩ : BufTy).Contents (Elt Ideal)) (hS : (W8 m ρ c (Proc.devRef .tc main_v198) : (⟨S200000x1, .f32⟩ : BufTy).Contents (Elt Ideal)) = S) :
    (W9 m ρ c (Proc.devRef .tc main_v203) : (⟨S50000x1, .f32⟩ : BufTy).Contents (Elt Ideal)) = scoreDiff0 S := by
  have e := ops4_v203 (W8 m ρ c)
  rw [hS] at e
  exact e
theorem W9_v204 (S : (⟨S200000x1, .f32⟩ : BufTy).Contents (Elt Ideal)) (hS : (W8 m ρ c (Proc.devRef .tc main_v198) : (⟨S200000x1, .f32⟩ : BufTy).Contents (Elt Ideal)) = S) :
    (W9 m ρ c (Proc.devRef .tc main_v204) : (⟨S50000x1, .f32⟩ : BufTy).Contents (Elt Ideal)) = scoreDiff1 S := by
  have e := ops4_v204 (W8 m ρ c)
  rw [hS] at e
  exact e

/-! ## The regions' output arrays -/

open Cert.KernelIdeal.Value0 Cert.KernelIdeal.Value1 Cert.KernelIdeal.Value2 Cert.KernelIdeal.Value3

/-- The first dense layer's output: x·Wᵀ + b over the whole array. -/
theorem out0 (h1 : S128x1024.Transposes [1, 0] S1024x128) (h2 : S1x128.BroadcastsInDim S8000x128 (![0, 1] : Fin 2 → Fin 2)) :
    (W2 m ρ c (Proc.devRef .tc main_v1) : FVec Ideal S8000x128 .f32)
      = G0 (m ((c : Thread nD τ).loc main_arg1)) (m ((c : Thread nD τ).loc main_arg7)) (biasRow0 m c) h1 h2 := by
  have e := arr0 (V1 m ρ) c h1 h2
  rw [V1_arg m ρ c main_arg1 (by decide), V1_arg m ρ c main_arg7 (by decide), V1_v0 m ρ c] at e
  exact (W2_arr m ρ c 3).trans e

/-- The four-relation layer's output: the sum of the four relations' terms over the stacked operands. -/
theorem out1 (D : (⟨S8000x128, .f32⟩ : BufTy).Contents (Elt Ideal)) (hD : (W2 m ρ c (Proc.devRef .tc main_v1) : (⟨S8000x128, .f32⟩ : BufTy).Contents (Elt Ideal)) = D)
    (hT : S128x128.Transposes [1, 0] S128x128) (hB : S1x128.BroadcastsInDim S20000x128 (![0, 1] : Fin 2 → Fin 2)) :
    (W4 m ρ c (Proc.devRef .tc main_v101) : FVec Ideal S20000x128 .f32)
      = total (m ((c : Thread nD τ).loc main_arg2)) (stackHN m c D) (stackWS m c) (stackWN m c) (stackBS m c) (stackBN m c) hT hB := by
  have e := arr1 (V3 m ρ) c hT hB
  dsimp only [arrX, arrHN, arrWS, arrWN, arrBS, arrBN] at e
  rw [V3_arg m ρ c main_arg2 (by decide) (by decide) (by decide), V3_v78 m ρ c D hD, V3_v83 m ρ c, V3_v94 m ρ c, V3_v89 m ρ c, V3_v100 m ρ c] at e
  exact (W4_arr m ρ c 6).trans e

/-- The second dense layer's output. -/
theorem out2 (H : (⟨S20000x128, .f32⟩ : BufTy).Contents (Elt Ideal)) (hH : (W4 m ρ c (Proc.devRef .tc main_v101) : (⟨S20000x128, .f32⟩ : BufTy).Contents (Elt Ideal)) = H)
    (h1 : S128x128.Transposes [1, 0] S128x128) (h2 : S1x128.BroadcastsInDim S1000x128 (![0, 1] : Fin 2 → Fin 2)) :
    (W6 m ρ c (Proc.devRef .tc main_v134) : FVec Ideal S1000x128 .f32)
      = G2 (aggregated m c H) (m ((c : Thread nD τ).loc main_arg25)) (biasRow2 m c) h1 h2 := by
  have e := arr2 (V5 m ρ) c h1 h2
  rw [V5_v132 m ρ c H hH, V5_arg m ρ c main_arg25 (by decide) (by decide) (by decide) (by decide) (by decide), V5_v133 m ρ c] at e
  exact (W6_arr m ρ c 3).trans e

/-- The score network's output over the stacked inputs. -/
theorem out3 (H : (⟨S20000x128, .f32⟩ : BufTy).Contents (Elt Ideal)) (hH : (W6 m ρ c (Proc.devRef .tc main_v101) : (⟨S20000x128, .f32⟩ : BufTy).Contents (Elt Ideal)) = H)
    (Q : (⟨S1000x128, .f32⟩ : BufTy).Contents (Elt Ideal)) (hQ : (W6 m ρ c (Proc.devRef .tc main_v134) : (⟨S1000x128, .f32⟩ : BufTy).Contents (Elt Ideal)) = Q)
    (h1 : S256x256.Transposes [1, 0] S256x256) (h2 : S1x256.BroadcastsInDim S200000x256 (![0, 1] : Fin 2 → Fin 2))
    (h3 : S_.BroadcastsInDim S200000x256 (![] : Fin 0 → Fin 2)) (h4 : S1x256.Transposes [1, 0] S256x1)
    (h5 : S1x1.BroadcastsInDim S200000x1 (![0, 1] : Fin 2 → Fin 2)) :
    (W8 m ρ c (Proc.devRef .tc main_v198) : FVec Ideal S200000x1 .f32)
      = G3 (scoreInputs m c H Q) (m ((c : Thread nD τ).loc main_arg27)) (biasRow3a m c) (m ((c : Thread nD τ).loc main_arg29)) (biasRow3b m c)
          h1 h2 h3 h4 h5 := by
  have e := arr3 (V7 m ρ) c h1 h2 h3 h4 h5
  rw [V7_v195 m ρ c H hH Q hQ, V7_arg m ρ c main_arg27 (by decide) (by decide) (by decide) (by decide) (by decide) (by decide) (by decide),
    V7_v196 m ρ c, V7_arg m ρ c main_arg29 (by decide) (by decide) (by decide) (by decide) (by decide) (by decide) (by decide), V7_v197 m ρ c] at e
  exact (W8_arr m ρ c 5).trans e

/-! ## What the program returns -/

/-- The first dense layer's output is still there at the end. -/
theorem ret_v1 : W9 m ρ c (Proc.devRef .tc main_v1) = W2 m ρ c (Proc.devRef .tc main_v1) :=
  W9_from2 m ρ c main_v1 (by decide) (by decide) (by decide) (by decide) (by decide) (by decide) (by decide)
/-- So is the four-relation layer's, -/
theorem ret_v101 : W9 m ρ c (Proc.devRef .tc main_v101) = W4 m ρ c (Proc.devRef .tc main_v101) :=
  W9_from4 m ρ c main_v101 (by decide) (by decide) (by decide) (by decide) (by decide)
theorem mid_v101 : W6 m ρ c (Proc.devRef .tc main_v101) = W4 m ρ c (Proc.devRef .tc main_v101) :=
  W6_from4 m ρ c main_v101 (by decide) (by decide)
/-- and the second dense layer's. -/
theorem ret_v134 : W9 m ρ c (Proc.devRef .tc main_v134) = W6 m ρ c (Proc.devRef .tc main_v134) :=
  W9_from6 m ρ c main_v134 (by decide) (by decide) (by decide)

end Cert.KernelIdeal.Values

end
-- ==== Proof.LibStackFour.lean ====
/-
  A stack of four arrays read at one member.

  Four arrays of one shape [a, b], each given a leading unit axis ([1, a, b]: a broadcast along the two trailing axes) and
  concatenated along that axis, make a stack [4, a, b]. Reading the stack at (r, p, q) reads array r at (p, q): the
  concatenation sends the leading coordinate r to piece r (the pieces before it have extent 1 each), and the lifted piece
  forgets its unit coordinate. The same for four rows [b] lifted to [1, b], concatenated to [4, b] and then recast to
  [4, 1, b]: the entry at (r, 0, q) is row r at q.
-/
import Idealize.ShloMosaic.Lib.Pipeline.Value
import Idealize.ShloMosaic.Lib.ValueIdx
import Mathlib.Tactic.Ring

noncomputable section

namespace Cert.Lib

open Idealize.ShloMosaic Idealize.ShloMosaic.ValueIdx

/-- An [a, b] array lifted to [1, a, b], read at (0, p, q), is the array at (p, q). -/
theorem lift_ab_apply {α : Type} {a b : Nat} (A : (⟨2, ![a, b]⟩ : Shape).Idx → α)
    (hb : (⟨2, ![a, b]⟩ : Shape).BroadcastsInDim ⟨3, ![1, a, b]⟩ (![1, 2] : Fin 2 → Fin 3))
    (z : Fin 1) (p : Fin a) (q : Fin b) :
    broadcastInDim ⟨3, ![1, a, b]⟩ ![1, 2] hb A (ix3 z p q) = A (ix2 p q) := by
  unfold broadcastInDim
  refine congrArg A (funext fun d => Fin.ext ?_)
  match d with
  | ⟨0, _⟩ => dsimp only []; split <;> rename_i h1 <;> first | rfl | (have : a = 1 := h1; subst this; exact (Fin.val_eq_zero p).symm)
  | ⟨1, _⟩ => dsimp only []; split <;> rename_i h1 <;> first | rfl | (have : b = 1 := h1; subst this; exact (Fin.val_eq_zero q).symm)

/-- The stack of four lifted [a, b] arrays, read at (r, p, q), is array r at (p, q). -/
theorem stack4_apply {α : Type} {a b : Nat} (A0 A1 A2 A3 : (⟨2, ![a, b]⟩ : Shape).Idx → α)
    (hb : (⟨2, ![a, b]⟩ : Shape).BroadcastsInDim ⟨3, ![1, a, b]⟩ (![1, 2] : Fin 2 → Fin 3))
    (hc : Shape.Concatenates
      (([⟨⟨3, ![1, a, b]⟩, broadcastInDim ⟨3, ![1, a, b]⟩ ![1, 2] hb A0⟩, ⟨⟨3, ![1, a, b]⟩, broadcastInDim ⟨3, ![1, a, b]⟩ ![1, 2] hb A1⟩,
        ⟨⟨3, ![1, a, b]⟩, broadcastInDim ⟨3, ![1, a, b]⟩ ![1, 2] hb A2⟩, ⟨⟨3, ![1, a, b]⟩, broadcastInDim ⟨3, ![1, a, b]⟩ ![1, 2] hb A3⟩] :
          List ((s : Shape) × (s.Idx → α))).map (·.1)) ⟨3, ![4, a, b]⟩ 0)
    (r : Fin 4) (p : Fin a) (q : Fin b) :
    concatenate ⟨3, ![4, a, b]⟩ 0
        [⟨⟨3, ![1, a, b]⟩, broadcastInDim ⟨3, ![1, a, b]⟩ ![1, 2] hb A0⟩, ⟨⟨3, ![1, a, b]⟩, broadcastInDim ⟨3, ![1, a, b]⟩ ![1, 2] hb A1⟩,
          ⟨⟨3, ![1, a, b]⟩, broadcastInDim ⟨3, ![1, a, b]⟩ ![1, 2] hb A2⟩, ⟨⟨3, ![1, a, b]⟩, broadcastInDim ⟨3, ![1, a, b]⟩ ![1, 2] hb A3⟩] hc (ix3 r p q)
      = (match r with | 0 => A0 | 1 => A1 | 2 => A2 | 3 => A3) (ix2 p q) := by
  have step : ∀ (k : Nat) (hk : k < 4) (X : (⟨2, ![a, b]⟩ : Shape).Idx → α)
      (hx : ([⟨⟨3, ![1, a, b]⟩, broadcastInDim ⟨3, ![1, a, b]⟩ ![1, 2] hb A0⟩, ⟨⟨3, ![1, a, b]⟩, broadcastInDim ⟨3, ![1, a, b]⟩ ![1, 2] hb A1⟩,
          ⟨⟨3, ![1, a, b]⟩, broadcastInDim ⟨3, ![1, a, b]⟩ ![1, 2] hb A2⟩, ⟨⟨3, ![1, a, b]⟩, broadcastInDim ⟨3, ![1, a, b]⟩ ![1, 2] hb A3⟩] :
          List ((s : Shape) × (s.Idx → α)))[k]'(by simpa using hk) = ⟨⟨3, ![1, a, b]⟩, broadcastInDim ⟨3, ![1, a, b]⟩ ![1, 2] hb X⟩)
      (hr : r.val = k),
      concatenate ⟨3, ![4, a, b]⟩ 0
        [⟨⟨3, ![1, a, b]⟩, broadcastInDim ⟨3, ![1, a, b]⟩ ![1, 2] hb A0⟩, ⟨⟨3, ![1, a, b]⟩, broadcastInDim ⟨3, ![1, a, b]⟩ ![1, 2] hb A1⟩,
          ⟨⟨3, ![1, a, b]⟩, broadcastInDim ⟨3, ![1, a, b]⟩ ![1, 2] hb A2⟩, ⟨⟨3, ![1, a, b]⟩, broadcastInDim ⟨3, ![1, a, b]⟩ ![1, 2] hb A3⟩] hc (ix3 r p q)
        = X (ix2 p q) := by
    intro k hk X hx hr
    refine (concatenate_apply_piece (0 : Fin 3) _ hc (ix3 r p q) k (by simpa using hk) ⟨3, ![1, a, b]⟩ _ hx rfl k ?_
      (ix3 (0 : Fin 1) p q) ?_ ?_).trans (lift_ab_apply X hb 0 p q)
    · -- the pieces before piece k have extent 1 each
      match k, hk with
      | 0, _ => rfl
      | 1, _ => rfl
      | 2, _ => rfl
      | 3, _ => rfl
    · intro d hd
      match d, hd with
      | ⟨0, _⟩, hd => exact absurd rfl hd
      | ⟨1, _⟩, _ => rfl
      | ⟨2, _⟩, _ => rfl
    · show k + 0 = r.val
      omega
  match r with
  | ⟨0, _⟩ => exact step 0 (by omega) A0 rfl rfl
  | ⟨1, _⟩ => exact step 1 (by omega) A1 rfl rfl
  | ⟨2, _⟩ => exact step 2 (by omega) A2 rfl rfl
  | ⟨3, _⟩ => exact step 3 (by omega) A3 rfl rfl

/-- A row [b] lifted to [1, b], read at (0, q), is the row at q. -/
theorem lift_b_apply {α : Type} {b : Nat} (B : (⟨1, ![b]⟩ : Shape).Idx → α)
    (hb : (⟨1, ![b]⟩ : Shape).BroadcastsInDim ⟨2, ![1, b]⟩ (![1] : Fin 1 → Fin 2))
    (z : Fin 1) (q : Fin b) :
    broadcastInDim ⟨2, ![1, b]⟩ ![1] hb B (ix2 z q) = B (ix1 q) := by
  unfold broadcastInDim
  refine congrArg B (funext fun d => Fin.ext ?_)
  match d with
  | ⟨0, _⟩ => dsimp only []; split <;> rename_i h1 <;> first | rfl | (have : b = 1 := h1; subst this; exact (Fin.val_eq_zero q).symm)

/-- The stack of four lifted rows [b], read at (r, q), is row r at q. -/
theorem stack4_rows_apply {α : Type} {b : Nat} (B0 B1 B2 B3 : (⟨1, ![b]⟩ : Shape).Idx → α)
    (hb : (⟨1, ![b]⟩ : Shape).BroadcastsInDim ⟨2, ![1, b]⟩ (![1] : Fin 1 → Fin 2))
    (hc : Shape.Concatenates
      (([⟨⟨2, ![1, b]⟩, broadcastInDim ⟨2, ![1, b]⟩ ![1] hb B0⟩, ⟨⟨2, ![1, b]⟩, broadcastInDim ⟨2, ![1, b]⟩ ![1] hb B1⟩,
        ⟨⟨2, ![1, b]⟩, broadcastInDim ⟨2, ![1, b]⟩ ![1] hb B2⟩, ⟨⟨2, ![1, b]⟩, broadcastInDim ⟨2, ![1, b]⟩ ![1] hb B3⟩] :
          List ((s : Shape) × (s.Idx → α))).map (·.1)) ⟨2, ![4, b]⟩ 0)
    (r : Fin 4) (q : Fin b) :
    concatenate ⟨2, ![4, b]⟩ 0
        [⟨⟨2, ![1, b]⟩, broadcastInDim ⟨2, ![1, b]⟩ ![1] hb B0⟩, ⟨⟨2, ![1, b]⟩, broadcastInDim ⟨2, ![1, b]⟩ ![1] hb B1⟩,
          ⟨⟨2, ![1, b]⟩, broadcastInDim ⟨2, ![1, b]⟩ ![1] hb B2⟩, ⟨⟨2, ![1, b]⟩, broadcastInDim ⟨2, ![1, b]⟩ ![1] hb B3⟩] hc (ix2 r q)
      = (match r with | 0 => B0 | 1 => B1 | 2 => B2 | 3 => B3) (ix1 q) := by
  have step : ∀ (k : Nat) (hk : k < 4) (X : (⟨1, ![b]⟩ : Shape).Idx → α)
      (hx : ([⟨⟨2, ![1, b]⟩, broadcastInDim ⟨2, ![1, b]⟩ ![1] hb B0⟩, ⟨⟨2, ![1, b]⟩, broadcastInDim ⟨2, ![1, b]⟩ ![1] hb B1⟩,
          ⟨⟨2, ![1, b]⟩, broadcastInDim ⟨2, ![1, b]⟩ ![1] hb B2⟩, ⟨⟨2, ![1, b]⟩, broadcastInDim ⟨2, ![1, b]⟩ ![1] hb B3⟩] :
          List ((s : Shape) × (s.Idx → α)))[k]'(by simpa using hk) = ⟨⟨2, ![1, b]⟩, broadcastInDim ⟨2, ![1, b]⟩ ![1] hb X⟩)
      (hr : r.val = k),
      concatenate ⟨2, ![4, b]⟩ 0
        [⟨⟨2, ![1, b]⟩, broadcastInDim ⟨2, ![1, b]⟩ ![1] hb B0⟩, ⟨⟨2, ![1, b]⟩, broadcastInDim ⟨2, ![1, b]⟩ ![1] hb B1⟩,
          ⟨⟨2, ![1, b]⟩, broadcastInDim ⟨2, ![1, b]⟩ ![1] hb B2⟩, ⟨⟨2, ![1, b]⟩, broadcastInDim ⟨2, ![1, b]⟩ ![1] hb B3⟩] hc (ix2 r q)
        = X (ix1 q) := by
    intro k hk X hx hr
    refine (concatenate_apply_piece (0 : Fin 2) _ hc (ix2 r q) k (by simpa using hk) ⟨2, ![1, b]⟩ _ hx rfl k ?_
      (ix2 (0 : Fin 1) q) ?_ ?_).trans (lift_b_apply X hb 0 q)
    · match k, hk with
      | 0, _ => rfl
      | 1, _ => rfl
      | 2, _ => rfl
      | 3, _ => rfl
    · intro d hd
      match d, hd with
      | ⟨0, _⟩, hd => exact absurd rfl hd
      | ⟨1, _⟩, _ => rfl
    · show k + 0 = r.val
      omega
  match r with
  | ⟨0, _⟩ => exact step 0 (by omega) B0 rfl rfl
  | ⟨1, _⟩ => exact step 1 (by omega) B1 rfl rfl
  | ⟨2, _⟩ => exact step 2 (by omega) B2 rfl rfl
  | ⟨3, _⟩ => exact step 3 (by omega) B3 rfl rfl

/-- A [g, b] array recast to [g, 1, b], read at (r, 0, q), is the array at (r, q). -/
theorem recast_g1b_apply {α : Type} {g b : Nat} (X : (⟨2, ![g, b]⟩ : Shape).Idx → α)
    (h : (⟨2, ![g, b]⟩ : Shape).ShapeCasts ⟨3, ![g, 1, b]⟩) (r : Fin g) (z : Fin 1) (q : Fin b) :
    shapeCast ⟨3, ![g, 1, b]⟩ X h (ix3 r z q) = X (ix2 r q) := by
  refine shapeCast_apply X h (ix3 r z q) (ix2 r q) ?_
  rw [Shape.rowMajor_val_two, Shape.rowMajor_val_three]
  show r.val * b + q.val = (r.val * 1 + z.val) * b + q.val
  have : z.val = 0 := Fin.val_eq_zero z
  rw [this]; ring

/-- A row [b] recast to [1, b], read at (0, q), is the row at q; so the recast is the lift. -/
theorem recast_b_eq_lift {α : Type} {b : Nat} (B : (⟨1, ![b]⟩ : Shape).Idx → α)
    (h : (⟨1, ![b]⟩ : Shape).ShapeCasts ⟨2, ![1, b]⟩)
    (hb : (⟨1, ![b]⟩ : Shape).BroadcastsInDim ⟨2, ![1, b]⟩ (![1] : Fin 1 → Fin 2)) :
    shapeCast ⟨2, ![1, b]⟩ B h = broadcastInDim ⟨2, ![1, b]⟩ ![1] hb B := by
  funext j
  obtain ⟨z, q, rfl⟩ : ∃ (z : Fin 1) (q : Fin b), j = ix2 z q := ⟨j 0, j 1, eq_ix2 j⟩
  rw [lift_b_apply B hb z q]
  refine shapeCast_apply B h (ix2 z q) (ix1 q) ?_
  rw [Shape.rowMajor_val_one, Shape.rowMajor_val_two]
  show q.val = z.val * b + q.val
  have : z.val = 0 := Fin.val_eq_zero z
  rw [this]; ring

end Cert.Lib

end
-- ==== Proof.KernelIdealMember.lean ====
/-
  A member of a stack that was built by stacking: member r of the stack of four lifted [a, b] arrays is array r, and member r
  of the recast stack of four lifted rows is row r lifted. With these the region's relation-r term over the stacked operands
  is the same term over relation r's own arrays.
-/
import proofs.«144146_j85358180041108_1_alg».proof.Proof.KernelIdealValue1Sum
import proofs.«144146_j85358180041108_1_alg».proof.Proof.LibStackFour

noncomputable section

namespace Cert.KernelIdeal.Value1

open Cert.KernelIdeal Idealize.ShloMosaic Idealize.ShloMosaic.ValueIdx Cert.Lib

/-- Member r of the stack of four lifted [a, b] arrays is array r. -/
theorem member_stack4 {a b : Nat} (A0 A1 A2 A3 : FVec Ideal ⟨2, ![a, b]⟩ .f32)
    (hb : (⟨2, ![a, b]⟩ : Shape).BroadcastsInDim ⟨3, ![1, a, b]⟩ (![1, 2] : Fin 2 → Fin 3))
    (hc : Shape.Concatenates
      (([⟨⟨3, ![1, a, b]⟩, broadcastInDim ⟨3, ![1, a, b]⟩ ![1, 2] hb A0⟩, ⟨⟨3, ![1, a, b]⟩, broadcastInDim ⟨3, ![1, a, b]⟩ ![1, 2] hb A1⟩,
        ⟨⟨3, ![1, a, b]⟩, broadcastInDim ⟨3, ![1, a, b]⟩ ![1, 2] hb A2⟩, ⟨⟨3, ![1, a, b]⟩, broadcastInDim ⟨3, ![1, a, b]⟩ ![1, 2] hb A3⟩] :
          List ((s : Shape) × (s.Idx → Ideal .f32))).map (·.1)) ⟨3, ![4, a, b]⟩ 0)
    (r : Fin 4) :
    member r (concatenate ⟨3, ![4, a, b]⟩ 0
        [⟨⟨3, ![1, a, b]⟩, broadcastInDim ⟨3, ![1, a, b]⟩ ![1, 2] hb A0⟩, ⟨⟨3, ![1, a, b]⟩, broadcastInDim ⟨3, ![1, a, b]⟩ ![1, 2] hb A1⟩,
          ⟨⟨3, ![1, a, b]⟩, broadcastInDim ⟨3, ![1, a, b]⟩ ![1, 2] hb A2⟩, ⟨⟨3, ![1, a, b]⟩, broadcastInDim ⟨3, ![1, a, b]⟩ ![1, 2] hb A3⟩] hc)
      = (match r with | 0 => A0 | 1 => A1 | 2 => A2 | 3 => A3) := by
  funext y
  obtain ⟨p, q, rfl⟩ : ∃ (p : Fin a) (q : Fin b), y = ix2 p q := ⟨y 0, y 1, eq_ix2 y⟩
  exact stack4_apply A0 A1 A2 A3 hb hc r p q

/-- Member r of the recast stack of four lifted rows is row r lifted. -/
theorem member_rows4 {b : Nat} (B0 B1 B2 B3 : FVec Ideal ⟨1, ![b]⟩ .f32)
    (hb : (⟨1, ![b]⟩ : Shape).BroadcastsInDim ⟨2, ![1, b]⟩ (![1] : Fin 1 → Fin 2))
    (hc : Shape.Concatenates
      (([⟨⟨2, ![1, b]⟩, broadcastInDim ⟨2, ![1, b]⟩ ![1] hb B0⟩, ⟨⟨2, ![1, b]⟩, broadcastInDim ⟨2, ![1, b]⟩ ![1] hb B1⟩,
        ⟨⟨2, ![1, b]⟩, broadcastInDim ⟨2, ![1, b]⟩ ![1] hb B2⟩, ⟨⟨2, ![1, b]⟩, broadcastInDim ⟨2, ![1, b]⟩ ![1] hb B3⟩] :
          List ((s : Shape) × (s.Idx → Ideal .f32))).map (·.1)) ⟨2, ![4, b]⟩ 0)
    (hs : (⟨2, ![4, b]⟩ : Shape).ShapeCasts ⟨3, ![4, 1, b]⟩) (r : Fin 4) :
    member r (shapeCast ⟨3, ![4, 1, b]⟩ (concatenate ⟨2, ![4, b]⟩ 0
        [⟨⟨2, ![1, b]⟩, broadcastInDim ⟨2, ![1, b]⟩ ![1] hb B0⟩, ⟨⟨2, ![1, b]⟩, broadcastInDim ⟨2, ![1, b]⟩ ![1] hb B1⟩,
          ⟨⟨2, ![1, b]⟩, broadcastInDim ⟨2, ![1, b]⟩ ![1] hb B2⟩, ⟨⟨2, ![1, b]⟩, broadcastInDim ⟨2, ![1, b]⟩ ![1] hb B3⟩] hc) hs)
      = broadcastInDim ⟨2, ![1, b]⟩ ![1] hb (match r with | 0 => B0 | 1 => B1 | 2 => B2 | 3 => B3) := by
  funext y
  obtain ⟨z, q, rfl⟩ : ∃ (z : Fin 1) (q : Fin b), y = ix2 z q := ⟨y 0, y 1, eq_ix2 y⟩
  refine (recast_g1b_apply _ hs r z q).trans ((stack4_rows_apply B0 B1 B2 B3 hb hc r q).trans ?_)
  exact (lift_b_apply _ hb z q).symm

theorem member_stack4_0 {a b : Nat} (A0 A1 A2 A3 : FVec Ideal ⟨2, ![a, b]⟩ .f32)
    (hb : (⟨2, ![a, b]⟩ : Shape).BroadcastsInDim ⟨3, ![1, a, b]⟩ (![1, 2] : Fin 2 → Fin 3))
    (hc : Shape.Concatenates
      (([⟨⟨3, ![1, a, b]⟩, broadcastInDim ⟨3, ![1, a, b]⟩ ![1, 2] hb A0⟩, ⟨⟨3, ![1, a, b]⟩, broadcastInDim ⟨3, ![1, a, b]⟩ ![1, 2] hb A1⟩,
        ⟨⟨3, ![1, a, b]⟩, broadcastInDim ⟨3, ![1, a, b]⟩ ![1, 2] hb A2⟩, ⟨⟨3, ![1, a, b]⟩, broadcastInDim ⟨3, ![1, a, b]⟩ ![1, 2] hb A3⟩] :
          List ((s : Shape) × (s.Idx → Ideal .f32))).map (·.1)) ⟨3, ![4, a, b]⟩ 0) :
    member 0 (concatenate ⟨3, ![4, a, b]⟩ 0
        [⟨⟨3, ![1, a, b]⟩, broadcastInDim ⟨3, ![1, a, b]⟩ ![1, 2] hb A0⟩, ⟨⟨3, ![1, a, b]⟩, broadcastInDim ⟨3, ![1, a, b]⟩ ![1, 2] hb A1⟩,
          ⟨⟨3, ![1, a, b]⟩, broadcastInDim ⟨3, ![1, a, b]⟩ ![1, 2] hb A2⟩, ⟨⟨3, ![1, a, b]⟩, broadcastInDim ⟨3, ![1, a, b]⟩ ![1, 2] hb A3⟩] hc)
      = A0 := member_stack4 A0 A1 A2 A3 hb hc 0
theorem member_rows4_0 {b : Nat} (B0 B1 B2 B3 : FVec Ideal ⟨1, ![b]⟩ .f32)
    (hb : (⟨1, ![b]⟩ : Shape).BroadcastsInDim ⟨2, ![1, b]⟩ (![1] : Fin 1 → Fin 2))
    (hc : Shape.Concatenates
      (([⟨⟨2, ![1, b]⟩, broadcastInDim ⟨2, ![1, b]⟩ ![1] hb B0⟩, ⟨⟨2, ![1, b]⟩, broadcastInDim ⟨2, ![1, b]⟩ ![1] hb B1⟩,
        ⟨⟨2, ![1, b]⟩, broadcastInDim ⟨2, ![1, b]⟩ ![1] hb B2⟩, ⟨⟨2, ![1, b]⟩, broadcastInDim ⟨2, ![1, b]⟩ ![1] hb B3⟩] :
          List ((s : Shape) × (s.Idx → Ideal .f32))).map (·.1)) ⟨2, ![4, b]⟩ 0)
    (hs : (⟨2, ![4, b]⟩ : Shape).ShapeCasts ⟨3, ![4, 1, b]⟩) :
    member 0 (shapeCast ⟨3, ![4, 1, b]⟩ (concatenate ⟨2, ![4, b]⟩ 0
        [⟨⟨2, ![1, b]⟩, broadcastInDim ⟨2, ![1, b]⟩ ![1] hb B0⟩, ⟨⟨2, ![1, b]⟩, broadcastInDim ⟨2, ![1, b]⟩ ![1] hb B1⟩,
          ⟨⟨2, ![1, b]⟩, broadcastInDim ⟨2, ![1, b]⟩ ![1] hb B2⟩, ⟨⟨2, ![1, b]⟩, broadcastInDim ⟨2, ![1, b]⟩ ![1] hb B3⟩] hc) hs)
      = broadcastInDim ⟨2, ![1, b]⟩ ![1] hb B0 := member_rows4 B0 B1 B2 B3 hb hc hs 0

theorem member_stack4_1 {a b : Nat} (A0 A1 A2 A3 : FVec Ideal ⟨2, ![a, b]⟩ .f32)
    (hb : (⟨2, ![a, b]⟩ : Shape).BroadcastsInDim ⟨3, ![1, a, b]⟩ (![1, 2] : Fin 2 → Fin 3))
    (hc : Shape.Concatenates
      (([⟨⟨3, ![1, a, b]⟩, broadcastInDim ⟨3, ![1, a, b]⟩ ![1, 2] hb A0⟩, ⟨⟨3, ![1, a, b]⟩, broadcastInDim ⟨3, ![1, a, b]⟩ ![1, 2] hb A1⟩,
        ⟨⟨3, ![1, a, b]⟩, broadcastInDim ⟨3, ![1, a, b]⟩ ![1, 2] hb A2⟩, ⟨⟨3, ![1, a, b]⟩, broadcastInDim ⟨3, ![1, a, b]⟩ ![1, 2] hb A3⟩] :
          List ((s : Shape) × (s.Idx → Ideal .f32))).map (·.1)) ⟨3, ![4, a, b]⟩ 0) :
    member 1 (concatenate ⟨3, ![4, a, b]⟩ 0
        [⟨⟨3, ![1, a, b]⟩, broadcastInDim ⟨3, ![1, a, b]⟩ ![1, 2] hb A0⟩, ⟨⟨3, ![1, a, b]⟩, broadcastInDim ⟨3, ![1, a, b]⟩ ![1, 2] hb A1⟩,
          ⟨⟨3, ![1, a, b]⟩, broadcastInDim ⟨3, ![1, a, b]⟩ ![1, 2] hb A2⟩, ⟨⟨3, ![1, a, b]⟩, broadcastInDim ⟨3, ![1, a, b]⟩ ![1, 2] hb A3⟩] hc)
      = A1 := member_stack4 A0 A1 A2 A3 hb hc 1
theorem member_rows4_1 {b : Nat} (B0 B1 B2 B3 : FVec Ideal ⟨1, ![b]⟩ .f32)
    (hb : (⟨1, ![b]⟩ : Shape).BroadcastsInDim ⟨2, ![1, b]⟩ (![1] : Fin 1 → Fin 2))
    (hc : Shape.Concatenates
      (([⟨⟨2, ![1, b]⟩, broadcastInDim ⟨2, ![1, b]⟩ ![1] hb B0⟩, ⟨⟨2, ![1, b]⟩, broadcastInDim ⟨2, ![1, b]⟩ ![1] hb B1⟩,
        ⟨⟨2, ![1, b]⟩, broadcastInDim ⟨2, ![1, b]⟩ ![1] hb B2⟩, ⟨⟨2, ![1, b]⟩, broadcastInDim ⟨2, ![1, b]⟩ ![1] hb B3⟩] :
          List ((s : Shape) × (s.Idx → Ideal .f32))).map (·.1)) ⟨2, ![4, b]⟩ 0)
    (hs : (⟨2, ![4, b]⟩ : Shape).ShapeCasts ⟨3, ![4, 1, b]⟩) :
    member 1 (shapeCast ⟨3, ![4, 1, b]⟩ (concatenate ⟨2, ![4, b]⟩ 0
        [⟨⟨2, ![1, b]⟩, broadcastInDim ⟨2, ![1, b]⟩ ![1] hb B0⟩, ⟨⟨2, ![1, b]⟩, broadcastInDim ⟨2, ![1, b]⟩ ![1] hb B1⟩,
          ⟨⟨2, ![1, b]⟩, broadcastInDim ⟨2, ![1, b]⟩ ![1] hb B2⟩, ⟨⟨2, ![1, b]⟩, broadcastInDim ⟨2, ![1, b]⟩ ![1] hb B3⟩] hc) hs)
      = broadcastInDim ⟨2, ![1, b]⟩ ![1] hb B1 := member_rows4 B0 B1 B2 B3 hb hc hs 1

theorem member_stack4_2 {a b : Nat} (A0 A1 A2 A3 : FVec Ideal ⟨2, ![a, b]⟩ .f32)
    (hb : (⟨2, ![a, b]⟩ : Shape).BroadcastsInDim ⟨3, ![1, a, b]⟩ (![1, 2] : Fin 2 → Fin 3))
    (hc : Shape.Concatenates
      (([⟨⟨3, ![1, a, b]⟩, broadcastInDim ⟨3, ![1, a, b]⟩ ![1, 2] hb A0⟩, ⟨⟨3, ![1, a, b]⟩, broadcastInDim ⟨3, ![1, a, b]⟩ ![1, 2] hb A1⟩,
        ⟨⟨3, ![1, a, b]⟩, broadcastInDim ⟨3, ![1, a, b]⟩ ![1, 2] hb A2⟩, ⟨⟨3, ![1, a, b]⟩, broadcastInDim ⟨3, ![1, a, b]⟩ ![1, 2] hb A3⟩] :
          List ((s : Shape) × (s.Idx → Ideal .f32))).map (·.1)) ⟨3, ![4, a, b]⟩ 0) :
    member 2 (concatenate ⟨3, ![4, a, b]⟩ 0
        [⟨⟨3, ![1, a, b]⟩, broadcastInDim ⟨3, ![1, a, b]⟩ ![1, 2] hb A0⟩, ⟨⟨3, ![1, a, b]⟩, broadcastInDim ⟨3, ![1, a, b]⟩ ![1, 2] hb A1⟩,
          ⟨⟨3, ![1, a, b]⟩, broadcastInDim ⟨3, ![1, a, b]⟩ ![1, 2] hb A2⟩, ⟨⟨3, ![1, a, b]⟩, broadcastInDim ⟨3, ![1, a, b]⟩ ![1, 2] hb A3⟩] hc)
      = A2 := member_stack4 A0 A1 A2 A3 hb hc 2
theorem member_rows4_2 {b : Nat} (B0 B1 B2 B3 : FVec Ideal ⟨1, ![b]⟩ .f32)
    (hb : (⟨1, ![b]⟩ : Shape).BroadcastsInDim ⟨2, ![1, b]⟩ (![1] : Fin 1 → Fin 2))
    (hc : Shape.Concatenates
      (([⟨⟨2, ![1, b]⟩, broadcastInDim ⟨2, ![1, b]⟩ ![1] hb B0⟩, ⟨⟨2, ![1, b]⟩, broadcastInDim ⟨2, ![1, b]⟩ ![1] hb B1⟩,
        ⟨⟨2, ![1, b]⟩, broadcastInDim ⟨2, ![1, b]⟩ ![1] hb B2⟩, ⟨⟨2, ![1, b]⟩, broadcastInDim ⟨2, ![1, b]⟩ ![1] hb B3⟩] :
          List ((s : Shape) × (s.Idx → Ideal .f32))).map (·.1)) ⟨2, ![4, b]⟩ 0)
    (hs : (⟨2, ![4, b]⟩ : Shape).ShapeCasts ⟨3, ![4, 1, b]⟩) :
    member 2 (shapeCast ⟨3, ![4, 1, b]⟩ (concatenate ⟨2, ![4, b]⟩ 0
        [⟨⟨2, ![1, b]⟩, broadcastInDim ⟨2, ![1, b]⟩ ![1] hb B0⟩, ⟨⟨2, ![1, b]⟩, broadcastInDim ⟨2, ![1, b]⟩ ![1] hb B1⟩,
          ⟨⟨2, ![1, b]⟩, broadcastInDim ⟨2, ![1, b]⟩ ![1] hb B2⟩, ⟨⟨2, ![1, b]⟩, broadcastInDim ⟨2, ![1, b]⟩ ![1] hb B3⟩] hc) hs)
      = broadcastInDim ⟨2, ![1, b]⟩ ![1] hb B2 := member_rows4 B0 B1 B2 B3 hb hc hs 2

theorem member_stack4_3 {a b : Nat} (A0 A1 A2 A3 : FVec Ideal ⟨2, ![a, b]⟩ .f32)
    (hb : (⟨2, ![a, b]⟩ : Shape).BroadcastsInDim ⟨3, ![1, a, b]⟩ (![1, 2] : Fin 2 → Fin 3))
    (hc : Shape.Concatenates
      (([⟨⟨3, ![1, a, b]⟩, broadcastInDim ⟨3, ![1, a, b]⟩ ![1, 2] hb A0⟩, ⟨⟨3, ![1, a, b]⟩, broadcastInDim ⟨3, ![1, a, b]⟩ ![1, 2] hb A1⟩,
        ⟨⟨3, ![1, a, b]⟩, broadcastInDim ⟨3, ![1, a, b]⟩ ![1, 2] hb A2⟩, ⟨⟨3, ![1, a, b]⟩, broadcastInDim ⟨3, ![1, a, b]⟩ ![1, 2] hb A3⟩] :
          List ((s : Shape) × (s.Idx → Ideal .f32))).map (·.1)) ⟨3, ![4, a, b]⟩ 0) :
    member 3 (concatenate ⟨3, ![4, a, b]⟩ 0
        [⟨⟨3, ![1, a, b]⟩, broadcastInDim ⟨3, ![1, a, b]⟩ ![1, 2] hb A0⟩, ⟨⟨3, ![1, a, b]⟩, broadcastInDim ⟨3, ![1, a, b]⟩ ![1, 2] hb A1⟩,
          ⟨⟨3, ![1, a, b]⟩, broadcastInDim ⟨3, ![1, a, b]⟩ ![1, 2] hb A2⟩, ⟨⟨3, ![1, a, b]⟩, broadcastInDim ⟨3, ![1, a, b]⟩ ![1, 2] hb A3⟩] hc)
      = A3 := member_stack4 A0 A1 A2 A3 hb hc 3
theorem member_rows4_3 {b : Nat} (B0 B1 B2 B3 : FVec Ideal ⟨1, ![b]⟩ .f32)
    (hb : (⟨1, ![b]⟩ : Shape).BroadcastsInDim ⟨2, ![1, b]⟩ (![1] : Fin 1 → Fin 2))
    (hc : Shape.Concatenates
      (([⟨⟨2, ![1, b]⟩, broadcastInDim ⟨2, ![1, b]⟩ ![1] hb B0⟩, ⟨⟨2, ![1, b]⟩, broadcastInDim ⟨2, ![1, b]⟩ ![1] hb B1⟩,
        ⟨⟨2, ![1, b]⟩, broadcastInDim ⟨2, ![1, b]⟩ ![1] hb B2⟩, ⟨⟨2, ![1, b]⟩, broadcastInDim ⟨2, ![1, b]⟩ ![1] hb B3⟩] :
          List ((s : Shape) × (s.Idx → Ideal .f32))).map (·.1)) ⟨2, ![4, b]⟩ 0)
    (hs : (⟨2, ![4, b]⟩ : Shape).ShapeCasts ⟨3, ![4, 1, b]⟩) :
    member 3 (shapeCast ⟨3, ![4, 1, b]⟩ (concatenate ⟨2, ![4, b]⟩ 0
        [⟨⟨2, ![1, b]⟩, broadcastInDim ⟨2, ![1, b]⟩ ![1] hb B0⟩, ⟨⟨2, ![1, b]⟩, broadcastInDim ⟨2, ![1, b]⟩ ![1] hb B1⟩,
          ⟨⟨2, ![1, b]⟩, broadcastInDim ⟨2, ![1, b]⟩ ![1] hb B2⟩, ⟨⟨2, ![1, b]⟩, broadcastInDim ⟨2, ![1, b]⟩ ![1] hb B3⟩] hc) hs)
      = broadcastInDim ⟨2, ![1, b]⟩ ![1] hb B3 := member_rows4 B0 B1 B2 B3 hb hc hs 3

/-- Adding to the zero array changes nothing. -/
theorem zero_addf (t : FVec Ideal S20000x128 .f32) : addf zeroArr t = t := by
  funext i
  show (0 : EReal) + t i = t i
  exact zero_add _

end Cert.KernelIdeal.Value1

end
-- ==== Proof.KernelIdealStackTotal.lean ====
/-
  The four-relation sum over operands that were built by stacking: each relation's term reads member r of every stack, which
  is the piece stacked, and the leading zero adds nothing; so the sum is the sum of the four relations' terms over their own
  arrays.
-/
import proofs.«144146_j85358180041108_1_alg».proof.Proof.KernelIdealMember

noncomputable section

namespace Cert.KernelIdeal.Value1

open Cert.KernelIdeal Idealize.ShloMosaic Idealize.ShloMosaic.ValueIdx Cert.Lib

theorem total_of_stacks (X : FVec Ideal S20000x128 .f32)
    (H0 H1 H2 H3 : FVec Ideal ⟨2, ![20000, 128]⟩ .f32) (S0 S1 S2 S3 N0 N1 N2 N3 : FVec Ideal ⟨2, ![128, 128]⟩ .f32)
    (b0 b1 b2 b3 c0 c1 c2 c3 : FVec Ideal ⟨1, ![128]⟩ .f32)
    (hbH : (⟨2, ![20000, 128]⟩ : Shape).BroadcastsInDim ⟨3, ![1, 20000, 128]⟩ (![1, 2] : Fin 2 → Fin 3))
    (hcH : Shape.Concatenates (([⟨⟨3, ![1, 20000, 128]⟩, broadcastInDim ⟨3, ![1, 20000, 128]⟩ ![1, 2] hbH H0⟩, ⟨⟨3, ![1, 20000, 128]⟩, broadcastInDim ⟨3, ![1, 20000, 128]⟩ ![1, 2] hbH H1⟩, ⟨⟨3, ![1, 20000, 128]⟩, broadcastInDim ⟨3, ![1, 20000, 128]⟩ ![1, 2] hbH H2⟩, ⟨⟨3, ![1, 20000, 128]⟩, broadcastInDim ⟨3, ![1, 20000, 128]⟩ ![1, 2] hbH H3⟩] : List ((s : Shape) × (s.Idx → Ideal .f32))).map (·.1)) ⟨3, ![4, 20000, 128]⟩ 0)
    (hbW : (⟨2, ![128, 128]⟩ : Shape).BroadcastsInDim ⟨3, ![1, 128, 128]⟩ (![1, 2] : Fin 2 → Fin 3))
    (hcS : Shape.Concatenates (([⟨⟨3, ![1, 128, 128]⟩, broadcastInDim ⟨3, ![1, 128, 128]⟩ ![1, 2] hbW S0⟩, ⟨⟨3, ![1, 128, 128]⟩, broadcastInDim ⟨3, ![1, 128, 128]⟩ ![1, 2] hbW S1⟩, ⟨⟨3, ![1, 128, 128]⟩, broadcastInDim ⟨3, ![1, 128, 128]⟩ ![1, 2] hbW S2⟩, ⟨⟨3, ![1, 128, 128]⟩, broadcastInDim ⟨3, ![1, 128, 128]⟩ ![1, 2] hbW S3⟩] : List ((s : Shape) × (s.Idx → Ideal .f32))).map (·.1)) ⟨3, ![4, 128, 128]⟩ 0)
    (hcN : Shape.Concatenates (([⟨⟨3, ![1, 128, 128]⟩, broadcastInDim ⟨3, ![1, 128, 128]⟩ ![1, 2] hbW N0⟩, ⟨⟨3, ![1, 128, 128]⟩, broadcastInDim ⟨3, ![1, 128, 128]⟩ ![1, 2] hbW N1⟩, ⟨⟨3, ![1, 128, 128]⟩, broadcastInDim ⟨3, ![1, 128, 128]⟩ ![1, 2] hbW N2⟩, ⟨⟨3, ![1, 128, 128]⟩, broadcastInDim ⟨3, ![1, 128, 128]⟩ ![1, 2] hbW N3⟩] : List ((s : Shape) × (s.Idx → Ideal .f32))).map (·.1)) ⟨3, ![4, 128, 128]⟩ 0)
    (hb1 : (⟨1, ![128]⟩ : Shape).BroadcastsInDim ⟨2, ![1, 128]⟩ (![1] : Fin 1 → Fin 2))
    (hcb : Shape.Concatenates (([⟨⟨2, ![1, 128]⟩, broadcastInDim ⟨2, ![1, 128]⟩ ![1] hb1 b0⟩, ⟨⟨2, ![1, 128]⟩, broadcastInDim ⟨2, ![1, 128]⟩ ![1] hb1 b1⟩, ⟨⟨2, ![1, 128]⟩, broadcastInDim ⟨2, ![1, 128]⟩ ![1] hb1 b2⟩, ⟨⟨2, ![1, 128]⟩, broadcastInDim ⟨2, ![1, 128]⟩ ![1] hb1 b3⟩] : List ((s : Shape) × (s.Idx → Ideal .f32))).map (·.1)) ⟨2, ![4, 128]⟩ 0)
    (hcc : Shape.Concatenates (([⟨⟨2, ![1, 128]⟩, broadcastInDim ⟨2, ![1, 128]⟩ ![1] hb1 c0⟩, ⟨⟨2, ![1, 128]⟩, broadcastInDim ⟨2, ![1, 128]⟩ ![1] hb1 c1⟩, ⟨⟨2, ![1, 128]⟩, broadcastInDim ⟨2, ![1, 128]⟩ ![1] hb1 c2⟩, ⟨⟨2, ![1, 128]⟩, broadcastInDim ⟨2, ![1, 128]⟩ ![1] hb1 c3⟩] : List ((s : Shape) × (s.Idx → Ideal .f32))).map (·.1)) ⟨2, ![4, 128]⟩ 0)
    (hs : (⟨2, ![4, 128]⟩ : Shape).ShapeCasts ⟨3, ![4, 1, 128]⟩)
    (hT : S128x128.Transposes [1, 0] S128x128) (hB : S1x128.BroadcastsInDim S20000x128 (![0, 1] : Fin 2 → Fin 2)) :
    total X (concatenate ⟨3, ![4, 20000, 128]⟩ 0 [⟨⟨3, ![1, 20000, 128]⟩, broadcastInDim ⟨3, ![1, 20000, 128]⟩ ![1, 2] hbH H0⟩, ⟨⟨3, ![1, 20000, 128]⟩, broadcastInDim ⟨3, ![1, 20000, 128]⟩ ![1, 2] hbH H1⟩, ⟨⟨3, ![1, 20000, 128]⟩, broadcastInDim ⟨3, ![1, 20000, 128]⟩ ![1, 2] hbH H2⟩, ⟨⟨3, ![1, 20000, 128]⟩, broadcastInDim ⟨3, ![1, 20000, 128]⟩ ![1, 2] hbH H3⟩] hcH)
        (concatenate ⟨3, ![4, 128, 128]⟩ 0 [⟨⟨3, ![1, 128, 128]⟩, broadcastInDim ⟨3, ![1, 128, 128]⟩ ![1, 2] hbW S0⟩, ⟨⟨3, ![1, 128, 128]⟩, broadcastInDim ⟨3, ![1, 128, 128]⟩ ![1, 2] hbW S1⟩, ⟨⟨3, ![1, 128, 128]⟩, broadcastInDim ⟨3, ![1, 128, 128]⟩ ![1, 2] hbW S2⟩, ⟨⟨3, ![1, 128, 128]⟩, broadcastInDim ⟨3, ![1, 128, 128]⟩ ![1, 2] hbW S3⟩] hcS)
        (concatenate ⟨3, ![4, 128, 128]⟩ 0 [⟨⟨3, ![1, 128, 128]⟩, broadcastInDim ⟨3, ![1, 128, 128]⟩ ![1, 2] hbW N0⟩, ⟨⟨3, ![1, 128, 128]⟩, broadcastInDim ⟨3, ![1, 128, 128]⟩ ![1, 2] hbW N1⟩, ⟨⟨3, ![1, 128, 128]⟩, broadcastInDim ⟨3, ![1, 128, 128]⟩ ![1, 2] hbW N2⟩, ⟨⟨3, ![1, 128, 128]⟩, broadcastInDim ⟨3, ![1, 128, 128]⟩ ![1, 2] hbW N3⟩] hcN)
        (shapeCast ⟨3, ![4, 1, 128]⟩ (concatenate ⟨2, ![4, 128]⟩ 0 [⟨⟨2, ![1, 128]⟩, broadcastInDim ⟨2, ![1, 128]⟩ ![1] hb1 b0⟩, ⟨⟨2, ![1, 128]⟩, broadcastInDim ⟨2, ![1, 128]⟩ ![1] hb1 b1⟩, ⟨⟨2, ![1, 128]⟩, broadcastInDim ⟨2, ![1, 128]⟩ ![1] hb1 b2⟩, ⟨⟨2, ![1, 128]⟩, broadcastInDim ⟨2, ![1, 128]⟩ ![1] hb1 b3⟩] hcb) hs)
        (shapeCast ⟨3, ![4, 1, 128]⟩ (concatenate ⟨2, ![4, 128]⟩ 0 [⟨⟨2, ![1, 128]⟩, broadcastInDim ⟨2, ![1, 128]⟩ ![1] hb1 c0⟩, ⟨⟨2, ![1, 128]⟩, broadcastInDim ⟨2, ![1, 128]⟩ ![1] hb1 c1⟩, ⟨⟨2, ![1, 128]⟩, broadcastInDim ⟨2, ![1, 128]⟩ ![1] hb1 c2⟩, ⟨⟨2, ![1, 128]⟩, broadcastInDim ⟨2, ![1, 128]⟩ ![1] hb1 c3⟩] hcc) hs) hT hB
      = addf (addf (addf
          (termOf X H0 S0 N0 (broadcastInDim ⟨2, ![1, 128]⟩ ![1] hb1 b0) (broadcastInDim ⟨2, ![1, 128]⟩ ![1] hb1 c0) hT hB)
          (termOf X H1 S1 N1 (broadcastInDim ⟨2, ![1, 128]⟩ ![1] hb1 b1) (broadcastInDim ⟨2, ![1, 128]⟩ ![1] hb1 c1) hT hB))
          (termOf X H2 S2 N2 (broadcastInDim ⟨2, ![1, 128]⟩ ![1] hb1 b2) (broadcastInDim ⟨2, ![1, 128]⟩ ![1] hb1 c2) hT hB))
          (termOf X H3 S3 N3 (broadcastInDim ⟨2, ![1, 128]⟩ ![1] hb1 b3) (broadcastInDim ⟨2, ![1, 128]⟩ ![1] hb1 c3) hT hB) := by
  unfold total Cert.KernelIdeal.Value1.term
  rw [member_stack4_0 H0 H1 H2 H3 hbH hcH, member_stack4_1 H0 H1 H2 H3 hbH hcH, member_stack4_2 H0 H1 H2 H3 hbH hcH, member_stack4_3 H0 H1 H2 H3 hbH hcH,
    member_stack4_0 S0 S1 S2 S3 hbW hcS, member_stack4_1 S0 S1 S2 S3 hbW hcS, member_stack4_2 S0 S1 S2 S3 hbW hcS, member_stack4_3 S0 S1 S2 S3 hbW hcS,
    member_stack4_0 N0 N1 N2 N3 hbW hcN, member_stack4_1 N0 N1 N2 N3 hbW hcN, member_stack4_2 N0 N1 N2 N3 hbW hcN, member_stack4_3 N0 N1 N2 N3 hbW hcN,
    member_rows4_0 b0 b1 b2 b3 hb1 hcb hs, member_rows4_1 b0 b1 b2 b3 hb1 hcb hs, member_rows4_2 b0 b1 b2 b3 hb1 hcb hs, member_rows4_3 b0 b1 b2 b3 hb1 hcb hs,
    member_rows4_0 c0 c1 c2 c3 hb1 hcc hs, member_rows4_1 c0 c1 c2 c3 hb1 hcc hs, member_rows4_2 c0 c1 c2 c3 hb1 hcc hs, member_rows4_3 c0 c1 c2 c3 hb1 hcc hs,
    zero_addf]

end Cert.KernelIdeal.Value1

end
-- ==== Proof.Bridge1.lean ====
/-
  The kernel program's results are the reference's. Each region's output array is the host's whole-array layer of the
  region's operands (the regions' value lemmas); the operands are the same host terms in both programs; a member of a stack
  built by stacking is the piece stacked; a bias recast to a row is the bias lifted to a row; adding to zero changes nothing;
  and the score network is row-local, so a slice of it over row-stacked inputs is it over one input. With the arguments
  agreeing, what is left on both sides is one term.
-/
import proofs.«144146_j85358180041108_1_alg».proof.Proof.KernelIdealValues
import proofs.«144146_j85358180041108_1_alg».proof.Proof.KernelIdealStackTotal
import proofs.«144146_j85358180041108_1_alg».proof.Proof.ReferenceResults

set_option maxRecDepth 16384

noncomputable section

namespace Cert.Proof.Bridge

open Cert.KernelIdeal Cert.KernelIdeal.Gen Cert.KernelIdeal.Run Cert.KernelIdeal.Values
open Cert.KernelIdeal.Value0 Cert.KernelIdeal.Value1 Cert.KernelIdeal.Value2 Cert.KernelIdeal.Value3
open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The first dense layer -/

/-- The first dense layer's output over the kernel's arguments, in the reference's spelling. -/
def drIn : FVec Ideal Cert.KernelIdeal.S8000x128 .f32 :=
  addf (Host.dotGeneral (φ₁ := .f32) (φ₂ := .f32) Cert.ReferenceIdeal.dot_S8000x1024_S1024x128_S8000x128_1_0_0_1_n_n none
      (m ((c.tc : Thread Cert.KernelIdeal.nD Cert.KernelIdeal.τ).loc Cert.KernelIdeal.main_arg1) : FVec Ideal Cert.KernelIdeal.S8000x1024 .f32)
      (transpose (α := Ideal .f32) Cert.ReferenceIdeal.S1024x128 [1, 0] (m ((c.tc : Thread Cert.KernelIdeal.nD Cert.KernelIdeal.τ).loc Cert.KernelIdeal.main_arg7) : FVec Ideal Cert.KernelIdeal.S128x1024 .f32)
        Cert.ReferenceIdeal.Gen.transposes_S128x1024_S1024x128_1_0))
    (broadcastInDim (α := Ideal .f32) Cert.ReferenceIdeal.S8000x128 ![0, 1] Cert.ReferenceIdeal.Gen.bcast_S1x128_S8000x128_0_1
      (broadcastInDim (α := Ideal .f32) Cert.ReferenceIdeal.S1x128 ![1] Cert.ReferenceIdeal.Gen.bcast_S128_S1x128_1
        (m ((c.tc : Thread Cert.KernelIdeal.nD Cert.KernelIdeal.τ).loc Cert.KernelIdeal.main_arg8) : FVec Ideal Cert.KernelIdeal.S128 .f32)))

/-- The region's output array is that term: the bias recast to a row is the bias lifted to a row. -/
theorem w2_v1 : (W2 m ρ c (Proc.devRef .tc main_v1) : FVec Ideal S8000x128 .f32) = drIn m c := by
  have e := out0 m ρ c Cert.ReferenceIdeal.Gen.transposes_S128x1024_S1024x128_1_0 Cert.ReferenceIdeal.Gen.bcast_S1x128_S8000x128_0_1
  refine e.trans ?_
  unfold G0 biasRow0 drIn
  rw [Cert.Lib.recast_b_eq_lift _ _ Cert.ReferenceIdeal.Gen.bcast_S128_S1x128_1]
  rfl

/-- With the arguments agreeing it is the reference's first dense layer. -/
theorem ret4
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (W9 m ρ c (Proc.devRef .tc main_v1) : FVec Ideal S8000x128 .f32) = Cert.ReferenceIdeal.Results.res9 m' c := by
  unfold Cert.ReferenceIdeal.Results.res9
  rw [a1, a7, a8]
  exact (ret_v1 m ρ c).trans (w2_v1 m ρ c)

/-! ## The four-relation layer -/

set_option maxHeartbeats 4000000 in
/-- The sum of the four relations' terms over the stacked operands is the reference's sum of four layers over the relations'
    own arrays. -/
theorem ret2
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (a32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (a33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (a34 : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34))
    (a35 : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35))
    (a36 : m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36))
    (a37 : m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37))
    (a38 : m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) :
    (W9 m ρ c (Proc.devRef .tc main_v101) : FVec Ideal S20000x128 .f32) = Cert.ReferenceIdeal.Results.res128 m' c := by
  refine (ret_v101 m ρ c).trans ((out1 m ρ c (drIn m c) (w2_v1 m ρ c) Cert.ReferenceIdeal.Gen.transposes_S128x128_S128x128_1_0
    Cert.ReferenceIdeal.Gen.bcast_S1x128_S20000x128_0_1).trans ?_)
  refine (total_of_stacks _ _ _ _ _ _ _ _ _ _ _ _ _ _ _ _ _ _ _ _ _ _ _ _ _ _ _ _ _ _ _ _).trans ?_
  unfold termOf Cert.ReferenceIdeal.Results.res128
  rw [a1, a2, a3, a4, a7, a8, a9, a10, a11, a12, a13, a14, a15, a16, a17, a18, a19, a20, a21, a22, a23, a24, a31, a32, a33, a34, a35, a36, a37, a38]
  rfl

/-! ## The second dense layer -/

/-- The four-relation layer's array where region 1 leaves it. -/
theorem w4_v101
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (a32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (a33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (a34 : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34))
    (a35 : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35))
    (a36 : m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36))
    (a37 : m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37))
    (a38 : m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) :
    (W4 m ρ c (Proc.devRef .tc main_v101) : FVec Ideal S20000x128 .f32) = Cert.ReferenceIdeal.Results.res128 m' c :=
  (ret_v101 m ρ c).symm.trans (ret2 m ρ m' c a1 a2 a3 a4 a7 a8 a9 a10 a11 a12 a13 a14 a15 a16 a17 a18 a19 a20 a21 a22 a23 a24 a31 a32 a33 a34 a35 a36 a37 a38)

end Cert.Proof.Bridge

end
-- ==== Proof.Bridge2.lean ====
/-
  The kernel program's results are the reference's. Each region's output array is the host's whole-array layer of the
  region's operands (the regions' value lemmas); the operands are the same host terms in both programs; a member of a stack
  built by stacking is the piece stacked; a bias recast to a row is the bias lifted to a row; adding to zero changes nothing;
  and the score network is row-local, so a slice of it over row-stacked inputs is it over one input. With the arguments
  agreeing, what is left on both sides is one term.
-/
import proofs.«144146_j85358180041108_1_alg».proof.Proof.Bridge1

set_option maxRecDepth 16384

noncomputable section

namespace Cert.Proof.Bridge

open Cert.KernelIdeal Cert.KernelIdeal.Gen Cert.KernelIdeal.Run Cert.KernelIdeal.Values
open Cert.KernelIdeal.Value0 Cert.KernelIdeal.Value1 Cert.KernelIdeal.Value2 Cert.KernelIdeal.Value3
open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- The degree-normalised aggregation is the same host term in both programs, and the layer over it the reference's. -/
theorem ret3
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (a26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (a32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (a33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (a34 : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34))
    (a35 : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35))
    (a36 : m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36))
    (a37 : m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37))
    (a38 : m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38))
    (a39 : m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39))
    (a40 : m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)) :
    (W9 m ρ c (Proc.devRef .tc main_v134) : FVec Ideal S1000x128 .f32) = Cert.ReferenceIdeal.Results.res164 m' c := by
  refine (ret_v134 m ρ c).trans ((out2 m ρ c (Cert.ReferenceIdeal.Results.res128 m' c)
    (w4_v101 m ρ m' c a1 a2 a3 a4 a7 a8 a9 a10 a11 a12 a13 a14 a15 a16 a17 a18 a19 a20 a21 a22 a23 a24 a31 a32 a33 a34 a35 a36 a37 a38)
    Cert.ReferenceIdeal.Gen.transposes_S128x128_S128x128_1_0 Cert.ReferenceIdeal.Gen.bcast_S1x128_S1000x128_0_1).trans ?_)
  unfold Cert.ReferenceIdeal.Results.res164 G2 aggregated biasRow2
  rw [Cert.Lib.recast_b_eq_lift _ _ Cert.ReferenceIdeal.Gen.bcast_S128_S1x128_1]
  rw [a25, a26, a39, a40]
  rfl

/-- The second dense layer's array where region 2 leaves it. -/
theorem w6_v134
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (a26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (a32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (a33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (a34 : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34))
    (a35 : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35))
    (a36 : m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36))
    (a37 : m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37))
    (a38 : m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38))
    (a39 : m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39))
    (a40 : m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)) :
    (W6 m ρ c (Proc.devRef .tc main_v134) : FVec Ideal S1000x128 .f32) = Cert.ReferenceIdeal.Results.res164 m' c :=
  (ret_v134 m ρ c).symm.trans (ret3 m ρ m' c a1 a2 a3 a4 a7 a8 a9 a10 a11 a12 a13 a14 a15 a16 a17 a18 a19 a20 a21 a22 a23 a24 a25 a26 a31 a32 a33 a34 a35 a36 a37 a38 a39 a40)
theorem w6_v101
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (a32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (a33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (a34 : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34))
    (a35 : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35))
    (a36 : m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36))
    (a37 : m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37))
    (a38 : m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) :
    (W6 m ρ c (Proc.devRef .tc main_v101) : FVec Ideal S20000x128 .f32) = Cert.ReferenceIdeal.Results.res128 m' c :=
  (mid_v101 m ρ c).trans (w4_v101 m ρ m' c a1 a2 a3 a4 a7 a8 a9 a10 a11 a12 a13 a14 a15 a16 a17 a18 a19 a20 a21 a22 a23 a24 a31 a32 a33 a34 a35 a36 a37 a38)

end Cert.Proof.Bridge

end
-- ==== Proof.KernelIdealValue3Rows.lean ====
/-
  The perceptron is row-local: a slice of rows of the perceptron of a stack is the perceptron of the stacked piece.

  Y = max(X · W₁ᵀ + b₁, 0) · W₂ᵀ + b₂ has row r depending on row r of X only. So when X is four [50000,256] arrays laid end
  to end along the rows, rows 50000·q … 50000·q+49999 of Y are the perceptron of the q-th array alone. Both sides are
  compared through the same block form: the perceptron of 50000 rows, each product accumulated into zero, is on one hand
  the block at row offset 50000·q of the perceptron of the stack (whose rows 50000·q + p are rows p of the q-th array), and
  on the other hand the block at offset 0 of the perceptron of the q-th array by itself. No sum or product is reordered,
  so nothing is assumed finite.
-/
import proofs.«144146_j85358180041108_1_alg».proof.Proof.KernelIdealRegion3
import proofs.«144146_j85358180041108_1_alg».proof.Proof.KernelIdealValue3Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value3

open Cert.KernelIdeal Cert.KernelIdeal.Gen Cert.KernelIdeal.Region3
open Idealize.ShloMosaic Idealize.ShloMosaic.TcCoe Idealize.ShloMosaic.ValueIdx
open Idealize.SL.Sem
open Idealize.ShloMosaic.Pipeline (Dat Cfg Window)

/-- The perceptron of a 50000-row array. -/
abbrev G3q (X : FVec Ideal S50000x256 .f32) (W1 : FVec Ideal S256x256 .f32) (B1 : FVec Ideal S1x256 .f32)
    (W2 : FVec Ideal S1x256 .f32) (B2 : FVec Ideal S1x1 .f32)
    (h1 : S256x256.Transposes [1, 0] S256x256)
    (k2 : S1x256.BroadcastsInDim S50000x256 (![0, 1] : Fin 2 → Fin 2))
    (k3 : S_.BroadcastsInDim S50000x256 (![] : Fin 0 → Fin 2))
    (h4 : S1x256.Transposes [1, 0] S256x1)
    (k5 : S1x1.BroadcastsInDim S50000x1 (![0, 1] : Fin 2 → Fin 2)) : FVec Ideal S50000x1 .f32 :=
  addf (Host.dotGeneral (DotDims.plain 50000 256 1) none
      (maximumf (addf (Host.dotGeneral (DotDims.plain 50000 256 256) none X (transpose S256x256 [1, 0] W1 h1))
          (broadcastInDim S50000x256 ![0, 1] k2 B1))
        (broadcastInDim S50000x256 ![] k3 (constant S_ .f32 0x00000000#32)))
      (transpose S256x1 [1, 0] W2 h4))
    (broadcastInDim S50000x1 ![0, 1] k5 B2)

/-- Rows off … off + 49999 of the perceptron of a 200000-row array whose rows off + p are the rows p of a 50000-row array
    are the perceptron of that array. -/
theorem slice_of_rows (Xq : FVec Ideal S50000x256 .f32) (X : FVec Ideal S200000x256 .f32)
    (W1 : FVec Ideal S256x256 .f32) (B1 : FVec Ideal S1x256 .f32) (W2 : FVec Ideal S1x256 .f32) (B2 : FVec Ideal S1x1 .f32)
    (off : Nat) (hoff : off + 50000 ≤ 200000)
    (hX : ∀ (y : S50000x256.Idx) (Y : S200000x256.Idx), (Y 0).val = off + (y 0).val → (Y 1).val = (y 1).val → Xq y = X Y)
    (hs : S200000x1.Slices ![off, 0] S50000x1)
    (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2))
    (k2 : S1x256.BroadcastsInDim S50000x256 (![0, 1] : Fin 2 → Fin 2))
    (k3 : S_.BroadcastsInDim S50000x256 (![] : Fin 0 → Fin 2))
    (k5 : S1x1.BroadcastsInDim S50000x1 (![0, 1] : Fin 2 → Fin 2)) :
    extractStridedSlice S50000x1 ![off, 0] (G3 X W1 B1 W2 B2 h1 h2 h3 h4 h5) hs = G3q Xq W1 B1 W2 B2 h1 k2 k3 h4 k5 := by
  funext j
  -- where a block index of the piece sits in the big arrays: rows shifted by off, columns kept
  let ex : S50000x256.Idx → S200000x256.Idx := fun y =>
    ix2 (⟨off + (y 0).val, by have := idx2_lt0 y; omega⟩ : Fin 200000) (⟨(y 1).val, idx2_lt1 y⟩ : Fin 256)
  let eo : S50000x1.Idx → S200000x1.Idx := fun y =>
    ix2 (⟨off + (y 0).val, by have := idx2_lt0 y; omega⟩ : Fin 200000) (⟨(y 1).val, idx2_lt1 y⟩ : Fin 1)
  have hkb1 : S1x256.Broadcasts S50000x256 := by decide
  have hkb2 : S1x1.Broadcasts S50000x1 := by decide
  rw [extractStridedSlice_apply ![off, 0] _ hs j (eo j) (fun a => by
    match a with
    | ⟨0, _⟩ => rfl
    | ⟨1, _⟩ => exact (Nat.zero_add _).symm)]
  refine (mlp_row_block none Xq (transpose S256x256 [1, 0] W1 h1) B1 (transpose S256x1 [1, 0] W2 h4) B2 X ex ex eo off
    (fun y => hX y (ex y) rfl rfl) (fun _ => rfl) (fun _ => rfl) (fun _ => rfl) (fun _ => rfl) (fun _ => rfl) (fun _ => rfl)
    hkb1 h2 hkb2 h5 0x00000000#32 h3 j).symm.trans ?_
  exact mlp_row_block none Xq (transpose S256x256 [1, 0] W1 h1) B1 (transpose S256x1 [1, 0] W2 h4) B2 Xq id id id 0
    (fun _ => rfl) (fun _ => (Nat.zero_add _).symm) (fun _ => rfl) (fun _ => (Nat.zero_add _).symm) (fun _ => rfl)
    (fun _ => (Nat.zero_add _).symm) (fun _ => rfl) hkb1 k2 hkb2 k5 0x00000000#32 k3 j

/-- Four [50000,256] arrays laid end to end along the rows: when the k arrays before the k-th have off rows in all, row
    off + p of the stack is row p of the k-th array. -/
theorem stack_rows (X0 X1 X2 X3 : FVec Ideal S50000x256 .f32)
    (hc : Shape.Concatenates [S50000x256, S50000x256, S50000x256, S50000x256] S200000x256 0)
    (k : Nat) (hk : k < 4) (Xq : FVec Ideal S50000x256 .f32)
    (hxk : ([⟨S50000x256, X0⟩, ⟨S50000x256, X1⟩, ⟨S50000x256, X2⟩, ⟨S50000x256, X3⟩] :
        List ((s : Shape) × (s.Idx → Ideal .f32)))[k]'(by simpa using hk) = ⟨S50000x256, Xq⟩)
    (off : Nat)
    (hpre : ((((([⟨S50000x256, X0⟩, ⟨S50000x256, X1⟩, ⟨S50000x256, X2⟩, ⟨S50000x256, X3⟩] :
        List ((s : Shape) × (s.Idx → Ideal .f32))).take k).map (·.1)).map
          fun s => if h : s.rank = S200000x256.rank then s.size ((0 : Fin S200000x256.rank).cast h.symm) else 0).sum) = off)
    (y : S50000x256.Idx) (Y : S200000x256.Idx) (h0 : (Y 0).val = off + (y 0).val) (h1 : (Y 1).val = (y 1).val) :
    Xq y = concatenate S200000x256 0 [⟨S50000x256, X0⟩, ⟨S50000x256, X1⟩, ⟨S50000x256, X2⟩, ⟨S50000x256, X3⟩] hc Y := by
  refine (concatenate_apply_piece (t := S200000x256) (0 : Fin 2)
    ([⟨S50000x256, X0⟩, ⟨S50000x256, X1⟩, ⟨S50000x256, X2⟩, ⟨S50000x256, X3⟩] : List ((s : Shape) × (s.Idx → Ideal .f32)))
    hc Y k (by simpa using hk) S50000x256 Xq hxk rfl off hpre y ?_ ?_).symm
  · intro d hd
    match d, hd with
    | ⟨0, _⟩, hd => exact absurd rfl hd
    | ⟨1, _⟩, _ => exact h1.symm
  · exact h0.symm

/-- Rows 0 … 49999 of the perceptron of the stack are the perceptron of the first array. -/
theorem slice0 (X0 X1 X2 X3 : FVec Ideal S50000x256 .f32)
    (W1 : FVec Ideal S256x256 .f32) (B1 : FVec Ideal S1x256 .f32) (W2 : FVec Ideal S1x256 .f32) (B2 : FVec Ideal S1x1 .f32)
    (hc : Shape.Concatenates [S50000x256, S50000x256, S50000x256, S50000x256] S200000x256 0)
    (hs : S200000x1.Slices ![0, 0] S50000x1)
    (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2))
    (k2 : S1x256.BroadcastsInDim S50000x256 (![0, 1] : Fin 2 → Fin 2))
    (k3 : S_.BroadcastsInDim S50000x256 (![] : Fin 0 → Fin 2))
    (k5 : S1x1.BroadcastsInDim S50000x1 (![0, 1] : Fin 2 → Fin 2)) :
    extractStridedSlice S50000x1 ![0, 0]
        (G3 (concatenate S200000x256 0 [⟨S50000x256, X0⟩, ⟨S50000x256, X1⟩, ⟨S50000x256, X2⟩, ⟨S50000x256, X3⟩] hc)
          W1 B1 W2 B2 h1 h2 h3 h4 h5) hs
      = G3q X0 W1 B1 W2 B2 h1 k2 k3 h4 k5 :=
  slice_of_rows X0 _ W1 B1 W2 B2 0 (by omega)
    (fun y Y e0 e1 => stack_rows X0 X1 X2 X3 hc 0 (by omega) X0 rfl 0 rfl y Y e0 e1) hs h1 h2 h3 h4 h5 k2 k3 k5

/-- Rows 50000 … 99999 of the perceptron of the stack are the perceptron of the second array. -/
theorem slice1 (X0 X1 X2 X3 : FVec Ideal S50000x256 .f32)
    (W1 : FVec Ideal S256x256 .f32) (B1 : FVec Ideal S1x256 .f32) (W2 : FVec Ideal S1x256 .f32) (B2 : FVec Ideal S1x1 .f32)
    (hc : Shape.Concatenates [S50000x256, S50000x256, S50000x256, S50000x256] S200000x256 0)
    (hs : S200000x1.Slices ![50000, 0] S50000x1)
    (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2))
    (k2 : S1x256.BroadcastsInDim S50000x256 (![0, 1] : Fin 2 → Fin 2))
    (k3 : S_.BroadcastsInDim S50000x256 (![] : Fin 0 → Fin 2))
    (k5 : S1x1.BroadcastsInDim S50000x1 (![0, 1] : Fin 2 → Fin 2)) :
    extractStridedSlice S50000x1 ![50000, 0]
        (G3 (concatenate S200000x256 0 [⟨S50000x256, X0⟩, ⟨S50000x256, X1⟩, ⟨S50000x256, X2⟩, ⟨S50000x256, X3⟩] hc)
          W1 B1 W2 B2 h1 h2 h3 h4 h5) hs
      = G3q X1 W1 B1 W2 B2 h1 k2 k3 h4 k5 :=
  slice_of_rows X1 _ W1 B1 W2 B2 50000 (by omega)
    (fun y Y e0 e1 => stack_rows X0 X1 X2 X3 hc 1 (by omega) X1 rfl 50000 rfl y Y e0 e1) hs h1 h2 h3 h4 h5 k2 k3 k5

/-- Rows 100000 … 149999 of the perceptron of the stack are the perceptron of the third array. -/
theorem slice2 (X0 X1 X2 X3 : FVec Ideal S50000x256 .f32)
    (W1 : FVec Ideal S256x256 .f32) (B1 : FVec Ideal S1x256 .f32) (W2 : FVec Ideal S1x256 .f32) (B2 : FVec Ideal S1x1 .f32)
    (hc : Shape.Concatenates [S50000x256, S50000x256, S50000x256, S50000x256] S200000x256 0)
    (hs : S200000x1.Slices ![100000, 0] S50000x1)
    (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2))
    (k2 : S1x256.BroadcastsInDim S50000x256 (![0, 1] : Fin 2 → Fin 2))
    (k3 : S_.BroadcastsInDim S50000x256 (![] : Fin 0 → Fin 2))
    (k5 : S1x1.BroadcastsInDim S50000x1 (![0, 1] : Fin 2 → Fin 2)) :
    extractStridedSlice S50000x1 ![100000, 0]
        (G3 (concatenate S200000x256 0 [⟨S50000x256, X0⟩, ⟨S50000x256, X1⟩, ⟨S50000x256, X2⟩, ⟨S50000x256, X3⟩] hc)
          W1 B1 W2 B2 h1 h2 h3 h4 h5) hs
      = G3q X2 W1 B1 W2 B2 h1 k2 k3 h4 k5 :=
  slice_of_rows X2 _ W1 B1 W2 B2 100000 (by omega)
    (fun y Y e0 e1 => stack_rows X0 X1 X2 X3 hc 2 (by omega) X2 rfl 100000 (by show (50000 : Nat) + (50000 + 0) = 100000; decide) y Y e0 e1) hs h1 h2 h3 h4 h5 k2 k3 k5

/-- Rows 150000 … 199999 of the perceptron of the stack are the perceptron of the fourth array. -/
theorem slice3 (X0 X1 X2 X3 : FVec Ideal S50000x256 .f32)
    (W1 : FVec Ideal S256x256 .f32) (B1 : FVec Ideal S1x256 .f32) (W2 : FVec Ideal S1x256 .f32) (B2 : FVec Ideal S1x1 .f32)
    (hc : Shape.Concatenates [S50000x256, S50000x256, S50000x256, S50000x256] S200000x256 0)
    (hs : S200000x1.Slices ![150000, 0] S50000x1)
    (h1 : S256x256.Transposes [1, 0] S256x256)
    (h2 : S1x256.BroadcastsInDim S200000x256 (![0, 1] : Fin 2 → Fin 2))
    (h3 : S_.BroadcastsInDim S200000x256 (![] : Fin 0 → Fin 2))
    (h4 : S1x256.Transposes [1, 0] S256x1)
    (h5 : S1x1.BroadcastsInDim S200000x1 (![0, 1] : Fin 2 → Fin 2))
    (k2 : S1x256.BroadcastsInDim S50000x256 (![0, 1] : Fin 2 → Fin 2))
    (k3 : S_.BroadcastsInDim S50000x256 (![] : Fin 0 → Fin 2))
    (k5 : S1x1.BroadcastsInDim S50000x1 (![0, 1] : Fin 2 → Fin 2)) :
    extractStridedSlice S50000x1 ![150000, 0]
        (G3 (concatenate S200000x256 0 [⟨S50000x256, X0⟩, ⟨S50000x256, X1⟩, ⟨S50000x256, X2⟩, ⟨S50000x256, X3⟩] hc)
          W1 B1 W2 B2 h1 h2 h3 h4 h5) hs
      = G3q X3 W1 B1 W2 B2 h1 k2 k3 h4 k5 :=
  slice_of_rows X3 _ W1 B1 W2 B2 150000 (by omega)
    (fun y Y e0 e1 => stack_rows X0 X1 X2 X3 hc 3 (by omega) X3 rfl 150000 (by show (50000 : Nat) + (50000 + (50000 + 0)) = 150000; decide) y Y e0 e1) hs h1 h2 h3 h4 h5 k2 k3 k5

end Cert.KernelIdeal.Value3
end
-- ==== Proof.Bridge3.lean ====
/-
  The kernel program's results are the reference's. Each region's output array is the host's whole-array layer of the
  region's operands (the regions' value lemmas); the operands are the same host terms in both programs; a member of a stack
  built by stacking is the piece stacked; a bias recast to a row is the bias lifted to a row; adding to zero changes nothing;
  and the score network is row-local, so a slice of it over row-stacked inputs is it over one input. With the arguments
  agreeing, what is left on both sides is one term.
-/
import proofs.«144146_j85358180041108_1_alg».proof.Proof.Bridge2
import proofs.«144146_j85358180041108_1_alg».proof.Proof.KernelIdealValue3Rows

set_option maxRecDepth 16384

noncomputable section

namespace Cert.Proof.Bridge

open Cert.KernelIdeal Cert.KernelIdeal.Gen Cert.KernelIdeal.Run Cert.KernelIdeal.Values
open Cert.KernelIdeal.Value0 Cert.KernelIdeal.Value1 Cert.KernelIdeal.Value2 Cert.KernelIdeal.Value3
open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The two score differences -/

set_option maxHeartbeats 8000000 in
/-- A score difference: the score network is row-local, so the two slices of it over the row-stacked inputs are it over the
    two inputs, which are the same gathered-and-concatenated host terms in both programs. -/
theorem ret0
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (a26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (a27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (a28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (a29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (a30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (a32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (a33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (a34 : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34))
    (a35 : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35))
    (a36 : m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36))
    (a37 : m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37))
    (a38 : m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38))
    (a39 : m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39))
    (a40 : m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40))
    (a41 : m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41))
    (a42 : m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42))
    (a43 : m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)) :
    (W9 m ρ c (Proc.devRef .tc main_v203) : FVec Ideal S50000x1 .f32) = Cert.ReferenceIdeal.Results.res269 m' c := by
  have hS := out3 m ρ c (Cert.ReferenceIdeal.Results.res128 m' c) (w6_v101 m ρ m' c a1 a2 a3 a4 a7 a8 a9 a10 a11 a12 a13 a14 a15 a16 a17 a18 a19 a20 a21 a22 a23 a24 a31 a32 a33 a34 a35 a36 a37 a38)
    (Cert.ReferenceIdeal.Results.res164 m' c) (w6_v134 m ρ m' c a1 a2 a3 a4 a7 a8 a9 a10 a11 a12 a13 a14 a15 a16 a17 a18 a19 a20 a21 a22 a23 a24 a25 a26 a31 a32 a33 a34 a35 a36 a37 a38 a39 a40)
    Cert.ReferenceIdeal.Gen.transposes_S256x256_S256x256_1_0 (by decide) (by decide) Cert.ReferenceIdeal.Gen.transposes_S1x256_S256x1_1_0 (by decide)
  refine (W9_v203 m ρ c _ hS).trans ?_
  unfold Cert.ReferenceIdeal.Results.res269 scoreDiff0 scoreInputs biasRow3a biasRow3b
  rw [slice0 _ _ _ _ _ _ _ _ _ _ _ _ _ _ _ Cert.ReferenceIdeal.Gen.bcast_S1x256_S50000x256_0_1 Cert.ReferenceIdeal.Gen.bcast_S_S50000x256 Cert.ReferenceIdeal.Gen.bcast_S1x1_S50000x1_0_1,
    slice1 _ _ _ _ _ _ _ _ _ _ _ _ _ _ _ Cert.ReferenceIdeal.Gen.bcast_S1x256_S50000x256_0_1 Cert.ReferenceIdeal.Gen.bcast_S_S50000x256 Cert.ReferenceIdeal.Gen.bcast_S1x1_S50000x1_0_1]
  unfold G3q
  rw [Cert.Lib.recast_b_eq_lift (b := 256) _ _ Cert.ReferenceIdeal.Gen.bcast_S256_S1x256_1, Cert.Lib.recast_b_eq_lift (b := 1) _ _ Cert.ReferenceIdeal.Gen.bcast_S1_S1x1_1]
  rw [a27, a28, a29, a30, a41, a42, a43]
  rfl

end Cert.Proof.Bridge

end
-- ==== Proof.Bridge4.lean ====
/-
  The kernel program's results are the reference's. Each region's output array is the host's whole-array layer of the
  region's operands (the regions' value lemmas); the operands are the same host terms in both programs; a member of a stack
  built by stacking is the piece stacked; a bias recast to a row is the bias lifted to a row; adding to zero changes nothing;
  and the score network is row-local, so a slice of it over row-stacked inputs is it over one input. With the arguments
  agreeing, what is left on both sides is one term.
-/
import proofs.«144146_j85358180041108_1_alg».proof.Proof.Bridge2
import proofs.«144146_j85358180041108_1_alg».proof.Proof.KernelIdealValue3Rows

set_option maxRecDepth 16384

noncomputable section

namespace Cert.Proof.Bridge

open Cert.KernelIdeal Cert.KernelIdeal.Gen Cert.KernelIdeal.Run Cert.KernelIdeal.Values
open Cert.KernelIdeal.Value0 Cert.KernelIdeal.Value1 Cert.KernelIdeal.Value2 Cert.KernelIdeal.Value3
open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
/-- A score difference: the score network is row-local, so the two slices of it over the row-stacked inputs are it over the
    two inputs, which are the same gathered-and-concatenated host terms in both programs. -/
theorem ret1
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (a17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (a18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (a19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (a20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (a21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (a22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (a23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (a24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (a25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (a26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (a27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (a28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (a29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (a30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (a31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (a32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (a33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (a34 : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34))
    (a35 : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35))
    (a36 : m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36))
    (a37 : m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37))
    (a38 : m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38))
    (a39 : m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39))
    (a40 : m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40))
    (a44 : m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44))
    (a45 : m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45))
    (a46 : m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)) :
    (W9 m ρ c (Proc.devRef .tc main_v204) : FVec Ideal S50000x1 .f32) = Cert.ReferenceIdeal.Results.res270 m' c := by
  have hS := out3 m ρ c (Cert.ReferenceIdeal.Results.res128 m' c) (w6_v101 m ρ m' c a1 a2 a3 a4 a7 a8 a9 a10 a11 a12 a13 a14 a15 a16 a17 a18 a19 a20 a21 a22 a23 a24 a31 a32 a33 a34 a35 a36 a37 a38)
    (Cert.ReferenceIdeal.Results.res164 m' c) (w6_v134 m ρ m' c a1 a2 a3 a4 a7 a8 a9 a10 a11 a12 a13 a14 a15 a16 a17 a18 a19 a20 a21 a22 a23 a24 a25 a26 a31 a32 a33 a34 a35 a36 a37 a38 a39 a40)
    Cert.ReferenceIdeal.Gen.transposes_S256x256_S256x256_1_0 (by decide) (by decide) Cert.ReferenceIdeal.Gen.transposes_S1x256_S256x1_1_0 (by decide)
  refine (W9_v204 m ρ c _ hS).trans ?_
  unfold Cert.ReferenceIdeal.Results.res270 scoreDiff1 scoreInputs biasRow3a biasRow3b
  rw [slice2 _ _ _ _ _ _ _ _ _ _ _ _ _ _ _ Cert.ReferenceIdeal.Gen.bcast_S1x256_S50000x256_0_1 Cert.ReferenceIdeal.Gen.bcast_S_S50000x256 Cert.ReferenceIdeal.Gen.bcast_S1x1_S50000x1_0_1,
    slice3 _ _ _ _ _ _ _ _ _ _ _ _ _ _ _ Cert.ReferenceIdeal.Gen.bcast_S1x256_S50000x256_0_1 Cert.ReferenceIdeal.Gen.bcast_S_S50000x256 Cert.ReferenceIdeal.Gen.bcast_S1x1_S50000x1_0_1]
  unfold G3q
  rw [Cert.Lib.recast_b_eq_lift (b := 256) _ _ Cert.ReferenceIdeal.Gen.bcast_S256_S1x256_1, Cert.Lib.recast_b_eq_lift (b := 1) _ _ Cert.ReferenceIdeal.Gen.bcast_S1_S1x1_1]
  rw [a27, a28, a29, a30, a44, a45, a46]
  rfl

end Cert.Proof.Bridge

end
-- ==== Proof.Bridge.lean ====
/-
  The kernel program's five results are the reference's: the pieces, collected.
-/
import proofs.«144146_j85358180041108_1_alg».proof.Proof.Bridge3
import proofs.«144146_j85358180041108_1_alg».proof.Proof.Bridge4
-- ==== Proof.lean ====
/-
  The certificate: the kernel program and its idealization run to the end, fault nowhere and leave their arguments as
  launched (the run over nine segments, each region's proof data at the contents the fold of the buffers gives it); the
  reference does the same (its run is host operations only); the idealization rewrote nothing; and at the exact instance the
  idealized kernel's five results are the reference's, array by array (each region's output array is the host's whole-array
  layer of its operands, and the operands are the same host terms of the arguments in both programs).
-/
import proofs.«144146_j85358180041108_1_alg».proof.Defs
import proofs.«144146_j85358180041108_1_alg».proof.Proof.Gen.Kernel
import proofs.«144146_j85358180041108_1_alg».proof.Proof.Gen.Kernel.Skeleton
import proofs.«144146_j85358180041108_1_alg».proof.Proof.Gen.Kernel.Launch
import proofs.«144146_j85358180041108_1_alg».proof.Proof.Gen.Kernel.Regions
import proofs.«144146_j85358180041108_1_alg».proof.Proof.Gen.Kernel.Points
import proofs.«144146_j85358180041108_1_alg».proof.Proof.Gen.KernelIdeal
import proofs.«144146_j85358180041108_1_alg».proof.Proof.Gen.KernelIdeal.Skeleton
import proofs.«144146_j85358180041108_1_alg».proof.Proof.Gen.KernelIdeal.Launch
import proofs.«144146_j85358180041108_1_alg».proof.Proof.Gen.KernelIdeal.Regions
import proofs.«144146_j85358180041108_1_alg».proof.Proof.Gen.KernelIdeal.Points
import proofs.«144146_j85358180041108_1_alg».proof.Proof.Gen.ReferenceIdeal
import proofs.«144146_j85358180041108_1_alg».proof.Proof.Gen.Pre_finite_inputs
import proofs.«144146_j85358180041108_1_alg».proof.Proof.KernelFrame
import proofs.«144146_j85358180041108_1_alg».proof.Proof.KernelIdealFrame
import proofs.«144146_j85358180041108_1_alg».proof.Proof.ReferenceFrame
import proofs.«144146_j85358180041108_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Run.frame m ρ
theorem frame_pi : Cert.frame_KernelIdeal := fun m ρ _ => Cert.KernelIdeal.Run.frame m ρ

set_option maxHeartbeats 4000000 in
/-- The results: the kernel's run ends with the five result buffers at the fold's last contents, which are the reference's
    composed terms of the arguments. -/
theorem algebraic : Cert.algebraic_KernelIdeal_ReferenceIdeal := by
  intro m ρ m' ρ' _ hag
  refine ⟨fun c => Cert.KernelIdeal.Run.W9 m ρ c (Proc.devRef .tc Cert.KernelIdeal.main_v203),
    fun c => Cert.KernelIdeal.Run.W9 m ρ c (Proc.devRef .tc Cert.KernelIdeal.main_v204),
    fun c => Cert.KernelIdeal.Run.W9 m ρ c (Proc.devRef .tc Cert.KernelIdeal.main_v101),
    fun c => Cert.KernelIdeal.Run.W9 m ρ c (Proc.devRef .tc Cert.KernelIdeal.main_v134),
    fun c => Cert.KernelIdeal.Run.W9 m ρ c (Proc.devRef .tc Cert.KernelIdeal.main_v1), ?_, ?_⟩
  · refine (θ_run Cert.KernelIdeal.defs _ _).mono (fun r h c => ?_) (Cert.KernelIdeal.Run.run_main m ρ)
    exact ⟨h c _ (Cert.KernelIdeal.Run.mem_uc Cert.KernelIdeal.main_v203 (by decide)),
      h c _ (Cert.KernelIdeal.Run.mem_uc Cert.KernelIdeal.main_v204 (by decide)),
      h c _ (Cert.KernelIdeal.Run.mem_uc Cert.KernelIdeal.main_v101 (by decide)),
      h c _ (Cert.KernelIdeal.Run.mem_uc Cert.KernelIdeal.main_v134 (by decide)),
      h c _ (Cert.KernelIdeal.Run.mem_uc Cert.KernelIdeal.main_v1 (by decide)),
      Cert.KernelIdeal.Run.kept_of_run m ρ h c Cert.KernelIdeal.main_arg0 (by decide) (by decide),
      Cert.KernelIdeal.Run.kept_of_run m ρ h c Cert.KernelIdeal.main_arg1 (by decide) (by decide),
      Cert.KernelIdeal.Run.kept_of_run m ρ h c Cert.KernelIdeal.main_arg2 (by decide) (by decide),
      Cert.KernelIdeal.Run.kept_of_run m ρ h c Cert.KernelIdeal.main_arg3 (by decide) (by decide),
      Cert.KernelIdeal.Run.kept_of_run m ρ h c Cert.KernelIdeal.main_arg4 (by decide) (by decide),
      Cert.KernelIdeal.Run.kept_of_run m ρ h c Cert.KernelIdeal.main_arg5 (by decide) (by decide),
      Cert.KernelIdeal.Run.kept_of_run m ρ h c Cert.KernelIdeal.main_arg6 (by decide) (by decide),
      Cert.KernelIdeal.Run.kept_of_run m ρ h c Cert.KernelIdeal.main_arg7 (by decide) (by decide),
      Cert.KernelIdeal.Run.kept_of_run m ρ h c Cert.KernelIdeal.main_arg8 (by decide) (by decide),
      Cert.KernelIdeal.Run.kept_of_run m ρ h c Cert.KernelIdeal.main_arg9 (by decide) (by decide),
      Cert.KernelIdeal.Run.kept_of_run m ρ h c Cert.KernelIdeal.main_arg10 (by decide) (by decide),
      Cert.KernelIdeal.Run.kept_of_run m ρ h c Cert.KernelIdeal.main_arg11 (by decide) (by decide),
      Cert.KernelIdeal.Run.kept_of_run m ρ h c Cert.KernelIdeal.main_arg12 (by decide) (by decide),
      Cert.KernelIdeal.Run.kept_of_run m ρ h c Cert.KernelIdeal.main_arg13 (by decide) (by decide),
      Cert.KernelIdeal.Run.kept_of_run m ρ h c Cert.KernelIdeal.main_arg14 (by decide) (by decide),
      Cert.KernelIdeal.Run.kept_of_run m ρ h c Cert.KernelIdeal.main_arg15 (by decide) (by decide),
      Cert.KernelIdeal.Run.kept_of_run m ρ h c Cert.KernelIdeal.main_arg16 (by decide) (by decide),
      Cert.KernelIdeal.Run.kept_of_run m ρ h c Cert.KernelIdeal.main_arg17 (by decide) (by decide),
      Cert.KernelIdeal.Run.kept_of_run m ρ h c Cert.KernelIdeal.main_arg18 (by decide) (by decide),
      Cert.KernelIdeal.Run.kept_of_run m ρ h c Cert.KernelIdeal.main_arg19 (by decide) (by decide),
      Cert.KernelIdeal.Run.kept_of_run m ρ h c Cert.KernelIdeal.main_arg20 (by decide) (by decide),
      Cert.KernelIdeal.Run.kept_of_run m ρ h c Cert.KernelIdeal.main_arg21 (by decide) (by decide),
      Cert.KernelIdeal.Run.kept_of_run m ρ h c Cert.KernelIdeal.main_arg22 (by decide) (by decide),
      Cert.KernelIdeal.Run.kept_of_run m ρ h c Cert.KernelIdeal.main_arg23 (by decide) (by decide),
      Cert.KernelIdeal.Run.kept_of_run m ρ h c Cert.KernelIdeal.main_arg24 (by decide) (by decide),
      Cert.KernelIdeal.Run.kept_of_run m ρ h c Cert.KernelIdeal.main_arg25 (by decide) (by decide),
      Cert.KernelIdeal.Run.kept_of_run m ρ h c Cert.KernelIdeal.main_arg26 (by decide) (by decide),
      Cert.KernelIdeal.Run.kept_of_run m ρ h c Cert.KernelIdeal.main_arg27 (by decide) (by decide),
      Cert.KernelIdeal.Run.kept_of_run m ρ h c Cert.KernelIdeal.main_arg28 (by decide) (by decide),
      Cert.KernelIdeal.Run.kept_of_run m ρ h c Cert.KernelIdeal.main_arg29 (by decide) (by decide),
      Cert.KernelIdeal.Run.kept_of_run m ρ h c Cert.KernelIdeal.main_arg30 (by decide) (by decide),
      Cert.KernelIdeal.Run.kept_of_run m ρ h c Cert.KernelIdeal.main_arg31 (by decide) (by decide),
      Cert.KernelIdeal.Run.kept_of_run m ρ h c Cert.KernelIdeal.main_arg32 (by decide) (by decide),
      Cert.KernelIdeal.Run.kept_of_run m ρ h c Cert.KernelIdeal.main_arg33 (by decide) (by decide),
      Cert.KernelIdeal.Run.kept_of_run m ρ h c Cert.KernelIdeal.main_arg34 (by decide) (by decide),
      Cert.KernelIdeal.Run.kept_of_run m ρ h c Cert.KernelIdeal.main_arg35 (by decide) (by decide),
      Cert.KernelIdeal.Run.kept_of_run m ρ h c Cert.KernelIdeal.main_arg36 (by decide) (by decide),
      Cert.KernelIdeal.Run.kept_of_run m ρ h c Cert.KernelIdeal.main_arg37 (by decide) (by decide),
      Cert.KernelIdeal.Run.kept_of_run m ρ h c Cert.KernelIdeal.main_arg38 (by decide) (by decide),
      Cert.KernelIdeal.Run.kept_of_run m ρ h c Cert.KernelIdeal.main_arg39 (by decide) (by decide),
      Cert.KernelIdeal.Run.kept_of_run m ρ h c Cert.KernelIdeal.main_arg40 (by decide) (by decide),
      Cert.KernelIdeal.Run.kept_of_run m ρ h c Cert.KernelIdeal.main_arg41 (by decide) (by decide),
      Cert.KernelIdeal.Run.kept_of_run m ρ h c Cert.KernelIdeal.main_arg42 (by decide) (by decide),
      Cert.KernelIdeal.Run.kept_of_run m ρ h c Cert.KernelIdeal.main_arg43 (by decide) (by decide),
      Cert.KernelIdeal.Run.kept_of_run m ρ h c Cert.KernelIdeal.main_arg44 (by decide) (by decide),
      Cert.KernelIdeal.Run.kept_of_run m ρ h c Cert.KernelIdeal.main_arg45 (by decide) (by decide),
      Cert.KernelIdeal.Run.kept_of_run m ρ h c Cert.KernelIdeal.main_arg46 (by decide) (by decide)⟩
  · refine (θ_run Cert.ReferenceIdeal.defs _ _).mono (fun r h c => ?_) (Cert.ReferenceIdeal.RunHand.run m' ρ')
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46⟩ := hag c
    obtain ⟨r0, r1, r2, r3, r4, rest⟩ := h c
    exact ⟨r0.trans (Cert.Proof.Bridge.ret0 m ρ m' c a1 a2 a3 a4 a7 a8 a9 a10 a11 a12 a13 a14 a15 a16 a17 a18 a19 a20 a21 a22 a23 a24 a25 a26 a27 a28 a29 a30 a31 a32 a33 a34 a35 a36 a37 a38 a39 a40 a41 a42 a43).symm,
      r1.trans (Cert.Proof.Bridge.ret1 m ρ m' c a1 a2 a3 a4 a7 a8 a9 a10 a11 a12 a13 a14 a15 a16 a17 a18 a19 a20 a21 a22 a23 a24 a25 a26 a27 a28 a29 a30 a31 a32 a33 a34 a35 a36 a37 a38 a39 a40 a44 a45 a46).symm,
      r2.trans (Cert.Proof.Bridge.ret2 m ρ m' c a1 a2 a3 a4 a7 a8 a9 a10 a11 a12 a13 a14 a15 a16 a17 a18 a19 a20 a21 a22 a23 a24 a31 a32 a33 a34 a35 a36 a37 a38).symm,
      r3.trans (Cert.Proof.Bridge.ret3 m ρ m' c a1 a2 a3 a4 a7 a8 a9 a10 a11 a12 a13 a14 a15 a16 a17 a18 a19 a20 a21 a22 a23 a24 a25 a26 a31 a32 a33 a34 a35 a36 a37 a38 a39 a40).symm,
      r4.trans (Cert.Proof.Bridge.ret4 m ρ m' c a1 a7 a8).symm,
      rest⟩

theorem claim : Cert.Claim := ⟨Cert.Kernel.Gen.facts, Cert.KernelIdeal.Gen.facts, Cert.ReferenceIdeal.Gen.facts, Cert.Pre_finite_inputs.Gen.facts,
  frame_p, frame_pi, Cert.Proof.ReferenceFrame.frame_ri, trivial, algebraic⟩

end Cert.Proof

end
